-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x51 : Shape := ⟨2, ![64, 51]⟩
abbrev S1x64x512 : Shape := ⟨3, ![1, 64, 512]⟩
abbrev S64x128x512 : Shape := ⟨3, ![64, 128, 512]⟩
abbrev S32000x256 : Shape := ⟨2, ![32000, 256]⟩
abbrev S1536x256 : Shape := ⟨2, ![1536, 256]⟩
abbrev S1536x512 : Shape := ⟨2, ![1536, 512]⟩
abbrev S1536 : Shape := ⟨1, ![1536]⟩
abbrev S512x1024 : Shape := ⟨2, ![512, 1024]⟩
abbrev S32000x512 : Shape := ⟨2, ![32000, 512]⟩
abbrev S32000 : Shape := ⟨1, ![32000]⟩
abbrev S_ : Shape := ⟨0, ![]⟩

class Facts : Prop where
  bcast_S_S1x64x512 : S_.BroadcastsInDim S1x64x512 (![] : Fin 0 → Fin S1x64x512.rank)
  reducesTo_S1x64x512_S_d0_1_2 : S1x64x512.ReducesTo [0, 1, 2] S_
  h_S_ : 0 < S_.numel
  bcast_S_S64x128x512 : S_.BroadcastsInDim S64x128x512 (![] : Fin 0 → Fin S64x128x512.rank)
  reducesTo_S64x128x512_S_d0_1_2 : S64x128x512.ReducesTo [0, 1, 2] S_
  bcast_S_S32000x256 : S_.BroadcastsInDim S32000x256 (![] : Fin 0 → Fin S32000x256.rank)
  reducesTo_S32000x256_S_d0_1 : S32000x256.ReducesTo [0, 1] S_
  bcast_S_S1536x256 : S_.BroadcastsInDim S1536x256 (![] : Fin 0 → Fin S1536x256.rank)
  reducesTo_S1536x256_S_d0_1 : S1536x256.ReducesTo [0, 1] S_
  bcast_S_S1536x512 : S_.BroadcastsInDim S1536x512 (![] : Fin 0 → Fin S1536x512.rank)
  reducesTo_S1536x512_S_d0_1 : S1536x512.ReducesTo [0, 1] S_
  bcast_S_S1536 : S_.BroadcastsInDim S1536 (![] : Fin 0 → Fin S1536.rank)
  reducesTo_S1536_S_d0 : S1536.ReducesTo [0] S_
  bcast_S_S512x1024 : S_.BroadcastsInDim S512x1024 (![] : Fin 0 → Fin S512x1024.rank)
  reducesTo_S512x1024_S_d0_1 : S512x1024.ReducesTo [0, 1] S_
  bcast_S_S32000x512 : S_.BroadcastsInDim S32000x512 (![] : Fin 0 → Fin S32000x512.rank)
  reducesTo_S32000x512_S_d0_1 : S32000x512.ReducesTo [0, 1] S_
  bcast_S_S32000 : S_.BroadcastsInDim S32000 (![] : Fin 0 → Fin S32000.rank)
  reducesTo_S32000_S_d0 : S32000.ReducesTo [0] S_

variable [Facts]

def fn_part2 {F : FTy → Type} [FloatOps F] (main_arg8 : FVec F S512x1024 .f32) (main_arg9 : FVec F S32000x512 .f32) (main_arg10 : FVec F S32000 .f32) (main_v33 : IVec S_ 1) : IVec S_ 1 :=
  let main_v34 : FVec F S512x1024 .f32 := Host.absf main_arg8
  let main_cst_12 : FVec F S_ .f32 := constant S_ .f32 0x7F800000#32
  let main_v35 : FVec F S512x1024 .f32 := broadcastInDim S512x1024 ![] bcast_S_S512x1024 main_cst_12
  let main_v36 : IVec S512x1024 1 := cmpf .olt main_v34 main_v35
  let main_c_13 : IVec S_ 1 := constantI S_ 1 1#1
  let main_v37 : IVec S_ 1 := (fun x v => Host.reduce IntOp.andi x v reducesTo_S512x1024_S_d0_1 h_S_) main_v36 main_c_13
  let main_v38 : IVec S_ 1 := andi main_v33 main_v37
  let main_v39 : FVec F S32000x512 .f32 := Host.absf main_arg9
  let main_cst_14 : FVec F S_ .f32 := constant S_ .f32 0x7F800000#32
  let main_v40 : FVec F S32000x512 .f32 := broadcastInDim S32000x512 ![] bcast_S_S32000x512 main_cst_14
  let main_v41 : IVec S32000x512 1 := cmpf .olt main_v39 main_v40
  let main_c_15 : IVec S_ 1 := constantI S_ 1 1#1
  let main_v42 : IVec S_ 1 := (fun x v => Host.reduce IntOp.andi x v reducesTo_S32000x512_S_d0_1 h_S_) main_v41 main_c_15
  let main_v43 : IVec S_ 1 := andi main_v38 main_v42
  let main_v44 : FVec F S32000 .f32 := Host.absf main_arg10
  let main_cst_16 : FVec F S_ .f32 := constant S_ .f32 0x7F800000#32
  let main_v45 : FVec F S32000 .f32 := broadcastInDim S32000 ![] bcast_S_S32000 main_cst_16
  let main_v46 : IVec S32000 1 := cmpf .olt main_v44 main_v45
  let main_c_17 : IVec S_ 1 := constantI S_ 1 1#1
  let main_v47 : IVec S_ 1 := (fun x v => Host.reduce IntOp.andi x v reducesTo_S32000_S_d0 h_S_) main_v46 main_c_17
  let main_v48 : IVec S_ 1 := andi main_v43 main_v47
  main_v48

def fn_part1 {F : FTy → Type} [FloatOps F] (main_arg5 : FVec F S1536x512 .f32) (main_arg6 : FVec F S1536 .f32) (main_arg7 : FVec F S1536 .f32) (main_arg8 : FVec F S512x1024 .f32) (main_arg9 : FVec F S32000x512 .f32) (main_arg10 : FVec F S32000 .f32) (main_v13 : IVec S_ 1) (main_v16 : IVec S1536x256 1) : IVec S_ 1 :=
  let main_c_5 : IVec S_ 1 := constantI S_ 1 1#1
  let main_v17 : IVec S_ 1 := (fun x v => Host.reduce IntOp.andi x v reducesTo_S1536x256_S_d0_1 h_S_) main_v16 main_c_5
  let main_v18 : IVec S_ 1 := andi main_v13 main_v17
  let main_v19 : FVec F S1536x512 .f32 := Host.absf main_arg5
  let main_cst_6 : FVec F S_ .f32 := constant S_ .f32 0x7F800000#32
  let main_v20 : FVec F S1536x512 .f32 := broadcastInDim S1536x512 ![] bcast_S_S1536x512 main_cst_6
  let main_v21 : IVec S1536x512 1 := cmpf .olt main_v19 main_v20
  let main_c_7 : IVec S_ 1 := constantI S_ 1 1#1
  let main_v22 : IVec S_ 1 := (fun x v => Host.reduce IntOp.andi x v reducesTo_S1536x512_S_d0_1 h_S_) main_v21 main_c_7
  let main_v23 : IVec S_ 1 := andi main_v18 main_v22
  let main_v24 : FVec F S1536 .f32 := Host.absf main_arg6
  let main_cst_8 : FVec F S_ .f32 := constant S_ .f32 0x7F800000#32
  let main_v25 : FVec F S1536 .f32 := broadcastInDim S1536 ![] bcast_S_S1536 main_cst_8
  let main_v26 : IVec S1536 1 := cmpf .olt main_v24 main_v25
  let main_c_9 : IVec S_ 1 := constantI S_ 1 1#1
  let main_v27 : IVec S_ 1 := (fun x v => Host.reduce IntOp.andi x v reducesTo_S1536_S_d0 h_S_) main_v26 main_c_9
  let main_v28 : IVec S_ 1 := andi main_v23 main_v27
  let main_v29 : FVec F S1536 .f32 := Host.absf main_arg7
  let main_cst_10 : FVec F S_ .f32 := constant S_ .f32 0x7F800000#32
  let main_v30 : FVec F S1536 .f32 := broadcastInDim S1536 ![] bcast_S_S1536 main_cst_10
  let main_v31 : IVec S1536 1 := cmpf .olt main_v29 main_v30
  let main_c_11 : IVec S_ 1 := constantI S_ 1 1#1
  let main_v32 : IVec S_ 1 := (fun x v => Host.reduce IntOp.andi x v reducesTo_S1536_S_d0 h_S_) main_v31 main_c_11
  let main_v33 : IVec S_ 1 := andi main_v28 main_v32
  fn_part2 (F := F) main_arg8 main_arg9 main_arg10 main_v33

def fn {F : FTy → Type} [FloatOps F] (main_arg0 : IVec S64x51 32) (main_arg1 : FVec F S1x64x512 .f32) (main_arg2 : FVec F S64x128x512 .f32) (main_arg3 : FVec F S32000x256 .f32) (main_arg4 : FVec F S1536x256 .f32) (main_arg5 : FVec F S1536x512 .f32) (main_arg6 : FVec F S1536 .f32) (main_arg7 : FVec F S1536 .f32) (main_arg8 : FVec F S512x1024 .f32) (main_arg9 : FVec F S32000x512 .f32) (main_arg10 : FVec F S32000 .f32) : IVec S_ 1 :=
  let main_v0 : FVec F S1x64x512 .f32 := Host.absf main_arg1
  let main_cst : FVec F S_ .f32 := constant S_ .f32 0x7F800000#32
  let main_v1 : FVec F S1x64x512 .f32 := broadcastInDim S1x64x512 ![] bcast_S_S1x64x512 main_cst
  let main_v2 : IVec S1x64x512 1 := cmpf .olt main_v0 main_v1
  let main_c : IVec S_ 1 := constantI S_ 1 1#1
  let main_v3 : IVec S_ 1 := (fun x v => Host.reduce IntOp.andi x v reducesTo_S1x64x512_S_d0_1_2 h_S_) main_v2 main_c
  let main_v4 : FVec F S64x128x512 .f32 := Host.absf main_arg2
  let main_cst_0 : FVec F S_ .f32 := constant S_ .f32 0x7F800000#32
  let main_v5 : FVec F S64x128x512 .f32 := broadcastInDim S64x128x512 ![] bcast_S_S64x128x512 main_cst_0
  let main_v6 : IVec S64x128x512 1 := cmpf .olt main_v4 main_v5
  let main_c_1 : IVec S_ 1 := constantI S_ 1 1#1
  let main_v7 : IVec S_ 1 := (fun x v => Host.reduce IntOp.andi x v reducesTo_S64x128x512_S_d0_1_2 h_S_) main_v6 main_c_1
  let main_v8 : IVec S_ 1 := andi main_v3 main_v7
  let main_v9 : FVec F S32000x256 .f32 := Host.absf main_arg3
  let main_cst_2 : FVec F S_ .f32 := constant S_ .f32 0x7F800000#32
  let main_v10 : FVec F S32000x256 .f32 := broadcastInDim S32000x256 ![] bcast_S_S32000x256 main_cst_2
  let main_v11 : IVec S32000x256 1 := cmpf .olt main_v9 main_v10
  let main_c_3 : IVec S_ 1 := constantI S_ 1 1#1
  let main_v12 : IVec S_ 1 := (fun x v => Host.reduce IntOp.andi x v reducesTo_S32000x256_S_d0_1 h_S_) main_v11 main_c_3
  let main_v13 : IVec S_ 1 := andi main_v8 main_v12
  let main_v14 : FVec F S1536x256 .f32 := Host.absf main_arg4
  let main_cst_4 : FVec F S_ .f32 := constant S_ .f32 0x7F800000#32
  let main_v15 : FVec F S1536x256 .f32 := broadcastInDim S1536x256 ![] bcast_S_S1536x256 main_cst_4
  let main_v16 : IVec S1536x256 1 := cmpf .olt main_v14 main_v15
  fn_part1 (F := F) main_arg5 main_arg6 main_arg7 main_arg8 main_arg9 main_arg10 main_v13 main_v16
-- ==== Kernel.lean ====
abbrev S64x51 : Shape := ⟨2, ![64, 51]⟩
abbrev S1x64x512 : Shape := ⟨3, ![1, 64, 512]⟩
abbrev S64x128x512 : Shape := ⟨3, ![64, 128, 512]⟩
abbrev S32000x256 : Shape := ⟨2, ![32000, 256]⟩
abbrev S1536x256 : Shape := ⟨2, ![1536, 256]⟩
abbrev S1536x512 : Shape := ⟨2, ![1536, 512]⟩
abbrev S1536 : Shape := ⟨1, ![1536]⟩
abbrev S512x1024 : Shape := ⟨2, ![512, 1024]⟩
abbrev S32000x512 : Shape := ⟨2, ![32000, 512]⟩
abbrev S32000 : Shape := ⟨1, ![32000]⟩
abbrev S_ : Shape := ⟨0, ![]⟩
abbrev S64x1 : Shape := ⟨2, ![64, 1]⟩
abbrev S64x50 : Shape := ⟨2, ![64, 50]⟩
abbrev S64x51x1 : Shape := ⟨3, ![64, 51, 1]⟩
abbrev S64x51x256 : Shape := ⟨3, ![64, 51, 256]⟩
abbrev S1x1536 : Shape := ⟨2, ![1, 1536]⟩
abbrev S64x51x512 : Shape := ⟨3, ![64, 51, 512]⟩
abbrev S1x51x256 : Shape := ⟨3, ![1, 51, 256]⟩
abbrev S1x128x512 : Shape := ⟨3, ![1, 128, 512]⟩
abbrev S1x51x512 : Shape := ⟨3, ![1, 51, 512]⟩
abbrev S51x256 : Shape := ⟨2, ![51, 256]⟩
abbrev S256x1536 : Shape := ⟨2, ![256, 1536]⟩
abbrev S51x1536 : Shape := ⟨2, ![51, 1536]⟩
abbrev S51x512 : Shape := ⟨2, ![51, 512]⟩
abbrev S1x512 : Shape := ⟨2, ![1, 512]⟩
abbrev S128x512 : Shape := ⟨2, ![128, 512]⟩
abbrev S512x128 : Shape := ⟨2, ![512, 128]⟩
abbrev S51x128 : Shape := ⟨2, ![51, 128]⟩
abbrev S51 : Shape := ⟨1, ![51]⟩
abbrev S51x1 : Shape := ⟨2, ![51, 1]⟩
abbrev S51x1024 : Shape := ⟨2, ![51, 1024]⟩
abbrev S1024x512 : Shape := ⟨2, ![1024, 512]⟩
abbrev S64x1x512 : Shape := ⟨3, ![64, 1, 512]⟩
abbrev S64x512 : Shape := ⟨2, ![64, 512]⟩
abbrev S3264x512 : Shape := ⟨2, ![3264, 512]⟩
abbrev S1x32000 : Shape := ⟨2, ![1, 32000]⟩
abbrev S3264x1 : Shape := ⟨2, ![3264, 1]⟩
abbrev S408x512 : Shape := ⟨2, ![408, 512]⟩
abbrev S1280x512 : Shape := ⟨2, ![1280, 512]⟩
abbrev S1x1280 : Shape := ⟨2, ![1, 1280]⟩
abbrev S408x1 : Shape := ⟨2, ![408, 1]⟩
abbrev S512x1280 : Shape := ⟨2, ![512, 1280]⟩
abbrev S408x1280 : Shape := ⟨2, ![408, 1280]⟩
abbrev S408 : Shape := ⟨1, ![408]⟩
abbrev S3264x32000 : Shape := ⟨2, ![3264, 32000]⟩
abbrev S64x51x32000 : Shape := ⟨3, ![64, 51, 32000]⟩

abbrev nBuf : Space → Nat
  | .hbm => 38
  | .vmem => 32
  | .smem => 0
  | _ => 0

abbrev bufTy : (tb : Table) → Fin (tcTables nBuf tb) → BufTy
  | .hbm, ⟨0, _⟩ => ⟨S64x51, .i32⟩
  | .hbm, ⟨1, _⟩ => ⟨S1x64x512, .f32⟩
  | .hbm, ⟨2, _⟩ => ⟨S64x128x512, .f32⟩
  | .hbm, ⟨3, _⟩ => ⟨S32000x256, .f32⟩
  | .hbm, ⟨4, _⟩ => ⟨S1536x256, .f32⟩
  | .hbm, ⟨5, _⟩ => ⟨S1536x512, .f32⟩
  | .hbm, ⟨6, _⟩ => ⟨S1536, .f32⟩
  | .hbm, ⟨7, _⟩ => ⟨S1536, .f32⟩
  | .hbm, ⟨8, _⟩ => ⟨S512x1024, .f32⟩
  | .hbm, ⟨9, _⟩ => ⟨S32000x512, .f32⟩
  | .hbm, ⟨10, _⟩ => ⟨S32000, .f32⟩
  | .hbm, ⟨11, _⟩ => ⟨S_, .i32⟩
  | .hbm, ⟨12, _⟩ => ⟨S64x1, .i32⟩
  | .hbm, ⟨13, _⟩ => ⟨S64x50, .i32⟩
  | .hbm, ⟨14, _⟩ => ⟨S64x51, .i32⟩
  | .hbm, ⟨15, _⟩ => ⟨S_, .i32⟩
  | .hbm, ⟨16, _⟩ => ⟨S64x51, .i32⟩
  | .hbm, ⟨17, _⟩ => ⟨S64x51, .i1⟩
  | .hbm, ⟨18, _⟩ => ⟨S_, .i32⟩
  | .hbm, ⟨19, _⟩ => ⟨S64x51, .i32⟩
  | .hbm, ⟨20, _⟩ => ⟨S64x51, .i32⟩
  | .hbm, ⟨21, _⟩ => ⟨S64x51, .i32⟩
  | .hbm, ⟨22, _⟩ => ⟨S64x51x1, .i32⟩
  | .hbm, ⟨23, _⟩ => ⟨S64x51x256, .f32⟩
  | .hbm, ⟨24, _⟩ => ⟨S1x1536, .f32⟩
  | .hbm, ⟨25, _⟩ => ⟨S1x1536, .f32⟩
  | .hbm, ⟨26, _⟩ => ⟨S64x51x512, .f32⟩
  | .hbm, ⟨27, _⟩ => ⟨S64x51x512, .f32⟩
  | .hbm, ⟨28, _⟩ => ⟨S64x1x512, .f32⟩
  | .hbm, ⟨29, _⟩ => ⟨S64x512, .f32⟩
  | .hbm, ⟨30, _⟩ => ⟨S1x64x512, .f32⟩
  | .hbm, ⟨31, _⟩ => ⟨S3264x512, .f32⟩
  | .hbm, ⟨32, _⟩ => ⟨S3264x512, .bf16⟩
  | .hbm, ⟨33, _⟩ => ⟨S32000x512, .bf16⟩
  | .hbm, ⟨34, _⟩ => ⟨S1x32000, .f32⟩
  | .hbm, ⟨35, _⟩ => ⟨S3264x1, .f32⟩
  | .hbm, ⟨36, _⟩ => ⟨S3264x32000, .f32⟩
  | .hbm, ⟨37, _⟩ => ⟨S64x51x32000, .f32⟩
  | .local _ .vmem, ⟨0, _⟩ => ⟨S1x51x256, .f32⟩
  | .local _ .vmem, ⟨1, _⟩ => ⟨S1x51x256, .f32⟩
  | .local _ .vmem, ⟨2, _⟩ => ⟨S1536x256, .f32⟩
  | .local _ .vmem, ⟨3, _⟩ => ⟨S1x1536, .f32⟩
  | .local _ .vmem, ⟨4, _⟩ => ⟨S1x1536, .f32⟩
  | .local _ .vmem, ⟨5, _⟩ => ⟨S1x128x512, .f32⟩
  | .local _ .vmem, ⟨6, _⟩ => ⟨S1x128x512, .f32⟩
  | .local _ .vmem, ⟨7, _⟩ => ⟨S512x1024, .f32⟩
  | .local _ .vmem, ⟨8, _⟩ => ⟨S1x51x512, .f32⟩
  | .local _ .vmem, ⟨9, _⟩ => ⟨S1x51x512, .f32⟩
  | .local _ .vmem, ⟨10, _⟩ => ⟨S1x51x512, .f32⟩
  | .local _ .vmem, ⟨11, _⟩ => ⟨S1x51x512, .f32⟩
  | .local _ .vmem, ⟨12, _⟩ => ⟨S408x512, .bf16⟩
  | .local _ .vmem, ⟨13, _⟩ => ⟨S408x512, .bf16⟩
  | .local _ .vmem, ⟨14, _⟩ => ⟨S1280x512, .bf16⟩
  | .local _ .vmem, ⟨15, _⟩ => ⟨S1280x512, .bf16⟩
  | .local _ .vmem, ⟨16, _⟩ => ⟨S1x1280, .f32⟩
  | .local _ .vmem, ⟨17, _⟩ => ⟨S1x1280, .f32⟩
  | .local _ .vmem, ⟨18, _⟩ => ⟨S408x1, .f32⟩
  | .local _ .vmem, ⟨19, _⟩ => ⟨S408x1, .f32⟩
  | .local _ .vmem, ⟨20, _⟩ => ⟨S408x1, .f32⟩
  | .local _ .vmem, ⟨21, _⟩ => ⟨S408x1, .f32⟩
  | .local _ .vmem, ⟨22, _⟩ => ⟨S408x512, .bf16⟩
  | .local _ .vmem, ⟨23, _⟩ => ⟨S408x512, .bf16⟩
  | .local _ .vmem, ⟨24, _⟩ => ⟨S1280x512, .bf16⟩
  | .local _ .vmem, ⟨25, _⟩ => ⟨S1280x512, .bf16⟩
  | .local _ .vmem, ⟨26, _⟩ => ⟨S1x1280, .f32⟩
  | .local _ .vmem, ⟨27, _⟩ => ⟨S1x1280, .f32⟩
  | .local _ .vmem, ⟨28, _⟩ => ⟨S408x1, .f32⟩
  | .local _ .vmem, ⟨29, _⟩ => ⟨S408x1, .f32⟩
  | .local _ .vmem, ⟨30, _⟩ => ⟨S408x1280, .f32⟩
  | .local _ .vmem, ⟨31, _⟩ => ⟨S408x1280, .f32⟩
  | _, _ => ⟨S64x51, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_c_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12_0 : Ref sig .tc := ⟨.hbm, 26, rfl⟩
abbrev main_v12_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_scratch0 : Ref sig .tc := ⟨.vmem, 20, rfl⟩
abbrev cc1_scratch1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x51x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x51x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x51x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![8, 25], ![false, false]⟩

def k1_cond2 (i : grid1.Coords) : BitVec 1 :=
  let arg1 : BitVec 32 := BitVec.ofNat 32 (i 1).val
  let c24_i32 : BitVec 32 := 24#32
  let v34 : BitVec 1 := Scalar.cmpi .eq arg1 c24_i32
  let v35 : BitVec 32 := Scalar.extui v34
  let c0_i32_18 : BitVec 32 := 0#32
  let v36 : BitVec 1 := Scalar.cmpi .ne v35 c0_i32_18
  v36

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S408x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1280x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1280 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S408x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![8, 25], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S408x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1280x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x1280 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S408x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S408x1280 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

class Facts₀ : Prop where
  bcast_S_S64x1 : S_.BroadcastsInDim S64x1 (![] : Fin 0 → Fin S64x1.rank)
  slices_S64x51_S64x50_0_0 : S64x51.Slices ![0, 0] S64x50
  concatenates_S64x1_S64x50_S64x51_d1 : Shape.Concatenates [S64x1, S64x50] S64x51 1
  bcast_S_S64x51 : S_.BroadcastsInDim S64x51 (![] : Fin 0 → Fin S64x51.rank)
  bcast_S64x51_S64x51x1_0_1 : S64x51.BroadcastsInDim S64x51x1 (![0, 1] : Fin 2 → Fin S64x51x1.rank)
  shapeCasts_S1536_S1x1536 : S1536.ShapeCasts S1x1536
  inb_S1x51x256_S1x51x256_0_0_0 : ∀ a, (![0, 0, 0] : Fin 3 → Nat) a + S1x51x256.size a ≤ S1x51x256.size a
  h_S1x51x256 : 0 < S1x51x256.numel
  shapeCasts_S1x51x256_S51x256 : S1x51x256.ShapeCasts S51x256
  bitsLt_bf16_f32 : FTy.bits .bf16 < FTy.bits .f32
  inb_S1536x256_S1536x256_0_0 : ∀ a, (![0, 0] : Fin 2 → Nat) a + S1536x256.size a ≤ S1536x256.size a
  h_S1536x256 : 0 < S1536x256.numel
  transposes_S1536x256_p1_0_S256x1536 : S1536x256.Transposes [1, 0] S256x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S51x1536 : S1x1536.Broadcasts S51x1536
  slices_S51x1536_o0_0_S51x512 : S51x1536.Slices ![0, 0] S51x512
  slices_S1x1536_o0_0_S1x512 : S1x1536.Slices ![0, 0] S1x512
  broadcasts_S1x512_S51x512 : S1x512.Broadcasts S51x512
  slices_S51x1536_o0_512_S51x512 : S51x1536.Slices ![0, 512] S51x512
  slices_S1x1536_o0_512_S1x512 : S1x1536.Slices ![0, 512] S1x512
  slices_S51x1536_o0_1024_S51x512 : S51x1536.Slices ![0, 1024] S51x512
  slices_S1x1536_o0_1024_S1x512 : S1x1536.Slices ![0, 1024] S1x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  transposes_S128x512_p1_0_S512x128 : S128x512.Transposes [1, 0] S512x128
  reduces_S51x128_S51 : S51x128.Reduces [1] S51
  shapeCasts_S51_S51x1 : S51.ShapeCasts S51x1
  broadcasts_S51x1_S51x128 : S51x1.Broadcasts S51x128
  concatenates_S51x512_S51x512_S51x1024_d1 : Shape.Concatenates [S51x512, S51x512] S51x1024 1
  inb_S512x1024_S512x1024_0_0 : ∀ a, (![0, 0] : Fin 2 → Nat) a + S512x1024.size a ≤ S512x1024.size a
  h_S512x1024 : 0 < S512x1024.numel
  transposes_S512x1024_p1_0_S1024x512 : S512x1024.Transposes [1, 0] S1024x512
  inb_S1x51x512_S1x51x512_0_0_0 : ∀ a, (![0, 0, 0] : Fin 3 → Nat) a + S1x51x512.size a ≤ S1x51x512.size a
  h_S1x51x512 : 0 < S1x51x512.numel
  shapeCasts_S1x51x512_S51x512 : S1x51x512.ShapeCasts S51x512
  shapeCasts_S51x512_S1x51x512 : S51x512.ShapeCasts S1x51x512
  slices_S64x51x512_S64x1x512_0_50_0 : S64x51x512.Slices ![0, 50, 0] S64x1x512
  shapeCasts_S64x1x512_S64x512 : S64x1x512.ShapeCasts S64x512
  bcast_S64x512_S1x64x512_1_2 : S64x512.BroadcastsInDim S1x64x512 (![1, 2] : Fin 2 → Fin S1x64x512.rank)
  shapeCasts_S64x51x512_S3264x512 : S64x51x512.ShapeCasts S3264x512
  shapeCasts_S32000_S1x32000 : S32000.ShapeCasts S1x32000
  inb_S408x1_S408x1_0_0 : ∀ a, (![0, 0] : Fin 2 → Nat) a + S408x1.size a ≤ S408x1.size a
  h_S408x1 : 0 < S408x1.numel
  shapeCasts_S408x1_S408x1 : S408x1.ShapeCasts S408x1
  inb_S408x512_S408x512_0_0 : ∀ a, (![0, 0] : Fin 2 → Nat) a + S408x512.size a ≤ S408x512.size a
  h_S408x512 : 0 < S408x512.numel
  shapeCasts_S408x512_S408x512 : S408x512.ShapeCasts S408x512
  inb_S1280x512_S1280x512_0_0 : ∀ a, (![0, 0] : Fin 2 → Nat) a + S1280x512.size a ≤ S1280x512.size a
  h_S1280x512 : 0 < S1280x512.numel
  shapeCasts_S1280x512_S1280x512 : S1280x512.ShapeCasts S1280x512
  transposes_S1280x512_p1_0_S512x1280 : S1280x512.Transposes [1, 0] S512x1280
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S408x1280 : S1x1280.Broadcasts S408x1280
  reduces_S408x1280_S408 : S408x1280.Reduces [1] S408
  shapeCasts_S408_S408x1 : S408.ShapeCasts S408x1
  broadcasts_S408x1_S408x1280 : S408x1.Broadcasts S408x1280
  inb_S408x1280_S408x1280_0_0 : ∀ a, (![0, 0] : Fin 2 → Nat) a + S408x1280.size a ≤ S408x1280.size a
  h_S408x1280 : 0 < S408x1280.numel
  shapeCasts_S3264x32000_S64x51x32000 : S3264x32000.ShapeCasts S64x51x32000
  gather_S32000x256_S64x51x1_S64x51x256_2_0_n_n_0_2_1256_wf : GatherDims.WF S32000x256 S64x51x1 S64x51x256 [2] [0] [] [0] [] 2 ![1, 256]
  dot_S51x256_S256x1536_S51x1536_1_0_0_1_n_n_wf : DotDims.WF S51x256 S256x1536 S51x1536 [1] [0] [0] [1] [] []
  dot_S51x512_S512x128_S51x128_1_0_0_1_n_n_wf : DotDims.WF S51x512 S512x128 S51x128 [1] [0] [0] [1] [] []
  dot_S51x128_S128x512_S51x512_1_0_0_1_n_n_wf : DotDims.WF S51x128 S128x512 S51x512 [1] [0] [0] [1] [] []
  dot_S51x1024_S1024x512_S51x512_1_0_0_1_n_n_wf : DotDims.WF S51x1024 S1024x512 S51x512 [1] [0] [0] [1] [] []
  dot_S408x512_S512x1280_S408x1280_1_0_0_1_n_n_wf : DotDims.WF S408x512 S512x1280 S408x1280 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x51x256.size a ≤ S64x51x256.size a
  hwx0_0 : ∀ i : grid0.Coords, EltTy.bits .f32 = 32 ∨ (Rect.block (s := S64x51x256) S1x51x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1536x256.size a ≤ S1536x256.size a
  hwx0_1 : ∀ i : grid0.Coords, EltTy.bits .f32 = 32 ∨ (Rect.block (s := S1536x256) S1536x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1536.size a ≤ S1x1536.size a
  hwx0_2 : ∀ i : grid0.Coords, EltTy.bits .f32 = 32 ∨ (Rect.block (s := S1x1536) S1x1536.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1536.size a ≤ S1x1536.size a
  hwx0_3 : ∀ i : grid0.Coords, EltTy.bits .f32 = 32 ∨ (Rect.block (s := S1x1536) S1x1536.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x512.size a ≤ S64x128x512.size a
  hwx0_4 : ∀ i : grid0.Coords, EltTy.bits .f32 = 32 ∨ (Rect.block (s := S64x128x512) S1x128x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S512x1024.size a
  hwx0_5 : ∀ i : grid0.Coords, EltTy.bits .f32 = 32 ∨ (Rect.block (s := S512x1024) S512x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x51x512.size a ≤ S64x51x512.size a
  hwx0_6 : ∀ i : grid0.Coords, EltTy.bits .f32 = 32 ∨ (Rect.block (s := S64x51x512) S1x51x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x51x512.size a ≤ S64x51x512.size a
  hwx0_7 : ∀ i : grid0.Coords, EltTy.bits .f32 = 32 ∨ (Rect.block (s := S64x51x512) S1x51x512.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S408x512.size a ≤ S3264x512.size a
  hwx1_0 : ∀ i : grid1.Coords, EltTy.bits .bf16 = 32 ∨ (Rect.block (s := S3264x512) S408x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1280x512.size a ≤ S32000x512.size a
  hwx1_1 : ∀ i : grid1.Coords, EltTy.bits .bf16 = 32 ∨ (Rect.block (s := S32000x512) S1280x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1280.size a ≤ S1x32000.size a
  hwx1_2 : ∀ i : grid1.Coords, EltTy.bits .f32 = 32 ∨ (Rect.block (s := S1x32000) S1x1280.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S408x1.size a ≤ S3264x1.size a
  hwx1_3 : ∀ i : grid1.Coords, EltTy.bits .f32 = 32 ∨ (Rect.block (s := S3264x1) S408x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S408x512.size a ≤ S3264x512.size a
  hwx2_0 : ∀ i : grid2.Coords, EltTy.bits .bf16 = 32 ∨ (Rect.block (s := S3264x512) S408x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1280x512.size a ≤ S32000x512.size a
  hwx2_1 : ∀ i : grid2.Coords, EltTy.bits .bf16 = 32 ∨ (Rect.block (s := S32000x512) S1280x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1280.size a ≤ S1x32000.size a
  hwx2_2 : ∀ i : grid2.Coords, EltTy.bits .f32 = 32 ∨ (Rect.block (s := S1x32000) S1x1280.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S408x1.size a ≤ S3264x1.size a
  hwx2_3 : ∀ i : grid2.Coords, EltTy.bits .f32 = 32 ∨ (Rect.block (s := S3264x1) S408x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S408x1280.size a ≤ S3264x32000.size a
  hwx2_4 : ∀ i : grid2.Coords, EltTy.bits .f32 = 32 ∨ (Rect.block (s := S3264x32000) S408x1280.size (cc2_transform_4 i) (hinb2_4 i)).WholeWords (EltTy.packing .f32)

variable [Facts₀]

def gather_S32000x256_S64x51x1_S64x51x256_2_0_n_n_0_2_1256 : GatherDims S32000x256 S64x51x1 S64x51x256 where
  offsetDims := [2]
  collapsedSliceDims := [0]
  operandBatchingDims := []
  startIndicesBatchingDims := []
  startIndexMap := [0]
  indexVectorDim := 2
  sliceSizes := ![1, 256]
  wf := gather_S32000x256_S64x51x1_S64x51x256_2_0_n_n_0_2_1256_wf
def dot_S51x256_S256x1536_S51x1536_1_0_0_1_n_n : DotDims S51x256 S256x1536 S51x1536 where
  lhsContracting := [1]
  rhsContracting := [0]
  lhsNonContracting := [0]
  rhsNonContracting := [1]
  lhsBatch := []
  rhsBatch := []
  wf := dot_S51x256_S256x1536_S51x1536_1_0_0_1_n_n_wf
def dot_S51x512_S512x128_S51x128_1_0_0_1_n_n : DotDims S51x512 S512x128 S51x128 where
  lhsContracting := [1]
  rhsContracting := [0]
  lhsNonContracting := [0]
  rhsNonContracting := [1]
  lhsBatch := []
  rhsBatch := []
  wf := dot_S51x512_S512x128_S51x128_1_0_0_1_n_n_wf
def dot_S51x128_S128x512_S51x512_1_0_0_1_n_n : DotDims S51x128 S128x512 S51x512 where
  lhsContracting := [1]
  rhsContracting := [0]
  lhsNonContracting := [0]
  rhsNonContracting := [1]
  lhsBatch := []
  rhsBatch := []
  wf := dot_S51x128_S128x512_S51x512_1_0_0_1_n_n_wf
def dot_S51x1024_S1024x512_S51x512_1_0_0_1_n_n : DotDims S51x1024 S1024x512 S51x512 where
  lhsContracting := [1]
  rhsContracting := [0]
  lhsNonContracting := [0]
  rhsNonContracting := [1]
  lhsBatch := []
  rhsBatch := []
  wf := dot_S51x1024_S1024x512_S51x512_1_0_0_1_n_n_wf
def dot_S408x512_S512x1280_S408x1280_1_0_0_1_n_n : DotDims S408x512 S512x1280 S408x1280 where
  lhsContracting := [1]
  rhsContracting := [0]
  lhsNonContracting := [0]
  rhsNonContracting := [1]
  lhsBatch := []
  rhsBatch := []
  wf := dot_S408x512_S512x1280_S408x1280_1_0_0_1_n_n_wf

abbrev win0_0 : Pipeline.Window sig grid0 :=
  Pipeline.Window.ofSpec (Memref.whole main_v9) S1x51x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1536x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1x128x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S512x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12_0) S1x51x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12_1) S1x51x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v17) S408x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1280x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x1280.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S408x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v17) S408x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S1280x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v19) S1x1280.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v20) S408x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v21) S408x1280.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S64x51 : Shape := ⟨2, ![64, 51]⟩
abbrev S1x64x512 : Shape := ⟨3, ![1, 64, 512]⟩
abbrev S64x128x512 : Shape := ⟨3, ![64, 128, 512]⟩
abbrev S32000x256 : Shape := ⟨2, ![32000, 256]⟩
abbrev S1536x256 : Shape := ⟨2, ![1536, 256]⟩
abbrev S1536x512 : Shape := ⟨2, ![1536, 512]⟩
abbrev S1536 : Shape := ⟨1, ![1536]⟩
abbrev S512x1024 : Shape := ⟨2, ![512, 1024]⟩
abbrev S32000x512 : Shape := ⟨2, ![32000, 512]⟩
abbrev S32000 : Shape := ⟨1, ![32000]⟩
abbrev S_ : Shape := ⟨0, ![]⟩
abbrev S64x1 : Shape := ⟨2, ![64, 1]⟩
abbrev S64x50 : Shape := ⟨2, ![64, 50]⟩
abbrev S64x51x1 : Shape := ⟨3, ![64, 51, 1]⟩
abbrev S64x51x256 : Shape := ⟨3, ![64, 51, 256]⟩
abbrev S64x51x1536 : Shape := ⟨3, ![64, 51, 1536]⟩
abbrev S1x1x1536 : Shape := ⟨3, ![1, 1, 1536]⟩
abbrev S64x51x512 : Shape := ⟨3, ![64, 51, 512]⟩
abbrev S512 : Shape := ⟨1, ![512]⟩
abbrev S1x1x512 : Shape := ⟨3, ![1, 1, 512]⟩
abbrev S64x51x128 : Shape := ⟨3, ![64, 51, 128]⟩
abbrev S64x51x1024 : Shape := ⟨3, ![64, 51, 1024]⟩
abbrev S64x51x32000 : Shape := ⟨3, ![64, 51, 32000]⟩
abbrev S1x1x32000 : Shape := ⟨3, ![1, 1, 32000]⟩
abbrev S64x1x512 : Shape := ⟨3, ![64, 1, 512]⟩
abbrev S64x512 : Shape := ⟨2, ![64, 512]⟩

abbrev nBuf : Space → Nat
  | .hbm => 106
  | .vmem => 0
  | .smem => 0
  | _ => 0

abbrev bufTy : (tb : Table) → Fin (tcTables nBuf tb) → BufTy
  | .hbm, ⟨0, _⟩ => ⟨S64x51, .i32⟩
  | .hbm, ⟨1, _⟩ => ⟨S1x64x512, .f32⟩
  | .hbm, ⟨2, _⟩ => ⟨S64x128x512, .f32⟩
  | .hbm, ⟨3, _⟩ => ⟨S32000x256, .f32⟩
  | .hbm, ⟨4, _⟩ => ⟨S1536x256, .f32⟩
  | .hbm, ⟨5, _⟩ => ⟨S1536x512, .f32⟩
  | .hbm, ⟨6, _⟩ => ⟨S1536, .f32⟩
  | .hbm, ⟨7, _⟩ => ⟨S1536, .f32⟩
  | .hbm, ⟨8, _⟩ => ⟨S512x1024, .f32⟩
  | .hbm, ⟨9, _⟩ => ⟨S32000x512, .f32⟩
  | .hbm, ⟨10, _⟩ => ⟨S32000, .f32⟩
  | .hbm, ⟨11, _⟩ => ⟨S_, .i32⟩
  | .hbm, ⟨12, _⟩ => ⟨S64x1, .i32⟩
  | .hbm, ⟨13, _⟩ => ⟨S64x50, .i32⟩
  | .hbm, ⟨14, _⟩ => ⟨S64x51, .i32⟩
  | .hbm, ⟨15, _⟩ => ⟨S_, .i32⟩
  | .hbm, ⟨16, _⟩ => ⟨S64x51, .i32⟩
  | .hbm, ⟨17, _⟩ => ⟨S64x51, .i1⟩
  | .hbm, ⟨18, _⟩ => ⟨S_, .i32⟩
  | .hbm, ⟨19, _⟩ => ⟨S64x51, .i32⟩
  | .hbm, ⟨20, _⟩ => ⟨S64x51, .i32⟩
  | .hbm, ⟨21, _⟩ => ⟨S64x51, .i32⟩
  | .hbm, ⟨22, _⟩ => ⟨S64x51x1, .i32⟩
  | .hbm, ⟨23, _⟩ => ⟨S64x51x256, .f32⟩
  | .hbm, ⟨24, _⟩ => ⟨S64x51x1536, .f32⟩
  | .hbm, ⟨25, _⟩ => ⟨S1x1x1536, .f32⟩
  | .hbm, ⟨26, _⟩ => ⟨S64x51x1536, .f32⟩
  | .hbm, ⟨27, _⟩ => ⟨S64x51x1536, .f32⟩
  | .hbm, ⟨28, _⟩ => ⟨S64x51x512, .f32⟩
  | .hbm, ⟨29, _⟩ => ⟨S512, .f32⟩
  | .hbm, ⟨30, _⟩ => ⟨S1x1x512, .f32⟩
  | .hbm, ⟨31, _⟩ => ⟨S64x51x512, .f32⟩
  | .hbm, ⟨32, _⟩ => ⟨S64x51x512, .f32⟩
  | .hbm, ⟨33, _⟩ => ⟨S64x51x512, .f32⟩
  | .hbm, ⟨34, _⟩ => ⟨S64x51x512, .f32⟩
  | .hbm, ⟨35, _⟩ => ⟨S_, .f32⟩
  | .hbm, ⟨36, _⟩ => ⟨S64x51x512, .f32⟩
  | .hbm, ⟨37, _⟩ => ⟨S64x51x512, .f32⟩
  | .hbm, ⟨38, _⟩ => ⟨S_, .f32⟩
  | .hbm, ⟨39, _⟩ => ⟨S64x51x512, .f32⟩
  | .hbm, ⟨40, _⟩ => ⟨S64x51x512, .f32⟩
  | .hbm, ⟨41, _⟩ => ⟨S64x51x512, .f32⟩
  | .hbm, ⟨42, _⟩ => ⟨S512, .f32⟩
  | .hbm, ⟨43, _⟩ => ⟨S1x1x512, .f32⟩
  | .hbm, ⟨44, _⟩ => ⟨S64x51x512, .f32⟩
  | .hbm, ⟨45, _⟩ => ⟨S64x51x512, .f32⟩
  | .hbm, ⟨46, _⟩ => ⟨S64x51x512, .f32⟩
  | .hbm, ⟨47, _⟩ => ⟨S64x51x512, .f32⟩
  | .hbm, ⟨48, _⟩ => ⟨S_, .f32⟩
  | .hbm, ⟨49, _⟩ => ⟨S64x51x512, .f32⟩
  | .hbm, ⟨50, _⟩ => ⟨S64x51x512, .f32⟩
  | .hbm, ⟨51, _⟩ => ⟨S_, .f32⟩
  | .hbm, ⟨52, _⟩ => ⟨S64x51x512, .f32⟩
  | .hbm, ⟨53, _⟩ => ⟨S64x51x512, .f32⟩
  | .hbm, ⟨54, _⟩ => ⟨S64x51x512, .f32⟩
  | .hbm, ⟨55, _⟩ => ⟨S512, .f32⟩
  | .hbm, ⟨56, _⟩ => ⟨S1x1x512, .f32⟩
  | .hbm, ⟨57, _⟩ => ⟨S64x51x512, .f32⟩
  | .hbm, ⟨58, _⟩ => ⟨S64x51x512, .f32⟩
  | .hbm, ⟨59, _⟩ => ⟨S64x51x512, .f32⟩
  | .hbm, ⟨60, _⟩ => ⟨S64x51x512, .f32⟩
  | .hbm, ⟨61, _⟩ => ⟨S_, .f32⟩
  | .hbm, ⟨62, _⟩ => ⟨S64x51x512, .f32⟩
  | .hbm, ⟨63, _⟩ => ⟨S64x51x512, .f32⟩
  | .hbm, ⟨64, _⟩ => ⟨S64x51x512, .f32⟩
  | .hbm, ⟨65, _⟩ => ⟨S64x51x128, .f32⟩
  | .hbm, ⟨66, _⟩ => ⟨S_, .f32⟩
  | .hbm, ⟨67, _⟩ => ⟨S64x51, .f32⟩
  | .hbm, ⟨68, _⟩ => ⟨S_, .f32⟩
  | .hbm, ⟨69, _⟩ => ⟨S64x51, .f32⟩
  | .hbm, ⟨70, _⟩ => ⟨S64x51, .f32⟩
  | .hbm, ⟨71, _⟩ => ⟨S64x51x1, .f32⟩
  | .hbm, ⟨72, _⟩ => ⟨S64x51x128, .f32⟩
  | .hbm, ⟨73, _⟩ => ⟨S64x51x128, .f32⟩
  | .hbm, ⟨74, _⟩ => ⟨S64x51x128, .f32⟩
  | .hbm, ⟨75, _⟩ => ⟨S_, .f32⟩
  | .hbm, ⟨76, _⟩ => ⟨S64x51, .f32⟩
  | .hbm, ⟨77, _⟩ => ⟨S64x51x1, .f32⟩
  | .hbm, ⟨78, _⟩ => ⟨S64x51x128, .f32⟩
  | .hbm, ⟨79, _⟩ => ⟨S64x51x128, .f32⟩
  | .hbm, ⟨80, _⟩ => ⟨S64x51x512, .f32⟩
  | .hbm, ⟨81, _⟩ => ⟨S64x51x1024, .f32⟩
  | .hbm, ⟨82, _⟩ => ⟨S64x51x512, .f32⟩
  | .hbm, ⟨83, _⟩ => ⟨S64x51x512, .f32⟩
  | .hbm, ⟨84, _⟩ => ⟨S64x51x32000, .f32⟩
  | .hbm, ⟨85, _⟩ => ⟨S1x1x32000, .f32⟩
  | .hbm, ⟨86, _⟩ => ⟨S64x51x32000, .f32⟩
  | .hbm, ⟨87, _⟩ => ⟨S64x51x32000, .f32⟩
  | .hbm, ⟨88, _⟩ => ⟨S_, .f32⟩
  | .hbm, ⟨89, _⟩ => ⟨S64x51, .f32⟩
  | .hbm, ⟨90, _⟩ => ⟨S_, .f32⟩
  | .hbm, ⟨91, _⟩ => ⟨S64x51, .f32⟩
  | .hbm, ⟨92, _⟩ => ⟨S64x51, .f32⟩
  | .hbm, ⟨93, _⟩ => ⟨S64x51x1, .f32⟩
  | .hbm, ⟨94, _⟩ => ⟨S64x51x32000, .f32⟩
  | .hbm, ⟨95, _⟩ => ⟨S64x51x32000, .f32⟩
  | .hbm, ⟨96, _⟩ => ⟨S64x51x32000, .f32⟩
  | .hbm, ⟨97, _⟩ => ⟨S_, .f32⟩
  | .hbm, ⟨98, _⟩ => ⟨S64x51, .f32⟩
  | .hbm, ⟨99, _⟩ => ⟨S64x51x1, .f32⟩
  | .hbm, ⟨100, _⟩ => ⟨S64x51x1, .f32⟩
  | .hbm, ⟨101, _⟩ => ⟨S64x51x32000, .f32⟩
  | .hbm, ⟨102, _⟩ => ⟨S64x51x32000, .f32⟩
  | .hbm, ⟨103, _⟩ => ⟨S64x1x512, .f32⟩
  | .hbm, ⟨104, _⟩ => ⟨S64x512, .f32⟩
  | .hbm, ⟨105, _⟩ => ⟨S1x64x512, .f32⟩
  | _, _ => ⟨S64x51, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_c_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_v33 : Ref sig .tc := ⟨.hbm, 50, rfl⟩
abbrev main_cst_4 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_5 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_6 : Ref sig .tc := ⟨.hbm, 66, rfl⟩
abbrev main_v47 : Ref sig .tc := ⟨.hbm, 67, rfl⟩
abbrev main_cst_7 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_8 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_call0_cst : Ref sig .tc := ⟨.hbm, 88, rfl⟩
abbrev main_call0_v0 : Ref sig .tc := ⟨.hbm, 89, rfl⟩
abbrev main_call0_cst_0 : Ref sig .tc := ⟨.hbm, 90, rfl⟩
abbrev main_call0_v1 : Ref sig .tc := ⟨.hbm, 91, rfl⟩
abbrev main_call0_v2 : Ref sig .tc := ⟨.hbm, 92, rfl⟩
abbrev main_call0_v3 : Ref sig .tc := ⟨.hbm, 93, rfl⟩
abbrev main_call0_v4 : Ref sig .tc := ⟨.hbm, 94, rfl⟩
abbrev main_call0_v5 : Ref sig .tc := ⟨.hbm, 95, rfl⟩
abbrev main_call0_v6 : Ref sig .tc := ⟨.hbm, 96, rfl⟩
abbrev main_call0_cst_1 : Ref sig .tc := ⟨.hbm, 97, rfl⟩
abbrev main_call0_v7 : Ref sig .tc := ⟨.hbm, 98, rfl⟩
abbrev main_call0_v8 : Ref sig .tc := ⟨.hbm, 99, rfl⟩
abbrev main_call0_v9 : Ref sig .tc := ⟨.hbm, 100, rfl⟩
abbrev main_call0_v10 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩

abbrev nD : Nat := 1
abbrev τ : Topo := Topo.v7x

variable {F : FTy → Type} [FloatOps F]

class Facts₀ : Prop where
  bcast_S_S64x1 : S_.BroadcastsInDim S64x1 (![] : Fin 0 → Fin S64x1.rank)
  slices_S64x51_S64x50_0_0 : S64x51.Slices ![0, 0] S64x50
  concatenates_S64x1_S64x50_S64x51_d1 : Shape.Concatenates [S64x1, S64x50] S64x51 1
  bcast_S_S64x51 : S_.BroadcastsInDim S64x51 (![] : Fin 0 → Fin S64x51.rank)
  bcast_S64x51_S64x51x1_0_1 : S64x51.BroadcastsInDim S64x51x1 (![0, 1] : Fin 2 → Fin S64x51x1.rank)
  bcast_S1536_S1x1x1536_2 : S1536.BroadcastsInDim S1x1x1536 (![2] : Fin 1 → Fin S1x1x1536.rank)
  bcast_S1x1x1536_S64x51x1536_0_1_2 : S1x1x1536.BroadcastsInDim S64x51x1536 (![0, 1, 2] : Fin 3 → Fin S64x51x1536.rank)
  slices_S64x51x1536_S64x51x512_0_0_0 : S64x51x1536.Slices ![0, 0, 0] S64x51x512
  slices_S1536_S512_0 : S1536.Slices ![0] S512
  bcast_S512_S1x1x512_2 : S512.BroadcastsInDim S1x1x512 (![2] : Fin 1 → Fin S1x1x512.rank)
  bcast_S1x1x512_S64x51x512_0_1_2 : S1x1x512.BroadcastsInDim S64x51x512 (![0, 1, 2] : Fin 3 → Fin S64x51x512.rank)
  bcast_S_S64x51x512 : S_.BroadcastsInDim S64x51x512 (![] : Fin 0 → Fin S64x51x512.rank)
  slices_S64x51x1536_S64x51x512_0_0_512 : S64x51x1536.Slices ![0, 0, 512] S64x51x512
  slices_S1536_S512_512 : S1536.Slices ![512] S512
  slices_S64x51x1536_S64x51x512_0_0_1024 : S64x51x1536.Slices ![0, 0, 1024] S64x51x512
  slices_S1536_S512_1024 : S1536.Slices ![1024] S512
  reducesTo_S64x51x128_S64x51_d2 : S64x51x128.ReducesTo [2] S64x51
  h_S_ : 0 < S_.numel
  bcast_S64x51x1_S64x51x128_0_1_2 : S64x51x1.BroadcastsInDim S64x51x128 (![0, 1, 2] : Fin 3 → Fin S64x51x128.rank)
  concatenates_S64x51x512_S64x51x512_S64x51x1024_d2 : Shape.Concatenates [S64x51x512, S64x51x512] S64x51x1024 2
  bcast_S32000_S1x1x32000_2 : S32000.BroadcastsInDim S1x1x32000 (![2] : Fin 1 → Fin S1x1x32000.rank)
  bcast_S1x1x32000_S64x51x32000_0_1_2 : S1x1x32000.BroadcastsInDim S64x51x32000 (![0, 1, 2] : Fin 3 → Fin S64x51x32000.rank)
  reducesTo_S64x51x32000_S64x51_d2 : S64x51x32000.ReducesTo [2] S64x51
  bcast_S64x51x1_S64x51x32000_0_1_2 : S64x51x1.BroadcastsInDim S64x51x32000 (![0, 1, 2] : Fin 3 → Fin S64x51x32000.rank)
  slices_S64x51x512_S64x1x512_0_50_0 : S64x51x512.Slices ![0, 50, 0] S64x1x512
  shapeCasts_S64x1x512_S64x512 : S64x1x512.ShapeCasts S64x512
  bcast_S64x512_S1x64x512_1_2 : S64x512.BroadcastsInDim S1x64x512 (![1, 2] : Fin 2 → Fin S1x64x512.rank)
  gather_S32000x256_S64x51x1_S64x51x256_2_0_n_n_0_2_1256_wf : GatherDims.WF S32000x256 S64x51x1 S64x51x256 [2] [0] [] [0] [] 2 ![1, 256]
  dot_S64x51x256_S1536x256_S64x51x1536_2_1_01_0_n_n_wf : DotDims.WF S64x51x256 S1536x256 S64x51x1536 [2] [1] [0, 1] [0] [] []
  dot_S64x51x512_S64x128x512_S64x51x128_2_2_1_1_0_0_wf : DotDims.WF S64x51x512 S64x128x512 S64x51x128 [2] [2] [1] [1] [0] [0]
  dot_S64x51x128_S64x128x512_S64x51x512_2_1_1_2_0_0_wf : DotDims.WF S64x51x128 S64x128x512 S64x51x512 [2] [1] [1] [2] [0] [0]
  dot_S64x51x1024_S512x1024_S64x51x512_2_1_01_0_n_n_wf : DotDims.WF S64x51x1024 S512x1024 S64x51x512 [2] [1] [0, 1] [0] [] []
  dot_S64x51x512_S32000x512_S64x51x32000_2_1_01_0_n_n_wf : DotDims.WF S64x51x512 S32000x512 S64x51x32000 [2] [1] [0, 1] [0] [] []

variable [Facts₀]

def gather_S32000x256_S64x51x1_S64x51x256_2_0_n_n_0_2_1256 : GatherDims S32000x256 S64x51x1 S64x51x256 where
  offsetDims := [2]
  collapsedSliceDims := [0]
  operandBatchingDims := []
  startIndicesBatchingDims := []
  startIndexMap := [0]
  indexVectorDim := 2
  sliceSizes := ![1, 256]
  wf := gather_S32000x256_S64x51x1_S64x51x256_2_0_n_n_0_2_1256_wf
def dot_S64x51x256_S1536x256_S64x51x1536_2_1_01_0_n_n : DotDims S64x51x256 S1536x256 S64x51x1536 where
  lhsContracting := [2]
  rhsContracting := [1]
  lhsNonContracting := [0, 1]
  rhsNonContracting := [0]
  lhsBatch := []
  rhsBatch := []
  wf := dot_S64x51x256_S1536x256_S64x51x1536_2_1_01_0_n_n_wf
def dot_S64x51x512_S64x128x512_S64x51x128_2_2_1_1_0_0 : DotDims S64x51x512 S64x128x512 S64x51x128 where
  lhsContracting := [2]
  rhsContracting := [2]
  lhsNonContracting := [1]
  rhsNonContracting := [1]
  lhsBatch := [0]
  rhsBatch := [0]
  wf := dot_S64x51x512_S64x128x512_S64x51x128_2_2_1_1_0_0_wf
def dot_S64x51x128_S64x128x512_S64x51x512_2_1_1_2_0_0 : DotDims S64x51x128 S64x128x512 S64x51x512 where
  lhsContracting := [2]
  rhsContracting := [1]
  lhsNonContracting := [1]
  rhsNonContracting := [2]
  lhsBatch := [0]
  rhsBatch := [0]
  wf := dot_S64x51x128_S64x128x512_S64x51x512_2_1_1_2_0_0_wf
def dot_S64x51x1024_S512x1024_S64x51x512_2_1_01_0_n_n : DotDims S64x51x1024 S512x1024 S64x51x512 where
  lhsContracting := [2]
  rhsContracting := [1]
  lhsNonContracting := [0, 1]
  rhsNonContracting := [0]
  lhsBatch := []
  rhsBatch := []
  wf := dot_S64x51x1024_S512x1024_S64x51x512_2_1_01_0_n_n_wf
def dot_S64x51x512_S32000x512_S64x51x32000_2_1_01_0_n_n : DotDims S64x51x512 S32000x512 S64x51x32000 where
  lhsContracting := [2]
  rhsContracting := [1]
  lhsNonContracting := [0, 1]
  rhsNonContracting := [0]
  lhsBatch := []
  rhsBatch := []
  wf := dot_S64x51x512_S32000x512_S64x51x32000_2_1_01_0_n_n_wf

class Facts : Prop extends Facts₀ where

variable [Facts]
-- ==== Proof.KRegion0.lean ====
/-
  The first pipelined region (the decode kernel): grid point b takes batch row b's 51 embedded inputs and its 128
  encoder rows, and the whole of the input weights, the two bias rows and the output weights, and leaves two
  blocks: the gated hidden state h = (1 − z) · n of the 51 steps, and tanh of [h, attention context] times the
  output weights. Both are functions of the six input blocks alone. Stated at any contents `V` of the buffers
  when the region is entered, and at any float instance.
-/
import proofs.«150782_j29695403885316_1_alg».proof.Proof.Gen.Kernel.Launch
import proofs.«150782_j29695403885316_1_alg».proof.Proof.Gen.Kernel.Skeleton
import proofs.«150782_j29695403885316_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/- An input window's current staging buffer holds its block at every point, whether the point fetches it or the
   block index has not moved since the last fetch (the weights and biases are fetched once). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and both stores go through the whole block -/

abbrev ri0_0 : Rect S1x51x256 := Rect.unit (s := S1x51x256) ![0, 0, 0] S1x51x256.size inb_S1x51x256_S1x51x256_0_0_0
abbrev ri0_1 : Rect S1536x256 := Rect.unit (s := S1536x256) ![0, 0] S1536x256.size inb_S1536x256_S1536x256_0_0
abbrev ri0_2 : Rect S1x1536 := Rect.unit (s := S1x1536) ![0, 0] S1x1536.size inb_S1x1536_S1x1536_0_0
abbrev ri0_3 : Rect S1x1536 := Rect.unit (s := S1x1536) ![0, 0] S1x1536.size inb_S1x1536_S1x1536_0_0
abbrev ri0_4 : Rect S1x128x512 := Rect.unit (s := S1x128x512) ![0, 0, 0] S1x128x512.size inb_S1x128x512_S1x128x512_0_0_0
abbrev ri0_5 : Rect S512x1024 := Rect.unit (s := S512x1024) ![0, 0] S512x1024.size inb_S512x1024_S512x1024_0_0
abbrev ro0 : Rect S1x51x512 := Rect.unit (s := S1x51x512) ![0, 0, 0] S1x51x512.size inb_S1x51x512_S1x51x512_0_0_0

/-- What the body leaves in the hidden-state block, from the input blocks. -/
def out0_6 (x0 : Vec F S1x51x256 .f32) (x1 : Vec F S1536x256 .f32) (x2 : Vec F S1x1536 .f32) (x3 : Vec F S1x1536 .f32) (x4 : Vec F S1x128x512 .f32) (x5 : Vec F S512x1024 .f32) : Vec F S1x51x512 .f32 :=
  View.canon [⟨ro0, k0_pay1 (k0_pay3 (View.ld x0 ri0_0) (View.ld x1 ri0_1) (View.ld x2 ri0_2) (View.ld x3 ri0_3))⟩]

/-- What the body leaves in the projected-output block, from the input blocks. -/
def out0_7 (x0 : Vec F S1x51x256 .f32) (x1 : Vec F S1536x256 .f32) (x2 : Vec F S1x1536 .f32) (x3 : Vec F S1x1536 .f32) (x4 : Vec F S1x128x512 .f32) (x5 : Vec F S512x1024 .f32) : Vec F S1x51x512 .f32 :=
  View.canon [⟨ro0, k0_pay2 (k0_pay3 (View.ld x0 ri0_0) (View.ld x1 ri0_1) (View.ld x2 ri0_2) (View.ld x3 ri0_3)) (k0_pay4 (View.ld x4 ri0_4)) (k0_pay5 (View.ld x0 ri0_0) (View.ld x1 ri0_1) (View.ld x2 ri0_2) (View.ld x3 ri0_3) (View.ld x4 ri0_4)) (k0_pay6 (View.ld x0 ri0_0) (View.ld x1 ri0_1) (View.ld x2 ri0_2) (View.ld x3 ri0_3) (View.ld x4 ri0_4)) (View.ld x5 ri0_5)⟩]

/-- One store through the whole block covers it. -/
theorem cover0_o (p0 : Vec F S1x51x512 .f32) (y : S1x51x512.Idx) :
    ∃ pc ∈ ([⟨ro0, p0⟩] : List (View.Piece (Elt F) S1x51x512 .f32)), y ∈ pc.1.set :=
  View.cover_of_tiled [⟨ro0, p0⟩] S1x51x512.size (by rfl) y

/-! ## The body's triple -/

set_option maxHeartbeats 4000000 in
/-- On whole staging buffers, the inputs' at contents `x0 … x5` and the outputs' at anything, the body runs to the end
    with the inputs as they were and the two outputs at `out0_6`, `out0_7` of them. -/
theorem sound_kernel0 (c : Dev nD) (E : Set ℕ) (i : grid0.Coords) (arg1 : Memref sig .tc .vmem S1x51x256 .f32) (harg1 : arg1.IsWhole) (arg2 : Memref sig .tc .vmem S1536x256 .f32) (harg2 : arg2.IsWhole) (arg3 : Memref sig .tc .vmem S1x1536 .f32) (harg3 : arg3.IsWhole) (arg4 : Memref sig .tc .vmem S1x1536 .f32) (harg4 : arg4.IsWhole) (arg5 : Memref sig .tc .vmem S1x128x512 .f32) (harg5 : arg5.IsWhole) (arg6 : Memref sig .tc .vmem S512x1024 .f32) (harg6 : arg6.IsWhole) (arg7 : Memref sig .tc .vmem S1x51x512 .f32) (harg7 : arg7.IsWhole) (arg8 : Memref sig .tc .vmem S1x51x512 .f32) (harg8 : arg8.IsWhole)
    (x0 : Vec F S1x51x256 .f32) (x1 : Vec F S1536x256 .f32) (x2 : Vec F S1x1536 .f32) (x3 : Vec F S1x1536 .f32) (x4 : Vec F S1x128x512 .f32) (x5 : Vec F S512x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__decode_kernel i arg1 harg1 arg2 harg2 arg3 harg3 arg4 harg4 arg5 harg5 arg6 harg6 arg7 harg7 arg8 harg8) K := by
  simp only [cc0__decode_kernel_eq_skeleton]; unfold cc0__decode_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_o _)
  iexists _; isplitr
  swap; · iexact H7
  ipureintro
  exact View.read_writes_eq_canon _ _ _ (cover0_o _)

/-! ## The pipeline's proof data -/

/-- The arrays as the region finds them; after the body at point `t` each input's buffer at its block and the two
    outputs' at `out0_6`, `out0_7` of the input blocks; nothing kept between points beyond the scoped rest and the
    generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KR1Runs.lean ====
/-
  The second pipelined region (the statistics kernel), what its three kinds of grid point share. Grid point (i, v)
  takes 408 rows of activations and the v-th tile of 1280 class weights and biases, and keeps per row, in two
  scratch columns carried from tile to tile, the running maximum of the class scores seen so far and the running sum
  of their exponentials rescaled to that maximum. At the first tile of a row block the two columns are reset
  (−∞ and 0) before the update; at the last tile the row's log-sum-exp, maximum + log sum, is stored into the output
  block, which is left untouched (and not written back) at every other tile.
-/
import proofs.«150782_j29695403885316_1_alg».proof.Proof.Gen.Kernel.Launch
import proofs.«150782_j29695403885316_1_alg».proof.Proof.Gen.Kernel.Skeleton
import proofs.«150782_j29695403885316_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/- An input window's current staging buffer holds its block at every point, fetched there or not (the activations'
   block index moves only with the row block). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions on the tile coordinate, in closed form over the 8 × 25 grid -/

/-- "This is the first tile": the coordinate compared with zero, as the body spells it. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 25 = 0 :=
  (by decide +kernel : ∀ t : Fin grid1.N, cond1_0 (grid1.coords t) ↔ t.val % 25 = 0)

/-- "This is the last tile". -/
abbrev cond1_1 (i : grid1.Coords) : Prop := k1_cond2 i = 1#1
theorem hcond1_1 : ∀ t : Fin cfg1.N, cond1_1 (grid1.coords t) ↔ t.val % 25 = 24 :=
  (by decide +kernel : ∀ t : Fin grid1.N, cond1_1 (grid1.coords t) ↔ t.val % 25 = 24)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last tile the output block is idle and is not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At the last tile it is live. -/
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated (the choice does not matter). -/
abbrev VO1_3 : View sig .tc .vmem S408x1 .f32 := (Memref.whole cc1_stg3_0 : Memref sig .tc .vmem S408x1 .f32).view
abbrev ms1_0 (t : Fin cfg1.N) : Memref sig .tc .vmem S408x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1280x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1280 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S408x1 .f32 := win1_3.stage (cfg1.slots t 3)
abbrev hs1_3 (t : Fin cfg1.N) : (ms1_3 t).IsWhole := hstage1_3 ((cfg1.slots t 3).cast nbuf1_3)
/-- The two scratch columns: the running maximum and the running sum. -/
abbrev scM1_0 : Memref sig .tc .vmem S408x1 .f32 := Memref.whole cc1_scratch0
abbrev scM1_1 : Memref sig .tc .vmem S408x1 .f32 := Memref.whole cc1_scratch1
abbrev VS1_0 : View sig .tc .vmem S408x1 .f32 := scM1_0.view
abbrev VS1_1 : View sig .tc .vmem S408x1 .f32 := scM1_1.view

/-! ## The body's run, case by case: what its stores leave, as pieces (last first) -/

set_option maxHeartbeats 4000000 in
/-- FIRST TILE (reset, then update; no output store). The inputs at their contents, the output block at contents
    `xi3` handed back untouched, the two scratch columns at anything. -/
noncomputable def kernelRun1_A (c : Dev nD) (i : grid1.Coords) (arg2 : Memref sig .tc .vmem S408x512 .bf16) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S408x1 .f32) (harg5 : arg5.IsWhole) (arg6 : Memref sig .tc .vmem S408x1 .f32) (harg6 : arg6.IsWhole) (arg7 : Memref sig .tc .vmem S408x1 .f32) (harg7 : arg7.IsWhole) (hc0 : cond1_0 i) (hc1 : ¬cond1_1 i)
    (x0 : Vec F S408x512 .bf16) (x1 : Vec F S1280x512 .bf16) (x2 : Vec F S1x1280 .f32) :
    Σ' (L3 : List (View.Piece (Elt F) S408x1 .f32)) (LS0 : List (View.Piece (Elt F) S408x1 .f32)), { LS1 : List (View.Piece (Elt F) S408x1 .f32) //
      ∀ (xi3 : Vec F S408x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__stats_kernel i arg2 harg2 arg3 harg3 arg4 harg4 arg5 harg5 arg6 harg6 arg7 harg7) K } := by
  refine ⟨[], ?_, ?_, fun xi3 E K => ?run⟩
  case run =>
    simp only [cc1__stats_kernel_eq_skeleton]; unfold cc1__stats_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d6, %fs0, -, HS0⟩, ⟨%d7, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 4000000 in
/-- A MIDDLE TILE (update only). The scratch columns at what the point before left, `xs0`, `xs1`. -/
noncomputable def kernelRun1_B (c : Dev nD) (i : grid1.Coords) (arg2 : Memref sig .tc .vmem S408x512 .bf16) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S408x1 .f32) (harg5 : arg5.IsWhole) (arg6 : Memref sig .tc .vmem S408x1 .f32) (harg6 : arg6.IsWhole) (arg7 : Memref sig .tc .vmem S408x1 .f32) (harg7 : arg7.IsWhole) (hc0 : ¬cond1_0 i) (hc1 : ¬cond1_1 i)
    (x0 : Vec F S408x512 .bf16) (x1 : Vec F S1280x512 .bf16) (x2 : Vec F S1x1280 .f32) (xs0 xs1 : Vec F S408x1 .f32) :
    Σ' (L3 : List (View.Piece (Elt F) S408x1 .f32)) (LS0 : List (View.Piece (Elt F) S408x1 .f32)), { LS1 : List (View.Piece (Elt F) S408x1 .f32) //
      ∀ (xi3 : Vec F S408x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__stats_kernel i arg2 harg2 arg3 harg3 arg4 harg4 arg5 harg5 arg6 harg6 arg7 harg7) K } := by
  refine ⟨[], ?_, ?_, fun xi3 E K => ?run⟩
  case run =>
    simp only [cc1__stats_kernel_eq_skeleton]; unfold cc1__stats_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 4000000 in
/-- THE LAST TILE (update, then the output store). The output block at anything. -/
noncomputable def kernelRun1_C (c : Dev nD) (i : grid1.Coords) (arg2 : Memref sig .tc .vmem S408x512 .bf16) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S408x1 .f32) (harg5 : arg5.IsWhole) (arg6 : Memref sig .tc .vmem S408x1 .f32) (harg6 : arg6.IsWhole) (arg7 : Memref sig .tc .vmem S408x1 .f32) (harg7 : arg7.IsWhole) (hc0 : ¬cond1_0 i) (hc1 : cond1_1 i)
    (x0 : Vec F S408x512 .bf16) (x1 : Vec F S1280x512 .bf16) (x2 : Vec F S1x1280 .f32) (xs0 xs1 : Vec F S408x1 .f32) :
    Σ' (L3 : List (View.Piece (Elt F) S408x1 .f32)) (LS0 : List (View.Piece (Elt F) S408x1 .f32)), { LS1 : List (View.Piece (Elt F) S408x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__stats_kernel i arg2 harg2 arg3 harg3 arg4 harg4 arg5 harg5 arg6 harg6 arg7 harg7) K } := by
  refine ⟨?_, ?_, ?_, fun E K => ?run⟩
  case run =>
    simp only [cc1__stats_kernel_eq_skeleton]; unfold cc1__stats_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.Kernel.Hand

end
-- ==== Proof.KRegion1.lean ====
/-
  The second pipelined region (the statistics kernel): what the two carried scratch columns and the output block
  hold after each grid point, the region's invariant from point to point, its proof data and the body obligation.
  After a point the running-maximum column and the running-sum column hold what that point's stores left, computed
  from the point's three input blocks and — except at the first tile of a row block, which resets them first —
  from what the point before left; the output block is stored at the last tile of a row block only.
-/
import proofs.«150782_j29695403885316_1_alg».proof.Proof.KR1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case's stores leave: they cover the column, so the column's contents are those pieces read back -/

theorem scover1_A_0 (c : Dev nD) (i : grid1.Coords) (arg2 : Memref sig .tc .vmem S408x512 .bf16) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S408x1 .f32) (harg5 : arg5.IsWhole) (arg6 : Memref sig .tc .vmem S408x1 .f32) (harg6 : arg6.IsWhole) (arg7 : Memref sig .tc .vmem S408x1 .f32) (harg7 : arg7.IsWhole) (hc0 : cond1_0 i) (hc1 : ¬cond1_1 i)
    (x0 : Vec F S408x512 .bf16) (x1 : Vec F S1280x512 .bf16) (x2 : Vec F S1x1280 .f32) (y : S408x1.Idx) :
    ∃ pc ∈ (kernelRun1_A c i arg2 harg2 arg3 harg3 arg4 harg4 arg5 harg5 arg6 harg6 arg7 harg7 hc0 hc1 x0 x1 x2).2.1, y ∈ pc.1.set :=
  View.cover_of_tiledL (kernelRun1_A c i arg2 harg2 arg3 harg3 arg4 harg4 arg5 harg5 arg6 harg6 arg7 harg7 hc0 hc1 x0 x1 x2).2.1 S408x1.size (by sl_kernel_rfl) y

def sout1_A_0 (c : Dev nD) (i : grid1.Coords) (arg2 : Memref sig .tc .vmem S408x512 .bf16) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S408x1 .f32) (harg5 : arg5.IsWhole) (arg6 : Memref sig .tc .vmem S408x1 .f32) (harg6 : arg6.IsWhole) (arg7 : Memref sig .tc .vmem S408x1 .f32) (harg7 : arg7.IsWhole) (hc0 : cond1_0 i) (hc1 : ¬cond1_1 i)
    (x0 : Vec F S408x512 .bf16) (x1 : Vec F S1280x512 .bf16) (x2 : Vec F S1x1280 .f32) : Vec F S408x1 .f32 :=
  VS1_0.read (Elt F) (VS1_0.writes (Elt F) VS1_0.junk (kernelRun1_A c i arg2 harg2 arg3 harg3 arg4 harg4 arg5 harg5 arg6 harg6 arg7 harg7 hc0 hc1 x0 x1 x2).2.1)

theorem scover1_A_1 (c : Dev nD) (i : grid1.Coords) (arg2 : Memref sig .tc .vmem S408x512 .bf16) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S408x1 .f32) (harg5 : arg5.IsWhole) (arg6 : Memref sig .tc .vmem S408x1 .f32) (harg6 : arg6.IsWhole) (arg7 : Memref sig .tc .vmem S408x1 .f32) (harg7 : arg7.IsWhole) (hc0 : cond1_0 i) (hc1 : ¬cond1_1 i)
    (x0 : Vec F S408x512 .bf16) (x1 : Vec F S1280x512 .bf16) (x2 : Vec F S1x1280 .f32) (y : S408x1.Idx) :
    ∃ pc ∈ (kernelRun1_A c i arg2 harg2 arg3 harg3 arg4 harg4 arg5 harg5 arg6 harg6 arg7 harg7 hc0 hc1 x0 x1 x2).2.2.1, y ∈ pc.1.set :=
  View.cover_of_tiledL (kernelRun1_A c i arg2 harg2 arg3 harg3 arg4 harg4 arg5 harg5 arg6 harg6 arg7 harg7 hc0 hc1 x0 x1 x2).2.2.1 S408x1.size (by sl_kernel_rfl) y

def sout1_A_1 (c : Dev nD) (i : grid1.Coords) (arg2 : Memref sig .tc .vmem S408x512 .bf16) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S408x1 .f32) (harg5 : arg5.IsWhole) (arg6 : Memref sig .tc .vmem S408x1 .f32) (harg6 : arg6.IsWhole) (arg7 : Memref sig .tc .vmem S408x1 .f32) (harg7 : arg7.IsWhole) (hc0 : cond1_0 i) (hc1 : ¬cond1_1 i)
    (x0 : Vec F S408x512 .bf16) (x1 : Vec F S1280x512 .bf16) (x2 : Vec F S1x1280 .f32) : Vec F S408x1 .f32 :=
  VS1_1.read (Elt F) (VS1_1.writes (Elt F) VS1_1.junk (kernelRun1_A c i arg2 harg2 arg3 harg3 arg4 harg4 arg5 harg5 arg6 harg6 arg7 harg7 hc0 hc1 x0 x1 x2).2.2.1)

theorem scover1_B_0 (c : Dev nD) (i : grid1.Coords) (arg2 : Memref sig .tc .vmem S408x512 .bf16) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S408x1 .f32) (harg5 : arg5.IsWhole) (arg6 : Memref sig .tc .vmem S408x1 .f32) (harg6 : arg6.IsWhole) (arg7 : Memref sig .tc .vmem S408x1 .f32) (harg7 : arg7.IsWhole) (hc0 : ¬cond1_0 i) (hc1 : ¬cond1_1 i)
    (x0 : Vec F S408x512 .bf16) (x1 : Vec F S1280x512 .bf16) (x2 : Vec F S1x1280 .f32) (xs0 xs1 : Vec F S408x1 .f32) (y : S408x1.Idx) :
    ∃ pc ∈ (kernelRun1_B c i arg2 harg2 arg3 harg3 arg4 harg4 arg5 harg5 arg6 harg6 arg7 harg7 hc0 hc1 x0 x1 x2 xs0 xs1).2.1, y ∈ pc.1.set :=
  View.cover_of_tiledL (kernelRun1_B c i arg2 harg2 arg3 harg3 arg4 harg4 arg5 harg5 arg6 harg6 arg7 harg7 hc0 hc1 x0 x1 x2 xs0 xs1).2.1 S408x1.size (by sl_kernel_rfl) y

def sout1_B_0 (c : Dev nD) (i : grid1.Coords) (arg2 : Memref sig .tc .vmem S408x512 .bf16) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S408x1 .f32) (harg5 : arg5.IsWhole) (arg6 : Memref sig .tc .vmem S408x1 .f32) (harg6 : arg6.IsWhole) (arg7 : Memref sig .tc .vmem S408x1 .f32) (harg7 : arg7.IsWhole) (hc0 : ¬cond1_0 i) (hc1 : ¬cond1_1 i)
    (x0 : Vec F S408x512 .bf16) (x1 : Vec F S1280x512 .bf16) (x2 : Vec F S1x1280 .f32) (xs0 xs1 : Vec F S408x1 .f32) : Vec F S408x1 .f32 :=
  VS1_0.read (Elt F) (VS1_0.writes (Elt F) VS1_0.junk (kernelRun1_B c i arg2 harg2 arg3 harg3 arg4 harg4 arg5 harg5 arg6 harg6 arg7 harg7 hc0 hc1 x0 x1 x2 xs0 xs1).2.1)

theorem scover1_B_1 (c : Dev nD) (i : grid1.Coords) (arg2 : Memref sig .tc .vmem S408x512 .bf16) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S408x1 .f32) (harg5 : arg5.IsWhole) (arg6 : Memref sig .tc .vmem S408x1 .f32) (harg6 : arg6.IsWhole) (arg7 : Memref sig .tc .vmem S408x1 .f32) (harg7 : arg7.IsWhole) (hc0 : ¬cond1_0 i) (hc1 : ¬cond1_1 i)
    (x0 : Vec F S408x512 .bf16) (x1 : Vec F S1280x512 .bf16) (x2 : Vec F S1x1280 .f32) (xs0 xs1 : Vec F S408x1 .f32) (y : S408x1.Idx) :
    ∃ pc ∈ (kernelRun1_B c i arg2 harg2 arg3 harg3 arg4 harg4 arg5 harg5 arg6 harg6 arg7 harg7 hc0 hc1 x0 x1 x2 xs0 xs1).2.2.1, y ∈ pc.1.set :=
  View.cover_of_tiledL (kernelRun1_B c i arg2 harg2 arg3 harg3 arg4 harg4 arg5 harg5 arg6 harg6 arg7 harg7 hc0 hc1 x0 x1 x2 xs0 xs1).2.2.1 S408x1.size (by sl_kernel_rfl) y

def sout1_B_1 (c : Dev nD) (i : grid1.Coords) (arg2 : Memref sig .tc .vmem S408x512 .bf16) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S408x1 .f32) (harg5 : arg5.IsWhole) (arg6 : Memref sig .tc .vmem S408x1 .f32) (harg6 : arg6.IsWhole) (arg7 : Memref sig .tc .vmem S408x1 .f32) (harg7 : arg7.IsWhole) (hc0 : ¬cond1_0 i) (hc1 : ¬cond1_1 i)
    (x0 : Vec F S408x512 .bf16) (x1 : Vec F S1280x512 .bf16) (x2 : Vec F S1x1280 .f32) (xs0 xs1 : Vec F S408x1 .f32) : Vec F S408x1 .f32 :=
  VS1_1.read (Elt F) (VS1_1.writes (Elt F) VS1_1.junk (kernelRun1_B c i arg2 harg2 arg3 harg3 arg4 harg4 arg5 harg5 arg6 harg6 arg7 harg7 hc0 hc1 x0 x1 x2 xs0 xs1).2.2.1)

theorem scover1_C_0 (c : Dev nD) (i : grid1.Coords) (arg2 : Memref sig .tc .vmem S408x512 .bf16) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S408x1 .f32) (harg5 : arg5.IsWhole) (arg6 : Memref sig .tc .vmem S408x1 .f32) (harg6 : arg6.IsWhole) (arg7 : Memref sig .tc .vmem S408x1 .f32) (harg7 : arg7.IsWhole) (hc0 : ¬cond1_0 i) (hc1 : cond1_1 i)
    (x0 : Vec F S408x512 .bf16) (x1 : Vec F S1280x512 .bf16) (x2 : Vec F S1x1280 .f32) (xs0 xs1 : Vec F S408x1 .f32) (y : S408x1.Idx) :
    ∃ pc ∈ (kernelRun1_C c i arg2 harg2 arg3 harg3 arg4 harg4 arg5 harg5 arg6 harg6 arg7 harg7 hc0 hc1 x0 x1 x2 xs0 xs1).2.1, y ∈ pc.1.set :=
  View.cover_of_tiledL (kernelRun1_C c i arg2 harg2 arg3 harg3 arg4 harg4 arg5 harg5 arg6 harg6 arg7 harg7 hc0 hc1 x0 x1 x2 xs0 xs1).2.1 S408x1.size (by sl_kernel_rfl) y

def sout1_C_0 (c : Dev nD) (i : grid1.Coords) (arg2 : Memref sig .tc .vmem S408x512 .bf16) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S408x1 .f32) (harg5 : arg5.IsWhole) (arg6 : Memref sig .tc .vmem S408x1 .f32) (harg6 : arg6.IsWhole) (arg7 : Memref sig .tc .vmem S408x1 .f32) (harg7 : arg7.IsWhole) (hc0 : ¬cond1_0 i) (hc1 : cond1_1 i)
    (x0 : Vec F S408x512 .bf16) (x1 : Vec F S1280x512 .bf16) (x2 : Vec F S1x1280 .f32) (xs0 xs1 : Vec F S408x1 .f32) : Vec F S408x1 .f32 :=
  VS1_0.read (Elt F) (VS1_0.writes (Elt F) VS1_0.junk (kernelRun1_C c i arg2 harg2 arg3 harg3 arg4 harg4 arg5 harg5 arg6 harg6 arg7 harg7 hc0 hc1 x0 x1 x2 xs0 xs1).2.1)

theorem scover1_C_1 (c : Dev nD) (i : grid1.Coords) (arg2 : Memref sig .tc .vmem S408x512 .bf16) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S408x1 .f32) (harg5 : arg5.IsWhole) (arg6 : Memref sig .tc .vmem S408x1 .f32) (harg6 : arg6.IsWhole) (arg7 : Memref sig .tc .vmem S408x1 .f32) (harg7 : arg7.IsWhole) (hc0 : ¬cond1_0 i) (hc1 : cond1_1 i)
    (x0 : Vec F S408x512 .bf16) (x1 : Vec F S1280x512 .bf16) (x2 : Vec F S1x1280 .f32) (xs0 xs1 : Vec F S408x1 .f32) (y : S408x1.Idx) :
    ∃ pc ∈ (kernelRun1_C c i arg2 harg2 arg3 harg3 arg4 harg4 arg5 harg5 arg6 harg6 arg7 harg7 hc0 hc1 x0 x1 x2 xs0 xs1).2.2.1, y ∈ pc.1.set :=
  View.cover_of_tiledL (kernelRun1_C c i arg2 harg2 arg3 harg3 arg4 harg4 arg5 harg5 arg6 harg6 arg7 harg7 hc0 hc1 x0 x1 x2 xs0 xs1).2.2.1 S408x1.size (by sl_kernel_rfl) y

def sout1_C_1 (c : Dev nD) (i : grid1.Coords) (arg2 : Memref sig .tc .vmem S408x512 .bf16) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S408x1 .f32) (harg5 : arg5.IsWhole) (arg6 : Memref sig .tc .vmem S408x1 .f32) (harg6 : arg6.IsWhole) (arg7 : Memref sig .tc .vmem S408x1 .f32) (harg7 : arg7.IsWhole) (hc0 : ¬cond1_0 i) (hc1 : cond1_1 i)
    (x0 : Vec F S408x512 .bf16) (x1 : Vec F S1280x512 .bf16) (x2 : Vec F S1x1280 .f32) (xs0 xs1 : Vec F S408x1 .f32) : Vec F S408x1 .f32 :=
  VS1_1.read (Elt F) (VS1_1.writes (Elt F) VS1_1.junk (kernelRun1_C c i arg2 harg2 arg3 harg3 arg4 harg4 arg5 harg5 arg6 harg6 arg7 harg7 hc0 hc1 x0 x1 x2 xs0 xs1).2.2.1)

theorem cover1_C_3 (c : Dev nD) (i : grid1.Coords) (arg2 : Memref sig .tc .vmem S408x512 .bf16) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S408x1 .f32) (harg5 : arg5.IsWhole) (arg6 : Memref sig .tc .vmem S408x1 .f32) (harg6 : arg6.IsWhole) (arg7 : Memref sig .tc .vmem S408x1 .f32) (harg7 : arg7.IsWhole) (hc0 : ¬cond1_0 i) (hc1 : cond1_1 i)
    (x0 : Vec F S408x512 .bf16) (x1 : Vec F S1280x512 .bf16) (x2 : Vec F S1x1280 .f32) (xs0 xs1 : Vec F S408x1 .f32) (y : S408x1.Idx) :
    ∃ pc ∈ (kernelRun1_C c i arg2 harg2 arg3 harg3 arg4 harg4 arg5 harg5 arg6 harg6 arg7 harg7 hc0 hc1 x0 x1 x2 xs0 xs1).1, y ∈ pc.1.set :=
  View.cover_of_tiledL (kernelRun1_C c i arg2 harg2 arg3 harg3 arg4 harg4 arg5 harg5 arg6 harg6 arg7 harg7 hc0 hc1 x0 x1 x2 xs0 xs1).1 S408x1.size (by sl_kernel_rfl) y

def out1_C_3 (c : Dev nD) (i : grid1.Coords) (arg2 : Memref sig .tc .vmem S408x512 .bf16) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S408x1 .f32) (harg5 : arg5.IsWhole) (arg6 : Memref sig .tc .vmem S408x1 .f32) (harg6 : arg6.IsWhole) (arg7 : Memref sig .tc .vmem S408x1 .f32) (harg7 : arg7.IsWhole) (hc0 : ¬cond1_0 i) (hc1 : cond1_1 i)
    (x0 : Vec F S408x512 .bf16) (x1 : Vec F S1280x512 .bf16) (x2 : Vec F S1x1280 .f32) (xs0 xs1 : Vec F S408x1 .f32) : Vec F S408x1 .f32 :=
  VO1_3.read (Elt F) (VO1_3.writes (Elt F) VO1_3.junk (kernelRun1_C c i arg2 harg2 arg3 harg3 arg4 harg4 arg5 harg5 arg6 harg6 arg7 harg7 hc0 hc1 x0 x1 x2 xs0 xs1).1)

/-! ## What the output block and the two scratch columns hold after each point -/

/-- By recursion on the point: the case the closed forms select, run on the point's input blocks and — away from a
    first tile — on the scratch columns as the point before left them. Where the output block is idle its component
    is a placeholder nothing consults. -/
def outsAt1 (c : Dev nD) : (n : ℕ) → n < cfg1.N → Vec F S408x1 .f32 × Vec F S408x1 .f32 × Vec F S408x1 .f32
  | 0, hn => (Pipeline.Dat.unnamed (cfg := cfg1) 3 ⟨0, hn⟩, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 25 = 0 then
      if h1 : (n + 1) % 25 = 24 then
        False.elim (by omega)
      else
        (Pipeline.Dat.unnamed (cfg := cfg1) 3 ⟨n + 1, hn⟩, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 25 = 24 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)
      else
        (Pipeline.Dat.unnamed (cfg := cfg1) 3 ⟨n + 1, hn⟩, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)

theorem outsAt1_A (c : Dev nD) (t : Fin cfg1.N) (h0 : t.val % 25 = 0) (h1 : ¬t.val % 25 = 24) :
    outsAt1 V c t.val t.isLt = (Pipeline.Dat.unnamed (cfg := cfg1) 3 t, sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 25 = 0) (h1 : ¬t.val % 25 = 24) :
    outsAt1 V c t.val t.isLt = (Pipeline.Dat.unnamed (cfg := cfg1) 3 t, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 25 = 0) (h1 : t.val % 25 = 24) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The core's scoped buffers that are neither a staging buffer of this region nor one of its two scratch columns,
    each whole at some contents: the other two regions' staging buffers. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f))

/-- What the region is handed holds the two scratch columns at some contents beside the rest. -/
theorem PhiA1_split (c : Dev nD) :
    (Pipeline.ΦA spec1 c : sProp 𝕄)
      ⊢ iprop(Rest1 (F := F) c ∗ (∃ d, owns (c : Thread nD τ) scM1_0 fullShare d) ∗ (∃ d, owns (c : Thread nD τ) scM1_1 fullShare d) ∗ (∃ r, prngReg c r)) := by
  unfold Pipeline.ΦA Rest1; rw [scopedRest1_eq]; simp only [scM1_0, scM1_1, owns_whole]
  iintro ⟨⟨A0, A1, A2, A3, A4, A5, A6, A7, A8, A9, A10, A11, A12, A13, A14, A15, A16, A17, A18, A19, A20, A21, A22, A23⟩, Hg⟩
  isplitl [A0 A1 A2 A3 A4 A5 A6 A7 A8 A9 A10 A11 A14 A15 A16 A17 A18 A19 A20 A21 A22 A23]
  ·
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A14]; · iexact A14
      isplitl [A15]; · iexact A15
      isplitl [A16]; · iexact A16
      isplitl [A17]; · iexact A17
      isplitl [A18]; · iexact A18
      isplitl [A19]; · iexact A19
      isplitl [A20]; · iexact A20
      isplitl [A21]; · iexact A21
      isplitl [A22]; · iexact A22
      iexact A23
  isplitl [A12]; · iexact A12
  isplitl [A13]; · iexact A13
  iexact Hg

/-- And conversely. -/
theorem PhiA1_join (c : Dev nD) :
    iprop(Rest1 (F := F) c ∗ (∃ d, owns (c : Thread nD τ) scM1_0 fullShare d) ∗ (∃ d, owns (c : Thread nD τ) scM1_1 fullShare d) ∗ (∃ r, prngReg c r))
      ⊢ (Pipeline.ΦA spec1 c : sProp 𝕄) := by
  unfold Pipeline.ΦA Rest1; rw [scopedRest1_eq]; simp only [scM1_0, scM1_1, owns_whole]
  iintro ⟨⟨A0, A1, A2, A3, A4, A5, A6, A7, A8, A9, A10, A11, A14, A15, A16, A17, A18, A19, A20, A21, A22, A23⟩, A12, A13, Hg⟩
  isplitr [Hg]
  ·
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      isplitl [A13]; · iexact A13
      isplitl [A14]; · iexact A14
      isplitl [A15]; · iexact A15
      isplitl [A16]; · iexact A16
      isplitl [A17]; · iexact A17
      isplitl [A18]; · iexact A18
      isplitl [A19]; · iexact A19
      isplitl [A20]; · iexact A20
      isplitl [A21]; · iexact A21
      isplitl [A22]; · iexact A22
      iexact A23
  iexact Hg

/-- Before the first point what the region is handed; afterwards the rest at anything, the two scratch columns at
    what the point before left, and the generator register at some state. -/
def PhiS1 (c : Dev nD) : (n : ℕ) → n ≤ cfg1.N → sProp 𝕄
  | 0, _ => Pipeline.ΦA spec1 c
  | n + 1, hn => iprop(Rest1 (F := F) c ∗ owns (c : Thread nD τ) scM1_0 fullShare ((outsAt1 V c n hn).2.1)
      ∗ owns (c : Thread nD τ) scM1_1 fullShare ((outsAt1 V c n hn).2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(Rest1 (F := F) c ∗ owns (c : Thread nD τ) scM1_0 fullShare ((outsAt1 V c n hn).2.1)
      ∗ owns (c : Thread nD τ) scM1_1 fullShare ((outsAt1 V c n hn).2.2) ∗ (∃ r, prngReg c r)) := rfl

theorem PhiS1_pos (c : Dev nD) (n : ℕ) (h : n ≤ cfg1.N) (hz : n ≠ 0) :
    PhiS1 V c n h = iprop(Rest1 (F := F) c ∗ owns (c : Thread nD τ) scM1_0 fullShare ((outsAt1 V c (n - 1) (by omega)).2.1)
      ∗ owns (c : Thread nD τ) scM1_1 fullShare ((outsAt1 V c (n - 1) (by omega)).2.2) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The closed forms say which case the point is in; the invariant hands the body the two
    scratch columns at what the point before left (at anything before the very first point, and a first tile needs
    nothing of them) and takes them back at this point's contents; the output block is handed back untouched where
    it is idle; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 200 := lt_of_lt_of_eq t.isLt (show cfg1.N = 200 from N_1)
  by_cases h0 : t.val % 25 = 0
  · by_cases h1 : t.val % 25 = 24
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0 sout1_A_1; (try dsimp only)
      by_cases hz : t.val = 0
      · rw [PhiS1_castSucc V c t, PhiS1_zero V c _ _ hz]
        iintro ⟨HΦ, Ho, ⟨%d0, H0⟩, ⟨%d1, H1⟩, ⟨%d2, H2⟩, ⟨%d3, H3⟩⟩
        ihave HΦ' := (PhiA1_split (F := F) c) $$ HΦ
        icases HΦ' with ⟨HR, HS0, HS1, Hg⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t)).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HR HS0 HS1 Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨HR, HS0, HS1, Hg⟩, Ho, ⟨%d0, H0⟩, ⟨%d1, H1⟩, ⟨%d2, H2⟩, ⟨%d3, H3⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t)).2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HR HS0 HS1 Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 25 = 24
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0 sout1_C_1; (try dsimp only)
      rw [PhiS1_castSucc V c t, PhiS1_pos V c _ _ hz]
      iintro ⟨⟨HR, HS0, HS1, Hg⟩, Ho, ⟨%d0, H0⟩, ⟨%d1, H1⟩, ⟨%d2, H2⟩, ⟨%d3, H3⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HR HS0 HS1 Hg]
      · isplitl [HR]; · iexact HR
        isplitl [HS0]
        · unfold owns; iexists _; isplitr
          swap; · iexact HS0
          ipureintro; exact View.read_writes_of_cover _ _ _ _ _ (scover1_C_0 c _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0 sout1_B_1; (try dsimp only)
      rw [PhiS1_castSucc V c t, PhiS1_pos V c _ _ hz]
      iintro ⟨⟨HR, HS0, HS1, Hg⟩, Ho, ⟨%d0, H0⟩, ⟨%d1, H1⟩, ⟨%d2, H2⟩, ⟨%d3, H3⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HR HS0 HS1 Hg]
      · isplitl [HR]; · iexact HR
        isplitl [HS0]
        · unfold owns; iexists _; isplitr
          swap; · iexact HS0
          ipureintro; exact View.read_writes_of_cover _ _ _ _ _ (scover1_B_0 c _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-! ## The invariant at the two ends -/

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the region was handed: the named contents of the
    two scratch columns are forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  iintro ⟨HR, HS0, HS1, Hg⟩
  iapply (PhiA1_join (F := F) c)
  isplitl [HR]; · iexact HR
  isplitl [HS0]; · iexists _; iexact HS0
  isplitl [HS1]; · iexists _; iexact HS1
  iexact Hg

theorem hout1 (c : Dev nD) : (dat1 V c).Φ (Fin.last cfg1.N) ⊢ Pipeline.ΦA spec1 c :=
  Phi1_out V c _ (by rw [Fin.val_last]; have : cfg1.N = 200 := N_1; omega)

end Cert.Kernel.Hand

end
-- ==== Proof.KRegion2.lean ====
/-
  The third pipelined region (the output kernel): each grid point (i, v) takes a block of 408 rows of the
  activations, a block of 1280 rows of the vocabulary weights, the matching 1280 bias entries and the 408 row
  offsets, and leaves in its output block  x · wᵀ + bias − offset, a function of those four blocks alone.
  Stated at any contents `V` of the buffers when the region is entered, and at any float instance.
-/
import proofs.«150782_j29695403885316_1_alg».proof.Proof.Gen.Kernel.Launch
import proofs.«150782_j29695403885316_1_alg».proof.Proof.Gen.Kernel.Skeleton
import proofs.«150782_j29695403885316_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether the point fetches it or
    the block index has not moved since the last fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store go through the whole block -/

abbrev rx2 : Rect S408x512 := Rect.unit (s := S408x512) ![0, 0] S408x512.size inb_S408x512_S408x512_0_0
abbrev rw2 : Rect S1280x512 := Rect.unit (s := S1280x512) ![0, 0] S1280x512.size inb_S1280x512_S1280x512_0_0
abbrev rb2 : Rect S1x1280 := Rect.unit (s := S1x1280) ![0, 0] S1x1280.size inb_S1x1280_S1x1280_0_0
abbrev rl2 : Rect S408x1 := Rect.unit (s := S408x1) ![0, 0] S408x1.size inb_S408x1_S408x1_0_0
abbrev ro2 : Rect S408x1280 := Rect.unit (s := S408x1280) ![0, 0] S408x1280.size inb_S408x1280_S408x1280_0_0

/-- What the body leaves in the output block, from the four input blocks: its one store, through the whole block. -/
def out2_4 (x0 : Vec F S408x512 .bf16) (x1 : Vec F S1280x512 .bf16) (x2 : Vec F S1x1280 .f32) (x3 : Vec F S408x1 .f32) : Vec F S408x1280 .f32 :=
  View.canon [⟨ro2, k2_pay1 (View.ld x0 rx2) (View.ld x1 rw2) (View.ld x2 rb2) (View.ld x3 rl2)⟩]

/-- The one store covers the block. -/
theorem cover2_4 (p0 : Vec F S408x1280 .f32) (y : S408x1280.Idx) :
    ∃ pc ∈ ([⟨ro2, p0⟩] : List (View.Piece (Elt F) S408x1280 .f32)), y ∈ pc.1.set :=
  View.cover_of_tiled [⟨ro2, p0⟩] S408x1280.size (by rfl) y

/-! ## The body's triple -/

set_option maxHeartbeats 1000000 in
/-- On whole staging buffers, the inputs' at contents `x0 … x3` and the output's at anything, the body runs to the
    end with the inputs as they were and the output at `out2_4` of them. -/
theorem sound_kernel2 (c : Dev nD) (E : Set ℕ) (i : grid2.Coords)
    (arg2 : Memref sig .tc .vmem S408x512 .bf16) (harg2 : arg2.IsWhole) (arg3 : Memref sig .tc .vmem S1280x512 .bf16) (harg3 : arg3.IsWhole)
    (arg4 : Memref sig .tc .vmem S1x1280 .f32) (harg4 : arg4.IsWhole) (arg5 : Memref sig .tc .vmem S408x1 .f32) (harg5 : arg5.IsWhole)
    (arg6 : Memref sig .tc .vmem S408x1280 .f32) (harg6 : arg6.IsWhole)
    (x0 : Vec F S408x512 .bf16) (x1 : Vec F S1280x512 .bf16) (x2 : Vec F S1x1280 .f32) (x3 : Vec F S408x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out2_4 x0 x1 x2 x3)) -∗ K ⟨⟩))
      ⊢ wp frame (wpE (defs₀ (F := F)) Variants.none c none) E (cc2__output_kernel i arg2 harg2 arg3 harg3 arg4 harg4 arg5 harg5 arg6 harg6) K := by
  simp only [cc2__output_kernel_eq_skeleton]; unfold cc2__output_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The arrays as the region finds them; after the body at point `t` each input's buffer at its block and the
    output's at `out2_4` of the input blocks; nothing kept between points beyond the scoped rest and the generator
    register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRun.lean ====
/-
  The whole program as six segments — the host operations before the first region, the decode region, the host
  operations between, the statistics region, the output region, the final reshape — with the contents of every
  buffer of the core named at each boundary: a host stretch applies its operations to the contents before it; a
  region leaves each of its arrays at what its write-backs fold to and every other buffer as it found it. Every
  weakly fair execution runs through the six segments and ends with every buffer at the last boundary's contents;
  no segment writes an argument array, so each ends as launched.
-/
import proofs.«150782_j29695403885316_1_alg».proof.Proof.KRegion0
import proofs.«150782_j29695403885316_1_alg».proof.Proof.KRegion1
import proofs.«150782_j29695403885316_1_alg».proof.Proof.KRegion2
import proofs.«150782_j29695403885316_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev W0 : Dev nD → Valuation τ sig (Elt F) := fun c b => (s₀ m ρ).mem ((c : Dev nD), b)
/-- After the first host stretch: the decode region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/- At the decode region's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second host stretch: the statistics region's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/- At the statistics region's exit, which is the output region's entry. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/- At the output region's exit. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
/-- After the final reshape. -/
abbrev W6 : Dev nD → Valuation τ sig (Elt F) := fun c => StableHlo.after hostOps3 (W5 m ρ c)

/-! ## No segment writes an argument array -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := StableHlo.after_of_writes_sub hostOps3 _ hostOps3_writes (by decide : main_arg0 ∉ hostOps3_W)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := W2_of_ne m ρ c main_arg0 (by decide)
    _ = W0 m ρ c (Proc.devRef .tc main_arg0) := StableHlo.after_of_writes_sub hostOps0 _ hostOps0_writes (by decide : main_arg0 ∉ hostOps0_W)
    _ = m ((c : Thread nD τ).loc main_arg0) := rfl
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := StableHlo.after_of_writes_sub hostOps3 _ hostOps3_writes (by decide : main_arg1 ∉ hostOps3_W)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := StableHlo.after_of_writes_sub hostOps3 _ hostOps3_writes (by decide : main_arg2 ∉ hostOps3_W)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := (W2_arr m ρ c 4).trans (((dat0 (V1 m ρ) c).arrAt_in 4 rfl _).trans (A_eq0 (V1 m ρ) c 4))
    _ = W0 m ρ c (Proc.devRef .tc main_arg2) := StableHlo.after_of_writes_sub hostOps0 _ hostOps0_writes (by decide : main_arg2 ∉ hostOps0_W)
    _ = m ((c : Thread nD τ).loc main_arg2) := rfl
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := StableHlo.after_of_writes_sub hostOps3 _ hostOps3_writes (by decide : main_arg3 ∉ hostOps3_W)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := StableHlo.after_of_writes_sub hostOps3 _ hostOps3_writes (by decide : main_arg4 ∉ hostOps3_W)
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := (W2_arr m ρ c 1).trans (((dat0 (V1 m ρ) c).arrAt_in 1 rfl _).trans (A_eq0 (V1 m ρ) c 1))
    _ = W0 m ρ c (Proc.devRef .tc main_arg4) := StableHlo.after_of_writes_sub hostOps0 _ hostOps0_writes (by decide : main_arg4 ∉ hostOps0_W)
    _ = m ((c : Thread nD τ).loc main_arg4) := rfl
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := StableHlo.after_of_writes_sub hostOps3 _ hostOps3_writes (by decide : main_arg5 ∉ hostOps3_W)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := StableHlo.after_of_writes_sub hostOps3 _ hostOps3_writes (by decide : main_arg6 ∉ hostOps3_W)
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide : main_arg6 ∉ hostOps1_W)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl
theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := StableHlo.after_of_writes_sub hostOps3 _ hostOps3_writes (by decide : main_arg7 ∉ hostOps3_W)
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide : main_arg7 ∉ hostOps1_W)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)
    _ = m ((c : Thread nD τ).loc main_arg7) := rfl
theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := StableHlo.after_of_writes_sub hostOps3 _ hostOps3_writes (by decide : main_arg8 ∉ hostOps3_W)
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide : main_arg8 ∉ hostOps1_W)
    _ = W1 m ρ c (Proc.devRef .tc main_arg8) := (W2_arr m ρ c 5).trans (((dat0 (V1 m ρ) c).arrAt_in 5 rfl _).trans (A_eq0 (V1 m ρ) c 5))
    _ = W0 m ρ c (Proc.devRef .tc main_arg8) := StableHlo.after_of_writes_sub hostOps0 _ hostOps0_writes (by decide : main_arg8 ∉ hostOps0_W)
    _ = m ((c : Thread nD τ).loc main_arg8) := rfl
theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := StableHlo.after_of_writes_sub hostOps3 _ hostOps3_writes (by decide : main_arg9 ∉ hostOps3_W)
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide : main_arg9 ∉ hostOps1_W)
    _ = W1 m ρ c (Proc.devRef .tc main_arg9) := W2_of_ne m ρ c main_arg9 (by decide)
    _ = W0 m ρ c (Proc.devRef .tc main_arg9) := StableHlo.after_of_writes_sub hostOps0 _ hostOps0_writes (by decide : main_arg9 ∉ hostOps0_W)
    _ = m ((c : Thread nD τ).loc main_arg9) := rfl
theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := StableHlo.after_of_writes_sub hostOps3 _ hostOps3_writes (by decide : main_arg10 ∉ hostOps3_W)
    _ = W4 m ρ c (Proc.devRef .tc main_arg10) := W5_of_ne m ρ c main_arg10 (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide : main_arg10 ∉ hostOps1_W)
    _ = W1 m ρ c (Proc.devRef .tc main_arg10) := W2_of_ne m ρ c main_arg10 (by decide)
    _ = W0 m ρ c (Proc.devRef .tc main_arg10) := StableHlo.after_of_writes_sub hostOps0 _ hostOps0_writes (by decide : main_arg10 ∉ hostOps0_W)
    _ = m ((c : Thread nD τ).loc main_arg10) := rfl

/-! ## The proof data family and the thread state -/

abbrev hadm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) hadm p) c
  | ⟨0, _⟩ => fun c => dat0 (V1 m ρ) c
  | ⟨1, _⟩ => fun c => dat1 (V3 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- The decode region: entered from every buffer at `W1`, left at `W2`. -/
def reg0 : Pipeline.RegionSeg (pcfgs (F := F)) hadm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) hadm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) hadm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The statistics region: entered from `W3`, left at `W4`; its invariant carries the two scratch columns. -/
def reg1 : Pipeline.RegionSeg (pcfgs (F := F)) hadm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) hadm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) hadm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output region: entered from `W4`, left at `W5`. -/
def reg2 : Pipeline.RegionSeg (pcfgs (F := F)) hadm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) hadm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) hadm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) hadm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)) ]

theorem main_run (c : Dev nD) : main (F := F) c = Pipeline.Seg.run (segs m ρ) := (main_chain c).trans (by chain_rfl)

set_option backward.isDefEq.respectTransparency.types false in
/-- Every weakly fair execution of the program terminates, nothing faulting, with every unscoped buffer of every core
    at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) hadm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The frame: the program runs and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c),
      (h c _ (mem_uc main_arg9 (by decide))).trans (W6_main_arg9 m ρ c),
      (h c _ (mem_uc main_arg10 (by decide))).trans (W6_main_arg10 m ρ c)⟩) (run_all m ρ)

end Cert.Kernel.Hand

end
-- ==== Proof.KIRegion0.lean ====
/-
  The first pipelined region (the decode kernel): grid point b takes batch row b's 51 embedded inputs and its 128
  encoder rows, and the whole of the input weights, the two bias rows and the output weights, and leaves two
  blocks: the gated hidden state h = (1 − z) · n of the 51 steps, and tanh of [h, attention context] times the
  output weights. Both are functions of the six input blocks alone. Stated at any contents `V` of the buffers
  when the region is entered, and at any float instance.
-/
import proofs.«150782_j29695403885316_1_alg».proof.Proof.Gen.KernelIdeal.Launch
import proofs.«150782_j29695403885316_1_alg».proof.Proof.Gen.KernelIdeal.Skeleton
import proofs.«150782_j29695403885316_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/- An input window's current staging buffer holds its block at every point, whether the point fetches it or the
   block index has not moved since the last fetch (the weights and biases are fetched once). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and both stores go through the whole block -/

abbrev ri0_0 : Rect S1x51x256 := Rect.unit (s := S1x51x256) ![0, 0, 0] S1x51x256.size inb_S1x51x256_S1x51x256_0_0_0
abbrev ri0_1 : Rect S1536x256 := Rect.unit (s := S1536x256) ![0, 0] S1536x256.size inb_S1536x256_S1536x256_0_0
abbrev ri0_2 : Rect S1x1536 := Rect.unit (s := S1x1536) ![0, 0] S1x1536.size inb_S1x1536_S1x1536_0_0
abbrev ri0_3 : Rect S1x1536 := Rect.unit (s := S1x1536) ![0, 0] S1x1536.size inb_S1x1536_S1x1536_0_0
abbrev ri0_4 : Rect S1x128x512 := Rect.unit (s := S1x128x512) ![0, 0, 0] S1x128x512.size inb_S1x128x512_S1x128x512_0_0_0
abbrev ri0_5 : Rect S512x1024 := Rect.unit (s := S512x1024) ![0, 0] S512x1024.size inb_S512x1024_S512x1024_0_0
abbrev ro0 : Rect S1x51x512 := Rect.unit (s := S1x51x512) ![0, 0, 0] S1x51x512.size inb_S1x51x512_S1x51x512_0_0_0

/-- What the body leaves in the hidden-state block, from the input blocks. -/
def out0_6 (x0 : Vec F S1x51x256 .f32) (x1 : Vec F S1536x256 .f32) (x2 : Vec F S1x1536 .f32) (x3 : Vec F S1x1536 .f32) (x4 : Vec F S1x128x512 .f32) (x5 : Vec F S512x1024 .f32) : Vec F S1x51x512 .f32 :=
  View.canon [⟨ro0, k0_pay1 (k0_pay3 (View.ld x0 ri0_0) (View.ld x1 ri0_1) (View.ld x2 ri0_2) (View.ld x3 ri0_3))⟩]

/-- What the body leaves in the projected-output block, from the input blocks. -/
def out0_7 (x0 : Vec F S1x51x256 .f32) (x1 : Vec F S1536x256 .f32) (x2 : Vec F S1x1536 .f32) (x3 : Vec F S1x1536 .f32) (x4 : Vec F S1x128x512 .f32) (x5 : Vec F S512x1024 .f32) : Vec F S1x51x512 .f32 :=
  View.canon [⟨ro0, k0_pay2 (k0_pay3 (View.ld x0 ri0_0) (View.ld x1 ri0_1) (View.ld x2 ri0_2) (View.ld x3 ri0_3)) (k0_pay4 (View.ld x4 ri0_4)) (k0_pay5 (View.ld x0 ri0_0) (View.ld x1 ri0_1) (View.ld x2 ri0_2) (View.ld x3 ri0_3) (View.ld x4 ri0_4)) (k0_pay6 (View.ld x0 ri0_0) (View.ld x1 ri0_1) (View.ld x2 ri0_2) (View.ld x3 ri0_3) (View.ld x4 ri0_4)) (View.ld x5 ri0_5)⟩]

/-- One store through the whole block covers it. -/
theorem cover0_o (p0 : Vec F S1x51x512 .f32) (y : S1x51x512.Idx) :
    ∃ pc ∈ ([⟨ro0, p0⟩] : List (View.Piece (Elt F) S1x51x512 .f32)), y ∈ pc.1.set :=
  View.cover_of_tiled [⟨ro0, p0⟩] S1x51x512.size (by rfl) y

/-! ## The body's triple -/

set_option maxHeartbeats 4000000 in
/-- On whole staging buffers, the inputs' at contents `x0 … x5` and the outputs' at anything, the body runs to the end
    with the inputs as they were and the two outputs at `out0_6`, `out0_7` of them. -/
theorem sound_kernel0 (c : Dev nD) (E : Set ℕ) (i : grid0.Coords) (arg1 : Memref sig .tc .vmem S1x51x256 .f32) (harg1 : arg1.IsWhole) (arg2 : Memref sig .tc .vmem S1536x256 .f32) (harg2 : arg2.IsWhole) (arg3 : Memref sig .tc .vmem S1x1536 .f32) (harg3 : arg3.IsWhole) (arg4 : Memref sig .tc .vmem S1x1536 .f32) (harg4 : arg4.IsWhole) (arg5 : Memref sig .tc .vmem S1x128x512 .f32) (harg5 : arg5.IsWhole) (arg6 : Memref sig .tc .vmem S512x1024 .f32) (harg6 : arg6.IsWhole) (arg7 : Memref sig .tc .vmem S1x51x512 .f32) (harg7 : arg7.IsWhole) (arg8 : Memref sig .tc .vmem S1x51x512 .f32) (harg8 : arg8.IsWhole)
    (x0 : Vec F S1x51x256 .f32) (x1 : Vec F S1536x256 .f32) (x2 : Vec F S1x1536 .f32) (x3 : Vec F S1x1536 .f32) (x4 : Vec F S1x128x512 .f32) (x5 : Vec F S512x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__decode_kernel i arg1 harg1 arg2 harg2 arg3 harg3 arg4 harg4 arg5 harg5 arg6 harg6 arg7 harg7 arg8 harg8) K := by
  simp only [cc0__decode_kernel_eq_skeleton]; unfold cc0__decode_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_o _)
  iexists _; isplitr
  swap; · iexact H7
  ipureintro
  exact View.read_writes_eq_canon _ _ _ (cover0_o _)

/-! ## The pipeline's proof data -/

/-- The arrays as the region finds them; after the body at point `t` each input's buffer at its block and the two
    outputs' at `out0_6`, `out0_7` of the input blocks; nothing kept between points beyond the scoped rest and the
    generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIR1Runs.lean ====
/-
  The second pipelined region (the statistics kernel), what its three kinds of grid point share. Grid point (i, v)
  takes 408 rows of activations and the v-th tile of 1280 class weights and biases, and keeps per row, in two
  scratch columns carried from tile to tile, the running maximum of the class scores seen so far and the running sum
  of their exponentials rescaled to that maximum. At the first tile of a row block the two columns are reset
  (−∞ and 0) before the update; at the last tile the row's log-sum-exp, maximum + log sum, is stored into the output
  block, which is left untouched (and not written back) at every other tile.
-/
import proofs.«150782_j29695403885316_1_alg».proof.Proof.Gen.KernelIdeal.Launch
import proofs.«150782_j29695403885316_1_alg».proof.Proof.Gen.KernelIdeal.Skeleton
import proofs.«150782_j29695403885316_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/- An input window's current staging buffer holds its block at every point, fetched there or not (the activations'
   block index moves only with the row block). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions on the tile coordinate, in closed form over the 8 × 25 grid -/

/-- "This is the first tile": the coordinate compared with zero, as the body spells it. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 25 = 0 :=
  (by decide +kernel : ∀ t : Fin grid1.N, cond1_0 (grid1.coords t) ↔ t.val % 25 = 0)

/-- "This is the last tile". -/
abbrev cond1_1 (i : grid1.Coords) : Prop := k1_cond2 i = 1#1
theorem hcond1_1 : ∀ t : Fin cfg1.N, cond1_1 (grid1.coords t) ↔ t.val % 25 = 24 :=
  (by decide +kernel : ∀ t : Fin grid1.N, cond1_1 (grid1.coords t) ↔ t.val % 25 = 24)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last tile the output block is idle and is not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At the last tile it is live. -/
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated (the choice does not matter). -/
abbrev VO1_3 : View sig .tc .vmem S408x1 .f32 := (Memref.whole cc1_stg3_0 : Memref sig .tc .vmem S408x1 .f32).view
abbrev ms1_0 (t : Fin cfg1.N) : Memref sig .tc .vmem S408x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1280x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1280 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S408x1 .f32 := win1_3.stage (cfg1.slots t 3)
abbrev hs1_3 (t : Fin cfg1.N) : (ms1_3 t).IsWhole := hstage1_3 ((cfg1.slots t 3).cast nbuf1_3)
/-- The two scratch columns: the running maximum and the running sum. -/
abbrev scM1_0 : Memref sig .tc .vmem S408x1 .f32 := Memref.whole cc1_scratch0
abbrev scM1_1 : Memref sig .tc .vmem S408x1 .f32 := Memref.whole cc1_scratch1
abbrev VS1_0 : View sig .tc .vmem S408x1 .f32 := scM1_0.view
abbrev VS1_1 : View sig .tc .vmem S408x1 .f32 := scM1_1.view

/-! ## The body's run, case by case: what its stores leave, as pieces (last first) -/

set_option maxHeartbeats 4000000 in
/-- FIRST TILE (reset, then update; no output store). The inputs at their contents, the output block at contents
    `xi3` handed back untouched, the two scratch columns at anything. -/
noncomputable def kernelRun1_A (c : Dev nD) (i : grid1.Coords) (arg2 : Memref sig .tc .vmem S408x512 .bf16) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S408x1 .f32) (harg5 : arg5.IsWhole) (arg6 : Memref sig .tc .vmem S408x1 .f32) (harg6 : arg6.IsWhole) (arg7 : Memref sig .tc .vmem S408x1 .f32) (harg7 : arg7.IsWhole) (hc0 : cond1_0 i) (hc1 : ¬cond1_1 i)
    (x0 : Vec F S408x512 .bf16) (x1 : Vec F S1280x512 .bf16) (x2 : Vec F S1x1280 .f32) :
    Σ' (L3 : List (View.Piece (Elt F) S408x1 .f32)) (LS0 : List (View.Piece (Elt F) S408x1 .f32)), { LS1 : List (View.Piece (Elt F) S408x1 .f32) //
      ∀ (xi3 : Vec F S408x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__stats_kernel i arg2 harg2 arg3 harg3 arg4 harg4 arg5 harg5 arg6 harg6 arg7 harg7) K } := by
  refine ⟨[], ?_, ?_, fun xi3 E K => ?run⟩
  case run =>
    simp only [cc1__stats_kernel_eq_skeleton]; unfold cc1__stats_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d6, %fs0, -, HS0⟩, ⟨%d7, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 4000000 in
/-- A MIDDLE TILE (update only). The scratch columns at what the point before left, `xs0`, `xs1`. -/
noncomputable def kernelRun1_B (c : Dev nD) (i : grid1.Coords) (arg2 : Memref sig .tc .vmem S408x512 .bf16) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S408x1 .f32) (harg5 : arg5.IsWhole) (arg6 : Memref sig .tc .vmem S408x1 .f32) (harg6 : arg6.IsWhole) (arg7 : Memref sig .tc .vmem S408x1 .f32) (harg7 : arg7.IsWhole) (hc0 : ¬cond1_0 i) (hc1 : ¬cond1_1 i)
    (x0 : Vec F S408x512 .bf16) (x1 : Vec F S1280x512 .bf16) (x2 : Vec F S1x1280 .f32) (xs0 xs1 : Vec F S408x1 .f32) :
    Σ' (L3 : List (View.Piece (Elt F) S408x1 .f32)) (LS0 : List (View.Piece (Elt F) S408x1 .f32)), { LS1 : List (View.Piece (Elt F) S408x1 .f32) //
      ∀ (xi3 : Vec F S408x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__stats_kernel i arg2 harg2 arg3 harg3 arg4 harg4 arg5 harg5 arg6 harg6 arg7 harg7) K } := by
  refine ⟨[], ?_, ?_, fun xi3 E K => ?run⟩
  case run =>
    simp only [cc1__stats_kernel_eq_skeleton]; unfold cc1__stats_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 4000000 in
/-- THE LAST TILE (update, then the output store). The output block at anything. -/
noncomputable def kernelRun1_C (c : Dev nD) (i : grid1.Coords) (arg2 : Memref sig .tc .vmem S408x512 .bf16) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S408x1 .f32) (harg5 : arg5.IsWhole) (arg6 : Memref sig .tc .vmem S408x1 .f32) (harg6 : arg6.IsWhole) (arg7 : Memref sig .tc .vmem S408x1 .f32) (harg7 : arg7.IsWhole) (hc0 : ¬cond1_0 i) (hc1 : cond1_1 i)
    (x0 : Vec F S408x512 .bf16) (x1 : Vec F S1280x512 .bf16) (x2 : Vec F S1x1280 .f32) (xs0 xs1 : Vec F S408x1 .f32) :
    Σ' (L3 : List (View.Piece (Elt F) S408x1 .f32)) (LS0 : List (View.Piece (Elt F) S408x1 .f32)), { LS1 : List (View.Piece (Elt F) S408x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__stats_kernel i arg2 harg2 arg3 harg3 arg4 harg4 arg5 harg5 arg6 harg6 arg7 harg7) K } := by
  refine ⟨?_, ?_, ?_, fun E K => ?run⟩
  case run =>
    simp only [cc1__stats_kernel_eq_skeleton]; unfold cc1__stats_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.KernelIdeal.Hand

end
-- ==== Proof.KIRegion1.lean ====
/-
  The second pipelined region (the statistics kernel): what the two carried scratch columns and the output block
  hold after each grid point, the region's invariant from point to point, its proof data and the body obligation.
  After a point the running-maximum column and the running-sum column hold what that point's stores left, computed
  from the point's three input blocks and — except at the first tile of a row block, which resets them first —
  from what the point before left; the output block is stored at the last tile of a row block only.
-/
import proofs.«150782_j29695403885316_1_alg».proof.Proof.KIR1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case's stores leave: they cover the column, so the column's contents are those pieces read back -/

theorem scover1_A_0 (c : Dev nD) (i : grid1.Coords) (arg2 : Memref sig .tc .vmem S408x512 .bf16) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S408x1 .f32) (harg5 : arg5.IsWhole) (arg6 : Memref sig .tc .vmem S408x1 .f32) (harg6 : arg6.IsWhole) (arg7 : Memref sig .tc .vmem S408x1 .f32) (harg7 : arg7.IsWhole) (hc0 : cond1_0 i) (hc1 : ¬cond1_1 i)
    (x0 : Vec F S408x512 .bf16) (x1 : Vec F S1280x512 .bf16) (x2 : Vec F S1x1280 .f32) (y : S408x1.Idx) :
    ∃ pc ∈ (kernelRun1_A c i arg2 harg2 arg3 harg3 arg4 harg4 arg5 harg5 arg6 harg6 arg7 harg7 hc0 hc1 x0 x1 x2).2.1, y ∈ pc.1.set :=
  View.cover_of_tiledL (kernelRun1_A c i arg2 harg2 arg3 harg3 arg4 harg4 arg5 harg5 arg6 harg6 arg7 harg7 hc0 hc1 x0 x1 x2).2.1 S408x1.size (by sl_kernel_rfl) y

def sout1_A_0 (c : Dev nD) (i : grid1.Coords) (arg2 : Memref sig .tc .vmem S408x512 .bf16) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S408x1 .f32) (harg5 : arg5.IsWhole) (arg6 : Memref sig .tc .vmem S408x1 .f32) (harg6 : arg6.IsWhole) (arg7 : Memref sig .tc .vmem S408x1 .f32) (harg7 : arg7.IsWhole) (hc0 : cond1_0 i) (hc1 : ¬cond1_1 i)
    (x0 : Vec F S408x512 .bf16) (x1 : Vec F S1280x512 .bf16) (x2 : Vec F S1x1280 .f32) : Vec F S408x1 .f32 :=
  VS1_0.read (Elt F) (VS1_0.writes (Elt F) VS1_0.junk (kernelRun1_A c i arg2 harg2 arg3 harg3 arg4 harg4 arg5 harg5 arg6 harg6 arg7 harg7 hc0 hc1 x0 x1 x2).2.1)

theorem scover1_A_1 (c : Dev nD) (i : grid1.Coords) (arg2 : Memref sig .tc .vmem S408x512 .bf16) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S408x1 .f32) (harg5 : arg5.IsWhole) (arg6 : Memref sig .tc .vmem S408x1 .f32) (harg6 : arg6.IsWhole) (arg7 : Memref sig .tc .vmem S408x1 .f32) (harg7 : arg7.IsWhole) (hc0 : cond1_0 i) (hc1 : ¬cond1_1 i)
    (x0 : Vec F S408x512 .bf16) (x1 : Vec F S1280x512 .bf16) (x2 : Vec F S1x1280 .f32) (y : S408x1.Idx) :
    ∃ pc ∈ (kernelRun1_A c i arg2 harg2 arg3 harg3 arg4 harg4 arg5 harg5 arg6 harg6 arg7 harg7 hc0 hc1 x0 x1 x2).2.2.1, y ∈ pc.1.set :=
  View.cover_of_tiledL (kernelRun1_A c i arg2 harg2 arg3 harg3 arg4 harg4 arg5 harg5 arg6 harg6 arg7 harg7 hc0 hc1 x0 x1 x2).2.2.1 S408x1.size (by sl_kernel_rfl) y

def sout1_A_1 (c : Dev nD) (i : grid1.Coords) (arg2 : Memref sig .tc .vmem S408x512 .bf16) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S408x1 .f32) (harg5 : arg5.IsWhole) (arg6 : Memref sig .tc .vmem S408x1 .f32) (harg6 : arg6.IsWhole) (arg7 : Memref sig .tc .vmem S408x1 .f32) (harg7 : arg7.IsWhole) (hc0 : cond1_0 i) (hc1 : ¬cond1_1 i)
    (x0 : Vec F S408x512 .bf16) (x1 : Vec F S1280x512 .bf16) (x2 : Vec F S1x1280 .f32) : Vec F S408x1 .f32 :=
  VS1_1.read (Elt F) (VS1_1.writes (Elt F) VS1_1.junk (kernelRun1_A c i arg2 harg2 arg3 harg3 arg4 harg4 arg5 harg5 arg6 harg6 arg7 harg7 hc0 hc1 x0 x1 x2).2.2.1)

theorem scover1_B_0 (c : Dev nD) (i : grid1.Coords) (arg2 : Memref sig .tc .vmem S408x512 .bf16) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S408x1 .f32) (harg5 : arg5.IsWhole) (arg6 : Memref sig .tc .vmem S408x1 .f32) (harg6 : arg6.IsWhole) (arg7 : Memref sig .tc .vmem S408x1 .f32) (harg7 : arg7.IsWhole) (hc0 : ¬cond1_0 i) (hc1 : ¬cond1_1 i)
    (x0 : Vec F S408x512 .bf16) (x1 : Vec F S1280x512 .bf16) (x2 : Vec F S1x1280 .f32) (xs0 xs1 : Vec F S408x1 .f32) (y : S408x1.Idx) :
    ∃ pc ∈ (kernelRun1_B c i arg2 harg2 arg3 harg3 arg4 harg4 arg5 harg5 arg6 harg6 arg7 harg7 hc0 hc1 x0 x1 x2 xs0 xs1).2.1, y ∈ pc.1.set :=
  View.cover_of_tiledL (kernelRun1_B c i arg2 harg2 arg3 harg3 arg4 harg4 arg5 harg5 arg6 harg6 arg7 harg7 hc0 hc1 x0 x1 x2 xs0 xs1).2.1 S408x1.size (by sl_kernel_rfl) y

def sout1_B_0 (c : Dev nD) (i : grid1.Coords) (arg2 : Memref sig .tc .vmem S408x512 .bf16) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S408x1 .f32) (harg5 : arg5.IsWhole) (arg6 : Memref sig .tc .vmem S408x1 .f32) (harg6 : arg6.IsWhole) (arg7 : Memref sig .tc .vmem S408x1 .f32) (harg7 : arg7.IsWhole) (hc0 : ¬cond1_0 i) (hc1 : ¬cond1_1 i)
    (x0 : Vec F S408x512 .bf16) (x1 : Vec F S1280x512 .bf16) (x2 : Vec F S1x1280 .f32) (xs0 xs1 : Vec F S408x1 .f32) : Vec F S408x1 .f32 :=
  VS1_0.read (Elt F) (VS1_0.writes (Elt F) VS1_0.junk (kernelRun1_B c i arg2 harg2 arg3 harg3 arg4 harg4 arg5 harg5 arg6 harg6 arg7 harg7 hc0 hc1 x0 x1 x2 xs0 xs1).2.1)

theorem scover1_B_1 (c : Dev nD) (i : grid1.Coords) (arg2 : Memref sig .tc .vmem S408x512 .bf16) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S408x1 .f32) (harg5 : arg5.IsWhole) (arg6 : Memref sig .tc .vmem S408x1 .f32) (harg6 : arg6.IsWhole) (arg7 : Memref sig .tc .vmem S408x1 .f32) (harg7 : arg7.IsWhole) (hc0 : ¬cond1_0 i) (hc1 : ¬cond1_1 i)
    (x0 : Vec F S408x512 .bf16) (x1 : Vec F S1280x512 .bf16) (x2 : Vec F S1x1280 .f32) (xs0 xs1 : Vec F S408x1 .f32) (y : S408x1.Idx) :
    ∃ pc ∈ (kernelRun1_B c i arg2 harg2 arg3 harg3 arg4 harg4 arg5 harg5 arg6 harg6 arg7 harg7 hc0 hc1 x0 x1 x2 xs0 xs1).2.2.1, y ∈ pc.1.set :=
  View.cover_of_tiledL (kernelRun1_B c i arg2 harg2 arg3 harg3 arg4 harg4 arg5 harg5 arg6 harg6 arg7 harg7 hc0 hc1 x0 x1 x2 xs0 xs1).2.2.1 S408x1.size (by sl_kernel_rfl) y

def sout1_B_1 (c : Dev nD) (i : grid1.Coords) (arg2 : Memref sig .tc .vmem S408x512 .bf16) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S408x1 .f32) (harg5 : arg5.IsWhole) (arg6 : Memref sig .tc .vmem S408x1 .f32) (harg6 : arg6.IsWhole) (arg7 : Memref sig .tc .vmem S408x1 .f32) (harg7 : arg7.IsWhole) (hc0 : ¬cond1_0 i) (hc1 : ¬cond1_1 i)
    (x0 : Vec F S408x512 .bf16) (x1 : Vec F S1280x512 .bf16) (x2 : Vec F S1x1280 .f32) (xs0 xs1 : Vec F S408x1 .f32) : Vec F S408x1 .f32 :=
  VS1_1.read (Elt F) (VS1_1.writes (Elt F) VS1_1.junk (kernelRun1_B c i arg2 harg2 arg3 harg3 arg4 harg4 arg5 harg5 arg6 harg6 arg7 harg7 hc0 hc1 x0 x1 x2 xs0 xs1).2.2.1)

theorem scover1_C_0 (c : Dev nD) (i : grid1.Coords) (arg2 : Memref sig .tc .vmem S408x512 .bf16) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S408x1 .f32) (harg5 : arg5.IsWhole) (arg6 : Memref sig .tc .vmem S408x1 .f32) (harg6 : arg6.IsWhole) (arg7 : Memref sig .tc .vmem S408x1 .f32) (harg7 : arg7.IsWhole) (hc0 : ¬cond1_0 i) (hc1 : cond1_1 i)
    (x0 : Vec F S408x512 .bf16) (x1 : Vec F S1280x512 .bf16) (x2 : Vec F S1x1280 .f32) (xs0 xs1 : Vec F S408x1 .f32) (y : S408x1.Idx) :
    ∃ pc ∈ (kernelRun1_C c i arg2 harg2 arg3 harg3 arg4 harg4 arg5 harg5 arg6 harg6 arg7 harg7 hc0 hc1 x0 x1 x2 xs0 xs1).2.1, y ∈ pc.1.set :=
  View.cover_of_tiledL (kernelRun1_C c i arg2 harg2 arg3 harg3 arg4 harg4 arg5 harg5 arg6 harg6 arg7 harg7 hc0 hc1 x0 x1 x2 xs0 xs1).2.1 S408x1.size (by sl_kernel_rfl) y

def sout1_C_0 (c : Dev nD) (i : grid1.Coords) (arg2 : Memref sig .tc .vmem S408x512 .bf16) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S408x1 .f32) (harg5 : arg5.IsWhole) (arg6 : Memref sig .tc .vmem S408x1 .f32) (harg6 : arg6.IsWhole) (arg7 : Memref sig .tc .vmem S408x1 .f32) (harg7 : arg7.IsWhole) (hc0 : ¬cond1_0 i) (hc1 : cond1_1 i)
    (x0 : Vec F S408x512 .bf16) (x1 : Vec F S1280x512 .bf16) (x2 : Vec F S1x1280 .f32) (xs0 xs1 : Vec F S408x1 .f32) : Vec F S408x1 .f32 :=
  VS1_0.read (Elt F) (VS1_0.writes (Elt F) VS1_0.junk (kernelRun1_C c i arg2 harg2 arg3 harg3 arg4 harg4 arg5 harg5 arg6 harg6 arg7 harg7 hc0 hc1 x0 x1 x2 xs0 xs1).2.1)

theorem scover1_C_1 (c : Dev nD) (i : grid1.Coords) (arg2 : Memref sig .tc .vmem S408x512 .bf16) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S408x1 .f32) (harg5 : arg5.IsWhole) (arg6 : Memref sig .tc .vmem S408x1 .f32) (harg6 : arg6.IsWhole) (arg7 : Memref sig .tc .vmem S408x1 .f32) (harg7 : arg7.IsWhole) (hc0 : ¬cond1_0 i) (hc1 : cond1_1 i)
    (x0 : Vec F S408x512 .bf16) (x1 : Vec F S1280x512 .bf16) (x2 : Vec F S1x1280 .f32) (xs0 xs1 : Vec F S408x1 .f32) (y : S408x1.Idx) :
    ∃ pc ∈ (kernelRun1_C c i arg2 harg2 arg3 harg3 arg4 harg4 arg5 harg5 arg6 harg6 arg7 harg7 hc0 hc1 x0 x1 x2 xs0 xs1).2.2.1, y ∈ pc.1.set :=
  View.cover_of_tiledL (kernelRun1_C c i arg2 harg2 arg3 harg3 arg4 harg4 arg5 harg5 arg6 harg6 arg7 harg7 hc0 hc1 x0 x1 x2 xs0 xs1).2.2.1 S408x1.size (by sl_kernel_rfl) y

def sout1_C_1 (c : Dev nD) (i : grid1.Coords) (arg2 : Memref sig .tc .vmem S408x512 .bf16) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S408x1 .f32) (harg5 : arg5.IsWhole) (arg6 : Memref sig .tc .vmem S408x1 .f32) (harg6 : arg6.IsWhole) (arg7 : Memref sig .tc .vmem S408x1 .f32) (harg7 : arg7.IsWhole) (hc0 : ¬cond1_0 i) (hc1 : cond1_1 i)
    (x0 : Vec F S408x512 .bf16) (x1 : Vec F S1280x512 .bf16) (x2 : Vec F S1x1280 .f32) (xs0 xs1 : Vec F S408x1 .f32) : Vec F S408x1 .f32 :=
  VS1_1.read (Elt F) (VS1_1.writes (Elt F) VS1_1.junk (kernelRun1_C c i arg2 harg2 arg3 harg3 arg4 harg4 arg5 harg5 arg6 harg6 arg7 harg7 hc0 hc1 x0 x1 x2 xs0 xs1).2.2.1)

theorem cover1_C_3 (c : Dev nD) (i : grid1.Coords) (arg2 : Memref sig .tc .vmem S408x512 .bf16) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S408x1 .f32) (harg5 : arg5.IsWhole) (arg6 : Memref sig .tc .vmem S408x1 .f32) (harg6 : arg6.IsWhole) (arg7 : Memref sig .tc .vmem S408x1 .f32) (harg7 : arg7.IsWhole) (hc0 : ¬cond1_0 i) (hc1 : cond1_1 i)
    (x0 : Vec F S408x512 .bf16) (x1 : Vec F S1280x512 .bf16) (x2 : Vec F S1x1280 .f32) (xs0 xs1 : Vec F S408x1 .f32) (y : S408x1.Idx) :
    ∃ pc ∈ (kernelRun1_C c i arg2 harg2 arg3 harg3 arg4 harg4 arg5 harg5 arg6 harg6 arg7 harg7 hc0 hc1 x0 x1 x2 xs0 xs1).1, y ∈ pc.1.set :=
  View.cover_of_tiledL (kernelRun1_C c i arg2 harg2 arg3 harg3 arg4 harg4 arg5 harg5 arg6 harg6 arg7 harg7 hc0 hc1 x0 x1 x2 xs0 xs1).1 S408x1.size (by sl_kernel_rfl) y

def out1_C_3 (c : Dev nD) (i : grid1.Coords) (arg2 : Memref sig .tc .vmem S408x512 .bf16) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S408x1 .f32) (harg5 : arg5.IsWhole) (arg6 : Memref sig .tc .vmem S408x1 .f32) (harg6 : arg6.IsWhole) (arg7 : Memref sig .tc .vmem S408x1 .f32) (harg7 : arg7.IsWhole) (hc0 : ¬cond1_0 i) (hc1 : cond1_1 i)
    (x0 : Vec F S408x512 .bf16) (x1 : Vec F S1280x512 .bf16) (x2 : Vec F S1x1280 .f32) (xs0 xs1 : Vec F S408x1 .f32) : Vec F S408x1 .f32 :=
  VO1_3.read (Elt F) (VO1_3.writes (Elt F) VO1_3.junk (kernelRun1_C c i arg2 harg2 arg3 harg3 arg4 harg4 arg5 harg5 arg6 harg6 arg7 harg7 hc0 hc1 x0 x1 x2 xs0 xs1).1)

/-! ## What the output block and the two scratch columns hold after each point -/

/-- By recursion on the point: the case the closed forms select, run on the point's input blocks and — away from a
    first tile — on the scratch columns as the point before left them. Where the output block is idle its component
    is a placeholder nothing consults. -/
def outsAt1 (c : Dev nD) : (n : ℕ) → n < cfg1.N → Vec F S408x1 .f32 × Vec F S408x1 .f32 × Vec F S408x1 .f32
  | 0, hn => (Pipeline.Dat.unnamed (cfg := cfg1) 3 ⟨0, hn⟩, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 25 = 0 then
      if h1 : (n + 1) % 25 = 24 then
        False.elim (by omega)
      else
        (Pipeline.Dat.unnamed (cfg := cfg1) 3 ⟨n + 1, hn⟩, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 25 = 24 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)
      else
        (Pipeline.Dat.unnamed (cfg := cfg1) 3 ⟨n + 1, hn⟩, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)

theorem outsAt1_A (c : Dev nD) (t : Fin cfg1.N) (h0 : t.val % 25 = 0) (h1 : ¬t.val % 25 = 24) :
    outsAt1 V c t.val t.isLt = (Pipeline.Dat.unnamed (cfg := cfg1) 3 t, sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 25 = 0) (h1 : ¬t.val % 25 = 24) :
    outsAt1 V c t.val t.isLt = (Pipeline.Dat.unnamed (cfg := cfg1) 3 t, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 25 = 0) (h1 : t.val % 25 = 24) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The core's scoped buffers that are neither a staging buffer of this region nor one of its two scratch columns,
    each whole at some contents: the other two regions' staging buffers. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f))

/-- What the region is handed holds the two scratch columns at some contents beside the rest. -/
theorem PhiA1_split (c : Dev nD) :
    (Pipeline.ΦA spec1 c : sProp 𝕄)
      ⊢ iprop(Rest1 (F := F) c ∗ (∃ d, owns (c : Thread nD τ) scM1_0 fullShare d) ∗ (∃ d, owns (c : Thread nD τ) scM1_1 fullShare d) ∗ (∃ r, prngReg c r)) := by
  unfold Pipeline.ΦA Rest1; rw [scopedRest1_eq]; simp only [scM1_0, scM1_1, owns_whole]
  iintro ⟨⟨A0, A1, A2, A3, A4, A5, A6, A7, A8, A9, A10, A11, A12, A13, A14, A15, A16, A17, A18, A19, A20, A21, A22, A23⟩, Hg⟩
  isplitl [A0 A1 A2 A3 A4 A5 A6 A7 A8 A9 A10 A11 A14 A15 A16 A17 A18 A19 A20 A21 A22 A23]
  ·
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A14]; · iexact A14
      isplitl [A15]; · iexact A15
      isplitl [A16]; · iexact A16
      isplitl [A17]; · iexact A17
      isplitl [A18]; · iexact A18
      isplitl [A19]; · iexact A19
      isplitl [A20]; · iexact A20
      isplitl [A21]; · iexact A21
      isplitl [A22]; · iexact A22
      iexact A23
  isplitl [A12]; · iexact A12
  isplitl [A13]; · iexact A13
  iexact Hg

/-- And conversely. -/
theorem PhiA1_join (c : Dev nD) :
    iprop(Rest1 (F := F) c ∗ (∃ d, owns (c : Thread nD τ) scM1_0 fullShare d) ∗ (∃ d, owns (c : Thread nD τ) scM1_1 fullShare d) ∗ (∃ r, prngReg c r))
      ⊢ (Pipeline.ΦA spec1 c : sProp 𝕄) := by
  unfold Pipeline.ΦA Rest1; rw [scopedRest1_eq]; simp only [scM1_0, scM1_1, owns_whole]
  iintro ⟨⟨A0, A1, A2, A3, A4, A5, A6, A7, A8, A9, A10, A11, A14, A15, A16, A17, A18, A19, A20, A21, A22, A23⟩, A12, A13, Hg⟩
  isplitr [Hg]
  ·
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      isplitl [A13]; · iexact A13
      isplitl [A14]; · iexact A14
      isplitl [A15]; · iexact A15
      isplitl [A16]; · iexact A16
      isplitl [A17]; · iexact A17
      isplitl [A18]; · iexact A18
      isplitl [A19]; · iexact A19
      isplitl [A20]; · iexact A20
      isplitl [A21]; · iexact A21
      isplitl [A22]; · iexact A22
      iexact A23
  iexact Hg

/-- Before the first point what the region is handed; afterwards the rest at anything, the two scratch columns at
    what the point before left, and the generator register at some state. -/
def PhiS1 (c : Dev nD) : (n : ℕ) → n ≤ cfg1.N → sProp 𝕄
  | 0, _ => Pipeline.ΦA spec1 c
  | n + 1, hn => iprop(Rest1 (F := F) c ∗ owns (c : Thread nD τ) scM1_0 fullShare ((outsAt1 V c n hn).2.1)
      ∗ owns (c : Thread nD τ) scM1_1 fullShare ((outsAt1 V c n hn).2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(Rest1 (F := F) c ∗ owns (c : Thread nD τ) scM1_0 fullShare ((outsAt1 V c n hn).2.1)
      ∗ owns (c : Thread nD τ) scM1_1 fullShare ((outsAt1 V c n hn).2.2) ∗ (∃ r, prngReg c r)) := rfl

theorem PhiS1_pos (c : Dev nD) (n : ℕ) (h : n ≤ cfg1.N) (hz : n ≠ 0) :
    PhiS1 V c n h = iprop(Rest1 (F := F) c ∗ owns (c : Thread nD τ) scM1_0 fullShare ((outsAt1 V c (n - 1) (by omega)).2.1)
      ∗ owns (c : Thread nD τ) scM1_1 fullShare ((outsAt1 V c (n - 1) (by omega)).2.2) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The closed forms say which case the point is in; the invariant hands the body the two
    scratch columns at what the point before left (at anything before the very first point, and a first tile needs
    nothing of them) and takes them back at this point's contents; the output block is handed back untouched where
    it is idle; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 200 := lt_of_lt_of_eq t.isLt (show cfg1.N = 200 from N_1)
  by_cases h0 : t.val % 25 = 0
  · by_cases h1 : t.val % 25 = 24
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0 sout1_A_1; (try dsimp only)
      by_cases hz : t.val = 0
      · rw [PhiS1_castSucc V c t, PhiS1_zero V c _ _ hz]
        iintro ⟨HΦ, Ho, ⟨%d0, H0⟩, ⟨%d1, H1⟩, ⟨%d2, H2⟩, ⟨%d3, H3⟩⟩
        ihave HΦ' := (PhiA1_split (F := F) c) $$ HΦ
        icases HΦ' with ⟨HR, HS0, HS1, Hg⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t)).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HR HS0 HS1 Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨HR, HS0, HS1, Hg⟩, Ho, ⟨%d0, H0⟩, ⟨%d1, H1⟩, ⟨%d2, H2⟩, ⟨%d3, H3⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t)).2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HR HS0 HS1 Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 25 = 24
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0 sout1_C_1; (try dsimp only)
      rw [PhiS1_castSucc V c t, PhiS1_pos V c _ _ hz]
      iintro ⟨⟨HR, HS0, HS1, Hg⟩, Ho, ⟨%d0, H0⟩, ⟨%d1, H1⟩, ⟨%d2, H2⟩, ⟨%d3, H3⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HR HS0 HS1 Hg]
      · isplitl [HR]; · iexact HR
        isplitl [HS0]
        · unfold owns; iexists _; isplitr
          swap; · iexact HS0
          ipureintro; exact View.read_writes_of_cover _ _ _ _ _ (scover1_C_0 c _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0 sout1_B_1; (try dsimp only)
      rw [PhiS1_castSucc V c t, PhiS1_pos V c _ _ hz]
      iintro ⟨⟨HR, HS0, HS1, Hg⟩, Ho, ⟨%d0, H0⟩, ⟨%d1, H1⟩, ⟨%d2, H2⟩, ⟨%d3, H3⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HR HS0 HS1 Hg]
      · isplitl [HR]; · iexact HR
        isplitl [HS0]
        · unfold owns; iexists _; isplitr
          swap; · iexact HS0
          ipureintro; exact View.read_writes_of_cover _ _ _ _ _ (scover1_B_0 c _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-! ## The invariant at the two ends -/

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the region was handed: the named contents of the
    two scratch columns are forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  iintro ⟨HR, HS0, HS1, Hg⟩
  iapply (PhiA1_join (F := F) c)
  isplitl [HR]; · iexact HR
  isplitl [HS0]; · iexists _; iexact HS0
  isplitl [HS1]; · iexists _; iexact HS1
  iexact Hg

theorem hout1 (c : Dev nD) : (dat1 V c).Φ (Fin.last cfg1.N) ⊢ Pipeline.ΦA spec1 c :=
  Phi1_out V c _ (by rw [Fin.val_last]; have : cfg1.N = 200 := N_1; omega)

end Cert.KernelIdeal.Hand

end
-- ==== Proof.KIRegion2.lean ====
/-
  The third pipelined region (the output kernel): each grid point (i, v) takes a block of 408 rows of the
  activations, a block of 1280 rows of the vocabulary weights, the matching 1280 bias entries and the 408 row
  offsets, and leaves in its output block  x · wᵀ + bias − offset, a function of those four blocks alone.
  Stated at any contents `V` of the buffers when the region is entered, and at any float instance.
-/
import proofs.«150782_j29695403885316_1_alg».proof.Proof.Gen.KernelIdeal.Launch
import proofs.«150782_j29695403885316_1_alg».proof.Proof.Gen.KernelIdeal.Skeleton
import proofs.«150782_j29695403885316_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether the point fetches it or
    the block index has not moved since the last fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store go through the whole block -/

abbrev rx2 : Rect S408x512 := Rect.unit (s := S408x512) ![0, 0] S408x512.size inb_S408x512_S408x512_0_0
abbrev rw2 : Rect S1280x512 := Rect.unit (s := S1280x512) ![0, 0] S1280x512.size inb_S1280x512_S1280x512_0_0
abbrev rb2 : Rect S1x1280 := Rect.unit (s := S1x1280) ![0, 0] S1x1280.size inb_S1x1280_S1x1280_0_0
abbrev rl2 : Rect S408x1 := Rect.unit (s := S408x1) ![0, 0] S408x1.size inb_S408x1_S408x1_0_0
abbrev ro2 : Rect S408x1280 := Rect.unit (s := S408x1280) ![0, 0] S408x1280.size inb_S408x1280_S408x1280_0_0

/-- What the body leaves in the output block, from the four input blocks: its one store, through the whole block. -/
def out2_4 (x0 : Vec F S408x512 .bf16) (x1 : Vec F S1280x512 .bf16) (x2 : Vec F S1x1280 .f32) (x3 : Vec F S408x1 .f32) : Vec F S408x1280 .f32 :=
  View.canon [⟨ro2, k2_pay1 (View.ld x0 rx2) (View.ld x1 rw2) (View.ld x2 rb2) (View.ld x3 rl2)⟩]

/-- The one store covers the block. -/
theorem cover2_4 (p0 : Vec F S408x1280 .f32) (y : S408x1280.Idx) :
    ∃ pc ∈ ([⟨ro2, p0⟩] : List (View.Piece (Elt F) S408x1280 .f32)), y ∈ pc.1.set :=
  View.cover_of_tiled [⟨ro2, p0⟩] S408x1280.size (by rfl) y

/-! ## The body's triple -/

set_option maxHeartbeats 1000000 in
/-- On whole staging buffers, the inputs' at contents `x0 … x3` and the output's at anything, the body runs to the
    end with the inputs as they were and the output at `out2_4` of them. -/
theorem sound_kernel2 (c : Dev nD) (E : Set ℕ) (i : grid2.Coords)
    (arg2 : Memref sig .tc .vmem S408x512 .bf16) (harg2 : arg2.IsWhole) (arg3 : Memref sig .tc .vmem S1280x512 .bf16) (harg3 : arg3.IsWhole)
    (arg4 : Memref sig .tc .vmem S1x1280 .f32) (harg4 : arg4.IsWhole) (arg5 : Memref sig .tc .vmem S408x1 .f32) (harg5 : arg5.IsWhole)
    (arg6 : Memref sig .tc .vmem S408x1280 .f32) (harg6 : arg6.IsWhole)
    (x0 : Vec F S408x512 .bf16) (x1 : Vec F S1280x512 .bf16) (x2 : Vec F S1x1280 .f32) (x3 : Vec F S408x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out2_4 x0 x1 x2 x3)) -∗ K ⟨⟩))
      ⊢ wp frame (wpE (defs₀ (F := F)) Variants.none c none) E (cc2__output_kernel i arg2 harg2 arg3 harg3 arg4 harg4 arg5 harg5 arg6 harg6) K := by
  simp only [cc2__output_kernel_eq_skeleton]; unfold cc2__output_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The arrays as the region finds them; after the body at point `t` each input's buffer at its block and the
    output's at `out2_4` of the input blocks; nothing kept between points beyond the scoped rest and the generator
    register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIRun.lean ====
/-
  The whole program as six segments — the host operations before the first region, the decode region, the host
  operations between, the statistics region, the output region, the final reshape — with the contents of every
  buffer of the core named at each boundary: a host stretch applies its operations to the contents before it; a
  region leaves each of its arrays at what its write-backs fold to and every other buffer as it found it. Every
  weakly fair execution runs through the six segments and ends with every buffer at the last boundary's contents;
  no segment writes an argument array, so each ends as launched.
-/
import proofs.«150782_j29695403885316_1_alg».proof.Proof.KIRegion0
import proofs.«150782_j29695403885316_1_alg».proof.Proof.KIRegion1
import proofs.«150782_j29695403885316_1_alg».proof.Proof.KIRegion2
import proofs.«150782_j29695403885316_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev W0 : Dev nD → Valuation τ sig (Elt F) := fun c b => (s₀ m ρ).mem ((c : Dev nD), b)
/-- After the first host stretch: the decode region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/- At the decode region's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second host stretch: the statistics region's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/- At the statistics region's exit, which is the output region's entry. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/- At the output region's exit. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
/-- After the final reshape. -/
abbrev W6 : Dev nD → Valuation τ sig (Elt F) := fun c => StableHlo.after hostOps3 (W5 m ρ c)

/-! ## No segment writes an argument array -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := StableHlo.after_of_writes_sub hostOps3 _ hostOps3_writes (by decide : main_arg0 ∉ hostOps3_W)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := W2_of_ne m ρ c main_arg0 (by decide)
    _ = W0 m ρ c (Proc.devRef .tc main_arg0) := StableHlo.after_of_writes_sub hostOps0 _ hostOps0_writes (by decide : main_arg0 ∉ hostOps0_W)
    _ = m ((c : Thread nD τ).loc main_arg0) := rfl
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := StableHlo.after_of_writes_sub hostOps3 _ hostOps3_writes (by decide : main_arg1 ∉ hostOps3_W)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := StableHlo.after_of_writes_sub hostOps3 _ hostOps3_writes (by decide : main_arg2 ∉ hostOps3_W)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := (W2_arr m ρ c 4).trans (((dat0 (V1 m ρ) c).arrAt_in 4 rfl _).trans (A_eq0 (V1 m ρ) c 4))
    _ = W0 m ρ c (Proc.devRef .tc main_arg2) := StableHlo.after_of_writes_sub hostOps0 _ hostOps0_writes (by decide : main_arg2 ∉ hostOps0_W)
    _ = m ((c : Thread nD τ).loc main_arg2) := rfl
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := StableHlo.after_of_writes_sub hostOps3 _ hostOps3_writes (by decide : main_arg3 ∉ hostOps3_W)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := StableHlo.after_of_writes_sub hostOps3 _ hostOps3_writes (by decide : main_arg4 ∉ hostOps3_W)
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := (W2_arr m ρ c 1).trans (((dat0 (V1 m ρ) c).arrAt_in 1 rfl _).trans (A_eq0 (V1 m ρ) c 1))
    _ = W0 m ρ c (Proc.devRef .tc main_arg4) := StableHlo.after_of_writes_sub hostOps0 _ hostOps0_writes (by decide : main_arg4 ∉ hostOps0_W)
    _ = m ((c : Thread nD τ).loc main_arg4) := rfl
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := StableHlo.after_of_writes_sub hostOps3 _ hostOps3_writes (by decide : main_arg5 ∉ hostOps3_W)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := StableHlo.after_of_writes_sub hostOps3 _ hostOps3_writes (by decide : main_arg6 ∉ hostOps3_W)
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide : main_arg6 ∉ hostOps1_W)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl
theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := StableHlo.after_of_writes_sub hostOps3 _ hostOps3_writes (by decide : main_arg7 ∉ hostOps3_W)
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide : main_arg7 ∉ hostOps1_W)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)
    _ = m ((c : Thread nD τ).loc main_arg7) := rfl
theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := StableHlo.after_of_writes_sub hostOps3 _ hostOps3_writes (by decide : main_arg8 ∉ hostOps3_W)
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide : main_arg8 ∉ hostOps1_W)
    _ = W1 m ρ c (Proc.devRef .tc main_arg8) := (W2_arr m ρ c 5).trans (((dat0 (V1 m ρ) c).arrAt_in 5 rfl _).trans (A_eq0 (V1 m ρ) c 5))
    _ = W0 m ρ c (Proc.devRef .tc main_arg8) := StableHlo.after_of_writes_sub hostOps0 _ hostOps0_writes (by decide : main_arg8 ∉ hostOps0_W)
    _ = m ((c : Thread nD τ).loc main_arg8) := rfl
theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := StableHlo.after_of_writes_sub hostOps3 _ hostOps3_writes (by decide : main_arg9 ∉ hostOps3_W)
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide : main_arg9 ∉ hostOps1_W)
    _ = W1 m ρ c (Proc.devRef .tc main_arg9) := W2_of_ne m ρ c main_arg9 (by decide)
    _ = W0 m ρ c (Proc.devRef .tc main_arg9) := StableHlo.after_of_writes_sub hostOps0 _ hostOps0_writes (by decide : main_arg9 ∉ hostOps0_W)
    _ = m ((c : Thread nD τ).loc main_arg9) := rfl
theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := StableHlo.after_of_writes_sub hostOps3 _ hostOps3_writes (by decide : main_arg10 ∉ hostOps3_W)
    _ = W4 m ρ c (Proc.devRef .tc main_arg10) := W5_of_ne m ρ c main_arg10 (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide : main_arg10 ∉ hostOps1_W)
    _ = W1 m ρ c (Proc.devRef .tc main_arg10) := W2_of_ne m ρ c main_arg10 (by decide)
    _ = W0 m ρ c (Proc.devRef .tc main_arg10) := StableHlo.after_of_writes_sub hostOps0 _ hostOps0_writes (by decide : main_arg10 ∉ hostOps0_W)
    _ = m ((c : Thread nD τ).loc main_arg10) := rfl

/-! ## The proof data family and the thread state -/

abbrev hadm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) hadm p) c
  | ⟨0, _⟩ => fun c => dat0 (V1 m ρ) c
  | ⟨1, _⟩ => fun c => dat1 (V3 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- The decode region: entered from every buffer at `W1`, left at `W2`. -/
def reg0 : Pipeline.RegionSeg (pcfgs (F := F)) hadm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) hadm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) hadm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The statistics region: entered from `W3`, left at `W4`; its invariant carries the two scratch columns. -/
def reg1 : Pipeline.RegionSeg (pcfgs (F := F)) hadm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) hadm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) hadm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output region: entered from `W4`, left at `W5`. -/
def reg2 : Pipeline.RegionSeg (pcfgs (F := F)) hadm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) hadm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) hadm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) hadm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)) ]

theorem main_run (c : Dev nD) : main (F := F) c = Pipeline.Seg.run (segs m ρ) := (main_chain c).trans (by chain_rfl)

set_option backward.isDefEq.respectTransparency.types false in
/-- Every weakly fair execution of the program terminates, nothing faulting, with every unscoped buffer of every core
    at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) hadm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The frame: the program runs and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c),
      (h c _ (mem_uc main_arg9 (by decide))).trans (W6_main_arg9 m ρ c),
      (h c _ (mem_uc main_arg10 (by decide))).trans (W6_main_arg10 m ρ c)⟩) (run_all m ρ)

end Cert.KernelIdeal.Hand

end
-- ==== Proof.KIArr0.lean ====
/-
  FROM BLOCKS TO ARRAYS, first region. Grid point b of the 64 takes batch row b: the block of the embedded inputs and the
  block of the encoder rows it reads are rows b of their arrays, the weights and biases are read whole, and the two
  blocks it leaves are rows b of the two result arrays. So every input block, read at an index, is an entry of its array,
  and each result array, read at (b, t, j), is what point b left at (0, t, j).
-/
import proofs.«150782_j29695403885316_1_alg».proof.Proof.KIRegion0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

/-- The index maps of the first region, decided over its 64 points: the two batch-row windows and the two result
    windows sit at block (b, 0, 0), the whole-array windows at block 0. -/
theorem idx_facts0 : ∀ t : Fin cfg0.N,
    (win0_0.index t (0 : Fin 3) = t.val ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 3) = t.val ∧ win0_4.index t (1 : Fin 3) = 0 ∧ win0_4.index t (2 : Fin 3) = 0)
    ∧ (win0_5.index t (0 : Fin 2) = 0 ∧ win0_5.index t (1 : Fin 2) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0) :=
  (by decide +kernel : ∀ t : Fin grid0.N, _)

theorem lt64 (t : Fin cfg0.N) : t.val < 64 := lt_of_lt_of_eq t.isLt N_0

/-- The embedded-input block of point `t` is batch row `t` of its array. -/
theorem iblk0_0_apply (c : Dev nD) (t : Fin cfg0.N) (tt : Fin 51) (e : Fin 256) :
    (iblk0 V c 0 t : Vec F S1x51x256 .f32) (ix3 0 tt e)
      = (V c main_v9 : S64x51x256.Idx → Elt F .f32) (ix3 ⟨t.val, lt64 t⟩ tt e) := by
  obtain ⟨⟨h0, h1, h2⟩, -⟩ := idx_facts0 t
  unfold iblk0
  rw [View.read_apply]
  show V c main_v9 _ = V c main_v9 _
  congr 1
  funext a
  apply Fin.ext
  match a with
  | ⟨0, _⟩ => show win0_0.index t (0 : Fin 3) * 1 + 1 * 0 = t.val; omega
  | ⟨1, _⟩ => show win0_0.index t (1 : Fin 3) * 51 + 1 * tt.val = tt.val; omega
  | ⟨2, _⟩ => show win0_0.index t (2 : Fin 3) * 256 + 1 * e.val = e.val; omega

/-- The input-side gate weights are read whole. -/
theorem iblk0_1_apply (c : Dev nD) (t : Fin cfg0.N) (g : Fin 1536) (e : Fin 256) :
    (iblk0 V c 1 t : Vec F S1536x256 .f32) (ix2 g e) = (V c main_arg4 : S1536x256.Idx → Elt F .f32) (ix2 g e) := by
  obtain ⟨-, ⟨h0, h1⟩, -⟩ := idx_facts0 t
  unfold iblk0
  rw [View.read_apply]
  show V c main_arg4 _ = V c main_arg4 _
  congr 1
  funext a
  apply Fin.ext
  match a with
  | ⟨0, _⟩ => show win0_1.index t (0 : Fin 2) * 1536 + 1 * g.val = g.val; omega
  | ⟨1, _⟩ => show win0_1.index t (1 : Fin 2) * 256 + 1 * e.val = e.val; omega

/-- The input-side bias row is read whole. -/
theorem iblk0_2_apply (c : Dev nD) (t : Fin cfg0.N) (g : Fin 1536) :
    (iblk0 V c 2 t : Vec F S1x1536 .f32) (ix2 0 g) = (V c main_v10 : S1x1536.Idx → Elt F .f32) (ix2 0 g) := by
  obtain ⟨-, -, ⟨h0, h1⟩, -⟩ := idx_facts0 t
  unfold iblk0
  rw [View.read_apply]
  show V c main_v10 _ = V c main_v10 _
  congr 1
  funext a
  apply Fin.ext
  match a with
  | ⟨0, _⟩ => show win0_2.index t (0 : Fin 2) * 1 + 1 * 0 = 0; omega
  | ⟨1, _⟩ => show win0_2.index t (1 : Fin 2) * 1536 + 1 * g.val = g.val; omega

/-- The hidden-side bias row is read whole. -/
theorem iblk0_3_apply (c : Dev nD) (t : Fin cfg0.N) (g : Fin 1536) :
    (iblk0 V c 3 t : Vec F S1x1536 .f32) (ix2 0 g) = (V c main_v11 : S1x1536.Idx → Elt F .f32) (ix2 0 g) := by
  obtain ⟨-, -, -, ⟨h0, h1⟩, -⟩ := idx_facts0 t
  unfold iblk0
  rw [View.read_apply]
  show V c main_v11 _ = V c main_v11 _
  congr 1
  funext a
  apply Fin.ext
  match a with
  | ⟨0, _⟩ => show win0_3.index t (0 : Fin 2) * 1 + 1 * 0 = 0; omega
  | ⟨1, _⟩ => show win0_3.index t (1 : Fin 2) * 1536 + 1 * g.val = g.val; omega

/-- The encoder block of point `t` is batch row `t` of the encoder outputs. -/
theorem iblk0_4_apply (c : Dev nD) (t : Fin cfg0.N) (s : Fin 128) (j : Fin 512) :
    (iblk0 V c 4 t : Vec F S1x128x512 .f32) (ix3 0 s j)
      = (V c main_arg2 : S64x128x512.Idx → Elt F .f32) (ix3 ⟨t.val, lt64 t⟩ s j) := by
  obtain ⟨-, -, -, -, ⟨h0, h1, h2⟩, -⟩ := idx_facts0 t
  unfold iblk0
  rw [View.read_apply]
  show V c main_arg2 _ = V c main_arg2 _
  congr 1
  funext a
  apply Fin.ext
  match a with
  | ⟨0, _⟩ => show win0_4.index t (0 : Fin 3) * 1 + 1 * 0 = t.val; omega
  | ⟨1, _⟩ => show win0_4.index t (1 : Fin 3) * 128 + 1 * s.val = s.val; omega
  | ⟨2, _⟩ => show win0_4.index t (2 : Fin 3) * 512 + 1 * j.val = j.val; omega

/-- The output-layer weights are read whole. -/
theorem iblk0_5_apply (c : Dev nD) (t : Fin cfg0.N) (j : Fin 512) (k : Fin 1024) :
    (iblk0 V c 5 t : Vec F S512x1024 .f32) (ix2 j k) = (V c main_arg8 : S512x1024.Idx → Elt F .f32) (ix2 j k) := by
  obtain ⟨-, -, -, -, -, ⟨h0, h1⟩, -⟩ := idx_facts0 t
  unfold iblk0
  rw [View.read_apply]
  show V c main_arg8 _ = V c main_arg8 _
  congr 1
  funext a
  apply Fin.ext
  match a with
  | ⟨0, _⟩ => show win0_5.index t (0 : Fin 2) * 512 + 1 * j.val = j.val; omega
  | ⟨1, _⟩ => show win0_5.index t (1 : Fin 2) * 1024 + 1 * k.val = k.val; omega

/-! ## The two result arrays -/

/-- The grid point that owns batch row `b`. -/
def pt0 (b : Fin 64) : Fin cfg0.N := ⟨b.val, lt_of_lt_of_eq b.isLt N_0.symm⟩

theorem pt0_val (t : Fin cfg0.N) : pt0 ⟨t.val, lt64 t⟩ = t := rfl

/-- What point `t` leaves in the hidden-state block. -/
def row0_6 (c : Dev nD) (t : Fin cfg0.N) : Vec F S1x51x512 .f32 :=
  out0_6 (iblk0 V c 0 t) (iblk0 V c 1 t) (iblk0 V c 2 t) (iblk0 V c 3 t) (iblk0 V c 4 t) (iblk0 V c 5 t)

/-- What point `t` leaves in the projected-output block. -/
def row0_7 (c : Dev nD) (t : Fin cfg0.N) : Vec F S1x51x512 .f32 :=
  out0_7 (iblk0 V c 0 t) (iblk0 V c 1 t) (iblk0 V c 2 t) (iblk0 V c 3 t) (iblk0 V c 4 t) (iblk0 V c 5 t)

theorem after0_6_row (c : Dev nD) (t : Fin cfg0.N) : (dat0 V c).after 6 t = row0_6 V c t := after0_6 V c t
theorem after0_7_row (c : Dev nD) (t : Fin cfg0.N) : (dat0 V c).after 7 t = row0_7 V c t := after0_7 V c t

/-- What the hidden-state array ends holding: at (b, t, j), what point b left at (0, t, j). -/
def arr0_6 (c : Dev nD) : S64x51x512.Idx → Elt F .f32 := fun i => row0_6 V c (pt0 (i 0)) (ix3 0 (i 1) (i 2))

/-- What the projected-output array ends holding: at (b, t, j), what point b left at (0, t, j). -/
def arr0_7 (c : Dev nD) : S64x51x512.Idx → Elt F .f32 := fun i => row0_7 V c (pt0 (i 0)) (ix3 0 (i 1) (i 2))

/-- Where an index of a result block of point `t` lands in the array: row `t`, the same position and unit. -/
theorem emb0_6 (t : Fin cfg0.N) (y : S1x51x512.Idx) :
    (((cfg0.win 6).blk t).view.emb y : S64x51x512.Idx) = ix3 ⟨t.val, lt64 t⟩ (y 1) (y 2) := by
  obtain ⟨-, -, -, -, -, -, ⟨h0, h1, h2⟩, -⟩ := idx_facts0 t
  funext a
  apply Fin.ext
  have hy : (y 0).val < 1 := (y 0).isLt
  match a with
  | ⟨0, _⟩ => show win0_6.index t (0 : Fin 3) * 1 + 1 * (y 0).val = t.val; omega
  | ⟨1, _⟩ => show win0_6.index t (1 : Fin 3) * 51 + 1 * (y 1).val = (y 1).val; omega
  | ⟨2, _⟩ => show win0_6.index t (2 : Fin 3) * 512 + 1 * (y 2).val = (y 2).val; omega

theorem emb0_7 (t : Fin cfg0.N) (y : S1x51x512.Idx) :
    (((cfg0.win 7).blk t).view.emb y : S64x51x512.Idx) = ix3 ⟨t.val, lt64 t⟩ (y 1) (y 2) := by
  obtain ⟨-, -, -, -, -, -, -, ⟨h0, h1, h2⟩⟩ := idx_facts0 t
  funext a
  apply Fin.ext
  have hy : (y 0).val < 1 := (y 0).isLt
  match a with
  | ⟨0, _⟩ => show win0_7.index t (0 : Fin 3) * 1 + 1 * (y 0).val = t.val; omega
  | ⟨1, _⟩ => show win0_7.index t (1 : Fin 3) * 51 + 1 * (y 1).val = (y 1).val; omega
  | ⟨2, _⟩ => show win0_7.index t (2 : Fin 3) * 512 + 1 * (y 2).val = (y 2).val; omega

/-- An index of a block with one row is (0, its position, its unit). -/
theorem eq_ix3_zero (y : S1x51x512.Idx) : y = ix3 0 (y 1) (y 2) := by
  have hy : (y 0).val < 1 := (y 0).isLt
  funext a
  match a with
  | ⟨0, _⟩ => exact Fin.ext (by show (y 0).val = 0; omega)
  | ⟨1, _⟩ => rfl
  | ⟨2, _⟩ => rfl

/-- Row `t` of `arr0_6` is what point `t` left. -/
theorem arr0_6_row (c : Dev nD) (t : Fin cfg0.N) (tt : Fin 51) (j : Fin 512) :
    arr0_6 V c (ix3 ⟨t.val, lt64 t⟩ tt j) = row0_6 V c t (ix3 0 tt j) := by
  show row0_6 V c (pt0 ⟨t.val, lt64 t⟩) (ix3 0 tt j) = row0_6 V c t (ix3 0 tt j)
  rw [pt0_val]

theorem arr0_7_row (c : Dev nD) (t : Fin cfg0.N) (tt : Fin 51) (j : Fin 512) :
    arr0_7 V c (ix3 ⟨t.val, lt64 t⟩ tt j) = row0_7 V c t (ix3 0 tt j) := by
  show row0_7 V c (pt0 ⟨t.val, lt64 t⟩) (ix3 0 tt j) = row0_7 V c t (ix3 0 tt j)
  rw [pt0_val]

/-- The write-back of a whole block moves all of it. -/
theorem cut0_6 (t : Fin cfg0.N) (X : Vec F S1x51x512 .f32) (y : S1x51x512.Idx) :
    (cfg0.win 6).cut (grid0.coords t) X y = X y := rfl
theorem cut0_7 (t : Fin cfg0.N) (X : Vec F S1x51x512 .f32) (y : S1x51x512.Idx) :
    (cfg0.win 7).cut (grid0.coords t) X y = X y := rfl

/-- Block `t` of an array of the hidden-state array's shape, read at an index. -/
theorem read0_6 (t : Fin cfg0.N) (G : S64x51x512.Idx → Elt F .f32) (y : S1x51x512.Idx) :
    ((cfg0.win 6).blk t).view.read (Elt F) G y = G (ix3 ⟨t.val, lt64 t⟩ (y 1) (y 2)) := by
  rw [View.read_apply]
  show G (((cfg0.win 6).blk t).view.emb y) = _
  exact congrArg G (emb0_6 t y)
theorem read0_7 (t : Fin cfg0.N) (G : S64x51x512.Idx → Elt F .f32) (y : S1x51x512.Idx) :
    ((cfg0.win 7).blk t).view.read (Elt F) G y = G (ix3 ⟨t.val, lt64 t⟩ (y 1) (y 2)) := by
  rw [View.read_apply]
  show G (((cfg0.win 7).blk t).view.emb y) = _
  exact congrArg G (emb0_7 t y)

/-- What point `t` writes back to the hidden-state array is block `t` of `arr0_6`. -/
theorem flushed0_6_eq (c : Dev nD) (t : Fin cfg0.N) :
    (dat0 V c).flushed 6 t = ((cfg0.win 6).blk t).view.read (Elt F) (arr0_6 V c) := by
  show (cfg0.win 6).cut (grid0.coords t) ((dat0 V c).after 6 t) = _
  rw [after0_6_row]
  refine funext fun (y : S1x51x512.Idx) => ?_
  rw [cut0_6, read0_6]
  exact ((arr0_6_row V c t (y 1) (y 2)).trans (congrArg (row0_6 V c t) (eq_ix3_zero y).symm)).symm

/-- What point `t` writes back to the projected-output array is block `t` of `arr0_7`. -/
theorem flushed0_7_eq (c : Dev nD) (t : Fin cfg0.N) :
    (dat0 V c).flushed 7 t = ((cfg0.win 7).blk t).view.read (Elt F) (arr0_7 V c) := by
  show (cfg0.win 7).cut (grid0.coords t) ((dat0 V c).after 7 t) = _
  rw [after0_7_row]
  refine funext fun (y : S1x51x512.Idx) => ?_
  rw [cut0_7, read0_7]
  exact ((arr0_7_row V c t (y 1) (y 2)).trans (congrArg (row0_7 V c t) (eq_ix3_zero y).symm)).symm

/-- An index of the array is in point `t`'s block iff each coordinate is in the block's range on its axis. -/
theorem mem_blk0_6 (t : Fin cfg0.N) (i : S64x51x512.Idx) :
    i ∈ ((cfg0.win 6).blk t).view.set ↔ ∀ a : Fin 3, win0_6.index t a * S1x51x512.size a ≤ (i a).val
      ∧ (i a).val < win0_6.index t a * S1x51x512.size a + S1x51x512.size a := by
  show i ∈ ((View.whole main_v12_0).slice (win0_6.rect t)).set ↔ _
  rw [View.set_slice_whole, Rect.mem_set_unit]
  exact Iff.rfl
theorem mem_blk0_7 (t : Fin cfg0.N) (i : S64x51x512.Idx) :
    i ∈ ((cfg0.win 7).blk t).view.set ↔ ∀ a : Fin 3, win0_7.index t a * S1x51x512.size a ≤ (i a).val
      ∧ (i a).val < win0_7.index t a * S1x51x512.size a + S1x51x512.size a := by
  show i ∈ ((View.whole main_v12_1).slice (win0_7.rect t)).set ↔ _
  rw [View.set_slice_whole, Rect.mem_set_unit]
  exact Iff.rfl

/-- Every index of the hidden-state array is in the block of the point that owns its batch row. -/
theorem cover0_6 (i : S64x51x512.Idx) :
    ∃ t : Fin cfg0.N, (cfg0.win 6).flush t = true ∧ i ∈ ((cfg0.win 6).blk t).view.set := by
  refine ⟨pt0 (i 0), flush0_6 _, ?_⟩
  rw [mem_blk0_6]
  obtain ⟨-, -, -, -, -, -, ⟨h0, h1, h2⟩, -⟩ := idx_facts0 (pt0 (i 0))
  have hv : (pt0 (i 0)).val = (i 0).val := rfl
  have hi1 : (i 1).val < 51 := (i 1).isLt
  have hi2 : (i 2).val < 512 := (i 2).isLt
  intro a
  match a with
  | ⟨0, _⟩ => show win0_6.index (pt0 (i 0)) (0 : Fin 3) * 1 ≤ (i 0).val ∧ (i 0).val < win0_6.index (pt0 (i 0)) (0 : Fin 3) * 1 + 1; omega
  | ⟨1, _⟩ => show win0_6.index (pt0 (i 0)) (1 : Fin 3) * 51 ≤ (i 1).val ∧ (i 1).val < win0_6.index (pt0 (i 0)) (1 : Fin 3) * 51 + 51; omega
  | ⟨2, _⟩ => show win0_6.index (pt0 (i 0)) (2 : Fin 3) * 512 ≤ (i 2).val ∧ (i 2).val < win0_6.index (pt0 (i 0)) (2 : Fin 3) * 512 + 512; omega

theorem cover0_7 (i : S64x51x512.Idx) :
    ∃ t : Fin cfg0.N, (cfg0.win 7).flush t = true ∧ i ∈ ((cfg0.win 7).blk t).view.set := by
  refine ⟨pt0 (i 0), flush0_7 _, ?_⟩
  rw [mem_blk0_7]
  obtain ⟨-, -, -, -, -, -, -, ⟨h0, h1, h2⟩⟩ := idx_facts0 (pt0 (i 0))
  have hv : (pt0 (i 0)).val = (i 0).val := rfl
  have hi1 : (i 1).val < 51 := (i 1).isLt
  have hi2 : (i 2).val < 512 := (i 2).isLt
  intro a
  match a with
  | ⟨0, _⟩ => show win0_7.index (pt0 (i 0)) (0 : Fin 3) * 1 ≤ (i 0).val ∧ (i 0).val < win0_7.index (pt0 (i 0)) (0 : Fin 3) * 1 + 1; omega
  | ⟨1, _⟩ => show win0_7.index (pt0 (i 0)) (1 : Fin 3) * 51 ≤ (i 1).val ∧ (i 1).val < win0_7.index (pt0 (i 0)) (1 : Fin 3) * 51 + 51; omega
  | ⟨2, _⟩ => show win0_7.index (pt0 (i 0)) (2 : Fin 3) * 512 ≤ (i 2).val ∧ (i 2).val < win0_7.index (pt0 (i 0)) (2 : Fin 3) * 512 + 512; omega

/-- THE HIDDEN-STATE ARRAY after the region: `arr0_6`. -/
theorem final0_6 (c : Dev nD) : (dat0 V c).arrAt 6 cfg0.N = arr0_6 V c :=
  (dat0 V c).arrAt_eq_of_cover 6 (arr0_6 V c) (fun t _ => flushed0_6_eq V c t) cover0_6

/-- THE PROJECTED-OUTPUT ARRAY after the region: `arr0_7`. -/
theorem final0_7 (c : Dev nD) : (dat0 V c).arrAt 7 cfg0.N = arr0_7 V c :=
  (dat0 V c).arrAt_eq_of_cover 7 (arr0_7 V c) (fun t _ => flushed0_7_eq V c t) cover0_7

/-- The hidden-state array at (b, t, j) is what point b left at (0, t, j). -/
theorem arrAt0_6_apply (c : Dev nD) (b : Fin 64) (tt : Fin 51) (j : Fin 512) :
    ((dat0 V c).arrAt 6 cfg0.N : S64x51x512.Idx → Elt F .f32) (ix3 b tt j)
      = out0_6 (iblk0 V c 0 (pt0 b)) (iblk0 V c 1 (pt0 b)) (iblk0 V c 2 (pt0 b)) (iblk0 V c 3 (pt0 b))
          (iblk0 V c 4 (pt0 b)) (iblk0 V c 5 (pt0 b)) (ix3 0 tt j) := by
  rw [final0_6]; rfl

/-- The projected-output array at (b, t, j) is what point b left at (0, t, j). -/
theorem arrAt0_7_apply (c : Dev nD) (b : Fin 64) (tt : Fin 51) (j : Fin 512) :
    ((dat0 V c).arrAt 7 cfg0.N : S64x51x512.Idx → Elt F .f32) (ix3 b tt j)
      = out0_7 (iblk0 V c 0 (pt0 b)) (iblk0 V c 1 (pt0 b)) (iblk0 V c 2 (pt0 b)) (iblk0 V c 3 (pt0 b))
          (iblk0 V c 4 (pt0 b)) (iblk0 V c 5 (pt0 b)) (ix3 0 tt j) := by
  rw [final0_7]; rfl

end Cert.KernelIdeal.Hand

end
-- ==== Proof.Spec.lean ====
/-
  The mathematics of one decoder step, as plain functions of extended reals on literal index ranges; no program is
  mentioned here. A GRU cell started from the zero hidden state (so the hidden-side gates are the hidden bias alone),
  dot-product attention of the new hidden state over 128 encoder positions (a softmax taken with the row maximum
  subtracted), a tanh of a linear map of the pair (hidden state, context), a linear map onto 32000 classes and the
  logarithm of the softmax of each row (again with the row maximum subtracted). Batch rows `b : Fin 64`, decoder
  positions `t : Fin 51`, hidden units `j : Fin 512`, encoder positions `s : Fin 128`, classes `v : Fin 32000`.

  The embedded input `x` is a parameter: both sides of the comparison obtain it from the same table look-up.
  Every operation is the ideal instance's own (`Ideal.logistic`, `Ideal.tanh`, `Ideal.exp`, `Ideal.log`,
  `Ideal.div`); sums are `Finset` sums over the literal ranges; a row maximum is the fold of `max` from `⊥`.
-/
import Idealize.ShloMosaic.PureOps.Ideal
import Idealize.ShloMosaic.PureOps.Ideal.Laws
import Idealize.ShloMosaic.Lib.ValueIdx

noncomputable section

open scoped BigOperators

namespace Cert.Spec

open Idealize.ShloMosaic

/-! ## The three gate blocks of the 1536 gate rows -/

/-- Row `j` of the reset block (rows 0 … 511). -/
def gateR (j : Fin 512) : Fin 1536 := ⟨j.val, by have := j.isLt; omega⟩
/-- Row `j` of the update block (rows 512 … 1023). -/
def gateZ (j : Fin 512) : Fin 1536 := ⟨512 + j.val, by have := j.isLt; omega⟩
/-- Row `j` of the candidate block (rows 1024 … 1535). -/
def gateN (j : Fin 512) : Fin 1536 := ⟨1024 + j.val, by have := j.isLt; omega⟩

/-! ## The float words the two programs spell out -/

/-- The word of `1.0` denotes the real one. -/
theorem ofBits_one : Ideal.ofBits .f32 0x3F800000#32 = 1 := by
  simp [Ideal.ofBits, Ideal.ieee, -EReal.coe_mul]; norm_num
/-- The word of `-inf` denotes the bottom element. -/
theorem ofBits_neg_inf : Ideal.ofBits .f32 0xFF800000#32 = ⊥ := by
  simp [Ideal.ofBits, Ideal.ieee]

section
variable (x : Fin 64 → Fin 51 → Fin 256 → EReal) (w_ih : Fin 1536 → Fin 256 → EReal) (b_ih b_hh : Fin 1536 → EReal)
  (enc : Fin 64 → Fin 128 → Fin 512 → EReal) (wa : Fin 512 → Fin 1024 → EReal)
  (fc_w : Fin 32000 → Fin 512 → EReal) (fc_b : Fin 32000 → EReal)

/-! ## The GRU cell from the zero state -/

/-- Input-side gate pre-activations: `x · w_ihᵀ + b_ih`. -/
def gi (b : Fin 64) (t : Fin 51) (g : Fin 1536) : EReal :=
  (∑ e : Fin 256, x b t e * w_ih g e) + b_ih g

/-- Reset gate. -/
def r (b : Fin 64) (t : Fin 51) (j : Fin 512) : EReal :=
  Ideal.logistic (gi x w_ih b_ih b t (gateR j) + b_hh (gateR j))

/-- Update gate. -/
def z (b : Fin 64) (t : Fin 51) (j : Fin 512) : EReal :=
  Ideal.logistic (gi x w_ih b_ih b t (gateZ j) + b_hh (gateZ j))

/-- Candidate state. -/
def n (b : Fin 64) (t : Fin 51) (j : Fin 512) : EReal :=
  Ideal.tanh (gi x w_ih b_ih b t (gateN j) + r x w_ih b_ih b_hh b t j * b_hh (gateN j))

/-- New hidden state: `(1 - z) * n` (the term `z * h₀` vanishes with `h₀ = 0` and is not written). -/
def h (b : Fin 64) (t : Fin 51) (j : Fin 512) : EReal :=
  (1 - z x w_ih b_ih b_hh b t j) * n x w_ih b_ih b_hh b t j

/-! ## Attention over the encoder positions -/

/-- Scores: the hidden state against each encoder position. -/
def scores (b : Fin 64) (t : Fin 51) (s : Fin 128) : EReal :=
  ∑ j : Fin 512, h x w_ih b_ih b_hh b t j * enc b s j

/-- The row maximum of the scores. -/
def smax (b : Fin 64) (t : Fin 51) : EReal :=
  (Finset.univ : Finset (Fin 128)).fold max ⊥ (fun s => scores x w_ih b_ih b_hh enc b t s)

/-- The shifted exponentials. -/
def sexp (b : Fin 64) (t : Fin 51) (s : Fin 128) : EReal :=
  Ideal.exp (scores x w_ih b_ih b_hh enc b t s - smax x w_ih b_ih b_hh enc b t)

/-- Attention weights: the softmax of a row of scores. -/
def attn (b : Fin 64) (t : Fin 51) (s : Fin 128) : EReal :=
  Ideal.div (sexp x w_ih b_ih b_hh enc b t s) (∑ s' : Fin 128, sexp x w_ih b_ih b_hh enc b t s')

/-- Context: the attention-weighted sum of the encoder positions. -/
def ctx (b : Fin 64) (t : Fin 51) (j : Fin 512) : EReal :=
  ∑ s : Fin 128, attn x w_ih b_ih b_hh enc b t s * enc b s j

/-! ## The output layers -/

/-- The pair (hidden state, context) laid side by side: `h` on columns below 512, `ctx` from 512 on. -/
def cat (b : Fin 64) (t : Fin 51) (k : Fin 1024) : EReal :=
  if hk : k.val < 512 then h x w_ih b_ih b_hh b t ⟨k.val, hk⟩
  else ctx x w_ih b_ih b_hh enc b t ⟨k.val - 512, by have := k.isLt; omega⟩

/-- `tanh` of a linear map of the pair. -/
def o (b : Fin 64) (t : Fin 51) (j : Fin 512) : EReal :=
  Ideal.tanh (∑ k : Fin 1024, cat x w_ih b_ih b_hh enc b t k * wa j k)

/-- Class scores. -/
def logits (b : Fin 64) (t : Fin 51) (v : Fin 32000) : EReal :=
  (∑ k : Fin 512, o x w_ih b_ih b_hh enc wa b t k * fc_w v k) + fc_b v

/-- The row maximum of the class scores. -/
def lmax (b : Fin 64) (t : Fin 51) : EReal :=
  (Finset.univ : Finset (Fin 32000)).fold max ⊥ (fun v => logits x w_ih b_ih b_hh enc wa fc_w fc_b b t v)

/-- The shifted class scores. -/
def shifted (b : Fin 64) (t : Fin 51) (v : Fin 32000) : EReal :=
  logits x w_ih b_ih b_hh enc wa fc_w fc_b b t v - lmax x w_ih b_ih b_hh enc wa fc_w fc_b b t

/-- The logarithm of the softmax of a row of class scores: the shifted score less the logarithm of the sum of the
    shifted exponentials. -/
def out (b : Fin 64) (t : Fin 51) (v : Fin 32000) : EReal :=
  shifted x w_ih b_ih b_hh enc wa fc_w fc_b b t v
    - Ideal.log (∑ v' : Fin 32000, Ideal.exp (shifted x w_ih b_ih b_hh enc wa fc_w fc_b b t v'))

/-- The hidden state handed on: the last decoder position's. -/
def hidden (b : Fin 64) (j : Fin 512) : EReal :=
  h x w_ih b_ih b_hh b (50 : Fin 51) j

end

/-! ## Two facts about the building blocks -/

/-- The sigmoid spelt `1 / (1 + exp (-y))` with the ideal division is the ideal logistic, at every extended real. -/
theorem div_one_add_exp_neg (y : EReal) : Ideal.div 1 (1 + Ideal.exp (-y)) = Ideal.logistic y := rfl

/-- A maximum with `⊥` in front changes nothing. -/
theorem max_bot_fold {ι : Type} (s : Finset ι) (f : ι → EReal) : max ⊥ (s.fold max ⊥ f) = s.fold max ⊥ f :=
  max_eq_right bot_le

end Cert.Spec

end
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibPlainDot.lean ====
/-
  THE PLAIN MATRIX PRODUCT'S DIMENSION RECORD, AND THE DENSE LAYER OVER IT, at the ideal values.

  An `[R, K]` array times a `[K, N]` array contracts the first's columns with the second's rows.  Its dimension record is
  `DotDims.plain R K N`; a printed program's record with the same six lists (contract axis 1 with axis 0, keep axis 0
  and axis 1, no batch axes) is that record by unfolding.  Proved here once for every `R`, `K`, `N`:
  • there is one contracted axis, of extent `K` (`rank_contr`, `size_contr`);
  • at the output index `(p, c)` and contraction position `k` the left operand is read at `(p, k)` and the right operand
    at `(k, c)` (`lhs_at`, `rhs_at`).
  These are the four facts LibDenseRow's dense layer asks of a record, so its two spellings are restated for the plain
  record with nothing left to supply (`klayer`: matrix product into a zero accumulator plus a bias vector cast to one row
  and broadcast; `hlayer`: `dot_general` plus the bias broadcast to one row and then over the rows).  Both are
  `j ↦ (∑ k, x k · w k j) + b j` on every row.  No algebra of the extended reals is used.
-/
import proofs.«150782_j29695403885316_1_alg».proof.Proof.LibDenseRow

noncomputable section

open scoped BigOperators

namespace Cert.PlainDot

open Idealize.ShloMosaic Idealize.ShloMosaic.ValueIdx Cert.DenseRow

variable (R K N : ℕ)

/-- One axis is contracted. -/
theorem rank_contr : (DotDims.plain R K N).contr.rank = 1 := rfl

/-- Its extent is the shared extent `K`. -/
theorem size_contr : (DotDims.plain R K N).contr.size ⟨0, Nat.one_pos⟩ = K := rfl

/-- The left operand's index at output `(p, c)`, contraction position `k`: row `p`, column `k`. -/
theorem lhs_at (p : Fin R) (c : Fin N) (k : Fin K) :
    (DotDims.plain R K N).lhsIdx (ix2 p c) ((contrEquiv1 (DotDims.plain R K N) K rfl rfl).symm k) = ix2 p k := by
  have hk := contrEquiv1_symm_val (DotDims.plain R K N) K rfl rfl k
  funext a
  apply Fin.ext
  match a with
  | ⟨0, _⟩ =>
    show ((DotDims.plain R K N).lhsIdx (ix2 p c) ((contrEquiv1 (DotDims.plain R K N) K rfl rfl).symm k) 0).val = p.val
    unfold DotDims.lhsIdx
    rw [dif_neg (show ¬ (0 : Fin 2) ∈ (DotDims.plain R K N).lhsBatch from List.not_mem_nil),
      dif_pos (show (0 : Fin 2) ∈ (DotDims.plain R K N).lhsNonContracting from List.mem_singleton.mpr rfl)]
    rfl
  | ⟨1, _⟩ => exact ((DotDims.plain R K N).lhsIdx_val_of_single rfl (ix2 p c) _).trans hk

/-- The right operand's index at output `(p, c)`, contraction position `k`: row `k`, column `c`. -/
theorem rhs_at (p : Fin R) (c : Fin N) (k : Fin K) :
    (DotDims.plain R K N).rhsIdx (ix2 p c) ((contrEquiv1 (DotDims.plain R K N) K rfl rfl).symm k) = ix2 k c := by
  have hk := contrEquiv1_symm_val (DotDims.plain R K N) K rfl rfl k
  funext a
  apply Fin.ext
  match a with
  | ⟨0, _⟩ => exact ((DotDims.plain R K N).rhsIdx_val_of_single rfl (ix2 p c) _).trans hk
  | ⟨1, _⟩ =>
    show ((DotDims.plain R K N).rhsIdx (ix2 p c) ((contrEquiv1 (DotDims.plain R K N) K rfl rfl).symm k) 1).val = c.val
    unfold DotDims.rhsIdx
    rw [dif_neg (show ¬ (1 : Fin 2) ∈ (DotDims.plain R K N).rhsBatch from List.not_mem_nil),
      dif_pos (show (1 : Fin 2) ∈ (DotDims.plain R K N).rhsNonContracting from List.mem_singleton.mpr rfl)]
    rfl

/-- The vector unit's dense layer over the plain record, as a whole array. -/
theorem klayer {φ₁ φ₂ : FTy} (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul (DotDims.plain R K N) prec a (shapeCast ⟨2, ![K, N]⟩ w hw) (constant ⟨2, ![R, N]⟩ .f32 0x00000000#32))
        (broadcastTo ⟨2, ![R, N]⟩ (shapeCast ⟨2, ![1, N]⟩ b hc) hb)
      = layerArr a w b :=
  klayerArr (DotDims.plain R K N) rfl rfl (lhs_at R K N) (rhs_at R K N) prec a w hw b hc hb

/-- The host's dense layer over the plain record, as a whole array. -/
theorem hlayer {φ₁ φ₂ : FTy} (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral (DotDims.plain R K N) prec a w)
        (broadcastInDim ⟨2, ![R, N]⟩ ![0, 1] h2 (broadcastInDim ⟨2, ![1, N]⟩ ![1] h1 b))
      = layerArr a w b :=
  hlayerArr (DotDims.plain R K N) rfl rfl (lhs_at R K N) (rhs_at R K N) prec a w b h1 h2

end Cert.PlainDot

end
-- ==== Proof.LibBlockDot.lean ====
/-
  A BLOCK OF ROWS OF A MATRIX PRODUCT, at the ideal values.

  The product of an `[R, K]` array `a` and a `[K, N]` array `w` has at `(p, c)` the entry `∑ k, a (p, k) · w (k, c)`:
  row `p` of the result depends on row `p` of `a` and on nothing else of it.  So when `a` is a block of rows of a taller
  array `A` (row `p` of `a` is row `off + p` of `A`), the product of the block is the same block of rows of the product of
  `A`: a product computed block of rows by block of rows is the product of the whole.  Two spellings of the product are
  read here over the plain dimension record `DotDims.plain` (contract the left operand's columns with the right
  operand's rows, no batch axes):
  • on the vector unit, the matrix product into a zero accumulator (`kdot_apply`);
  • on the host, `dot_general` (`hdot_apply`);
  both are the sum above, so a row of the first over a block is the row of the second over the whole array
  (`kdot_rows` by coordinates, `kdot_block` at indices given by their coordinates' values).  The sums are compared term
  by term in the same order: no algebra of the extended reals is used, and nothing needs to be finite.
-/
import proofs.«150782_j29695403885316_1_alg».proof.Proof.LibPlainDot

noncomputable section

open scoped BigOperators

namespace Cert.BlockDot

open Idealize.ShloMosaic Idealize.ShloMosaic.ValueIdx Cert.DenseRow Cert.PlainDot

/-- The vector unit's product into the zero accumulator, read at `(p, c)`. -/
theorem kdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    matmul (DotDims.plain R K N) prec a w (constant ⟨2, ![R, N]⟩ .f32 0x00000000#32) (ix2 p c)
      = ∑ k : Fin K, a (ix2 p k) * w (ix2 k c) := by
  show FloatOps.matmul (DotDims.plain R K N) prec a w (constant ⟨2, ![R, N]⟩ .f32 0x00000000#32) (ix2 p c) = _
  rw [Ideal.matmul_constant_zero_apply]
  exact contr_sum (DotDims.plain R K N) rfl rfl (lhs_at R K N) (rhs_at R K N) a w p c

/-- The host's `dot_general`, read at `(p, c)`: the same sum. -/
theorem hdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    Host.dotGeneral (DotDims.plain R K N) prec a w (ix2 p c) = ∑ k : Fin K, a (ix2 p k) * w (ix2 k c) := by
  simp only [Host.dotGeneral]
  rw [Ideal.dotGeneral_apply]
  exact contr_sum (DotDims.plain R K N) rfl rfl (lhs_at R K N) (rhs_at R K N) a w p c

/-- Row `p` of the vector unit's product of `a` is row `p'` of the host's product of `A` when row `p` of `a` is row `p'`
    of `A` and the right operands agree on column `c`. -/
theorem kdot_rows {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (p : Fin R) (p' : Fin R') (c : Fin N)
    (ha : ∀ k : Fin K, (a (ix2 p k) : EReal) = A (ix2 p' k)) (hw : ∀ k : Fin K, (w (ix2 k c) : EReal) = W (ix2 k c)) :
    (matmul (DotDims.plain R K N) prec a w (constant ⟨2, ![R, N]⟩ .f32 0x00000000#32) (ix2 p c) : EReal)
      = Host.dotGeneral (DotDims.plain R' K N) prec' A W (ix2 p' c) := by
  rw [kdot_apply, hdot_apply]
  exact Finset.sum_congr rfl fun k _ => by rw [ha k, hw k]

/-- The same at indices given by the values of their coordinates: the output index `j` of the block and the output index
    `i` of the whole array name the same column, and `i`'s row is `j`'s row moved down by `off`; the block `a` is `A` read
    `off` rows down; the right operands are one array. -/
theorem kdot_block {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (off : ℕ)
    (j : (⟨2, ![R, N]⟩ : Shape).Idx) (i : (⟨2, ![R', N]⟩ : Shape).Idx)
    (hi0 : (i 0).val = off + (j 0).val) (hi1 : (i 1).val = (j 1).val)
    (ha : ∀ (y : (⟨2, ![R, K]⟩ : Shape).Idx) (z : (⟨2, ![R', K]⟩ : Shape).Idx),
      (z 0).val = off + (y 0).val → (z 1).val = (y 1).val → (a y : EReal) = A z)
    (hw : ∀ y : (⟨2, ![K, N]⟩ : Shape).Idx, (w y : EReal) = W y) :
    (matmul (DotDims.plain R K N) prec a w (constant ⟨2, ![R, N]⟩ .f32 0x00000000#32) j : EReal)
      = Host.dotGeneral (DotDims.plain R' K N) prec' A W i := by
  obtain ⟨p, c, rfl⟩ : ∃ (p : Fin R) (c : Fin N), j = ix2 p c := ⟨j 0, j 1, eq_ix2 j⟩
  obtain ⟨p', c', rfl⟩ : ∃ (p' : Fin R') (c' : Fin N), i = ix2 p' c' := ⟨i 0, i 1, eq_ix2 i⟩
  obtain rfl : c' = c := Fin.ext hi1
  exact kdot_rows prec prec' a A w W p p' c' (fun k => ha (ix2 p k) (ix2 p' k) hi0 rfl) (fun k => hw (ix2 k c'))

end Cert.BlockDot

end
-- ==== Proof.KIValue0a.lean ====
/-
  The first kernel's recurrent cell, read at an index.

  One grid point works on one batch row: 51 decoder positions, each a row of 256 embedded inputs. The body forms the
  1536 gate pre-activations of every position as a matrix product with the transposed input weights plus the input
  bias row, cuts them into the reset, update and candidate blocks of 512 columns, and combines them with the hidden
  bias row (the hidden state is zero, so the hidden side of every gate is its bias alone):
      h = (1 - sigmoid(g_z + c_z)) * tanh(g_n + sigmoid(g_r + c_r) * c_n).
  Every statement here is over variables of the literal vector types; changes of float format are the identity on
  the extended reals, and a matrix product into a zero accumulator is the plain finite sum.
-/
import proofs.«150782_j29695403885316_1_alg».proof.Proof.Gen.KernelIdeal.Skeleton
import proofs.«150782_j29695403885316_1_alg».proof.Proof.Spec
import proofs.«150782_j29695403885316_1_alg».proof.Proof.LibBlockDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-! ## The gate pre-activations -/

/-- The 51 x 1536 gate pre-activations as the body spells them: the inputs (unit batch axis dropped) times the
    transposed input weights, plus the input bias row broadcast over the positions. -/
def kGi (v0 : Vec Ideal S1x51x256 .f32) (v3 : Vec Ideal S1536x256 .f32) (v7 : Vec Ideal S1x1536 .f32) :
    FVec Ideal S51x1536 .f32 :=
  addf
    (matmul dot_S51x256_S256x1536_S51x1536_1_0_0_1_n_n none
      (truncf .bf16 (shapeCast S51x256 v0 shapeCasts_S1x51x256_S51x256) bitsLt_bf16_f32)
      (transpose S256x1536 [1, 0] (truncf .bf16 v3 bitsLt_bf16_f32) transposes_S1536x256_p1_0_S256x1536)
      (constant S51x1536 .f32 0x00000000#32))
    (broadcastTo S51x1536 (shapeCast S1x1536 v7 shapeCasts_S1x1536_S1x1536) broadcasts_S1x1536_S51x1536)

/-- Position `t`, gate row `g`: the inner product of the position's inputs with weight row `g`, plus the bias. -/
theorem kGi_apply (v0 : Vec Ideal S1x51x256 .f32) (v3 : Vec Ideal S1536x256 .f32) (v7 : Vec Ideal S1x1536 .f32)
    (t : Fin 51) (g : Fin 1536) :
    (kGi v0 v3 v7 (ix2 t g) : EReal)
      = (∑ e : Fin 256, (v0 (ix3 (0 : Fin 1) t e) : EReal) * v3 (ix2 g e)) + v7 (ix2 (0 : Fin 1) g) := by
  unfold kGi
  refine congrArg₂ (· + ·) ?_ ?_
  · refine (Cert.BlockDot.kdot_apply (R := 51) (K := 256) (N := 1536) none _ _ t g).trans
      (Finset.sum_congr rfl fun e _ => ?_)
    exact congrArg₂ (· * ·) (shapeCast_1ab_ab_apply v0 shapeCasts_S1x51x256_S51x256 t e)
      (transpose_ix2_apply v3 transposes_S1536x256_p1_0_S256x1536 e g)
  · exact (broadcastTo_1b_ab_apply _ broadcasts_S1x1536_S51x1536 t g).trans
      (congrFun (shapeCast_self v7 shapeCasts_S1x1536_S1x1536) _)

/-! ## One gate's column block -/

/-- The block of 512 gate columns from column `o` on, plus the same block of the hidden bias row broadcast over the
    positions, read at `(t, j)`: column `k = o + j` of both. -/
theorem gate_block_apply (o : ℕ) (G : FVec Ideal S51x1536 .f32) (B : FVec Ideal S1x1536 .f32)
    (hs : S51x1536.Slices ![0, o] S51x512) (hs' : S1x1536.Slices ![0, o] S1x512) (hb : S1x512.Broadcasts S51x512)
    (t : Fin 51) (j : Fin 512) (k : Fin 1536) (hk : k.val = o + j.val) :
    (addf (extractStridedSlice S51x512 ![0, o] G hs) (broadcastTo S51x512 (extractStridedSlice S1x512 ![0, o] B hs') hb)
        (ix2 t j) : EReal)
      = G (ix2 t k) + B (ix2 (0 : Fin 1) k) :=
  congrArg₂ (· + ·) (slice2_axis1_apply o G hs t j k hk)
    ((broadcastTo_1b_ab_apply _ hb t j).trans (slice2_axis1_apply o B hs' (0 : Fin 1) j k hk))

/-! ## The cell -/

/-- The cell's arithmetic on the gate pre-activations `G` and the hidden bias row `B`, as the body spells it. -/
def kCell (G : FVec Ideal S51x1536 .f32) (B : FVec Ideal S1x1536 .f32) : FVec Ideal S51x512 .f32 :=
  mulf
    (subf (broadcast S51x512 (Scalar.ofBits (F := Ideal) .f32 0x3F800000#32))
      (logistic (addf (extractStridedSlice S51x512 ![0, 512] G slices_S51x1536_o0_512_S51x512)
        (broadcastTo S51x512 (extractStridedSlice S1x512 ![0, 512] B slices_S1x1536_o0_512_S1x512) broadcasts_S1x512_S51x512))))
    (tanh (addf (extractStridedSlice S51x512 ![0, 1024] G slices_S51x1536_o0_1024_S51x512)
      (mulf
        (logistic (addf (extractStridedSlice S51x512 ![0, 0] G slices_S51x1536_o0_0_S51x512)
          (broadcastTo S51x512 (extractStridedSlice S1x512 ![0, 0] B slices_S1x1536_o0_0_S1x512) broadcasts_S1x512_S51x512)))
        (broadcastTo S51x512 (extractStridedSlice S1x512 ![0, 1024] B slices_S1x1536_o0_1024_S1x512) broadcasts_S1x512_S51x512))))

/-- The cell at `(t, j)`: `(1 - sigmoid(G_z + B_z)) * tanh(G_n + sigmoid(G_r + B_r) * B_n)`, the three blocks read at
    the rows `j`, `512 + j`, `1024 + j`. -/
theorem kCell_apply (G : FVec Ideal S51x1536 .f32) (B : FVec Ideal S1x1536 .f32) (t : Fin 51) (j : Fin 512) :
    (kCell G B (ix2 t j) : EReal)
      = (Ideal.ofBits .f32 0x3F800000#32
          - Ideal.logistic (G (ix2 t (Cert.Spec.gateZ j)) + B (ix2 (0 : Fin 1) (Cert.Spec.gateZ j))))
        * Ideal.tanh (G (ix2 t (Cert.Spec.gateN j))
          + Ideal.logistic (G (ix2 t (Cert.Spec.gateR j)) + B (ix2 (0 : Fin 1) (Cert.Spec.gateR j)))
            * B (ix2 (0 : Fin 1) (Cert.Spec.gateN j))) := by
  have eZ := gate_block_apply 512 G B slices_S51x1536_o0_512_S51x512 slices_S1x1536_o0_512_S1x512
    broadcasts_S1x512_S51x512 t j (Cert.Spec.gateZ j) rfl
  have eR := gate_block_apply 0 G B slices_S51x1536_o0_0_S51x512 slices_S1x1536_o0_0_S1x512
    broadcasts_S1x512_S51x512 t j (Cert.Spec.gateR j) (Nat.zero_add _).symm
  have eN : (extractStridedSlice S51x512 ![0, 1024] G slices_S51x1536_o0_1024_S51x512 (ix2 t j) : EReal)
      = G (ix2 t (Cert.Spec.gateN j)) :=
    slice2_axis1_apply 1024 G slices_S51x1536_o0_1024_S51x512 t j (Cert.Spec.gateN j) rfl
  have eN' : (broadcastTo S51x512 (extractStridedSlice S1x512 ![0, 1024] B slices_S1x1536_o0_1024_S1x512)
      broadcasts_S1x512_S51x512 (ix2 t j) : EReal) = B (ix2 (0 : Fin 1) (Cert.Spec.gateN j)) :=
    (broadcastTo_1b_ab_apply _ broadcasts_S1x512_S51x512 t j).trans
      (slice2_axis1_apply 1024 B slices_S1x1536_o0_1024_S1x512 (0 : Fin 1) j (Cert.Spec.gateN j) rfl)
  unfold kCell
  refine congrArg₂ (· * ·) (congrArg (fun y => Ideal.ofBits .f32 0x3F800000#32 - Ideal.logistic y) eZ) ?_
  refine congrArg Ideal.tanh (congrArg₂ (· + ·) eN (congrArg₂ (· * ·) (congrArg Ideal.logistic eR) eN'))

/-- The body's hidden-state value is the cell on the gate pre-activations and the (re-cast) hidden bias row. -/
theorem k0_pay3_eq (v0 : Vec Ideal S1x51x256 .f32) (v3 : Vec Ideal S1536x256 .f32) (v7 v11 : Vec Ideal S1x1536 .f32) :
    k0_pay3 (F := Ideal) v0 v3 v7 v11 = kCell (kGi v0 v3 v7) (shapeCast S1x1536 v11 shapeCasts_S1x1536_S1x1536) := rfl

/-! ## The cell is the specification's hidden state -/

/-- With the four blocks holding batch row `b`'s inputs, the input weights and the two bias rows, the body's
    hidden-state value at `(t, j)` is the specification's `h`. -/
theorem k0_pay3_apply (v0 : Vec Ideal S1x51x256 .f32) (v3 : Vec Ideal S1536x256 .f32) (v7 v11 : Vec Ideal S1x1536 .f32)
    (X : Fin 64 → Fin 51 → Fin 256 → EReal) (Wih : Fin 1536 → Fin 256 → EReal) (bih bhh : Fin 1536 → EReal) (b : Fin 64)
    (h0 : ∀ t e, v0 (ix3 (0 : Fin 1) t e) = X b t e) (h1 : ∀ g e, v3 (ix2 g e) = Wih g e)
    (h2 : ∀ g, v7 (ix2 (0 : Fin 1) g) = bih g) (h3 : ∀ g, v11 (ix2 (0 : Fin 1) g) = bhh g)
    (t : Fin 51) (j : Fin 512) :
    (k0_pay3 (F := Ideal) v0 v3 v7 v11 (ix2 t j) : EReal) = Cert.Spec.h X Wih bih bhh b t j := by
  have hG : ∀ g : Fin 1536, (kGi v0 v3 v7 (ix2 t g) : EReal) = Cert.Spec.gi X Wih bih b t g := fun g => by
    rw [kGi_apply, h2 g]
    exact congrArg (· + bih g) (Finset.sum_congr rfl fun e _ => by rw [h0 t e, h1 g e])
  have hB : ∀ g : Fin 1536, (shapeCast S1x1536 v11 shapeCasts_S1x1536_S1x1536 (ix2 (0 : Fin 1) g) : EReal) = bhh g :=
    fun g => (congrFun (shapeCast_self v11 shapeCasts_S1x1536_S1x1536) _).trans (h3 g)
  rw [k0_pay3_eq, kCell_apply, hG, hG, hG, hB, hB, hB, Cert.Spec.ofBits_one]
  rfl

end Cert.KernelIdeal.Hand

end
-- ==== Proof.LibLayout3.lean ====
/-
  Layout operations and one-axis reductions read at an index written by coordinates (a general lemma file: it imports
  only the library and is generic in the extents).

  A tile of the kernel works with three index sets: (row, column) pairs, (row, column, coordinate) triples for the
  distances, and (row, positive, negative) triples for the mining step. The programs move between them by inserting a
  unit axis and broadcasting along it, and come back by reducing over the last axis. Each lemma here says which entry of
  the operand one entry of the result reads, with every index spelt by its coordinates.
-/
import Idealize.ShloMosaic.Lib.ValueLayout
import Idealize.ShloMosaic.PureOps.Ideal.Laws

open scoped BigOperators

namespace Cert.LibLayout3

open Idealize.ShloMosaic Idealize.ShloMosaic.ValueIdx

section Casts
variable {α : Type}

/-- An [a, c] array viewed as [a, 1, c] reads, at (r, u, d), the operand at (r, d). -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (d : Fin c) :
    shapeCast ⟨3, ![a, 1, c]⟩ x h (ix3 r u d) = x (ix2 r d) :=
  shapeCast_apply x h _ _ (by
    have hu : u.val = 0 := by omega
    rw [Shape.rowMajor_val_three, Shape.rowMajor_val_two]
    show r.val * c + d.val = (r.val * 1 + u.val) * c + d.val
    rw [hu, Nat.mul_one, Nat.add_zero])

/-- An [a, b] array viewed as [a, b, 1] reads, at (r, j, u), the operand at (r, j). -/
theorem shapeCast_ab_ab1_apply {a b : ℕ} (x : (⟨2, ![a, b]⟩ : Shape).Idx → α)
    (h : (⟨2, ![a, b]⟩ : Shape).ShapeCasts ⟨3, ![a, b, 1]⟩) (r : Fin a) (j : Fin b) (u : Fin 1) :
    shapeCast ⟨3, ![a, b, 1]⟩ x h (ix3 r j u) = x (ix2 r j) :=
  shapeCast_apply x h _ _ (by
    have hu : u.val = 0 := by omega
    rw [Shape.rowMajor_val_three, Shape.rowMajor_val_two]
    show r.val * b + j.val = (r.val * b + j.val) * 1 + u.val
    rw [hu, Nat.mul_one, Nat.add_zero])

/-- A vector [a] viewed as the column [a, 1] reads, at (r, u), the operand at r. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

end Casts

section Broadcasts
variable {α : Type}

/-- A column [a, 1] broadcast to [a, b] reads, at (r, j), the column at r. -/
theorem broadcastTo_a1_ab_apply {a b : ℕ} (v : (⟨2, ![a, 1]⟩ : Shape).Idx → α)
    (h : (⟨2, ![a, 1]⟩ : Shape).Broadcasts ⟨2, ![a, b]⟩) (r : Fin a) (j : Fin b) :
    broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- An [a, 1, c] array broadcast along its middle axis to [a, b, c] reads, at (r, j, d), the operand at (r, 0, d). -/
theorem broadcastTo_a1c_abc_apply {a b c : ℕ} (v : (⟨3, ![a, 1, c]⟩ : Shape).Idx → α)
    (h : (⟨3, ![a, 1, c]⟩ : Shape).Broadcasts ⟨3, ![a, b, c]⟩) (r : Fin a) (j : Fin b) (d : Fin c) :
    broadcastTo ⟨3, ![a, b, c]⟩ v h (ix3 r j d) = v (ix3 r (0 : Fin 1) d) := by
  refine broadcastTo_apply v h (ix3 r j d) (ix3 r (0 : Fin 1) d) fun ax => ?_
  match ax with
  | ⟨0, _⟩ =>
    show r.val = if a = 1 then 0 else r.val
    split
    · have := r.isLt; omega
    · rfl
  | ⟨1, _⟩ => rfl
  | ⟨2, _⟩ =>
    show d.val = if c = 1 then 0 else d.val
    split
    · have := d.isLt; omega
    · rfl

/-- A [1, b, c] array broadcast along its first axis to [a, b, c] reads, at (r, j, d), the operand at (0, j, d). -/
theorem broadcastTo_1bc_abc_apply {a b c : ℕ} (v : (⟨3, ![1, b, c]⟩ : Shape).Idx → α)
    (h : (⟨3, ![1, b, c]⟩ : Shape).Broadcasts ⟨3, ![a, b, c]⟩) (r : Fin a) (j : Fin b) (d : Fin c) :
    broadcastTo ⟨3, ![a, b, c]⟩ v h (ix3 r j d) = v (ix3 (0 : Fin 1) j d) := by
  refine broadcastTo_apply v h (ix3 r j d) (ix3 (0 : Fin 1) j d) fun ax => ?_
  match ax with
  | ⟨0, _⟩ => rfl
  | ⟨1, _⟩ =>
    show j.val = if b = 1 then 0 else j.val
    split
    · have := j.isLt; omega
    · rfl
  | ⟨2, _⟩ =>
    show d.val = if c = 1 then 0 else d.val
    split
    · have := d.isLt; omega
    · rfl

/-- An [a, b, 1] array broadcast along its last axis to [a, b, c] reads, at (r, j, k), the operand at (r, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (r : Fin a) (j : Fin b) (k : Fin c) :
    broadcastTo ⟨3, ![a, b, c]⟩ v h (ix3 r j k) = v (ix3 r j (0 : Fin 1)) := by
  refine broadcastTo_apply v h (ix3 r j k) (ix3 r j (0 : Fin 1)) fun ax => ?_
  match ax with
  | ⟨0, _⟩ =>
    show r.val = if a = 1 then 0 else r.val
    split
    · have := r.isLt; omega
    · rfl
  | ⟨1, _⟩ =>
    show j.val = if b = 1 then 0 else j.val
    split
    · have := j.isLt; omega
    · rfl
  | ⟨2, _⟩ => rfl

end Broadcasts

/-! ## The index a one-axis reduction inserts, by coordinates -/

section Lift

/-- Over [a, b, c] reduced along its last axis, the index above (r, j) with coordinate d is (r, j, d). -/
theorem lift_abc_last {a b c : ℕ} (h : Shape.Reduces ⟨3, ![a, b, c]⟩ [2] ⟨2, ![a, b]⟩) (r : Fin a) (j : Fin b) (d : Fin c) :
    h.lift (ix2 r j) d = ix3 r j d := by
  funext x
  match x with
  | ⟨0, _⟩ => exact Fin.ext rfl
  | ⟨1, _⟩ => exact Fin.ext rfl
  | ⟨2, _⟩ => exact Fin.ext rfl

/-- Over [a, b] reduced along its columns, the index above r with coordinate j is (r, j). -/
theorem lift_ab_last {a b : ℕ} (h : Shape.Reduces ⟨2, ![a, b]⟩ [1] ⟨1, ![a]⟩) (r : Fin a) (j : Fin b) :
    h.lift (ix1 r) j = ix2 r j := by
  funext x
  match x with
  | ⟨0, _⟩ => exact Fin.ext rfl
  | ⟨1, _⟩ => exact Fin.ext rfl

/-- Over the column [a, 1] reduced along its rows, the index above u with coordinate r is (r, u). -/
theorem lift_a1_first {a : ℕ} (h : Shape.Reduces ⟨2, ![a, 1]⟩ [0] ⟨1, ![1]⟩) (u : Fin 1) (r : Fin a) :
    h.lift (ix1 u) r = ix2 r u := by
  funext x
  match x with
  | ⟨0, _⟩ => exact Fin.ext rfl
  | ⟨1, _⟩ => exact Fin.ext rfl

end Lift

/-! ## One-axis reductions over the extended reals

The sum of a lane is a plain finite sum; a maximum or a minimum is the fold of max or min over the lane's
coordinates, started from the value of the accumulator's word. The reduced axis is written as an element of a literal
Fin type (Fin 2 or Fin 3), the rank of the array being reduced. -/

section Reductions

/-- A minimum over one axis is the fold of min over that axis's coordinates, from the accumulator's value. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The sum over the last axis of an [a, b, c] array, at (r, j). -/
theorem sum_abc_last {a b c : ℕ} (src : FVec Ideal ⟨3, ![a, b, c]⟩ .f32)
    (h : Shape.Reduces ⟨3, ![a, b, c]⟩ [2] ⟨2, ![a, b]⟩) (hacc : (0x00000000#32 : BitVec 32) = 0x00000000#32)
    (r : Fin a) (j : Fin b) :
    multiReduction (s := ⟨3, ![a, b, c]⟩) .add ([2] : List (Fin 3)) ⟨2, ![a, b]⟩ src 0x00000000#32 h (.inl rfl) hacc (ix2 r j)
      = ∑ d : Fin c, src (ix3 r j d) :=
  (Ideal.multiReduction_add_single src 0x00000000#32 h (.inl rfl) hacc (ix2 r j)).trans
    (Finset.sum_congr rfl fun d _ => congrArg src (lift_abc_last h r j d))

/-- The sum over the columns of an [a, b] array, at r. -/
theorem sum_ab_last {a b : ℕ} (src : FVec Ideal ⟨2, ![a, b]⟩ .f32)
    (h : Shape.Reduces ⟨2, ![a, b]⟩ [1] ⟨1, ![a]⟩) (hacc : (0x00000000#32 : BitVec 32) = 0x00000000#32) (r : Fin a) :
    multiReduction (s := ⟨2, ![a, b]⟩) .add ([1] : List (Fin 2)) ⟨1, ![a]⟩ src 0x00000000#32 h (.inl rfl) hacc (ix1 r)
      = ∑ j : Fin b, src (ix2 r j) :=
  (Ideal.multiReduction_add_single src 0x00000000#32 h (.inl rfl) hacc (ix1 r)).trans
    (Finset.sum_congr rfl fun j _ => congrArg src (lift_ab_last h r j))

/-- The sum over the rows of a column [a, 1], at its one index. -/
theorem sum_a1_first {a : ℕ} (src : FVec Ideal ⟨2, ![a, 1]⟩ .f32)
    (h : Shape.Reduces ⟨2, ![a, 1]⟩ [0] ⟨1, ![1]⟩) (hacc : (0x00000000#32 : BitVec 32) = 0x00000000#32) (u : Fin 1) :
    multiReduction (s := ⟨2, ![a, 1]⟩) .add ([0] : List (Fin 2)) ⟨1, ![1]⟩ src 0x00000000#32 h (.inl rfl) hacc (ix1 u)
      = ∑ r : Fin a, src (ix2 r u) :=
  (Ideal.multiReduction_add_single src 0x00000000#32 h (.inl rfl) hacc (ix1 u)).trans
    (Finset.sum_congr rfl fun r _ => congrArg src (lift_a1_first h u r))

/-- The maximum over the columns of an [a, b] array, at r. -/
theorem max_ab_last {a b : ℕ} (src : FVec Ideal ⟨2, ![a, b]⟩ .f32)
    (h : Shape.Reduces ⟨2, ![a, b]⟩ [1] ⟨1, ![a]⟩) (hacc : (0xFF800000#32 : BitVec 32) = 0xFF800000#32) (r : Fin a) :
    multiReduction (s := ⟨2, ![a, b]⟩) .maximumf ([1] : List (Fin 2)) ⟨1, ![a]⟩ src 0xFF800000#32 h (.inl rfl) hacc (ix1 r)
      = (Finset.univ : Finset (Fin b)).fold max (Ideal.ofBits .f32 0xFF800000#32) (fun j => src (ix2 r j)) :=
  (Ideal.multiReduction_maximumf_single src 0xFF800000#32 h (.inl rfl) hacc (ix1 r)).trans
    (Finset.fold_congr fun j _ => congrArg src (lift_ab_last h r j))

/-- The minimum over the columns of an [a, b] array, at r. -/
theorem min_ab_last {a b : ℕ} (src : FVec Ideal ⟨2, ![a, b]⟩ .f32)
    (h : Shape.Reduces ⟨2, ![a, b]⟩ [1] ⟨1, ![a]⟩) (hacc : (0x7F800000#32 : BitVec 32) = 0x7F800000#32) (r : Fin a) :
    multiReduction (s := ⟨2, ![a, b]⟩) .minimumf ([1] : List (Fin 2)) ⟨1, ![a]⟩ src 0x7F800000#32 h (.inl rfl) hacc (ix1 r)
      = (Finset.univ : Finset (Fin b)).fold min (Ideal.ofBits .f32 0x7F800000#32) (fun j => src (ix2 r j)) :=
  (multiReduction_minimumf_single src 0x7F800000#32 h (.inl rfl) hacc (ix1 r)).trans
    (Finset.fold_congr fun j _ => congrArg src (lift_ab_last h r j))

/-- The minimum over the last axis of an [a, b, c] array, at (r, j). -/
theorem min_abc_last {a b c : ℕ} (src : FVec Ideal ⟨3, ![a, b, c]⟩ .f32)
    (h : Shape.Reduces ⟨3, ![a, b, c]⟩ [2] ⟨2, ![a, b]⟩) (hacc : (0x7F800000#32 : BitVec 32) = 0x7F800000#32)
    (r : Fin a) (j : Fin b) :
    multiReduction (s := ⟨3, ![a, b, c]⟩) .minimumf ([2] : List (Fin 3)) ⟨2, ![a, b]⟩ src 0x7F800000#32 h (.inl rfl) hacc (ix2 r j)
      = (Finset.univ : Finset (Fin c)).fold min (Ideal.ofBits .f32 0x7F800000#32) (fun k => src (ix3 r j k)) :=
  (multiReduction_minimumf_single src 0x7F800000#32 h (.inl rfl) hacc (ix2 r j)).trans
    (Finset.fold_congr fun k _ => congrArg src (lift_abc_last h r j k))

end Reductions

end Cert.LibLayout3
-- ==== Proof.KIValue0b.lean ====
/-
  The first kernel's attention and output layer, read at an index.

  After the recurrent cell the body scores each of the 51 hidden rows against the 128 encoder rows of the same batch
  row (a matrix product with the transposed encoder block), takes the softmax of every row of scores with the row
  maximum subtracted (a lane maximum started from minus infinity, an exponential, a lane sum, a division), forms the
  context as the weights times the encoder block, lays the hidden row and the context row side by side and applies
  tanh to the product of that 1024-wide row with the transposed output weights. Each step is stated here over
  variables of the literal vector types and read at an index written by its coordinates; changes of float format are
  the identity on the extended reals, and a matrix product into a zero accumulator is the plain finite sum.
-/
import proofs.«150782_j29695403885316_1_alg».proof.Proof.Gen.KernelIdeal.Skeleton
import proofs.«150782_j29695403885316_1_alg».proof.Proof.Spec
import proofs.«150782_j29695403885316_1_alg».proof.Proof.LibBlockDot
import proofs.«150782_j29695403885316_1_alg».proof.Proof.LibLayout3
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-! ## The encoder block -/

/-- The encoder block with its unit batch axis dropped: row `s`, column `j`. -/
theorem k0_pay4_apply (v32 : Vec Ideal S1x128x512 .f32) (s : Fin 128) (j : Fin 512) :
    (k0_pay4 (F := Ideal) v32 (ix2 s j) : EReal) = v32 (ix3 (0 : Fin 1) s j) :=
  shapeCast_1ab_ab_apply v32 shapeCasts_S1x128x512_S128x512 s j

/-! ## Scores -/

/-- The 51 x 128 scores as the body spells them: the hidden rows times the transposed encoder block. -/
def kScores (H : FVec Ideal S51x512 .f32) (E : FVec Ideal S128x512 .bf16) : FVec Ideal S51x128 .f32 :=
  matmul dot_S51x512_S512x128_S51x128_1_0_0_1_n_n none (truncf .bf16 H bitsLt_bf16_f32)
    (transpose S512x128 [1, 0] E transposes_S128x512_p1_0_S512x128) (constant S51x128 .f32 0x00000000#32)

/-- Position `t` against encoder row `s`: their inner product. -/
theorem kScores_apply (H : FVec Ideal S51x512 .f32) (E : FVec Ideal S128x512 .bf16) (t : Fin 51) (s : Fin 128) :
    (kScores H E (ix2 t s) : EReal) = ∑ j : Fin 512, (H (ix2 t j) : EReal) * E (ix2 s j) := by
  unfold kScores
  refine (Cert.BlockDot.kdot_apply (R := 51) (K := 512) (N := 128) none _ _ t s).trans
    (Finset.sum_congr rfl fun j _ => ?_)
  exact congrArg (fun y => (H (ix2 t j) : EReal) * y) (transpose_ix2_apply E transposes_S128x512_p1_0_S512x128 j s)

theorem k0_pay5_eq (v0 : Vec Ideal S1x51x256 .f32) (v3 : Vec Ideal S1536x256 .f32) (v7 v11 : Vec Ideal S1x1536 .f32)
    (v32 : Vec Ideal S1x128x512 .f32) :
    k0_pay5 (F := Ideal) v0 v3 v7 v11 v32 = kScores (k0_pay3 v0 v3 v7 v11) (k0_pay4 v32) := rfl

/-! ## The row maximum -/

/-- The row maxima kept as a column, as the body spells them: the lane maximum from minus infinity, once more
    the maximum with minus infinity, cast to a column. -/
def kRowMax (Sc : FVec Ideal S51x128 .f32) : FVec Ideal S51x1 .f32 :=
  shapeCast S51x1
    (maximumf (broadcast S51 (Scalar.ofBits (F := Ideal) .f32 0xFF800000#32))
      (multiReduction (F := Ideal) .maximumf [1] S51 Sc 0xFF800000#32 reduces_S51x128_S51 (.inl rfl) rfl))
    shapeCasts_S51_S51x1

/-- Row `t`'s entry of the column: the fold of `max` over the row from the bottom element. -/
theorem kRowMax_apply (Sc : FVec Ideal S51x128 .f32) (t : Fin 51) (u : Fin 1) :
    (kRowMax Sc (ix2 t u) : EReal) = (Finset.univ : Finset (Fin 128)).fold max ⊥ (fun s => (Sc (ix2 t s) : EReal)) := by
  unfold kRowMax
  refine (Cert.LibLayout3.shapeCast_a_a1_apply _ shapeCasts_S51_S51x1 t u).trans ?_
  refine (congrArg (max (Ideal.ofBits .f32 0xFF800000#32))
    (Cert.LibLayout3.max_ab_last Sc reduces_S51x128_S51 rfl t)).trans ?_
  rw [Cert.Spec.ofBits_neg_inf]
  exact Cert.Spec.max_bot_fold _ _

theorem k0_pay6_eq (v0 : Vec Ideal S1x51x256 .f32) (v3 : Vec Ideal S1536x256 .f32) (v7 v11 : Vec Ideal S1x1536 .f32)
    (v32 : Vec Ideal S1x128x512 .f32) :
    k0_pay6 (F := Ideal) v0 v3 v7 v11 v32 = kRowMax (k0_pay5 v0 v3 v7 v11 v32) := rfl

/-! ## The softmax of a row -/

/-- The shifted exponentials: the scores less their row's maximum (a column broadcast over the row), exponentiated. -/
def kExp (Sc : FVec Ideal S51x128 .f32) (M : FVec Ideal S51x1 .f32) : FVec Ideal S51x128 .f32 :=
  exp (subf Sc (broadcastTo S51x128 M broadcasts_S51x1_S51x128))

theorem kExp_apply (Sc : FVec Ideal S51x128 .f32) (M : FVec Ideal S51x1 .f32) (t : Fin 51) (s : Fin 128) :
    (kExp Sc M (ix2 t s) : EReal) = Ideal.exp (Sc (ix2 t s) - M (ix2 t (0 : Fin 1))) :=
  congrArg (fun y => Ideal.exp ((Sc (ix2 t s) : EReal) - y))
    (Cert.LibLayout3.broadcastTo_a1_ab_apply M broadcasts_S51x1_S51x128 t s)

/-- Each entry divided by its row's sum (the lane sum kept as a column and broadcast over the row). -/
def kSoft (Ex : FVec Ideal S51x128 .f32) : FVec Ideal S51x128 .f32 :=
  divf Ex
    (broadcastTo S51x128
      (shapeCast S51x1 (multiReduction (F := Ideal) .add [1] S51 Ex 0x00000000#32 reduces_S51x128_S51 (.inl rfl) rfl)
        shapeCasts_S51_S51x1)
      broadcasts_S51x1_S51x128)

theorem kSoft_apply (Ex : FVec Ideal S51x128 .f32) (t : Fin 51) (s : Fin 128) :
    (kSoft Ex (ix2 t s) : EReal) = Ideal.div (Ex (ix2 t s)) (∑ s' : Fin 128, (Ex (ix2 t s') : EReal)) := by
  unfold kSoft
  refine congrArg (Ideal.div (Ex (ix2 t s))) ?_
  refine (Cert.LibLayout3.broadcastTo_a1_ab_apply _ broadcasts_S51x1_S51x128 t s).trans ?_
  refine (Cert.LibLayout3.shapeCast_a_a1_apply _ shapeCasts_S51_S51x1 t (0 : Fin 1)).trans ?_
  exact Cert.LibLayout3.sum_ab_last Ex reduces_S51x128_S51 rfl t

/-! ## The context -/

/-- The weights times the encoder block. -/
def kCtx (A : FVec Ideal S51x128 .f32) (E : FVec Ideal S128x512 .bf16) : FVec Ideal S51x512 .f32 :=
  matmul dot_S51x128_S128x512_S51x512_1_0_0_1_n_n none (truncf .bf16 A bitsLt_bf16_f32) E
    (constant S51x512 .f32 0x00000000#32)

theorem kCtx_apply (A : FVec Ideal S51x128 .f32) (E : FVec Ideal S128x512 .bf16) (t : Fin 51) (j : Fin 512) :
    (kCtx A E (ix2 t j) : EReal) = ∑ s : Fin 128, (A (ix2 t s) : EReal) * E (ix2 s j) :=
  Cert.BlockDot.kdot_apply (R := 51) (K := 128) (N := 512) none _ _ t j

/-! ## The output layer -/

/-- The hidden rows and the context rows side by side, times the transposed output weights, under tanh. -/
def kOut (H C : FVec Ideal S51x512 .f32) (W : Vec Ideal S512x1024 .f32) : FVec Ideal S51x512 .f32 :=
  tanh
    (matmul dot_S51x1024_S1024x512_S51x512_1_0_0_1_n_n none
      (truncf .bf16
        (concatenate S51x1024 1 [⟨S51x512, H⟩, ⟨S51x512, C⟩] concatenates_S51x512_S51x512_S51x1024_d1)
        bitsLt_bf16_f32)
      (transpose S1024x512 [1, 0] (truncf .bf16 W bitsLt_bf16_f32) transposes_S512x1024_p1_0_S1024x512)
      (constant S51x512 .f32 0x00000000#32))

/-- Position `t`, output unit `j`: tanh of the inner product of the joined row with weight row `j`. -/
theorem kOut_apply (H C : FVec Ideal S51x512 .f32) (W : Vec Ideal S512x1024 .f32) (t : Fin 51) (j : Fin 512) :
    (kOut H C W (ix2 t j) : EReal)
      = Ideal.tanh (∑ k : Fin 1024,
          Cert.DenseRow.cat (A := 512) (B := 512) (C := 1024) rfl (fun a => (H (ix2 t a) : EReal))
            (fun c => (C (ix2 t c) : EReal)) k * W (ix2 j k)) := by
  unfold kOut
  refine congrArg Ideal.tanh ?_
  refine (Cert.BlockDot.kdot_apply (R := 51) (K := 1024) (N := 512) none _ _ t j).trans
    (Finset.sum_congr rfl fun k _ => ?_)
  exact congrArg₂ (· * ·)
    (Cert.DenseRow.concat_cols_apply (R := 51) (A := 512) (B := 512) (C := 1024) rfl H C
      concatenates_S51x512_S51x512_S51x1024_d1 t k)
    (transpose_ix2_apply W transposes_S512x1024_p1_0_S1024x512 k j)

/-- The body's second stored value is the output layer of the cell, the context and the output weights, with a unit
    batch axis put in front. -/
theorem k0_pay2_eq (v31 : FVec Ideal S51x512 .f32) (v34 : FVec Ideal S128x512 .bf16) (v37 : FVec Ideal S51x128 .f32)
    (v41 : FVec Ideal S51x1 .f32) (v53 : Vec Ideal S512x1024 .f32) :
    k0_pay2 (F := Ideal) v31 v34 v37 v41 v53
      = shapeCast S1x51x512 (kOut v31 (kCtx (kSoft (kExp v37 v41)) v34) v53) shapeCasts_S51x512_S1x51x512 := rfl

end Cert.KernelIdeal.Hand

end
-- ==== Proof.KIValue0c.lean ====
/-
  The first kernel's two output blocks, read at an index, are the specification's hidden state and output layer.

  Every load and both stores of the body go through whole blocks at offset zero, so a block left by the body is
  the stored value as a function of the loaded blocks. With the six input blocks holding batch row `b`'s embedded
  inputs and encoder rows and the whole of the weights and biases, the first block at `(0, t, j)` is the gated
  hidden state `h` of position `t`, unit `j`, and the second is `tanh` of the pair (hidden state, attention context)
  times the output weights. The steps in between are the specification's own: scores, their row maximum, the
  shifted exponentials, the weights, the context, the joined row.
-/
import proofs.«150782_j29695403885316_1_alg».proof.Proof.KIRegion0
import proofs.«150782_j29695403885316_1_alg».proof.Proof.KIValue0a
import proofs.«150782_j29695403885316_1_alg».proof.Proof.KIValue0b

noncomputable section

open scoped BigOperators

namespace Cert.KernelIdeal.Hand

open Cert.KernelIdeal Cert.KernelIdeal.Gen
open Idealize.ShloMosaic Idealize.ShloMosaic.ValueIdx

/-! ## Whole-block accesses -/

theorem zero_offsets2 : (![0, 0] : Fin 2 → Nat) = fun _ => 0 := funext fun a => by fin_cases a <;> rfl
theorem zero_offsets3 : (![0, 0, 0] : Fin 3 → Nat) = fun _ => 0 := funext fun a => by fin_cases a <;> rfl

/-- The hidden-state block is the cell's value with a unit batch axis in front. -/
theorem out0_6_eq (x0 : Vec Ideal S1x51x256 .f32) (x1 : Vec Ideal S1536x256 .f32) (x2 x3 : Vec Ideal S1x1536 .f32)
    (x4 : Vec Ideal S1x128x512 .f32) (x5 : Vec Ideal S512x1024 .f32) :
    out0_6 (F := Ideal) x0 x1 x2 x3 x4 x5 = k0_pay1 (k0_pay3 x0 x1 x2 x3) := by
  have e0 : View.ld x0 ri0_0 = x0 := View.ld_unit_zero zero_offsets3 _ x0
  have e1 : View.ld x1 ri0_1 = x1 := View.ld_unit_zero zero_offsets2 _ x1
  have e2 : View.ld x2 ri0_2 = x2 := View.ld_unit_zero zero_offsets2 _ x2
  have e3 : View.ld x3 ri0_3 = x3 := View.ld_unit_zero zero_offsets2 _ x3
  unfold out0_6
  rw [View.canon_unit_zero zero_offsets3, e0, e1, e2, e3]

/-- The projected-output block is the body's second stored value of the loaded blocks. -/
theorem out0_7_eq (x0 : Vec Ideal S1x51x256 .f32) (x1 : Vec Ideal S1536x256 .f32) (x2 x3 : Vec Ideal S1x1536 .f32)
    (x4 : Vec Ideal S1x128x512 .f32) (x5 : Vec Ideal S512x1024 .f32) :
    out0_7 (F := Ideal) x0 x1 x2 x3 x4 x5
      = k0_pay2 (k0_pay3 x0 x1 x2 x3) (k0_pay4 x4) (k0_pay5 x0 x1 x2 x3 x4) (k0_pay6 x0 x1 x2 x3 x4) x5 := by
  have e0 : View.ld x0 ri0_0 = x0 := View.ld_unit_zero zero_offsets3 _ x0
  have e1 : View.ld x1 ri0_1 = x1 := View.ld_unit_zero zero_offsets2 _ x1
  have e2 : View.ld x2 ri0_2 = x2 := View.ld_unit_zero zero_offsets2 _ x2
  have e3 : View.ld x3 ri0_3 = x3 := View.ld_unit_zero zero_offsets2 _ x3
  have e4 : View.ld x4 ri0_4 = x4 := View.ld_unit_zero zero_offsets3 _ x4
  have e5 : View.ld x5 ri0_5 = x5 := View.ld_unit_zero zero_offsets2 _ x5
  unfold out0_7
  rw [View.canon_unit_zero zero_offsets3, e0, e1, e2, e3, e4, e5]

/-! ## The hidden-state block -/

/-- The hidden-state block at `(0, t, j)` is the specification's `h` of batch row `b`. -/
theorem out0_6_apply (x0 : Vec Ideal S1x51x256 .f32) (x1 : Vec Ideal S1536x256 .f32) (x2 x3 : Vec Ideal S1x1536 .f32)
    (x4 : Vec Ideal S1x128x512 .f32) (x5 : Vec Ideal S512x1024 .f32)
    (X : Fin 64 → Fin 51 → Fin 256 → EReal) (Wih : Fin 1536 → Fin 256 → EReal) (bih bhh : Fin 1536 → EReal) (b : Fin 64)
    (h0 : ∀ t e, x0 (ix3 (0 : Fin 1) t e) = X b t e) (h1 : ∀ g e, x1 (ix2 g e) = Wih g e)
    (h2 : ∀ g, x2 (ix2 (0 : Fin 1) g) = bih g) (h3 : ∀ g, x3 (ix2 (0 : Fin 1) g) = bhh g)
    (t : Fin 51) (j : Fin 512) :
    (out0_6 (F := Ideal) x0 x1 x2 x3 x4 x5 (ix3 (0 : Fin 1) t j) : EReal) = Cert.Spec.h X Wih bih bhh b t j := by
  rw [out0_6_eq]
  refine (shapeCast_ab_1ab_apply (k0_pay3 (F := Ideal) x0 x1 x2 x3) shapeCasts_S51x512_S1x51x512 (0 : Fin 1) t j).trans ?_
  exact k0_pay3_apply x0 x1 x2 x3 X Wih bih bhh b h0 h1 h2 h3 t j

/-! ## From the scores to the context -/

/-- The body's scores are the specification's. -/
theorem k0_pay5_apply (x0 : Vec Ideal S1x51x256 .f32) (x1 : Vec Ideal S1536x256 .f32) (x2 x3 : Vec Ideal S1x1536 .f32)
    (x4 : Vec Ideal S1x128x512 .f32)
    (X : Fin 64 → Fin 51 → Fin 256 → EReal) (Wih : Fin 1536 → Fin 256 → EReal) (bih bhh : Fin 1536 → EReal)
    (Enc : Fin 64 → Fin 128 → Fin 512 → EReal) (b : Fin 64)
    (h0 : ∀ t e, x0 (ix3 (0 : Fin 1) t e) = X b t e) (h1 : ∀ g e, x1 (ix2 g e) = Wih g e)
    (h2 : ∀ g, x2 (ix2 (0 : Fin 1) g) = bih g) (h3 : ∀ g, x3 (ix2 (0 : Fin 1) g) = bhh g)
    (h4 : ∀ s j, x4 (ix3 (0 : Fin 1) s j) = Enc b s j)
    (t : Fin 51) (s : Fin 128) :
    (k0_pay5 (F := Ideal) x0 x1 x2 x3 x4 (ix2 t s) : EReal) = Cert.Spec.scores X Wih bih bhh Enc b t s := by
  rw [k0_pay5_eq, kScores_apply]
  unfold Cert.Spec.scores
  refine Finset.sum_congr rfl fun j _ => ?_
  rw [k0_pay3_apply x0 x1 x2 x3 X Wih bih bhh b h0 h1 h2 h3 t j, k0_pay4_apply, h4 s j]

/-- The body's row maximum is the specification's. -/
theorem k0_pay6_apply (x0 : Vec Ideal S1x51x256 .f32) (x1 : Vec Ideal S1536x256 .f32) (x2 x3 : Vec Ideal S1x1536 .f32)
    (x4 : Vec Ideal S1x128x512 .f32)
    (X : Fin 64 → Fin 51 → Fin 256 → EReal) (Wih : Fin 1536 → Fin 256 → EReal) (bih bhh : Fin 1536 → EReal)
    (Enc : Fin 64 → Fin 128 → Fin 512 → EReal) (b : Fin 64)
    (h0 : ∀ t e, x0 (ix3 (0 : Fin 1) t e) = X b t e) (h1 : ∀ g e, x1 (ix2 g e) = Wih g e)
    (h2 : ∀ g, x2 (ix2 (0 : Fin 1) g) = bih g) (h3 : ∀ g, x3 (ix2 (0 : Fin 1) g) = bhh g)
    (h4 : ∀ s j, x4 (ix3 (0 : Fin 1) s j) = Enc b s j)
    (t : Fin 51) (u : Fin 1) :
    (k0_pay6 (F := Ideal) x0 x1 x2 x3 x4 (ix2 t u) : EReal) = Cert.Spec.smax X Wih bih bhh Enc b t := by
  rw [k0_pay6_eq, kRowMax_apply]
  unfold Cert.Spec.smax
  exact Finset.fold_congr fun s _ => k0_pay5_apply x0 x1 x2 x3 x4 X Wih bih bhh Enc b h0 h1 h2 h3 h4 t s

/-- The body's shifted exponentials are the specification's. -/
theorem kExp_spec (x0 : Vec Ideal S1x51x256 .f32) (x1 : Vec Ideal S1536x256 .f32) (x2 x3 : Vec Ideal S1x1536 .f32)
    (x4 : Vec Ideal S1x128x512 .f32)
    (X : Fin 64 → Fin 51 → Fin 256 → EReal) (Wih : Fin 1536 → Fin 256 → EReal) (bih bhh : Fin 1536 → EReal)
    (Enc : Fin 64 → Fin 128 → Fin 512 → EReal) (b : Fin 64)
    (h0 : ∀ t e, x0 (ix3 (0 : Fin 1) t e) = X b t e) (h1 : ∀ g e, x1 (ix2 g e) = Wih g e)
    (h2 : ∀ g, x2 (ix2 (0 : Fin 1) g) = bih g) (h3 : ∀ g, x3 (ix2 (0 : Fin 1) g) = bhh g)
    (h4 : ∀ s j, x4 (ix3 (0 : Fin 1) s j) = Enc b s j)
    (t : Fin 51) (s : Fin 128) :
    (kExp (k0_pay5 (F := Ideal) x0 x1 x2 x3 x4) (k0_pay6 (F := Ideal) x0 x1 x2 x3 x4) (ix2 t s) : EReal)
      = Cert.Spec.sexp X Wih bih bhh Enc b t s := by
  rw [kExp_apply, k0_pay5_apply x0 x1 x2 x3 x4 X Wih bih bhh Enc b h0 h1 h2 h3 h4 t s, k0_pay6_apply x0 x1 x2 x3 x4 X Wih bih bhh Enc b h0 h1 h2 h3 h4 t (0 : Fin 1)]
  rfl

/-- The body's attention weights are the specification's. -/
theorem kSoft_spec (x0 : Vec Ideal S1x51x256 .f32) (x1 : Vec Ideal S1536x256 .f32) (x2 x3 : Vec Ideal S1x1536 .f32)
    (x4 : Vec Ideal S1x128x512 .f32)
    (X : Fin 64 → Fin 51 → Fin 256 → EReal) (Wih : Fin 1536 → Fin 256 → EReal) (bih bhh : Fin 1536 → EReal)
    (Enc : Fin 64 → Fin 128 → Fin 512 → EReal) (b : Fin 64)
    (h0 : ∀ t e, x0 (ix3 (0 : Fin 1) t e) = X b t e) (h1 : ∀ g e, x1 (ix2 g e) = Wih g e)
    (h2 : ∀ g, x2 (ix2 (0 : Fin 1) g) = bih g) (h3 : ∀ g, x3 (ix2 (0 : Fin 1) g) = bhh g)
    (h4 : ∀ s j, x4 (ix3 (0 : Fin 1) s j) = Enc b s j)
    (t : Fin 51) (s : Fin 128) :
    (kSoft (kExp (k0_pay5 (F := Ideal) x0 x1 x2 x3 x4) (k0_pay6 (F := Ideal) x0 x1 x2 x3 x4)) (ix2 t s) : EReal)
      = Cert.Spec.attn X Wih bih bhh Enc b t s := by
  rw [kSoft_apply, kExp_spec x0 x1 x2 x3 x4 X Wih bih bhh Enc b h0 h1 h2 h3 h4 t s]
  unfold Cert.Spec.attn
  exact congrArg (Ideal.div _) (Finset.sum_congr rfl fun s' _ => kExp_spec x0 x1 x2 x3 x4 X Wih bih bhh Enc b h0 h1 h2 h3 h4 t s')

/-- The body's context is the specification's. -/
theorem kCtx_spec (x0 : Vec Ideal S1x51x256 .f32) (x1 : Vec Ideal S1536x256 .f32) (x2 x3 : Vec Ideal S1x1536 .f32)
    (x4 : Vec Ideal S1x128x512 .f32)
    (X : Fin 64 → Fin 51 → Fin 256 → EReal) (Wih : Fin 1536 → Fin 256 → EReal) (bih bhh : Fin 1536 → EReal)
    (Enc : Fin 64 → Fin 128 → Fin 512 → EReal) (b : Fin 64)
    (h0 : ∀ t e, x0 (ix3 (0 : Fin 1) t e) = X b t e) (h1 : ∀ g e, x1 (ix2 g e) = Wih g e)
    (h2 : ∀ g, x2 (ix2 (0 : Fin 1) g) = bih g) (h3 : ∀ g, x3 (ix2 (0 : Fin 1) g) = bhh g)
    (h4 : ∀ s j, x4 (ix3 (0 : Fin 1) s j) = Enc b s j)
    (t : Fin 51) (j : Fin 512) :
    (kCtx (kSoft (kExp (k0_pay5 (F := Ideal) x0 x1 x2 x3 x4) (k0_pay6 (F := Ideal) x0 x1 x2 x3 x4)))
        (k0_pay4 (F := Ideal) x4) (ix2 t j) : EReal)
      = Cert.Spec.ctx X Wih bih bhh Enc b t j := by
  rw [kCtx_apply]
  unfold Cert.Spec.ctx
  refine Finset.sum_congr rfl fun s _ => ?_
  rw [kSoft_spec x0 x1 x2 x3 x4 X Wih bih bhh Enc b h0 h1 h2 h3 h4 t s, k0_pay4_apply, h4 s j]

/-! ## The projected-output block -/

/-- The projected-output block at `(0, t, j)` is the specification's `o` of batch row `b`. -/
theorem out0_7_apply (x0 : Vec Ideal S1x51x256 .f32) (x1 : Vec Ideal S1536x256 .f32) (x2 x3 : Vec Ideal S1x1536 .f32)
    (x4 : Vec Ideal S1x128x512 .f32) (x5 : Vec Ideal S512x1024 .f32)
    (X : Fin 64 → Fin 51 → Fin 256 → EReal) (Wih : Fin 1536 → Fin 256 → EReal) (bih bhh : Fin 1536 → EReal)
    (Enc : Fin 64 → Fin 128 → Fin 512 → EReal) (Wa : Fin 512 → Fin 1024 → EReal) (b : Fin 64)
    (h0 : ∀ t e, x0 (ix3 (0 : Fin 1) t e) = X b t e) (h1 : ∀ g e, x1 (ix2 g e) = Wih g e)
    (h2 : ∀ g, x2 (ix2 (0 : Fin 1) g) = bih g) (h3 : ∀ g, x3 (ix2 (0 : Fin 1) g) = bhh g)
    (h4 : ∀ s j, x4 (ix3 (0 : Fin 1) s j) = Enc b s j) (h5 : ∀ j k, x5 (ix2 j k) = Wa j k)
    (t : Fin 51) (j : Fin 512) :
    (out0_7 (F := Ideal) x0 x1 x2 x3 x4 x5 (ix3 (0 : Fin 1) t j) : EReal)
      = Cert.Spec.o X Wih bih bhh Enc Wa b t j := by
  rw [out0_7_eq, k0_pay2_eq]
  refine (shapeCast_ab_1ab_apply _ shapeCasts_S51x512_S1x51x512 (0 : Fin 1) t j).trans ?_
  rw [kOut_apply]
  unfold Cert.Spec.o
  refine congrArg Ideal.tanh (Finset.sum_congr rfl fun k _ => ?_)
  rw [h5 j k]
  refine congrArg (fun y => y * Wa j k) ?_
  unfold Cert.DenseRow.cat Cert.Spec.cat
  by_cases hk : k.val < 512
  · rw [dif_pos hk, dif_pos hk]
    exact k0_pay3_apply x0 x1 x2 x3 X Wih bih bhh b h0 h1 h2 h3 t ⟨k.val, hk⟩
  · rw [dif_neg hk, dif_neg hk]
    exact kCtx_spec x0 x1 x2 x3 x4 X Wih bih bhh Enc b h0 h1 h2 h3 h4 t _

end Cert.KernelIdeal.Hand

end
-- ==== Proof.LibBatchRows.lean ====
/-
  LAYOUT OPERATIONS ON A BATCH OF ROW TABLES, read at an index.

  A batch of `A` tables of `B` rows is kept either as a three-axis array `[A, B, C]` or flattened to `[A·B, C]`, row `n` of
  table `p` at flat row `p·B + n` (`row`).  Read here at an index given by its coordinates: the casts between the two forms
  (also with a trailing unit axis in place of `C`), the broadcasts that repeat a per-table row, a shared row or a per-row
  number across a table, a sum over the rows of each table or over the columns of each flat row, and two slices of a table
  (its first row's leading columns; one column of every row).  All extents are parameters; the flat row count `R` comes with
  the equation `R = A * B`.  No algebra of the extended reals is used.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.BatchRows

open Idealize.ShloMosaic Idealize.ShloMosaic.ValueIdx

variable {α : Type}

/-- Row `n` of table `p` in the flattened array. -/
def row {A B R : ℕ} (hR : R = A * B) (p : Fin A) (n : Fin B) : Fin R :=
  ⟨p.val * B + n.val, by
    subst hR
    exact Nat.lt_of_lt_of_le (Nat.add_lt_add_left n.isLt _) (by rw [← Nat.succ_mul]; exact Nat.mul_le_mul_right _ p.isLt)⟩

theorem row_val {A B R : ℕ} (hR : R = A * B) (p : Fin A) (n : Fin B) : (row hR p n).val = p.val * B + n.val := rfl

/-- Every flat row is some table's row. -/
theorem exists_row {A B R : ℕ} (hR : R = A * B) (hB : 0 < B) (r : Fin R) : ∃ (p : Fin A) (n : Fin B), r = row hR p n := by
  subst hR
  have hr : r.val < B * A := lt_of_lt_of_eq r.isLt (Nat.mul_comm A B)
  refine ⟨⟨r.val / B, Nat.div_lt_of_lt_mul hr⟩, ⟨r.val % B, Nat.mod_lt _ hB⟩, Fin.ext ?_⟩
  show r.val = r.val / B * B + r.val % B
  exact (Nat.div_add_mod' r.val B).symm

/-! ## Casts between the two forms -/

theorem cast_abc_rc {A B C R : ℕ} (hR : R = A * B) (x : (⟨3, ![A, B, C]⟩ : Shape).Idx → α)
    (h : (⟨3, ![A, B, C]⟩ : Shape).ShapeCasts ⟨2, ![R, C]⟩) (p : Fin A) (n : Fin B) (c : Fin C) :
    shapeCast ⟨2, ![R, C]⟩ x h (ix2 (row hR p n) c) = x (ix3 p n c) :=
  shapeCast_apply x h _ _ (by rw [Shape.rowMajor_val_three, Shape.rowMajor_val_two]; rfl)

theorem cast_rc_abc {A B C R : ℕ} (hR : R = A * B) (x : (⟨2, ![R, C]⟩ : Shape).Idx → α)
    (h : (⟨2, ![R, C]⟩ : Shape).ShapeCasts ⟨3, ![A, B, C]⟩) (p : Fin A) (n : Fin B) (c : Fin C) :
    shapeCast ⟨3, ![A, B, C]⟩ x h (ix3 p n c) = x (ix2 (row hR p n) c) :=
  shapeCast_apply x h _ _ (by rw [Shape.rowMajor_val_three, Shape.rowMajor_val_two]; rfl)

theorem cast_ab_r1 {A B R : ℕ} (hR : R = A * B) (x : (⟨2, ![A, B]⟩ : Shape).Idx → α)
    (h : (⟨2, ![A, B]⟩ : Shape).ShapeCasts ⟨2, ![R, 1]⟩) (p : Fin A) (n : Fin B) (u : Fin 1) :
    shapeCast ⟨2, ![R, 1]⟩ x h (ix2 (row hR p n) u) = x (ix2 p n) :=
  shapeCast_apply x h _ _ (by
    have hu : u.val = 0 := by omega
    rw [Shape.rowMajor_val_two, Shape.rowMajor_val_two]
    show p.val * B + n.val = (p.val * B + n.val) * 1 + u.val
    omega)

theorem cast_r1_ab {A B R : ℕ} (hR : R = A * B) (x : (⟨2, ![R, 1]⟩ : Shape).Idx → α)
    (h : (⟨2, ![R, 1]⟩ : Shape).ShapeCasts ⟨2, ![A, B]⟩) (p : Fin A) (n : Fin B) :
    shapeCast ⟨2, ![A, B]⟩ x h (ix2 p n) = x (ix2 (row hR p n) (0 : Fin 1)) :=
  shapeCast_apply x h _ _ (by
    rw [Shape.rowMajor_val_two, Shape.rowMajor_val_two]
    show (p.val * B + n.val) * 1 + 0 = p.val * B + n.val
    omega)

/-! ## Repeating a row or a number across a table -/

/-- A per-table row `[A, C]` cast to `[A, 1, C]` and broadcast over the table's rows. -/
theorem bcast_ac_abc {A B C : ℕ} (x : (⟨2, ![A, C]⟩ : Shape).Idx → α)
    (hc : (⟨2, ![A, C]⟩ : Shape).ShapeCasts ⟨3, ![A, 1, C]⟩) (hb : (⟨3, ![A, 1, C]⟩ : Shape).Broadcasts ⟨3, ![A, B, C]⟩)
    (p : Fin A) (n : Fin B) (c : Fin C) :
    broadcastTo ⟨3, ![A, B, C]⟩ (shapeCast ⟨3, ![A, 1, C]⟩ x hc) hb (ix3 p n c) = x (ix2 p c) := by
  have e1 : broadcastTo ⟨3, ![A, B, C]⟩ (shapeCast ⟨3, ![A, 1, C]⟩ x hc) hb (ix3 p n c)
      = shapeCast ⟨3, ![A, 1, C]⟩ x hc (ix3 p (0 : Fin 1) c) :=
    broadcastTo_apply _ hb (ix3 p n c) (ix3 p (0 : Fin 1) c) fun ax => by
      match ax with
      | ⟨0, _⟩ =>
        show p.val = if A = 1 then 0 else p.val
        split
        · have := p.isLt; omega
        · rfl
      | ⟨1, _⟩ => rfl
      | ⟨2, _⟩ =>
        show c.val = if C = 1 then 0 else c.val
        split
        · have := c.isLt; omega
        · rfl
  rw [e1]
  exact shapeCast_apply x hc _ _ (by
    rw [Shape.rowMajor_val_three, Shape.rowMajor_val_two]
    show p.val * C + c.val = (p.val * 1 + 0) * C + c.val
    rw [Nat.mul_one, Nat.add_zero])

/-- A shared row `[1, C]` cast to `[1, 1, C]` and broadcast over every table's rows. -/
theorem bcast_1c_abc {A B C : ℕ} (x : (⟨2, ![1, C]⟩ : Shape).Idx → α)
    (hc : (⟨2, ![1, C]⟩ : Shape).ShapeCasts ⟨3, ![1, 1, C]⟩) (hb : (⟨3, ![1, 1, C]⟩ : Shape).Broadcasts ⟨3, ![A, B, C]⟩)
    (p : Fin A) (n : Fin B) (c : Fin C) :
    broadcastTo ⟨3, ![A, B, C]⟩ (shapeCast ⟨3, ![1, 1, C]⟩ x hc) hb (ix3 p n c) = x (ix2 (0 : Fin 1) c) := by
  have e1 : broadcastTo ⟨3, ![A, B, C]⟩ (shapeCast ⟨3, ![1, 1, C]⟩ x hc) hb (ix3 p n c)
      = shapeCast ⟨3, ![1, 1, C]⟩ x hc (ix3 (0 : Fin 1) (0 : Fin 1) c) :=
    broadcastTo_apply _ hb (ix3 p n c) (ix3 (0 : Fin 1) (0 : Fin 1) c) fun ax => by
      match ax with
      | ⟨0, _⟩ => rfl
      | ⟨1, _⟩ => rfl
      | ⟨2, _⟩ =>
        show c.val = if C = 1 then 0 else c.val
        split
        · have := c.isLt; omega
        · rfl
  rw [e1]
  exact shapeCast_apply x hc _ _ (by
    rw [Shape.rowMajor_val_three, Shape.rowMajor_val_two]
    show 0 * C + c.val = (0 * 1 + 0) * C + c.val
    omega)

/-- A per-row number `[A, B]` cast to `[A, B, 1]` and broadcast across the row's columns. -/
theorem bcast_ab_abc {A B C : ℕ} (x : (⟨2, ![A, B]⟩ : Shape).Idx → α)
    (hc : (⟨2, ![A, B]⟩ : Shape).ShapeCasts ⟨3, ![A, B, 1]⟩) (hb : (⟨3, ![A, B, 1]⟩ : Shape).Broadcasts ⟨3, ![A, B, C]⟩)
    (p : Fin A) (n : Fin B) (c : Fin C) :
    broadcastTo ⟨3, ![A, B, C]⟩ (shapeCast ⟨3, ![A, B, 1]⟩ x hc) hb (ix3 p n c) = x (ix2 p n) := by
  have e1 : broadcastTo ⟨3, ![A, B, C]⟩ (shapeCast ⟨3, ![A, B, 1]⟩ x hc) hb (ix3 p n c)
      = shapeCast ⟨3, ![A, B, 1]⟩ x hc (ix3 p n (0 : Fin 1)) :=
    broadcastTo_apply _ hb (ix3 p n c) (ix3 p n (0 : Fin 1)) fun ax => by
      match ax with
      | ⟨0, _⟩ =>
        show p.val = if A = 1 then 0 else p.val
        split
        · have := p.isLt; omega
        · rfl
      | ⟨1, _⟩ =>
        show n.val = if B = 1 then 0 else n.val
        split
        · have := n.isLt; omega
        · rfl
      | ⟨2, _⟩ => rfl
  rw [e1]
  exact shapeCast_apply x hc _ _ (by
    rw [Shape.rowMajor_val_three, Shape.rowMajor_val_two]
    show p.val * B + n.val = (p.val * B + n.val) * 1 + 0
    omega)

/-- A one-entry array `[1, 1]` broadcast down a column `[R, 1]`. -/
theorem bcast_11_r1 {R : ℕ} (x : (⟨2, ![1, 1]⟩ : Shape).Idx → α) (hb : (⟨2, ![1, 1]⟩ : Shape).Broadcasts ⟨2, ![R, 1]⟩)
    (r : Fin R) (u : Fin 1) : broadcastTo ⟨2, ![R, 1]⟩ x hb (ix2 r u) = x (ix2 (0 : Fin 1) (0 : Fin 1)) :=
  broadcastTo_apply x hb (ix2 r u) (ix2 (0 : Fin 1) (0 : Fin 1)) fun ax => by
    match ax with
    | ⟨0, _⟩ => rfl
    | ⟨1, _⟩ => rfl

/-! ## Sums -/

/-- The sum over the rows of each table (axis 1 of `[A, B, C]`), from the zero word. -/
theorem sum_rows {A B C : ℕ} {φ : FTy} (x : FVec Ideal ⟨3, ![A, B, C]⟩ φ) (acc : BitVec φ.bits)
    (h : (⟨3, ![A, B, C]⟩ : Shape).Reduces [(1 : Fin 3)] ⟨2, ![A, C]⟩) (hφ : FKind.Formats φ)
    (hacc : acc = FKind.add.neutral φ hφ) (p : Fin A) (c : Fin C) :
    multiReduction .add [(1 : Fin 3)] ⟨2, ![A, C]⟩ x acc h hφ hacc (ix2 p c) = ∑ n : Fin B, x (ix3 p n c) := by
  refine (Ideal.multiReduction_add_single x acc h hφ hacc (ix2 p c)).trans ?_
  refine Finset.sum_congr rfl fun n _ => congrArg x ?_
  funext a
  apply Fin.ext
  match a with
  | ⟨0, _⟩ => rfl
  | ⟨1, _⟩ => rfl
  | ⟨2, _⟩ => rfl

/-- The sum over the columns of each flat row (axis 1 of `[R, E]`), from the zero word. -/
theorem sum_cols {R E : ℕ} {φ : FTy} (x : FVec Ideal ⟨2, ![R, E]⟩ φ) (acc : BitVec φ.bits)
    (h : (⟨2, ![R, E]⟩ : Shape).Reduces [(1 : Fin 2)] ⟨1, ![R]⟩) (hφ : FKind.Formats φ)
    (hacc : acc = FKind.add.neutral φ hφ) (r : Fin R) :
    multiReduction .add [(1 : Fin 2)] ⟨1, ![R]⟩ x acc h hφ hacc (ix1 r) = ∑ e : Fin E, x (ix2 r e) := by
  refine (Ideal.multiReduction_add_single x acc h hφ hacc (ix1 r)).trans ?_
  refine Finset.sum_congr rfl fun e _ => congrArg x ?_
  funext a
  apply Fin.ext
  match a with
  | ⟨0, _⟩ => rfl
  | ⟨1, _⟩ => rfl

/-! ## Two slices of a table -/

/-- The leading `M` columns of row 0 of every table, as `[A, M]`. -/
theorem head_row {A B C M : ℕ} (hM : M ≤ C) (hB : 0 < B) (x : (⟨3, ![A, B, C]⟩ : Shape).Idx → α)
    (hs : (⟨3, ![A, B, C]⟩ : Shape).Slices ![0, 0, 0] ⟨3, ![A, 1, M]⟩)
    (hc : (⟨3, ![A, 1, M]⟩ : Shape).ShapeCasts ⟨2, ![A, M]⟩) (p : Fin A) (i : Fin M) :
    shapeCast ⟨2, ![A, M]⟩ (extractStridedSlice ⟨3, ![A, 1, M]⟩ ![0, 0, 0] x hs) hc (ix2 p i)
      = x (ix3 p ⟨0, hB⟩ ⟨i.val, by have := i.isLt; omega⟩) := by
  have e1 : shapeCast ⟨2, ![A, M]⟩ (extractStridedSlice ⟨3, ![A, 1, M]⟩ ![0, 0, 0] x hs) hc (ix2 p i)
      = extractStridedSlice ⟨3, ![A, 1, M]⟩ ![0, 0, 0] x hs (ix3 p (0 : Fin 1) i) :=
    shapeCast_apply _ hc _ _ (by
      rw [Shape.rowMajor_val_three, Shape.rowMajor_val_two]
      show (p.val * 1 + 0) * M + i.val = p.val * M + i.val
      rw [Nat.mul_one, Nat.add_zero])
  rw [e1]
  refine extractStridedSlice_apply _ x hs _ _ fun a => ?_
  match a with
  | ⟨0, _⟩ => show p.val = 0 + p.val; omega
  | ⟨1, _⟩ => show 0 = 0 + 0; rfl
  | ⟨2, _⟩ => show i.val = 0 + i.val; omega

/-- Column `o` of every row of every table, as `[A, B]`. -/
theorem column {A B C : ℕ} (o : ℕ) (ho : o < C) (x : (⟨3, ![A, B, C]⟩ : Shape).Idx → α)
    (hs : (⟨3, ![A, B, C]⟩ : Shape).Slices ![0, 0, o] ⟨3, ![A, B, 1]⟩)
    (hc : (⟨3, ![A, B, 1]⟩ : Shape).ShapeCasts ⟨2, ![A, B]⟩) (p : Fin A) (n : Fin B) :
    shapeCast ⟨2, ![A, B]⟩ (extractStridedSlice ⟨3, ![A, B, 1]⟩ ![0, 0, o] x hs) hc (ix2 p n)
      = x (ix3 p n ⟨o, ho⟩) := by
  have e1 : shapeCast ⟨2, ![A, B]⟩ (extractStridedSlice ⟨3, ![A, B, 1]⟩ ![0, 0, o] x hs) hc (ix2 p n)
      = extractStridedSlice ⟨3, ![A, B, 1]⟩ ![0, 0, o] x hs (ix3 p n (0 : Fin 1)) :=
    shapeCast_apply _ hc _ _ (by
      rw [Shape.rowMajor_val_three, Shape.rowMajor_val_two]
      show (p.val * B + n.val) * 1 + 0 = p.val * B + n.val
      omega)
  rw [e1]
  refine extractStridedSlice_apply _ x hs _ _ fun a => ?_
  match a with
  | ⟨0, _⟩ => show p.val = 0 + p.val; omega
  | ⟨1, _⟩ => show n.val = 0 + n.val; omega
  | ⟨2, _⟩ => show o = o + 0; rfl

end Cert.BatchRows

end
-- ==== Proof.KIHost.lean ====
/-
  What the three stretches of host operations of the idealized kernel program do to the buffers, read at an index.

  The first stretch turns the two scale vectors into rows; the second takes the last position of every sequence out of
  the first table, flattens the second table of hidden states to one row per (sequence, position) pair, and passes the
  projection's weights and bias on (a change of float format is the identity on extended reals); the last stretch cuts
  the flat logits back into one table per sequence. Every statement is over an arbitrary valuation of the buffers.
-/
import proofs.«150782_j29695403885316_1_alg».proof.Proof.Gen.KernelIdeal.Regions
import proofs.«150782_j29695403885316_1_alg».proof.Proof.LibBatchRows
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal

noncomputable section

namespace Cert.KernelIdeal.Hand

open Idealize.ShloMosaic Idealize.ShloMosaic.TcCoe Idealize.ShloMosaic.ValueIdx
open Idealize.ShloMosaic.StableHlo
open Cert.KernelIdeal Cert.KernelIdeal.Gen

variable (W : Valuation τ sig (Elt Ideal))

/-! ## Reshapes of a vector to a row, and of a batch with a unit middle axis -/

/-- A vector [n] viewed as the row [1, n] reads, at (0, g), the operand at g. -/
theorem shapeCast_n_1n_apply {α : Type} {n : ℕ} (x : (⟨1, ![n]⟩ : Shape).Idx → α)
    (h : (⟨1, ![n]⟩ : Shape).ShapeCasts ⟨2, ![1, n]⟩) (u : Fin 1) (g : Fin n) :
    shapeCast ⟨2, ![1, n]⟩ x h (ix2 u g) = x (ix1 g) :=
  shapeCast_apply x h _ _ (by
    have hu : u.val = 0 := by omega
    rw [Shape.rowMajor_val_two, Shape.rowMajor_val_one]
    show g.val = u.val * n + g.val
    rw [hu, Nat.zero_mul, Nat.zero_add])

/-- An [a, 1, c] array viewed as [a, c] reads, at (r, d), the operand at (r, 0, d). -/
theorem shapeCast_a1c_ac_apply {α : Type} {a c : ℕ} (x : (⟨3, ![a, 1, c]⟩ : Shape).Idx → α)
    (h : (⟨3, ![a, 1, c]⟩ : Shape).ShapeCasts ⟨2, ![a, c]⟩) (r : Fin a) (u : Fin 1) (d : Fin c) :
    shapeCast ⟨2, ![a, c]⟩ x h (ix2 r d) = x (ix3 r u d) :=
  shapeCast_apply x h _ _ (by
    have hu : u.val = 0 := by omega
    rw [Shape.rowMajor_val_three, Shape.rowMajor_val_two]
    show (r.val * 1 + u.val) * c + d.val = r.val * c + d.val
    rw [hu, Nat.mul_one, Nat.add_zero])

/-! ## The first stretch: the two scale vectors become rows; no argument is written -/

theorem host0_v10 (g : Fin 1536) :
    StableHlo.after hostOps0 W main_v10 (ix2 (0 : Fin 1) g) = W main_arg6 (ix1 g) := by
  have e : (StableHlo.after hostOps0 W main_v10 : S1x1536.Idx → EReal)
      = shapeCast S1x1536 (W main_arg6 : S1536.Idx → EReal) shapeCasts_S1536_S1x1536 := by
    simp only [hostOps0]; after_results; rfl
  rw [e]
  exact shapeCast_n_1n_apply _ _ _ _

theorem host0_v11 (g : Fin 1536) :
    StableHlo.after hostOps0 W main_v11 (ix2 (0 : Fin 1) g) = W main_arg7 (ix1 g) := by
  have e : (StableHlo.after hostOps0 W main_v11 : S1x1536.Idx → EReal)
      = shapeCast S1x1536 (W main_arg7 : S1536.Idx → EReal) shapeCasts_S1536_S1x1536 := by
    simp only [hostOps0]; after_results; rfl
  rw [e]
  exact shapeCast_n_1n_apply _ _ _ _

/-- The first stretch leaves every reference it does not write as it was. -/
theorem host0_keep (r : Ref sig .tc) (h : r ∉ hostOps0_W) : StableHlo.after hostOps0 W r = W r :=
  StableHlo.after_of_writes_sub hostOps0 _ hostOps0_writes h

theorem host0_arg2 : StableHlo.after hostOps0 W main_arg2 = W main_arg2 := host0_keep W _ (by decide)
theorem host0_arg4 : StableHlo.after hostOps0 W main_arg4 = W main_arg4 := host0_keep W _ (by decide)
theorem host0_arg8 : StableHlo.after hostOps0 W main_arg8 = W main_arg8 := host0_keep W _ (by decide)
theorem host0_arg9 : StableHlo.after hostOps0 W main_arg9 = W main_arg9 := host0_keep W _ (by decide)
theorem host0_arg10 : StableHlo.after hostOps0 W main_arg10 = W main_arg10 := host0_keep W _ (by decide)

/-! ## The second stretch -/

/-- The last position of every sequence, as one [1, 64, 512] table. -/
theorem host1_v15 (b : Fin 64) (j : Fin 512) :
    StableHlo.after hostOps1 W main_v15 (ix3 (0 : Fin 1) b j) = W main_v12_0 (ix3 b (50 : Fin 51) j) := by
  have e : (StableHlo.after hostOps1 W main_v15 : S1x64x512.Idx → EReal)
      = broadcastInDim S1x64x512 ![1, 2] bcast_S64x512_S1x64x512_1_2
          (shapeCast S64x512 (extractStridedSlice S64x1x512 ![0, 50, 0] (W main_v12_0 : S64x51x512.Idx → EReal)
            slices_S64x51x512_S64x1x512_0_50_0) shapeCasts_S64x1x512_S64x512) := by
    simp only [hostOps1]; after_results; rfl
  rw [e]
  refine (broadcastInDim_apply _ _ _ _ (ix2 b j) fun a => ?_).trans ?_
  · match a with
    | ⟨0, _⟩ => rfl
    | ⟨1, _⟩ => rfl
  refine (shapeCast_a1c_ac_apply _ _ b (0 : Fin 1) j).trans ?_
  refine extractStridedSlice_apply _ _ _ _ _ fun a => ?_
  match a with
  | ⟨0, _⟩ => show b.val = 0 + b.val; omega
  | ⟨1, _⟩ => show 50 = 50 + 0; rfl
  | ⟨2, _⟩ => show j.val = 0 + j.val; omega

/-- The hidden states of all positions, flattened: row 51·b + t is position t of sequence b. -/
theorem host1_v17_row (b : Fin 64) (t : Fin 51) (k : Fin 512) :
    StableHlo.after hostOps1 W main_v17 (ix2 (Cert.BatchRows.row (R := 3264) (A := 64) (B := 51) rfl b t) k)
      = W main_v12_1 (ix3 b t k) := by
  have e : (StableHlo.after hostOps1 W main_v17 : S3264x512.Idx → EReal)
      = (truncf (F := Ideal) .bf16 (shapeCast S3264x512 (W main_v12_1 : FVec Ideal S64x51x512 .f32) shapeCasts_S64x51x512_S3264x512) bitsLt_bf16_f32 : FVec Ideal S3264x512 .bf16) := by
    simp only [hostOps1]; after_results; rfl
  rw [e]
  exact Cert.BatchRows.cast_abc_rc rfl _ _ b t k

theorem host1_v17 (p : Fin 3264) (k : Fin 512) :
    StableHlo.after hostOps1 W main_v17 (ix2 p k)
      = W main_v12_1 (ix3 (⟨p.val / 51, by have := p.isLt; omega⟩ : Fin 64) (⟨p.val % 51, by omega⟩ : Fin 51) k) := by
  have hp : p = Cert.BatchRows.row (R := 3264) (A := 64) (B := 51) rfl ⟨p.val / 51, by have := p.isLt; omega⟩ ⟨p.val % 51, by omega⟩ :=
    Fin.ext (by show p.val = p.val / 51 * 51 + p.val % 51; omega)
  conv_lhs => rw [hp]
  exact host1_v17_row W _ _ k

/-- The same, at any flat row p with p = 51·b + t. -/
theorem host1_v17_at (b : Fin 64) (t : Fin 51) (k : Fin 512) (p : Fin 3264) (hp : p.val = 51 * b.val + t.val) :
    StableHlo.after hostOps1 W main_v17 (ix2 p k) = W main_v12_1 (ix3 b t k) := by
  have e : p = Cert.BatchRows.row (R := 3264) (A := 64) (B := 51) rfl b t :=
    Fin.ext (by show p.val = b.val * 51 + t.val; omega)
  rw [e]
  exact host1_v17_row W b t k

/-- The output projection's weights, unchanged entry by entry. -/
theorem host1_v18 (v : Fin 32000) (k : Fin 512) :
    StableHlo.after hostOps1 W main_v18 (ix2 v k) = W main_arg9 (ix2 v k) := by
  have e : (StableHlo.after hostOps1 W main_v18 : S32000x512.Idx → EReal)
      = (truncf (F := Ideal) .bf16 (W main_arg9 : FVec Ideal S32000x512 .f32) bitsLt_bf16_f32 : FVec Ideal S32000x512 .bf16) := by
    simp only [hostOps1]; after_results
  exact (congrFun e (ix2 v k)).trans rfl

/-- The output bias as a row. -/
theorem host1_v19 (v : Fin 32000) :
    StableHlo.after hostOps1 W main_v19 (ix2 (0 : Fin 1) v) = W main_arg10 (ix1 v) := by
  have e : (StableHlo.after hostOps1 W main_v19 : S1x32000.Idx → EReal)
      = shapeCast S1x32000 (W main_arg10 : S32000.Idx → EReal) shapeCasts_S32000_S1x32000 := by
    simp only [hostOps1]; after_results; rfl
  rw [e]
  exact shapeCast_n_1n_apply _ _ _ _

/-- The second stretch leaves every reference it does not write as it was. -/
theorem host1_keep (r : Ref sig .tc) (h : r ∉ hostOps1_W) : StableHlo.after hostOps1 W r = W r :=
  StableHlo.after_of_writes_sub hostOps1 _ hostOps1_writes h

theorem host1_arg9 : StableHlo.after hostOps1 W main_arg9 = W main_arg9 := host1_keep W _ (by decide)
theorem host1_arg10 : StableHlo.after hostOps1 W main_arg10 = W main_arg10 := host1_keep W _ (by decide)
theorem host1_v9 : StableHlo.after hostOps1 W main_v9 = W main_v9 := host1_keep W _ (by decide)
theorem host1_v12_0 : StableHlo.after hostOps1 W main_v12_0 = W main_v12_0 := host1_keep W _ (by decide)
theorem host1_v12_1 : StableHlo.after hostOps1 W main_v12_1 = W main_v12_1 := host1_keep W _ (by decide)

/-! ## The last stretch: the flat logits, one table per sequence -/

theorem host3_v22 (b : Fin 64) (t : Fin 51) (v : Fin 32000) :
    StableHlo.after hostOps3 W main_v22 (ix3 b t v)
      = W main_v21 (ix2 (Cert.BatchRows.row (R := 3264) (A := 64) (B := 51) rfl b t) v) := by
  have e : (StableHlo.after hostOps3 W main_v22 : S64x51x32000.Idx → EReal)
      = shapeCast S64x51x32000 (W main_v21 : S3264x32000.Idx → EReal) shapeCasts_S3264x32000_S64x51x32000 := by
    simp only [hostOps3]; after_results; rfl
  rw [e]
  exact Cert.BatchRows.cast_rc_abc rfl _ _ b t v

/-- The same, with the flat row named by any p with p = 51·b + t. -/
theorem host3_v22_at (b : Fin 64) (t : Fin 51) (v : Fin 32000) (p : Fin 3264) (hp : p.val = 51 * b.val + t.val) :
    StableHlo.after hostOps3 W main_v22 (ix3 b t v) = W main_v21 (ix2 p v) := by
  have e : p = Cert.BatchRows.row (R := 3264) (A := 64) (B := 51) rfl b t :=
    Fin.ext (by show p.val = b.val * 51 + t.val; omega)
  rw [e]
  exact host3_v22 W b t v

theorem host3_v22_flat (b : Fin 64) (t : Fin 51) (v : Fin 32000) :
    StableHlo.after hostOps3 W main_v22 (ix3 b t v)
      = W main_v21 (ix2 (⟨51 * b.val + t.val, by have := b.isLt; have := t.isLt; omega⟩ : Fin 3264) v) :=
  host3_v22_at W b t v _ rfl

theorem host3_keep (r : Ref sig .tc) (h : r ∉ hostOps3_W) : StableHlo.after hostOps3 W r = W r :=
  StableHlo.after_of_writes_sub hostOps3 _ hostOps3_writes h

theorem host3_v15 : StableHlo.after hostOps3 W main_v15 = W main_v15 := host3_keep W _ (by decide)

end Cert.KernelIdeal.Hand

end
-- ==== Proof.KIGlueA.lean ====
/-
  The idealized kernel program up to the second region's entry, in the terms of the specification: after the decode
  region the two result tables hold the hidden state h and the projected state o of every (batch row, position);
  after the host operations that follow, the handed-on hidden state is h at the last position, the flattened
  activations' row 51·b + t is o at (b, t), and the class weights and biases are the arguments' own entries.
-/
import proofs.«150782_j29695403885316_1_alg».proof.Proof.KIRun
import proofs.«150782_j29695403885316_1_alg».proof.Proof.KIArr0
import proofs.«150782_j29695403885316_1_alg».proof.Proof.KIValue0c
import proofs.«150782_j29695403885316_1_alg».proof.Proof.KIHost

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-! ## The argument arrays, by coordinates -/

/-- The embedded decoder input: what the first host stretch gathers. -/
abbrev aX : Fin 64 → Fin 51 → Fin 256 → EReal := fun b t e => (V1 (F := Ideal) m ρ c main_v9 : S64x51x256.Idx → EReal) (ix3 b t e)
abbrev aWih : Fin 1536 → Fin 256 → EReal := fun g e => (m ((c : Thread nD τ).loc main_arg4) : S1536x256.Idx → EReal) (ix2 g e)
abbrev abih : Fin 1536 → EReal := fun g => (m ((c : Thread nD τ).loc main_arg6) : S1536.Idx → EReal) (ix1 g)
abbrev abhh : Fin 1536 → EReal := fun g => (m ((c : Thread nD τ).loc main_arg7) : S1536.Idx → EReal) (ix1 g)
abbrev aEnc : Fin 64 → Fin 128 → Fin 512 → EReal := fun b s j => (m ((c : Thread nD τ).loc main_arg2) : S64x128x512.Idx → EReal) (ix3 b s j)
abbrev aWa : Fin 512 → Fin 1024 → EReal := fun j k => (m ((c : Thread nD τ).loc main_arg8) : S512x1024.Idx → EReal) (ix2 j k)
abbrev aFcw : Fin 32000 → Fin 512 → EReal := fun v k => (m ((c : Thread nD τ).loc main_arg9) : S32000x512.Idx → EReal) (ix2 v k)
abbrev aFcb : Fin 32000 → EReal := fun v => (m ((c : Thread nD τ).loc main_arg10) : S32000.Idx → EReal) (ix1 v)

/-! ## The decode region's entry -/

theorem V1_arg2 : V1 (F := Ideal) m ρ c main_arg2 = m ((c : Thread nD τ).loc main_arg2) := host0_arg2 (W0 m ρ c)
theorem V1_arg4 : V1 (F := Ideal) m ρ c main_arg4 = m ((c : Thread nD τ).loc main_arg4) := host0_arg4 (W0 m ρ c)
theorem V1_arg8 : V1 (F := Ideal) m ρ c main_arg8 = m ((c : Thread nD τ).loc main_arg8) := host0_arg8 (W0 m ρ c)
theorem V1_arg9 : V1 (F := Ideal) m ρ c main_arg9 = m ((c : Thread nD τ).loc main_arg9) := host0_arg9 (W0 m ρ c)
theorem V1_arg10 : V1 (F := Ideal) m ρ c main_arg10 = m ((c : Thread nD τ).loc main_arg10) := host0_arg10 (W0 m ρ c)
theorem V1_v10 (g : Fin 1536) : (V1 (F := Ideal) m ρ c main_v10 : S1x1536.Idx → EReal) (ix2 (0 : Fin 1) g) = abih m c g := host0_v10 (W0 m ρ c) g
theorem V1_v11 (g : Fin 1536) : (V1 (F := Ideal) m ρ c main_v11 : S1x1536.Idx → EReal) (ix2 (0 : Fin 1) g) = abhh m c g := host0_v11 (W0 m ρ c) g

/-! ## The decode region's two result tables -/

/-- The first result table holds the hidden state. -/
theorem V2_h (b : Fin 64) (t : Fin 51) (j : Fin 512) :
    (V2 (F := Ideal) m ρ c main_v12_0 : S64x51x512.Idx → EReal) (ix3 b t j)
      = Cert.Spec.h (aX m ρ c) (aWih m c) (abih m c) (abhh m c) b t j := by
  rw [show (V2 (F := Ideal) m ρ c main_v12_0 : S64x51x512.Idx → EReal) = (dat0 (V1 (F := Ideal) m ρ) c).arrAt 6 cfg0.N from W2_arr m ρ c 6]
  rw [arrAt0_6_apply]
  refine out0_6_apply _ _ _ _ _ _ (aX m ρ c) (aWih m c) (abih m c) (abhh m c) b ?_ ?_ ?_ ?_ t j
  · intro tt e; rw [iblk0_0_apply]; rfl
  · intro g e; rw [iblk0_1_apply, V1_arg4]
  · intro g; rw [iblk0_2_apply]; exact V1_v10 m ρ c g
  · intro g; rw [iblk0_3_apply]; exact V1_v11 m ρ c g

/-- The second holds the projected state. -/
theorem V2_o (b : Fin 64) (t : Fin 51) (j : Fin 512) :
    (V2 (F := Ideal) m ρ c main_v12_1 : S64x51x512.Idx → EReal) (ix3 b t j)
      = Cert.Spec.o (aX m ρ c) (aWih m c) (abih m c) (abhh m c) (aEnc m c) (aWa m c) b t j := by
  rw [show (V2 (F := Ideal) m ρ c main_v12_1 : S64x51x512.Idx → EReal) = (dat0 (V1 (F := Ideal) m ρ) c).arrAt 7 cfg0.N from W2_arr m ρ c 7]
  rw [arrAt0_7_apply]
  refine out0_7_apply _ _ _ _ _ _ (aX m ρ c) (aWih m c) (abih m c) (abhh m c) (aEnc m c) (aWa m c) b ?_ ?_ ?_ ?_ ?_ ?_ t j
  · intro tt e; rw [iblk0_0_apply]; rfl
  · intro g e; rw [iblk0_1_apply, V1_arg4]
  · intro g; rw [iblk0_2_apply]; exact V1_v10 m ρ c g
  · intro g; rw [iblk0_3_apply]; exact V1_v11 m ρ c g
  · intro s j'; rw [iblk0_4_apply, V1_arg2]; rfl
  · intro j' k; rw [iblk0_5_apply, V1_arg8]

/-- The decode region leaves the class weights and biases alone. -/
theorem V2_arg9 : V2 (F := Ideal) m ρ c main_arg9 = m ((c : Thread nD τ).loc main_arg9) :=
  (W2_of_ne m ρ c main_arg9 (by decide)).trans (V1_arg9 m ρ c)
theorem V2_arg10 : V2 (F := Ideal) m ρ c main_arg10 = m ((c : Thread nD τ).loc main_arg10) :=
  (W2_of_ne m ρ c main_arg10 (by decide)).trans (V1_arg10 m ρ c)

/-! ## The statistics region's entry -/

/-- The handed-on hidden state. -/
theorem V3_v15 (b : Fin 64) (j : Fin 512) :
    (V3 (F := Ideal) m ρ c main_v15 : S1x64x512.Idx → EReal) (ix3 (0 : Fin 1) b j)
      = Cert.Spec.hidden (aX m ρ c) (aWih m c) (abih m c) (abhh m c) b j :=
  (host1_v15 (W2 m ρ c) b j).trans (V2_h m ρ c b (50 : Fin 51) j)

/-- Row 51·b + t of the flattened activations. -/
theorem V3_v17 (b : Fin 64) (t : Fin 51) (k : Fin 512) (p : Fin 3264) (hp : p.val = 51 * b.val + t.val) :
    (V3 (F := Ideal) m ρ c main_v17 : S3264x512.Idx → EReal) (ix2 p k)
      = Cert.Spec.o (aX m ρ c) (aWih m c) (abih m c) (abhh m c) (aEnc m c) (aWa m c) b t k :=
  (host1_v17_at (W2 m ρ c) b t k p hp).trans (V2_o m ρ c b t k)

theorem V3_v18 (v : Fin 32000) (k : Fin 512) :
    (V3 (F := Ideal) m ρ c main_v18 : S32000x512.Idx → EReal) (ix2 v k) = aFcw m c v k :=
  (host1_v18 (W2 m ρ c) v k).trans (congrFun (V2_arg9 m ρ c) (ix2 v k))

theorem V3_v19 (v : Fin 32000) :
    (V3 (F := Ideal) m ρ c main_v19 : S1x32000.Idx → EReal) (ix2 (0 : Fin 1) v) = aFcb m c v :=
  (host1_v19 (W2 m ρ c) v).trans (congrFun (V2_arg10 m ρ c) (ix1 v))

end Cert.KernelIdeal.Hand

end
-- ==== Proof.KIR1Pieces.lean ====
/-
  The second kernel's three kinds of grid point, each store read back as the stored value of the loaded blocks.

  Every load and store of the body goes through a whole buffer at offset zero. At the first tile of a row block the
  two carried columns are first reset (the running maximum to the value of the minus-infinity word, the running sum
  to zero) and the update then reads those reset values; at a middle tile and at the last tile the update reads what
  the point before left; the last tile also stores maximum + log sum, computed from the columns it has just updated.
  So what a case leaves in a column, or in the output block, is the body's payload of the point's three input blocks
  and of the columns' contents on entry. Stated at any float instance.
-/
import proofs.«150782_j29695403885316_1_alg».proof.Proof.KIRegion1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a rank-2 access, however spelt. -/
theorem r1_zero_offsets : (![0, 0] : Fin 2 → Nat) = fun _ => 0 := funext fun a => by fin_cases a <;> rfl

/-! ## The first tile: reset, then update -/

/-- The running maximum after a first tile: the update from the reset value. -/
theorem sout1_A_0_eq (c : Dev nD) (i : grid1.Coords) (arg2 : Memref sig .tc .vmem S408x512 .bf16) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S408x1 .f32) (harg5 : arg5.IsWhole) (arg6 : Memref sig .tc .vmem S408x1 .f32) (harg6 : arg6.IsWhole) (arg7 : Memref sig .tc .vmem S408x1 .f32) (harg7 : arg7.IsWhole) (hc0 : cond1_0 i) (hc1 : ¬cond1_1 i)
    (x0 : Vec F S408x512 .bf16) (x1 : Vec F S1280x512 .bf16) (x2 : Vec F S1x1280 .f32) :
    sout1_A_0 c i arg2 harg2 arg3 harg3 arg4 harg4 arg5 harg5 arg6 harg6 arg7 harg7 hc0 hc1 x0 x1 x2 = k1_pay7 x0 x1 x2 k1_pay2 := by
  unfold sout1_A_0
  rw [View.read_writes_eq_canon _ _ _ (scover1_A_0 c i arg2 harg2 arg3 harg3 arg4 harg4 arg5 harg5 arg6 harg6 arg7 harg7 hc0 hc1 x0 x1 x2)]
  unfold kernelRun1_A
  dsimp only
  sl_unfold_words
  rw [View.canon_cons_unit_zero r1_zero_offsets, View.readCov_unit_zero _ r1_zero_offsets]
  simp only [View.readAt_eq_ld, harg2.read_unread, harg3.read_unread, harg4.read_unread,
    View.ld_unit_zero (S := S408x512) r1_zero_offsets, View.ld_unit_zero (S := S1280x512) r1_zero_offsets,
    View.ld_unit_zero (S := S1x1280) r1_zero_offsets]

/-- The running sum after a first tile: the update from the reset values. -/
theorem sout1_A_1_eq (c : Dev nD) (i : grid1.Coords) (arg2 : Memref sig .tc .vmem S408x512 .bf16) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S408x1 .f32) (harg5 : arg5.IsWhole) (arg6 : Memref sig .tc .vmem S408x1 .f32) (harg6 : arg6.IsWhole) (arg7 : Memref sig .tc .vmem S408x1 .f32) (harg7 : arg7.IsWhole) (hc0 : cond1_0 i) (hc1 : ¬cond1_1 i)
    (x0 : Vec F S408x512 .bf16) (x1 : Vec F S1280x512 .bf16) (x2 : Vec F S1x1280 .f32) :
    sout1_A_1 c i arg2 harg2 arg3 harg3 arg4 harg4 arg5 harg5 arg6 harg6 arg7 harg7 hc0 hc1 x0 x1 x2 = k1_pay6 x0 x1 x2 k1_pay2 k1_pay2 k1_pay3 := by
  unfold sout1_A_1
  rw [View.read_writes_eq_canon _ _ _ (scover1_A_1 c i arg2 harg2 arg3 harg3 arg4 harg4 arg5 harg5 arg6 harg6 arg7 harg7 hc0 hc1 x0 x1 x2)]
  unfold kernelRun1_A
  dsimp only
  sl_unfold_words
  rw [View.canon_cons_unit_zero r1_zero_offsets, View.readCov_unit_zero _ r1_zero_offsets,
    View.readCov_unit_zero _ r1_zero_offsets]
  simp only [View.readAt_eq_ld, harg2.read_unread, harg3.read_unread, harg4.read_unread,
    View.ld_unit_zero (S := S408x512) r1_zero_offsets, View.ld_unit_zero (S := S1280x512) r1_zero_offsets,
    View.ld_unit_zero (S := S1x1280) r1_zero_offsets]

/-! ## A middle tile: update only -/

theorem sout1_B_0_eq (c : Dev nD) (i : grid1.Coords) (arg2 : Memref sig .tc .vmem S408x512 .bf16) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S408x1 .f32) (harg5 : arg5.IsWhole) (arg6 : Memref sig .tc .vmem S408x1 .f32) (harg6 : arg6.IsWhole) (arg7 : Memref sig .tc .vmem S408x1 .f32) (harg7 : arg7.IsWhole) (hc0 : ¬cond1_0 i) (hc1 : ¬cond1_1 i)
    (x0 : Vec F S408x512 .bf16) (x1 : Vec F S1280x512 .bf16) (x2 : Vec F S1x1280 .f32) (xs0 xs1 : Vec F S408x1 .f32) :
    sout1_B_0 c i arg2 harg2 arg3 harg3 arg4 harg4 arg5 harg5 arg6 harg6 arg7 harg7 hc0 hc1 x0 x1 x2 xs0 xs1 = k1_pay7 x0 x1 x2 xs0 := by
  unfold sout1_B_0
  rw [View.read_writes_eq_canon _ _ _ (scover1_B_0 c i arg2 harg2 arg3 harg3 arg4 harg4 arg5 harg5 arg6 harg6 arg7 harg7 hc0 hc1 x0 x1 x2 xs0 xs1)]
  unfold kernelRun1_B
  dsimp only
  sl_unfold_words
  rw [View.canon_unit_zero r1_zero_offsets]
  simp only [View.readAt_eq_ld, harg2.read_unread, harg3.read_unread, harg4.read_unread, harg6.read_unread, harg7.read_unread,
    View.ld_unit_zero (S := S408x512) r1_zero_offsets, View.ld_unit_zero (S := S1280x512) r1_zero_offsets,
    View.ld_unit_zero (S := S1x1280) r1_zero_offsets, View.ld_unit_zero (S := S408x1) r1_zero_offsets]

theorem sout1_B_1_eq (c : Dev nD) (i : grid1.Coords) (arg2 : Memref sig .tc .vmem S408x512 .bf16) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S408x1 .f32) (harg5 : arg5.IsWhole) (arg6 : Memref sig .tc .vmem S408x1 .f32) (harg6 : arg6.IsWhole) (arg7 : Memref sig .tc .vmem S408x1 .f32) (harg7 : arg7.IsWhole) (hc0 : ¬cond1_0 i) (hc1 : ¬cond1_1 i)
    (x0 : Vec F S408x512 .bf16) (x1 : Vec F S1280x512 .bf16) (x2 : Vec F S1x1280 .f32) (xs0 xs1 : Vec F S408x1 .f32) :
    sout1_B_1 c i arg2 harg2 arg3 harg3 arg4 harg4 arg5 harg5 arg6 harg6 arg7 harg7 hc0 hc1 x0 x1 x2 xs0 xs1 = k1_pay6 x0 x1 x2 xs0 xs0 xs1 := by
  unfold sout1_B_1
  rw [View.read_writes_eq_canon _ _ _ (scover1_B_1 c i arg2 harg2 arg3 harg3 arg4 harg4 arg5 harg5 arg6 harg6 arg7 harg7 hc0 hc1 x0 x1 x2 xs0 xs1)]
  unfold kernelRun1_B
  dsimp only
  sl_unfold_words
  rw [View.canon_unit_zero r1_zero_offsets]
  simp only [View.readAt_eq_ld, harg2.read_unread, harg3.read_unread, harg4.read_unread, harg6.read_unread, harg7.read_unread,
    View.ld_unit_zero (S := S408x512) r1_zero_offsets, View.ld_unit_zero (S := S1280x512) r1_zero_offsets,
    View.ld_unit_zero (S := S1x1280) r1_zero_offsets, View.ld_unit_zero (S := S408x1) r1_zero_offsets]

/-! ## The last tile: update, then the output store -/

theorem sout1_C_0_eq (c : Dev nD) (i : grid1.Coords) (arg2 : Memref sig .tc .vmem S408x512 .bf16) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S408x1 .f32) (harg5 : arg5.IsWhole) (arg6 : Memref sig .tc .vmem S408x1 .f32) (harg6 : arg6.IsWhole) (arg7 : Memref sig .tc .vmem S408x1 .f32) (harg7 : arg7.IsWhole) (hc0 : ¬cond1_0 i) (hc1 : cond1_1 i)
    (x0 : Vec F S408x512 .bf16) (x1 : Vec F S1280x512 .bf16) (x2 : Vec F S1x1280 .f32) (xs0 xs1 : Vec F S408x1 .f32) :
    sout1_C_0 c i arg2 harg2 arg3 harg3 arg4 harg4 arg5 harg5 arg6 harg6 arg7 harg7 hc0 hc1 x0 x1 x2 xs0 xs1 = k1_pay7 x0 x1 x2 xs0 := by
  unfold sout1_C_0
  rw [View.read_writes_eq_canon _ _ _ (scover1_C_0 c i arg2 harg2 arg3 harg3 arg4 harg4 arg5 harg5 arg6 harg6 arg7 harg7 hc0 hc1 x0 x1 x2 xs0 xs1)]
  unfold kernelRun1_C
  dsimp only
  sl_unfold_words
  rw [View.canon_unit_zero r1_zero_offsets]
  simp only [View.readAt_eq_ld, harg2.read_unread, harg3.read_unread, harg4.read_unread, harg6.read_unread, harg7.read_unread,
    View.ld_unit_zero (S := S408x512) r1_zero_offsets, View.ld_unit_zero (S := S1280x512) r1_zero_offsets,
    View.ld_unit_zero (S := S1x1280) r1_zero_offsets, View.ld_unit_zero (S := S408x1) r1_zero_offsets]

theorem sout1_C_1_eq (c : Dev nD) (i : grid1.Coords) (arg2 : Memref sig .tc .vmem S408x512 .bf16) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S408x1 .f32) (harg5 : arg5.IsWhole) (arg6 : Memref sig .tc .vmem S408x1 .f32) (harg6 : arg6.IsWhole) (arg7 : Memref sig .tc .vmem S408x1 .f32) (harg7 : arg7.IsWhole) (hc0 : ¬cond1_0 i) (hc1 : cond1_1 i)
    (x0 : Vec F S408x512 .bf16) (x1 : Vec F S1280x512 .bf16) (x2 : Vec F S1x1280 .f32) (xs0 xs1 : Vec F S408x1 .f32) :
    sout1_C_1 c i arg2 harg2 arg3 harg3 arg4 harg4 arg5 harg5 arg6 harg6 arg7 harg7 hc0 hc1 x0 x1 x2 xs0 xs1 = k1_pay6 x0 x1 x2 xs0 xs0 xs1 := by
  unfold sout1_C_1
  rw [View.read_writes_eq_canon _ _ _ (scover1_C_1 c i arg2 harg2 arg3 harg3 arg4 harg4 arg5 harg5 arg6 harg6 arg7 harg7 hc0 hc1 x0 x1 x2 xs0 xs1)]
  unfold kernelRun1_C
  dsimp only
  sl_unfold_words
  rw [View.canon_unit_zero r1_zero_offsets]
  simp only [View.readAt_eq_ld, harg2.read_unread, harg3.read_unread, harg4.read_unread, harg6.read_unread, harg7.read_unread,
    View.ld_unit_zero (S := S408x512) r1_zero_offsets, View.ld_unit_zero (S := S1280x512) r1_zero_offsets,
    View.ld_unit_zero (S := S1x1280) r1_zero_offsets, View.ld_unit_zero (S := S408x1) r1_zero_offsets]

/-- The output block after a last tile: maximum + log sum of the two columns as this point has just updated them. -/
theorem out1_C_3_eq (c : Dev nD) (i : grid1.Coords) (arg2 : Memref sig .tc .vmem S408x512 .bf16) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S408x1 .f32) (harg5 : arg5.IsWhole) (arg6 : Memref sig .tc .vmem S408x1 .f32) (harg6 : arg6.IsWhole) (arg7 : Memref sig .tc .vmem S408x1 .f32) (harg7 : arg7.IsWhole) (hc0 : ¬cond1_0 i) (hc1 : cond1_1 i)
    (x0 : Vec F S408x512 .bf16) (x1 : Vec F S1280x512 .bf16) (x2 : Vec F S1x1280 .f32) (xs0 xs1 : Vec F S408x1 .f32) :
    out1_C_3 c i arg2 harg2 arg3 harg3 arg4 harg4 arg5 harg5 arg6 harg6 arg7 harg7 hc0 hc1 x0 x1 x2 xs0 xs1 = k1_pay1 (k1_pay7 x0 x1 x2 xs0) (k1_pay6 x0 x1 x2 xs0 xs0 xs1) := by
  unfold out1_C_3
  rw [View.read_writes_eq_canon _ _ _ (cover1_C_3 c i arg2 harg2 arg3 harg3 arg4 harg4 arg5 harg5 arg6 harg6 arg7 harg7 hc0 hc1 x0 x1 x2 xs0 xs1)]
  unfold kernelRun1_C
  dsimp only
  sl_unfold_words
  rw [View.canon_unit_zero r1_zero_offsets, View.readCov_unit_zero _ r1_zero_offsets,
    View.readCov_unit_zero _ r1_zero_offsets]
  simp only [View.readAt_eq_ld, harg2.read_unread, harg3.read_unread, harg4.read_unread, harg6.read_unread, harg7.read_unread,
    View.ld_unit_zero (S := S408x512) r1_zero_offsets, View.ld_unit_zero (S := S1280x512) r1_zero_offsets,
    View.ld_unit_zero (S := S1x1280) r1_zero_offsets, View.ld_unit_zero (S := S408x1) r1_zero_offsets]

end Cert.KernelIdeal.Hand

end
-- ==== Proof.KIValue12.lean ====
/-
  The class scores of one tile, read at an index.

  A tile of the projection takes 408 rows of activations (512 entries each), 1280 rows of class weights (512 entries
  each) and 1280 biases, and forms, for row r and class c, the sum over k of activation (r, k) times weight (c, k), plus
  the bias of c. The program transposes the weights and multiplies into a zero accumulator; read entry by entry that
  is the sum above.
-/
import proofs.«150782_j29695403885316_1_alg».proof.Proof.Gen.KernelIdeal.Skeleton
import proofs.«150782_j29695403885316_1_alg».proof.Proof.LibLayout3
import Idealize.ShloMosaic.Lib.ValueLayout
import Idealize.ShloMosaic.Lib.StackMember
import Idealize.ShloMosaic.PureOps.Ideal.Laws

noncomputable section

open scoped BigOperators

namespace Cert.KernelIdeal.Hand.Pay

open Idealize.ShloMosaic Idealize.ShloMosaic.ValueIdx Cert.KernelIdeal Cert.KernelIdeal.Gen

/-- The class score of row r and class c of a tile: activations against the class's weights, plus its bias. -/
def logit (x0 : Vec Ideal S408x512 .bf16) (x1 : Vec Ideal S1280x512 .bf16) (x2 : Vec Ideal S1x1280 .f32)
    (r : Fin 408) (c : Fin 1280) : EReal :=
  (∑ k : Fin 512, x0 (ix2 r k) * x1 (ix2 c k)) + x2 (ix2 (0 : Fin 1) c)

/-- The product of an m-by-k and a k-by-n matrix into a zero accumulator, read at (a, b): the sum over the contracted
    coordinate of the products of the entries. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec default A B (ix2 a b)).symm.trans
      (StackMember.dotGeneral_plain_apply prec A B a b))

/-- The program's dimension record for the tile's product is the plain one. -/
theorem dot_eq_plain : dot_S408x512_S512x1280_S408x1280_1_0_0_1_n_n = DotDims.plain 408 512 1280 := rfl

/-- The class scores of a tile as the program computes them, at (r, c). -/
theorem k1_pay4_apply (x0 : Vec Ideal S408x512 .bf16) (x1 : Vec Ideal S1280x512 .bf16) (x2 : Vec Ideal S1x1280 .f32)
    (r : Fin 408) (c : Fin 1280) :
    k1_pay4 x0 x1 x2 (ix2 r c) = logit x0 x1 x2 r c := by
  unfold k1_pay4 logit
  rw [addf_apply]
  refine congrArg₂ (· + ·) ?_ ?_
  · rw [dot_eq_plain]
    refine (matmul_plain_zero_apply none _ _ r c).trans ?_
    refine Finset.sum_congr rfl fun k _ => ?_
    rw [shapeCast_self, shapeCast_self]
    exact congrArg (x0 (ix2 r k) * ·) (transpose_ix2_apply x1 _ k c)
  · rw [shapeCast_self]
    exact broadcastTo_1b_ab_apply x2 _ r c

/-- The word of minus infinity denotes the bottom element. -/
theorem neg_inf_word : Ideal.ofBits .f32 0xFF800000#32 = (⊥ : EReal) := by simp [Ideal.ofBits, Ideal.ieee]

/-- The word of zero denotes zero. -/
theorem zero_word : Ideal.ofBits .f32 0x00000000#32 = (0 : EReal) := Ideal.ofBits_zero_f32

/-- The running maximum after a tile, at row r: the larger of the maximum so far and the tile's largest class score. -/
theorem k1_pay5_apply (x0 : Vec Ideal S408x512 .bf16) (x1 : Vec Ideal S1280x512 .bf16) (x2 : Vec Ideal S1x1280 .f32)
    (mv : Vec Ideal S408x1 .f32) (r : Fin 408) :
    k1_pay5 x0 x1 x2 mv (ix2 r (0 : Fin 1))
      = max (mv (ix2 r (0 : Fin 1))) ((Finset.univ : Finset (Fin 1280)).fold max ⊥ fun c => logit x0 x1 x2 r c) := by
  unfold k1_pay5
  rw [maximumf_apply]
  refine congrArg (max (mv (ix2 r (0 : Fin 1))) ·) ?_
  refine (LibLayout3.shapeCast_a_a1_apply _ _ r (0 : Fin 1)).trans ?_
  refine (LibLayout3.max_ab_last (k1_pay4 x0 x1 x2) _ rfl r).trans ?_
  rw [neg_inf_word]
  exact Finset.fold_congr fun c _ => k1_pay4_apply x0 x1 x2 r c

/-- The value stored back as the running maximum is the same column behind an identity cast. -/
theorem k1_pay7_apply (x0 : Vec Ideal S408x512 .bf16) (x1 : Vec Ideal S1280x512 .bf16) (x2 : Vec Ideal S1x1280 .f32)
    (mv : Vec Ideal S408x1 .f32) (r : Fin 408) :
    k1_pay7 x0 x1 x2 mv (ix2 r (0 : Fin 1))
      = max (mv (ix2 r (0 : Fin 1))) ((Finset.univ : Finset (Fin 1280)).fold max ⊥ fun c => logit x0 x1 x2 r c) := by
  unfold k1_pay7
  rw [shapeCast_self]
  exact k1_pay5_apply x0 x1 x2 mv r

/-- The running rescaled sum after a tile, at row r, over the new maximum as the program holds it. -/
theorem k1_pay6_apply_aux (x0 : Vec Ideal S408x512 .bf16) (x1 : Vec Ideal S1280x512 .bf16) (x2 : Vec Ideal S1x1280 .f32)
    (mv mv' lv : Vec Ideal S408x1 .f32) (r : Fin 408) :
    k1_pay6 x0 x1 x2 mv mv' lv (ix2 r (0 : Fin 1))
      = Ideal.exp (mv' (ix2 r (0 : Fin 1)) - k1_pay5 x0 x1 x2 mv (ix2 r (0 : Fin 1))) * lv (ix2 r (0 : Fin 1))
        + ∑ c : Fin 1280, Ideal.exp (logit x0 x1 x2 r c - k1_pay5 x0 x1 x2 mv (ix2 r (0 : Fin 1))) := by
  unfold k1_pay6
  rw [shapeCast_self, addf_apply]
  refine congrArg₂ (· + ·) rfl ?_
  refine (LibLayout3.shapeCast_a_a1_apply _ _ r (0 : Fin 1)).trans ?_
  refine (LibLayout3.sum_ab_last _ _ rfl r).trans ?_
  refine Finset.sum_congr rfl fun c _ => ?_
  show Ideal.exp (k1_pay4 x0 x1 x2 (ix2 r c) - broadcastTo S408x1280 (k1_pay5 x0 x1 x2 mv) broadcasts_S408x1_S408x1280 (ix2 r c)) = _
  rw [k1_pay4_apply, LibLayout3.broadcastTo_a1_ab_apply (k1_pay5 x0 x1 x2 mv) _ r c]

/-- The running rescaled sum after a tile, at row r: the old sum rescaled to the new maximum, plus the tile's
    exponentials shifted by the new maximum. -/
theorem k1_pay6_apply (x0 : Vec Ideal S408x512 .bf16) (x1 : Vec Ideal S1280x512 .bf16) (x2 : Vec Ideal S1x1280 .f32)
    (mv mv' lv : Vec Ideal S408x1 .f32) (r : Fin 408) (newm : EReal)
    (hnew : newm = max (mv (ix2 r (0 : Fin 1))) ((Finset.univ : Finset (Fin 1280)).fold max ⊥ fun c => logit x0 x1 x2 r c)) :
    k1_pay6 x0 x1 x2 mv mv' lv (ix2 r (0 : Fin 1))
      = Ideal.exp (mv' (ix2 r (0 : Fin 1)) - newm) * lv (ix2 r (0 : Fin 1))
        + ∑ c : Fin 1280, Ideal.exp (logit x0 x1 x2 r c - newm) := by
  rw [k1_pay6_apply_aux, k1_pay5_apply, ← hnew]

/-- The first tile starts the running maximum at the bottom element. -/
theorem k1_pay2_apply (r : Fin 408) : k1_pay2 (F := Ideal) (ix2 r (0 : Fin 1)) = (⊥ : EReal) := by
  unfold k1_pay2
  rw [shapeCast_self]
  exact neg_inf_word

/-- The first tile starts the running sum at zero. -/
theorem k1_pay3_apply (r : Fin 408) : k1_pay3 (F := Ideal) (ix2 r (0 : Fin 1)) = (0 : EReal) := by
  unfold k1_pay3
  rw [shapeCast_self]
  exact zero_word

/-- After the last tile the row's log-sum-exp is the running maximum plus the logarithm of the running sum. -/
theorem k1_pay1_apply (mv lv : Vec Ideal S408x1 .f32) (r : Fin 408) :
    k1_pay1 mv lv (ix2 r (0 : Fin 1)) = mv (ix2 r (0 : Fin 1)) + Ideal.log (lv (ix2 r (0 : Fin 1))) := by
  unfold k1_pay1
  rfl

/-- The output tile, at (r, c): the class score less the row's log-sum-exp. -/
theorem k2_pay1_apply (x0 : Vec Ideal S408x512 .bf16) (x1 : Vec Ideal S1280x512 .bf16) (x2 : Vec Ideal S1x1280 .f32)
    (xl : Vec Ideal S408x1 .f32) (r : Fin 408) (c : Fin 1280) :
    k2_pay1 x0 x1 x2 xl (ix2 r c) = logit x0 x1 x2 r c - xl (ix2 r (0 : Fin 1)) := by
  unfold k2_pay1
  rw [subf_apply]
  refine congrArg₂ (· - ·) ?_ ?_
  · exact k1_pay4_apply x0 x1 x2 r c
  · rw [shapeCast_self]
    exact LibLayout3.broadcastTo_a1_ab_apply xl _ r c

end Cert.KernelIdeal.Hand.Pay

end
-- ==== Proof.StreamState.lean ====
/-
  A running maximum and a running sum of shifted exponentials, carried across tiles of 1280 values.

  A row of values arrives tile by tile, tile `v` being `a v : Fin 1280 → EReal`. The state after `v` tiles is a pair:
  the maximum `m` of everything seen so far (the bottom element before the first tile) and the sum `l` of
  `exp (x - m)` over everything seen so far (zero before the first tile). A new tile raises the maximum to `m'`, rescales
  the old sum by `exp (m - m')` and adds the new tile's shifted exponentials.
-/
import Idealize.ShloMosaic.PureOps.Ideal

noncomputable section

open scoped BigOperators

namespace Cert.Stream

open Idealize.ShloMosaic

/-- The state (running maximum, running sum) after the first `v` tiles of `a`. -/
def S (a : ℕ → Fin 1280 → EReal) : ℕ → EReal × EReal
  | 0 => (⊥, 0)
  | v + 1 =>
    let p := S a v
    let m' := max p.1 ((Finset.univ : Finset (Fin 1280)).fold max ⊥ (a v))
    (m', Ideal.exp (p.1 - m') * p.2 + ∑ c : Fin 1280, Ideal.exp (a v c - m'))

theorem S_zero (a : ℕ → Fin 1280 → EReal) : S a 0 = (⊥, 0) := rfl

theorem S_succ (a : ℕ → Fin 1280 → EReal) (v : ℕ) :
    S a (v + 1)
      = (max (S a v).1 ((Finset.univ : Finset (Fin 1280)).fold max ⊥ (a v)),
          Ideal.exp ((S a v).1 - max (S a v).1 ((Finset.univ : Finset (Fin 1280)).fold max ⊥ (a v))) * (S a v).2
            + ∑ c : Fin 1280, Ideal.exp (a v c - max (S a v).1 ((Finset.univ : Finset (Fin 1280)).fold max ⊥ (a v)))) := rfl

end Cert.Stream

end
-- ==== Proof.KIValue1.lean ====
/-
  The second kernel's carried columns, tile by tile.

  A row block is visited in 25 consecutive grid points, one per tile of 1280 classes. For one row of the block, the
  class scores of the tiles form a stream of 25 rows of 1280 values, and the two carried columns hold, after the
  tile number v, the state of that stream after v + 1 tiles: the running maximum (started at the bottom element by
  the first tile's reset) and the running sum of exponentials shifted by the running maximum (started at zero). After
  the last tile the output block holds maximum + log sum of the final state. Proved by induction on the tile number
  from the three case equations of the columns' recursion and the payloads read at an index.
-/
import proofs.«150782_j29695403885316_1_alg».proof.Proof.KIR1Pieces
import proofs.«150782_j29695403885316_1_alg».proof.Proof.KIValue12
import proofs.«150782_j29695403885316_1_alg».proof.Proof.StreamState

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

/-! ## One update of the state, program-free -/

/-- One tile's update of (running maximum, running sum) by the tile's row of values. -/
def colStep (p : EReal × EReal) (row : Fin 1280 → EReal) : EReal × EReal :=
  (max p.1 ((Finset.univ : Finset (Fin 1280)).fold max ⊥ row),
    Ideal.exp (p.1 - max p.1 ((Finset.univ : Finset (Fin 1280)).fold max ⊥ row)) * p.2
      + ∑ c : Fin 1280, Ideal.exp (row c - max p.1 ((Finset.univ : Finset (Fin 1280)).fold max ⊥ row)))

/-- The stream's recursion is that update. -/
theorem stream_succ (a : ℕ → Fin 1280 → EReal) (v : ℕ) :
    Cert.Stream.S a (v + 1) = colStep (Cert.Stream.S a v) (a v) := rfl

/-! ## The payloads of one point, over variables -/

/-- The two updated columns at row `r`, from the columns on entry at row `r`. -/
theorem cols_of_pieces (x0 : Vec Ideal S408x512 .bf16) (x1 : Vec Ideal S1280x512 .bf16) (x2 : Vec Ideal S1x1280 .f32)
    (xs0 xs1 m l : Vec Ideal S408x1 .f32) (em : m = k1_pay7 x0 x1 x2 xs0) (el : l = k1_pay6 x0 x1 x2 xs0 xs0 xs1)
    (r : Fin 408) (p : EReal × EReal) (h0 : (xs0 (ix2 r (0 : Fin 1)) : EReal) = p.1)
    (h1 : (xs1 (ix2 r (0 : Fin 1)) : EReal) = p.2) :
    ((m (ix2 r (0 : Fin 1)) : EReal), (l (ix2 r (0 : Fin 1)) : EReal)) = colStep p (Pay.logit x0 x1 x2 r) := by
  subst em el
  unfold colStep
  refine Prod.ext ?_ ?_
  · show (k1_pay7 x0 x1 x2 xs0 (ix2 r (0 : Fin 1)) : EReal) = _
    rw [Pay.k1_pay7_apply, h0]
  · show (k1_pay6 x0 x1 x2 xs0 xs0 xs1 (ix2 r (0 : Fin 1)) : EReal) = _
    rw [Pay.k1_pay6_apply x0 x1 x2 xs0 xs0 xs1 r
      (max p.1 ((Finset.univ : Finset (Fin 1280)).fold max ⊥ (Pay.logit x0 x1 x2 r))) (by rw [h0]), h0, h1]

/-- The output block at row `r`, from the two columns as the same point leaves them. -/
theorem out_of_pieces (x0 : Vec Ideal S408x512 .bf16) (x1 : Vec Ideal S1280x512 .bf16) (x2 : Vec Ideal S1x1280 .f32)
    (xs0 xs1 o m l : Vec Ideal S408x1 .f32)
    (eo : o = k1_pay1 (k1_pay7 x0 x1 x2 xs0) (k1_pay6 x0 x1 x2 xs0 xs0 xs1))
    (em : m = k1_pay7 x0 x1 x2 xs0) (el : l = k1_pay6 x0 x1 x2 xs0 xs0 xs1) (r : Fin 408) :
    (o (ix2 r (0 : Fin 1)) : EReal) = m (ix2 r (0 : Fin 1)) + Ideal.log (l (ix2 r (0 : Fin 1))) := by
  subst eo em el
  exact Pay.k1_pay1_apply _ _ r

/-! ## The columns after a point -/

variable (V : (c : Dev nD) → (b : Ref sig .tc) → Buf (Elt Ideal) ((c : Thread nD τ).loc b))

/-- The three input blocks of point `n`, at their literal vector types. -/
def blkA (c : Dev nD) (n : ℕ) (hn : n < cfg1.N) : Vec Ideal S408x512 .bf16 := iblk1 V c 0 ⟨n, hn⟩
def blkW (c : Dev nD) (n : ℕ) (hn : n < cfg1.N) : Vec Ideal S1280x512 .bf16 := iblk1 V c 1 ⟨n, hn⟩
def blkB (c : Dev nD) (n : ℕ) (hn : n < cfg1.N) : Vec Ideal S1x1280 .f32 := iblk1 V c 2 ⟨n, hn⟩

/-- The two carried columns at row `r` after point `n`. -/
def colsN (c : Dev nD) (r : Fin 408) (n : ℕ) (hn : n < cfg1.N) : EReal × EReal :=
  (((outsAt1 V c n hn).2.1 (ix2 r (0 : Fin 1)) : EReal), ((outsAt1 V c n hn).2.2 (ix2 r (0 : Fin 1)) : EReal))

/-- Row `r`'s class scores of point `n`'s tile. -/
def rowN (c : Dev nD) (r : Fin 408) (n : ℕ) (hn : n < cfg1.N) : Fin 1280 → EReal :=
  Pay.logit (blkA V c n hn) (blkW V c n hn) (blkB V c n hn) r

theorem colsN_congr (c : Dev nD) (r : Fin 408) (n n' : ℕ) (h : n = n') (hn : n < cfg1.N) (hn' : n' < cfg1.N) :
    colsN V c r n hn = colsN V c r n' hn' := by
  subst h; rfl

attribute [local irreducible] outsAt1

/-- At a first tile the columns are one update from the reset state. -/
theorem colsN_first (c : Dev nD) (r : Fin 408) (n : ℕ) (hn : n < cfg1.N) (h0 : n % 25 = 0) :
    colsN V c r n hn = colStep (⊥, 0) (rowN V c r n hn) := by
  have h1 : ¬n % 25 = 24 := by omega
  have e : outsAt1 V c n hn = _ := outsAt1_A V c ⟨n, hn⟩ h0 h1
  have em : (outsAt1 V c n hn).2.1 = k1_pay7 (blkA V c n hn) (blkW V c n hn) (blkB V c n hn) (k1_pay2 (F := Ideal)) :=
    (congrArg (fun q => q.2.1) e).trans (sout1_A_0_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1_0 (Memref.isWhole_whole _) scM1_1 (Memref.isWhole_whole _) ((hcond1_0 ⟨n, hn⟩).mpr h0) (fun h => h1 ((hcond1_1 ⟨n, hn⟩).mp h)) (blkA V c n hn) (blkW V c n hn) (blkB V c n hn))
  have el : (outsAt1 V c n hn).2.2 = k1_pay6 (blkA V c n hn) (blkW V c n hn) (blkB V c n hn) (k1_pay2 (F := Ideal)) (k1_pay2 (F := Ideal)) (k1_pay3 (F := Ideal)) :=
    (congrArg (fun q => q.2.2) e).trans (sout1_A_1_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1_0 (Memref.isWhole_whole _) scM1_1 (Memref.isWhole_whole _) ((hcond1_0 ⟨n, hn⟩).mpr h0) (fun h => h1 ((hcond1_1 ⟨n, hn⟩).mp h)) (blkA V c n hn) (blkW V c n hn) (blkB V c n hn))
  exact cols_of_pieces (blkA V c n hn) (blkW V c n hn) (blkB V c n hn) (k1_pay2 (F := Ideal)) (k1_pay3 (F := Ideal)) (outsAt1 V c n hn).2.1 (outsAt1 V c n hn).2.2 em el
    r (⊥, 0) (Pay.k1_pay2_apply r) (Pay.k1_pay3_apply r)

set_option maxHeartbeats 1600000 in
/-- At any other tile the columns are one update from what the point before left. -/
theorem colsN_next (c : Dev nD) (r : Fin 408) (n : ℕ) (hn : n < cfg1.N) (h0 : ¬n % 25 = 0) :
    colsN V c r n hn
      = colStep (colsN V c r (n - 1) (Nat.lt_of_le_of_lt (Nat.sub_le _ _) hn)) (rowN V c r n hn) := by
  by_cases h1 : n % 25 = 24
  · have e : outsAt1 V c n hn = _ := outsAt1_C V c ⟨n, hn⟩ h0 h1
    have em : (outsAt1 V c n hn).2.1 = k1_pay7 (blkA V c n hn) (blkW V c n hn) (blkB V c n hn) (outsAt1 V c (n - 1) (Nat.lt_of_le_of_lt (Nat.sub_le _ _) hn)).2.1 :=
      (congrArg (fun q => q.2.1) e).trans (sout1_C_0_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1_0 (Memref.isWhole_whole _) scM1_1 (Memref.isWhole_whole _) (fun h => h0 ((hcond1_0 ⟨n, hn⟩).mp h)) ((hcond1_1 ⟨n, hn⟩).mpr h1) (blkA V c n hn) (blkW V c n hn) (blkB V c n hn) (outsAt1 V c (n - 1) (Nat.lt_of_le_of_lt (Nat.sub_le _ _) hn)).2.1 (outsAt1 V c (n - 1) (Nat.lt_of_le_of_lt (Nat.sub_le _ _) hn)).2.2)
    have el : (outsAt1 V c n hn).2.2 = k1_pay6 (blkA V c n hn) (blkW V c n hn) (blkB V c n hn) (outsAt1 V c (n - 1) (Nat.lt_of_le_of_lt (Nat.sub_le _ _) hn)).2.1 (outsAt1 V c (n - 1) (Nat.lt_of_le_of_lt (Nat.sub_le _ _) hn)).2.1 (outsAt1 V c (n - 1) (Nat.lt_of_le_of_lt (Nat.sub_le _ _) hn)).2.2 :=
      (congrArg (fun q => q.2.2) e).trans (sout1_C_1_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1_0 (Memref.isWhole_whole _) scM1_1 (Memref.isWhole_whole _) (fun h => h0 ((hcond1_0 ⟨n, hn⟩).mp h)) ((hcond1_1 ⟨n, hn⟩).mpr h1) (blkA V c n hn) (blkW V c n hn) (blkB V c n hn) (outsAt1 V c (n - 1) (Nat.lt_of_le_of_lt (Nat.sub_le _ _) hn)).2.1 (outsAt1 V c (n - 1) (Nat.lt_of_le_of_lt (Nat.sub_le _ _) hn)).2.2)
    exact cols_of_pieces (blkA V c n hn) (blkW V c n hn) (blkB V c n hn) (outsAt1 V c (n - 1) (Nat.lt_of_le_of_lt (Nat.sub_le _ _) hn)).2.1 (outsAt1 V c (n - 1) (Nat.lt_of_le_of_lt (Nat.sub_le _ _) hn)).2.2 (outsAt1 V c n hn).2.1 (outsAt1 V c n hn).2.2 em el
      r (colsN V c r (n - 1) (Nat.lt_of_le_of_lt (Nat.sub_le _ _) hn)) rfl rfl
  · have e : outsAt1 V c n hn = _ := outsAt1_B V c ⟨n, hn⟩ h0 h1
    have em : (outsAt1 V c n hn).2.1 = k1_pay7 (blkA V c n hn) (blkW V c n hn) (blkB V c n hn) (outsAt1 V c (n - 1) (Nat.lt_of_le_of_lt (Nat.sub_le _ _) hn)).2.1 :=
      (congrArg (fun q => q.2.1) e).trans (sout1_B_0_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1_0 (Memref.isWhole_whole _) scM1_1 (Memref.isWhole_whole _) (fun h => h0 ((hcond1_0 ⟨n, hn⟩).mp h)) (fun h => h1 ((hcond1_1 ⟨n, hn⟩).mp h)) (blkA V c n hn) (blkW V c n hn) (blkB V c n hn) (outsAt1 V c (n - 1) (Nat.lt_of_le_of_lt (Nat.sub_le _ _) hn)).2.1 (outsAt1 V c (n - 1) (Nat.lt_of_le_of_lt (Nat.sub_le _ _) hn)).2.2)
    have el : (outsAt1 V c n hn).2.2 = k1_pay6 (blkA V c n hn) (blkW V c n hn) (blkB V c n hn) (outsAt1 V c (n - 1) (Nat.lt_of_le_of_lt (Nat.sub_le _ _) hn)).2.1 (outsAt1 V c (n - 1) (Nat.lt_of_le_of_lt (Nat.sub_le _ _) hn)).2.1 (outsAt1 V c (n - 1) (Nat.lt_of_le_of_lt (Nat.sub_le _ _) hn)).2.2 :=
      (congrArg (fun q => q.2.2) e).trans (sout1_B_1_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1_0 (Memref.isWhole_whole _) scM1_1 (Memref.isWhole_whole _) (fun h => h0 ((hcond1_0 ⟨n, hn⟩).mp h)) (fun h => h1 ((hcond1_1 ⟨n, hn⟩).mp h)) (blkA V c n hn) (blkW V c n hn) (blkB V c n hn) (outsAt1 V c (n - 1) (Nat.lt_of_le_of_lt (Nat.sub_le _ _) hn)).2.1 (outsAt1 V c (n - 1) (Nat.lt_of_le_of_lt (Nat.sub_le _ _) hn)).2.2)
    exact cols_of_pieces (blkA V c n hn) (blkW V c n hn) (blkB V c n hn) (outsAt1 V c (n - 1) (Nat.lt_of_le_of_lt (Nat.sub_le _ _) hn)).2.1 (outsAt1 V c (n - 1) (Nat.lt_of_le_of_lt (Nat.sub_le _ _) hn)).2.2 (outsAt1 V c n hn).2.1 (outsAt1 V c n hn).2.2 em el
      r (colsN V c r (n - 1) (Nat.lt_of_le_of_lt (Nat.sub_le _ _) hn)) rfl rfl

set_option maxHeartbeats 1600000 in
/-- At a last tile the output block is maximum + log sum of the columns as that point leaves them. -/
theorem out_last (c : Dev nD) (r : Fin 408) (n : ℕ) (hn : n < cfg1.N) (h1 : n % 25 = 24) :
    ((outsAt1 V c n hn).1 (ix2 r (0 : Fin 1)) : EReal)
      = (colsN V c r n hn).1 + Ideal.log (colsN V c r n hn).2 := by
  have h0 : ¬n % 25 = 0 := by omega
  have e : outsAt1 V c n hn = _ := outsAt1_C V c ⟨n, hn⟩ h0 h1
  have eo : (outsAt1 V c n hn).1 = k1_pay1 (k1_pay7 (blkA V c n hn) (blkW V c n hn) (blkB V c n hn) (outsAt1 V c (n - 1) (Nat.lt_of_le_of_lt (Nat.sub_le _ _) hn)).2.1) (k1_pay6 (blkA V c n hn) (blkW V c n hn) (blkB V c n hn) (outsAt1 V c (n - 1) (Nat.lt_of_le_of_lt (Nat.sub_le _ _) hn)).2.1 (outsAt1 V c (n - 1) (Nat.lt_of_le_of_lt (Nat.sub_le _ _) hn)).2.1 (outsAt1 V c (n - 1) (Nat.lt_of_le_of_lt (Nat.sub_le _ _) hn)).2.2) :=
    (congrArg (fun q => q.1) e).trans (out1_C_3_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1_0 (Memref.isWhole_whole _) scM1_1 (Memref.isWhole_whole _) (fun h => h0 ((hcond1_0 ⟨n, hn⟩).mp h)) ((hcond1_1 ⟨n, hn⟩).mpr h1) (blkA V c n hn) (blkW V c n hn) (blkB V c n hn) (outsAt1 V c (n - 1) (Nat.lt_of_le_of_lt (Nat.sub_le _ _) hn)).2.1 (outsAt1 V c (n - 1) (Nat.lt_of_le_of_lt (Nat.sub_le _ _) hn)).2.2)
  have em : (outsAt1 V c n hn).2.1 = k1_pay7 (blkA V c n hn) (blkW V c n hn) (blkB V c n hn) (outsAt1 V c (n - 1) (Nat.lt_of_le_of_lt (Nat.sub_le _ _) hn)).2.1 :=
    (congrArg (fun q => q.2.1) e).trans (sout1_C_0_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1_0 (Memref.isWhole_whole _) scM1_1 (Memref.isWhole_whole _) (fun h => h0 ((hcond1_0 ⟨n, hn⟩).mp h)) ((hcond1_1 ⟨n, hn⟩).mpr h1) (blkA V c n hn) (blkW V c n hn) (blkB V c n hn) (outsAt1 V c (n - 1) (Nat.lt_of_le_of_lt (Nat.sub_le _ _) hn)).2.1 (outsAt1 V c (n - 1) (Nat.lt_of_le_of_lt (Nat.sub_le _ _) hn)).2.2)
  have el : (outsAt1 V c n hn).2.2 = k1_pay6 (blkA V c n hn) (blkW V c n hn) (blkB V c n hn) (outsAt1 V c (n - 1) (Nat.lt_of_le_of_lt (Nat.sub_le _ _) hn)).2.1 (outsAt1 V c (n - 1) (Nat.lt_of_le_of_lt (Nat.sub_le _ _) hn)).2.1 (outsAt1 V c (n - 1) (Nat.lt_of_le_of_lt (Nat.sub_le _ _) hn)).2.2 :=
    (congrArg (fun q => q.2.2) e).trans (sout1_C_1_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1_0 (Memref.isWhole_whole _) scM1_1 (Memref.isWhole_whole _) (fun h => h0 ((hcond1_0 ⟨n, hn⟩).mp h)) ((hcond1_1 ⟨n, hn⟩).mpr h1) (blkA V c n hn) (blkW V c n hn) (blkB V c n hn) (outsAt1 V c (n - 1) (Nat.lt_of_le_of_lt (Nat.sub_le _ _) hn)).2.1 (outsAt1 V c (n - 1) (Nat.lt_of_le_of_lt (Nat.sub_le _ _) hn)).2.2)
  exact out_of_pieces (blkA V c n hn) (blkW V c n hn) (blkB V c n hn) (outsAt1 V c (n - 1) (Nat.lt_of_le_of_lt (Nat.sub_le _ _) hn)).2.1 (outsAt1 V c (n - 1) (Nat.lt_of_le_of_lt (Nat.sub_le _ _) hn)).2.2 (outsAt1 V c n hn).1 (outsAt1 V c n hn).2.1 (outsAt1 V c n hn).2.2 eo em el r

/-! ## A row block's 25 tiles as a stream -/

/-- The points of row block `i` are `25 i`, …, `25 i + 24`. -/
theorem tile_lt (i : Fin 8) (w : ℕ) (hw : w < 25) : 25 * i.val + w < cfg1.N :=
  lt_of_lt_of_eq (by have := i.isLt; omega : 25 * i.val + w < 200) (show cfg1.N = 200 from N_1).symm

/-- Row `r` of row block `i`: the class scores of its 25 tiles (zero beyond them). -/
def tileRows (c : Dev nD) (i : Fin 8) (r : Fin 408) (w : ℕ) : Fin 1280 → EReal :=
  if hw : w < 25 then rowN V c r (25 * i.val + w) (tile_lt i w hw) else fun _ => 0

theorem tileRows_of_lt (c : Dev nD) (i : Fin 8) (r : Fin 408) (w : ℕ) (hw : w < 25) :
    tileRows V c i r w = rowN V c r (25 * i.val + w) (tile_lt i w hw) := dif_pos hw

/-- After tile `v` of row block `i` the two columns at row `r` are the stream's state after `v + 1` tiles. -/
theorem cols_stream (c : Dev nD) (i : Fin 8) (r : Fin 408) (v : ℕ) (hv : v < 25) :
    colsN V c r (25 * i.val + v) (tile_lt i v hv) = Cert.Stream.S (tileRows V c i r) (v + 1) := by
  induction v with
  | zero =>
    rw [stream_succ, tileRows_of_lt V c i r 0 hv]
    exact colsN_first V c r (25 * i.val + 0) (tile_lt i 0 hv) (by omega)
  | succ v ih =>
    have hv' : v < 25 := by omega
    rw [stream_succ, tileRows_of_lt V c i r (v + 1) hv, ← ih hv']
    refine (colsN_next V c r (25 * i.val + (v + 1)) (tile_lt i (v + 1) hv) (by omega)).trans ?_
    exact congrArg (fun p => colStep p (rowN V c r (25 * i.val + (v + 1)) (tile_lt i (v + 1) hv)))
      (colsN_congr V c r _ _ (by omega) _ _)

/-- The running maximum after tile `v`. -/
theorem max_col_stream (c : Dev nD) (i : Fin 8) (r : Fin 408) (v : ℕ) (hv : v < 25) :
    ((outsAt1 V c (25 * i.val + v) (tile_lt i v hv)).2.1 (ix2 r (0 : Fin 1)) : EReal)
      = (Cert.Stream.S (tileRows V c i r) (v + 1)).1 :=
  congrArg Prod.fst (cols_stream V c i r v hv)

/-- The running sum after tile `v`. -/
theorem sum_col_stream (c : Dev nD) (i : Fin 8) (r : Fin 408) (v : ℕ) (hv : v < 25) :
    ((outsAt1 V c (25 * i.val + v) (tile_lt i v hv)).2.2 (ix2 r (0 : Fin 1)) : EReal)
      = (Cert.Stream.S (tileRows V c i r) (v + 1)).2 :=
  congrArg Prod.snd (cols_stream V c i r v hv)

/-- After the last tile of row block `i` the output block at row `r` is the final state's maximum + log sum. -/
theorem out_stream (c : Dev nD) (i : Fin 8) (r : Fin 408) :
    ((outsAt1 V c (25 * i.val + 24) (tile_lt i 24 (by omega))).1 (ix2 r (0 : Fin 1)) : EReal)
      = (Cert.Stream.S (tileRows V c i r) 25).1 + Ideal.log (Cert.Stream.S (tileRows V c i r) 25).2 := by
  rw [out_last V c r (25 * i.val + 24) (tile_lt i 24 (by omega)) (by omega), cols_stream V c i r 24 (by omega)]

end Cert.KernelIdeal.Hand

end
-- ==== Proof.KIArr1.lean ====
/-
  The second region's input blocks, read at an index.

  The region runs over 8 row blocks times 25 class tiles; point t is row block t / 25 and class tile t % 25. Its three
  input windows cut, out of the activations [3264, 512], the class weights [32000, 512] and the class biases
  [1, 32000], the block of 408 rows at row block t / 25, the block of 1280 weight rows at tile t % 25 and the block of
  1280 biases at tile t % 25. An entry of a block is the array's entry at block index times block size plus the
  coordinate inside the block.
-/
import proofs.«150782_j29695403885316_1_alg».proof.Proof.KIR1Runs
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]

variable (V : (c : Dev nD) → (b : Ref sig .tc) → Buf (Elt F) ((c : Thread nD τ).loc b))

/-- The printed index maps of the three input windows, decided over the grid. -/
theorem idx_facts1 : ∀ t : Fin cfg1.N,
    win1_0.index t (0 : Fin 2) = t.val / 25 ∧ win1_0.index t (1 : Fin 2) = 0
    ∧ win1_1.index t (0 : Fin 2) = t.val % 25 ∧ win1_1.index t (1 : Fin 2) = 0
    ∧ win1_2.index t (0 : Fin 2) = 0 ∧ win1_2.index t (1 : Fin 2) = t.val % 25 :=
  (by decide +kernel : ∀ t : Fin grid1.N, _)

/-- The activations' block at point t, at (r, k): row 408 · (t / 25) + r of the activations. -/
theorem iblk1_0_apply (c : Dev nD) (t : Fin cfg1.N) (r : Fin 408) (k : Fin 512)
    (h : 408 * (t.val / 25) + r.val < 3264) :
    iblk1 V c 0 t (ix2 r k) = V c main_v17 (ix2 ⟨408 * (t.val / 25) + r.val, h⟩ k) := by
  obtain ⟨e0, e1, -⟩ := idx_facts1 t
  show V c main_v17 (((cfg1.win 0).blk t).view.emb (ix2 r k)) = V c main_v17 _
  refine congrArg (V c main_v17) ?_
  funext a; apply Fin.ext
  match a with
  | ⟨0, _⟩ => show win1_0.index t (0 : Fin 2) * 408 + 1 * r.val = 408 * (t.val / 25) + r.val; omega
  | ⟨1, _⟩ => show win1_0.index t (1 : Fin 2) * 512 + 1 * k.val = k.val; omega

/-- The class weights' block at point t, at (cc, k): row 1280 · (t % 25) + cc of the weights. -/
theorem iblk1_1_apply (c : Dev nD) (t : Fin cfg1.N) (cc : Fin 1280) (k : Fin 512)
    (h : 1280 * (t.val % 25) + cc.val < 32000) :
    iblk1 V c 1 t (ix2 cc k) = V c main_v18 (ix2 ⟨1280 * (t.val % 25) + cc.val, h⟩ k) := by
  obtain ⟨-, -, e0, e1, -⟩ := idx_facts1 t
  show V c main_v18 (((cfg1.win 1).blk t).view.emb (ix2 cc k)) = V c main_v18 _
  refine congrArg (V c main_v18) ?_
  funext a; apply Fin.ext
  match a with
  | ⟨0, _⟩ => show win1_1.index t (0 : Fin 2) * 1280 + 1 * cc.val = 1280 * (t.val % 25) + cc.val; omega
  | ⟨1, _⟩ => show win1_1.index t (1 : Fin 2) * 512 + 1 * k.val = k.val; omega

/-- The class biases' block at point t, at (0, cc): bias 1280 · (t % 25) + cc. -/
theorem iblk1_2_apply (c : Dev nD) (t : Fin cfg1.N) (cc : Fin 1280)
    (h : 1280 * (t.val % 25) + cc.val < 32000) :
    iblk1 V c 2 t (ix2 (0 : Fin 1) cc) = V c main_v19 (ix2 (0 : Fin 1) ⟨1280 * (t.val % 25) + cc.val, h⟩) := by
  obtain ⟨-, -, -, -, e0, e1⟩ := idx_facts1 t
  show V c main_v19 (((cfg1.win 2).blk t).view.emb (ix2 (0 : Fin 1) cc)) = V c main_v19 _
  refine congrArg (V c main_v19) ?_
  funext a; apply Fin.ext
  match a with
  | ⟨0, _⟩ => show win1_2.index t (0 : Fin 2) * 1 + 1 * 0 = 0; omega
  | ⟨1, _⟩ => show win1_2.index t (1 : Fin 2) * 1280 + 1 * cc.val = 1280 * (t.val % 25) + cc.val; omega

end Cert.KernelIdeal.Hand

end
-- ==== Proof.KIArr1Out.lean ====
/-
  The second region's output array, read at a row.

  The region's output window cuts the column of per-row results [3264, 1] into 8 blocks of 408 rows; the block of row
  block i is written back only at the last class tile of that row block, the point 25 · i + 24, and is idle at the
  other points. So after the region a row 408 · i + r of the column holds what that last point left at row r of the
  output block. Each written block is the block of one whole-column function, and the 8 written blocks tile the column.
-/
import proofs.«150782_j29695403885316_1_alg».proof.Proof.KIRegion1
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-- The output window's printed index map, decided over the grid: block t / 25 of the rows, block 0 of the one column. -/
theorem idx_facts1_3 : ∀ t : Fin cfg1.N, win1_3.index t (0 : Fin 2) = t.val / 25 ∧ win1_3.index t (1 : Fin 2) = 0 :=
  (by decide +kernel : ∀ t : Fin grid1.N, _)

/-- The values a point leaves depend on the point's number only. -/
theorem outsAt1_congr (c : Dev nD) {n n' : ℕ} (e : n = n') (h : n < cfg1.N) (h' : n' < cfg1.N) :
    outsAt1 V c n h = outsAt1 V c n' h' := by
  subst e; rfl

/-- The last class tile of the row block of row p is a point of the grid. -/
theorem last_lt (p : ℕ) (hp : p < 3264) : 25 * (p / 408) + 24 < cfg1.N :=
  lt_of_lt_of_eq (by omega : 25 * (p / 408) + 24 < 200) N_1.symm

/-- The column of per-row results as one function of the row: what the last class tile of the row's block left at the
    row's place in the output block. -/
def rowsOut1 (c : Dev nD) : S3264x1.Idx → Elt F .f32 := fun p =>
  (outsAt1 V c (25 * ((p 0).val / 408) + 24) (last_lt _ (p 0).isLt)).1
    (ix2 ⟨(p 0).val % 408, Nat.mod_lt _ (by decide)⟩ (0 : Fin 1))

/-- That function at a row, from any spelling of the point and of the place inside the block. -/
theorem rowsOut1_eq (c : Dev nD) (p : S3264x1.Idx) (n : ℕ) (h : n < cfg1.N) (hn : n = 25 * ((p 0).val / 408) + 24)
    (y : S408x1.Idx) (hy : (y 0).val = (p 0).val % 408) : rowsOut1 V c p = (outsAt1 V c n h).1 y := by
  subst hn
  unfold rowsOut1
  refine congrArg _ ?_
  funext a; apply Fin.ext
  match a with
  | ⟨0, _⟩ => exact hy.symm
  | ⟨1, _⟩ =>
    show (0 : ℕ) = (y 1).val
    have h1 : (y 1).val < 1 := (y 1).isLt
    omega

/-- What a writing point writes back is its block of that function. -/
theorem flushed1_3_eq (c : Dev nD) (t : Fin cfg1.N) (hf : (cfg1.win 3).flush t = true) :
    (dat1 V c).flushed 3 t = ((cfg1.win 3).blk t).view.read (Elt F) (rowsOut1 V c) := by
  have h24 : t.val % 25 = 24 := (flush1_3 t).mp hf
  obtain ⟨e0, e1⟩ := idx_facts1_3 t
  show (cfg1.win 3).cut (grid1.coords t) ((dat1 V c).after 3 t) = _
  rw [after1_3]
  funext j
  show (outsAt1 V c t.val t.isLt).1 ((cfg1.win 3).xinj (grid1.coords t) j)
    = rowsOut1 V c (((cfg1.win 3).blk t).view.emb j)
  have hemb : ((((cfg1.win 3).blk t).view.emb j) 0).val = win1_3.index t (0 : Fin 2) * 408 + 1 * (j 0).val := rfl
  have hj : (j 0).val < 408 := (j 0).isLt
  refine (rowsOut1_eq V c _ t.val t.isLt ?_ _ ?_).symm
  · rw [hemb]; omega
  · show (j 0).val = ((((cfg1.win 3).blk t).view.emb j) 0).val % 408
    rw [hemb]; omega

/-- An index of the column is in point t's block iff each coordinate is in the block's range on its axis. -/
theorem mem_blk1_3 (t : Fin cfg1.N) (i : S3264x1.Idx) :
    i ∈ ((cfg1.win 3).blk t).view.set ↔ ∀ a : Fin 2, win1_3.index t a * S408x1.size a ≤ (i a).val
      ∧ (i a).val < win1_3.index t a * S408x1.size a + S408x1.size a := by
  show i ∈ ((View.whole main_v20).slice (win1_3.rect t)).set ↔ _
  rw [View.set_slice_whole, Rect.mem_set_unit]
  exact Iff.rfl

/-- Every row is in the block of the last class tile of its row block, a writing point. -/
theorem cover1_3 (i : S3264x1.Idx) :
    ∃ t : Fin cfg1.N, (cfg1.win 3).flush t = true ∧ i ∈ ((cfg1.win 3).blk t).view.set := by
  have hi0 : (i 0).val < 3264 := (i 0).isLt
  have hi1 : (i 1).val < 1 := (i 1).isLt
  obtain ⟨t, ht⟩ : ∃ t : Fin cfg1.N, t.val = 25 * ((i 0).val / 408) + 24 := ⟨⟨_, last_lt _ hi0⟩, rfl⟩
  obtain ⟨e0, e1⟩ := idx_facts1_3 t
  refine ⟨t, (flush1_3 t).mpr (by omega), ?_⟩
  rw [mem_blk1_3]
  intro a
  match a with
  | ⟨0, _⟩ =>
    show win1_3.index t (0 : Fin 2) * 408 ≤ (i 0).val ∧ (i 0).val < win1_3.index t (0 : Fin 2) * 408 + 408
    omega
  | ⟨1, _⟩ =>
    show win1_3.index t (1 : Fin 2) * 1 ≤ (i 1).val ∧ (i 1).val < win1_3.index t (1 : Fin 2) * 1 + 1
    omega

/-- The column after the region is that function. -/
theorem arr1_3_final (c : Dev nD) : (dat1 V c).arrAt 3 cfg1.N = rowsOut1 V c :=
  (dat1 V c).arrAt_eq_of_cover 3 (rowsOut1 V c) (flushed1_3_eq V c) cover1_3

/-- The column after the region, at row 408 · i + r: what the last class tile of row block i left at row r. -/
theorem arr1_3_apply (c : Dev nD) (i : Fin 8) (r : Fin 408) (h1 : 408 * i.val + r.val < 3264)
    (h2 : 25 * i.val + 24 < cfg1.N) :
    (dat1 V c).arrAt 3 cfg1.N (ix2 ⟨408 * i.val + r.val, h1⟩ (0 : Fin 1))
      = (outsAt1 V c (25 * i.val + 24) h2).1 (ix2 r (0 : Fin 1)) := by
  rw [arr1_3_final]
  have hr : r.val < 408 := r.isLt
  refine rowsOut1_eq V c _ _ h2 ?_ _ ?_
  · show 25 * i.val + 24 = 25 * ((408 * i.val + r.val) / 408) + 24
    omega
  · show r.val = (408 * i.val + r.val) % 408
    omega

end Cert.KernelIdeal.Hand

end
-- ==== Proof.KIArr2.lean ====
/-
  FROM BLOCKS TO ARRAYS, third region. Grid point t = 25·i + v of the 8 × 25 takes rows 408·i … 408·i + 407 of the
  activations and of the row offsets, rows 1280·v … 1280·v + 1279 of the class weights and the matching 1280 entries of
  the class bias, and leaves block (i, v) of the result array. So every input block, read at an index, is an entry of its
  array, and the result array, read at (p, u), is what point 25·(p / 408) + u / 1280 left at (p mod 408, u mod 1280).
-/
import proofs.«150782_j29695403885316_1_alg».proof.Proof.KIRegion2
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

/-- The index maps of the third region, decided over its 200 points: the row windows sit at block row t / 25, the class
    windows at block t mod 25, the result window at block (t / 25, t mod 25). -/
theorem idx_facts2 : ∀ t : Fin cfg2.N,
    (win2_0.index t (0 : Fin 2) = t.val / 25 ∧ win2_0.index t (1 : Fin 2) = 0)
    ∧ (win2_1.index t (0 : Fin 2) = t.val % 25 ∧ win2_1.index t (1 : Fin 2) = 0)
    ∧ (win2_2.index t (0 : Fin 2) = 0 ∧ win2_2.index t (1 : Fin 2) = t.val % 25)
    ∧ (win2_3.index t (0 : Fin 2) = t.val / 25 ∧ win2_3.index t (1 : Fin 2) = 0)
    ∧ (win2_4.index t (0 : Fin 2) = t.val / 25 ∧ win2_4.index t (1 : Fin 2) = t.val % 25) :=
  (by decide +kernel : ∀ t : Fin grid2.N, _)

theorem lt200 (t : Fin cfg2.N) : t.val < 200 := lt_of_lt_of_eq t.isLt N_2

theorem row_lt (t : Fin cfg2.N) (r : Fin 408) : 408 * (t.val / 25) + r.val < 3264 := by
  have := lt200 t; have := r.isLt; omega
theorem col_lt (t : Fin cfg2.N) (cc : Fin 1280) : 1280 * (t.val % 25) + cc.val < 32000 := by
  have := cc.isLt; omega

/-- The activation block of point `t` is rows 408·(t / 25) … of the activations. -/
theorem iblk2_0_apply (c : Dev nD) (t : Fin cfg2.N) (r : Fin 408) (k : Fin 512) :
    (iblk2 V c 0 t : Vec F S408x512 .bf16) (ix2 r k)
      = (V c main_v17 : S3264x512.Idx → Elt F .bf16) (ix2 ⟨408 * (t.val / 25) + r.val, row_lt t r⟩ k) := by
  obtain ⟨⟨h0, h1⟩, -⟩ := idx_facts2 t
  unfold iblk2
  rw [View.read_apply]
  show V c main_v17 _ = V c main_v17 _
  congr 1
  funext a
  apply Fin.ext
  match a with
  | ⟨0, _⟩ => show win2_0.index t (0 : Fin 2) * 408 + 1 * r.val = 408 * (t.val / 25) + r.val; omega
  | ⟨1, _⟩ => show win2_0.index t (1 : Fin 2) * 512 + 1 * k.val = k.val; omega

/-- The class-weight block of point `t` is rows 1280·(t mod 25) … of the class weights. -/
theorem iblk2_1_apply (c : Dev nD) (t : Fin cfg2.N) (cc : Fin 1280) (k : Fin 512) :
    (iblk2 V c 1 t : Vec F S1280x512 .bf16) (ix2 cc k)
      = (V c main_v18 : S32000x512.Idx → Elt F .bf16) (ix2 ⟨1280 * (t.val % 25) + cc.val, col_lt t cc⟩ k) := by
  obtain ⟨-, ⟨h0, h1⟩, -⟩ := idx_facts2 t
  unfold iblk2
  rw [View.read_apply]
  show V c main_v18 _ = V c main_v18 _
  congr 1
  funext a
  apply Fin.ext
  match a with
  | ⟨0, _⟩ => show win2_1.index t (0 : Fin 2) * 1280 + 1 * cc.val = 1280 * (t.val % 25) + cc.val; omega
  | ⟨1, _⟩ => show win2_1.index t (1 : Fin 2) * 512 + 1 * k.val = k.val; omega

/-- The class-bias block of point `t` is entries 1280·(t mod 25) … of the class bias row. -/
theorem iblk2_2_apply (c : Dev nD) (t : Fin cfg2.N) (cc : Fin 1280) :
    (iblk2 V c 2 t : Vec F S1x1280 .f32) (ix2 0 cc)
      = (V c main_v19 : S1x32000.Idx → Elt F .f32) (ix2 0 ⟨1280 * (t.val % 25) + cc.val, col_lt t cc⟩) := by
  obtain ⟨-, -, ⟨h0, h1⟩, -⟩ := idx_facts2 t
  unfold iblk2
  rw [View.read_apply]
  show V c main_v19 _ = V c main_v19 _
  congr 1
  funext a
  apply Fin.ext
  match a with
  | ⟨0, _⟩ => show win2_2.index t (0 : Fin 2) * 1 + 1 * 0 = 0; omega
  | ⟨1, _⟩ => show win2_2.index t (1 : Fin 2) * 1280 + 1 * cc.val = 1280 * (t.val % 25) + cc.val; omega

/-- The row-offset block of point `t` is rows 408·(t / 25) … of the row offsets. -/
theorem iblk2_3_apply (c : Dev nD) (t : Fin cfg2.N) (r : Fin 408) :
    (iblk2 V c 3 t : Vec F S408x1 .f32) (ix2 r 0)
      = (V c main_v20 : S3264x1.Idx → Elt F .f32) (ix2 ⟨408 * (t.val / 25) + r.val, row_lt t r⟩ 0) := by
  obtain ⟨-, -, -, ⟨h0, h1⟩, -⟩ := idx_facts2 t
  unfold iblk2
  rw [View.read_apply]
  show V c main_v20 _ = V c main_v20 _
  congr 1
  funext a
  apply Fin.ext
  match a with
  | ⟨0, _⟩ => show win2_3.index t (0 : Fin 2) * 408 + 1 * r.val = 408 * (t.val / 25) + r.val; omega
  | ⟨1, _⟩ => show win2_3.index t (1 : Fin 2) * 1 + 1 * 0 = 0; omega

/-! ## The result array -/

/-- The grid point whose block holds (p, u). -/
def pt2 (p : Fin 3264) (u : Fin 32000) : Fin cfg2.N :=
  ⟨25 * (p.val / 408) + u.val / 1280, lt_of_lt_of_eq (by have := p.isLt; have := u.isLt; omega) N_2.symm⟩

/-- What point `t` leaves in the result block. -/
def row2_4 (c : Dev nD) (t : Fin cfg2.N) : Vec F S408x1280 .f32 :=
  out2_4 (iblk2 V c 0 t) (iblk2 V c 1 t) (iblk2 V c 2 t) (iblk2 V c 3 t)

theorem after2_4_row (c : Dev nD) (t : Fin cfg2.N) : (dat2 V c).after 4 t = row2_4 V c t := after2_4 V c t

/-- What the result array ends holding: at (p, u), what the point that owns it left at (p mod 408, u mod 1280). -/
def arr2_4 (c : Dev nD) : S3264x32000.Idx → Elt F .f32 := fun i =>
  row2_4 V c (pt2 (i 0) (i 1)) (ix2 ⟨(i 0).val % 408, Nat.mod_lt _ (by decide)⟩ ⟨(i 1).val % 1280, Nat.mod_lt _ (by decide)⟩)

/-- An index in block (t / 25, t mod 25) at (r, cc) reads what point `t` left at (r, cc). -/
theorem arr2_4_of (c : Dev nD) (t : Fin cfg2.N) (i : S3264x32000.Idx) (r : Fin 408) (cc : Fin 1280)
    (h0 : (i 0).val = 408 * (t.val / 25) + r.val) (h1 : (i 1).val = 1280 * (t.val % 25) + cc.val) :
    arr2_4 V c i = row2_4 V c t (ix2 r cc) := by
  have hr := r.isLt
  have hc := cc.isLt
  have ht := lt200 t
  have e1 : pt2 (i 0) (i 1) = t :=
    Fin.ext (by show 25 * ((i 0).val / 408) + (i 1).val / 1280 = t.val; omega)
  have e2 : (⟨(i 0).val % 408, Nat.mod_lt _ (by decide)⟩ : Fin 408) = r :=
    Fin.ext (by show (i 0).val % 408 = r.val; omega)
  have e3 : (⟨(i 1).val % 1280, Nat.mod_lt _ (by decide)⟩ : Fin 1280) = cc :=
    Fin.ext (by show (i 1).val % 1280 = cc.val; omega)
  show row2_4 V c (pt2 (i 0) (i 1)) (ix2 ⟨(i 0).val % 408, _⟩ ⟨(i 1).val % 1280, _⟩) = _
  rw [e1, e2, e3]

/-- Where an index of the result block of point `t` lands in the array. -/
theorem emb2_4 (t : Fin cfg2.N) (y : S408x1280.Idx) :
    (((cfg2.win 4).blk t).view.emb y : S3264x32000.Idx)
      = ix2 ⟨408 * (t.val / 25) + (y 0).val, row_lt t (y 0)⟩ ⟨1280 * (t.val % 25) + (y 1).val, col_lt t (y 1)⟩ := by
  obtain ⟨-, -, -, -, ⟨h0, h1⟩⟩ := idx_facts2 t
  funext a
  apply Fin.ext
  match a with
  | ⟨0, _⟩ => show win2_4.index t (0 : Fin 2) * 408 + 1 * (y 0).val = 408 * (t.val / 25) + (y 0).val; omega
  | ⟨1, _⟩ => show win2_4.index t (1 : Fin 2) * 1280 + 1 * (y 1).val = 1280 * (t.val % 25) + (y 1).val; omega

/-- The write-back of a whole block moves all of it. -/
theorem cut2_4 (t : Fin cfg2.N) (X : Vec F S408x1280 .f32) (y : S408x1280.Idx) :
    (cfg2.win 4).cut (grid2.coords t) X y = X y := rfl

/-- Block `t` of an array of the result array's shape, read at an index. -/
theorem read2_4 (t : Fin cfg2.N) (G : S3264x32000.Idx → Elt F .f32) (y : S408x1280.Idx) :
    ((cfg2.win 4).blk t).view.read (Elt F) G y
      = G (ix2 ⟨408 * (t.val / 25) + (y 0).val, row_lt t (y 0)⟩ ⟨1280 * (t.val % 25) + (y 1).val, col_lt t (y 1)⟩) := by
  rw [View.read_apply]
  show G (((cfg2.win 4).blk t).view.emb y) = _
  exact congrArg G (emb2_4 t y)

/-- What point `t` writes back to the result array is block `t` of `arr2_4`. -/
theorem flushed2_4_eq (c : Dev nD) (t : Fin cfg2.N) :
    (dat2 V c).flushed 4 t = ((cfg2.win 4).blk t).view.read (Elt F) (arr2_4 V c) := by
  show (cfg2.win 4).cut (grid2.coords t) ((dat2 V c).after 4 t) = _
  rw [after2_4_row]
  refine funext fun (y : S408x1280.Idx) => ?_
  rw [cut2_4, read2_4]
  exact ((arr2_4_of V c t _ (y 0) (y 1) rfl rfl).trans (congrArg (row2_4 V c t) (eq_ix2 y).symm)).symm

/-- An index of the array is in point `t`'s block iff each coordinate is in the block's range on its axis. -/
theorem mem_blk2_4 (t : Fin cfg2.N) (i : S3264x32000.Idx) :
    i ∈ ((cfg2.win 4).blk t).view.set ↔ ∀ a : Fin 2, win2_4.index t a * S408x1280.size a ≤ (i a).val
      ∧ (i a).val < win2_4.index t a * S408x1280.size a + S408x1280.size a := by
  show i ∈ ((View.whole main_v21).slice (win2_4.rect t)).set ↔ _
  rw [View.set_slice_whole, Rect.mem_set_unit]
  exact Iff.rfl

/-- Every index of the result array is in the block of the point that owns it. -/
theorem cover2_4_arr (i : S3264x32000.Idx) :
    ∃ t : Fin cfg2.N, (cfg2.win 4).flush t = true ∧ i ∈ ((cfg2.win 4).blk t).view.set := by
  refine ⟨pt2 (i 0) (i 1), flush2_4 _, ?_⟩
  rw [mem_blk2_4]
  obtain ⟨-, -, -, -, ⟨h0, h1⟩⟩ := idx_facts2 (pt2 (i 0) (i 1))
  have hv : (pt2 (i 0) (i 1)).val = 25 * ((i 0).val / 408) + (i 1).val / 1280 := rfl
  have hi0 : (i 0).val < 3264 := (i 0).isLt
  have hi1 : (i 1).val < 32000 := (i 1).isLt
  intro a
  match a with
  | ⟨0, _⟩ => show win2_4.index (pt2 (i 0) (i 1)) (0 : Fin 2) * 408 ≤ (i 0).val ∧ (i 0).val < win2_4.index (pt2 (i 0) (i 1)) (0 : Fin 2) * 408 + 408; omega
  | ⟨1, _⟩ => show win2_4.index (pt2 (i 0) (i 1)) (1 : Fin 2) * 1280 ≤ (i 1).val ∧ (i 1).val < win2_4.index (pt2 (i 0) (i 1)) (1 : Fin 2) * 1280 + 1280; omega

/-- THE RESULT ARRAY after the region: `arr2_4`. -/
theorem final2_4 (c : Dev nD) : (dat2 V c).arrAt 4 cfg2.N = arr2_4 V c :=
  (dat2 V c).arrAt_eq_of_cover 4 (arr2_4 V c) (fun t _ => flushed2_4_eq V c t) cover2_4_arr

/-- The result array at (p, u) is what point 25·(p / 408) + u / 1280 left at (p mod 408, u mod 1280). -/
theorem arrAt2_4_apply (c : Dev nD) (p : Fin 3264) (u : Fin 32000) :
    ((dat2 V c).arrAt 4 cfg2.N : S3264x32000.Idx → Elt F .f32) (ix2 p u)
      = out2_4 (iblk2 V c 0 (pt2 p u)) (iblk2 V c 1 (pt2 p u)) (iblk2 V c 2 (pt2 p u)) (iblk2 V c 3 (pt2 p u))
          (ix2 ⟨p.val % 408, Nat.mod_lt _ (by decide)⟩ ⟨u.val % 1280, Nat.mod_lt _ (by decide)⟩) := by
  rw [final2_4]; rfl

end Cert.KernelIdeal.Hand

end
-- ==== Proof.KIValue2.lean ====
/-
  The third region's output block as a function of its four input blocks.

  The body loads its four input blocks whole, computes the class scores less the row's log-sum-exp, and stores the
  result whole; so what it leaves in the output block is that value, and entry (r, cc) is the class score of row r and
  class cc of the tile less the log-sum-exp of row r.
-/
import proofs.«150782_j29695403885316_1_alg».proof.Proof.KIRegion2
import proofs.«150782_j29695403885316_1_alg».proof.Proof.KIValue12

noncomputable section

namespace Cert.KernelIdeal.Hand

open Cert.KernelIdeal Cert.KernelIdeal.Gen
open Idealize.ShloMosaic Idealize.ShloMosaic.ValueIdx

/-- The zero offsets of a rank-two rectangle. -/
theorem hz_two : (![0, 0] : Fin 2 → Nat) = fun _ => 0 := funext fun a => by fin_cases a <;> rfl

/-- One whole-block store of the value of whole-block loads leaves that value of the blocks themselves. -/
theorem out2_4_eq {F : FTy → Type} [FloatOps F] (x0 : Vec F S408x512 .bf16) (x1 : Vec F S1280x512 .bf16)
    (x2 : Vec F S1x1280 .f32) (x3 : Vec F S408x1 .f32) :
    out2_4 x0 x1 x2 x3 = k2_pay1 x0 x1 x2 x3 := by
  unfold out2_4
  rw [View.canon_unit_zero hz_two]
  rw [View.ld_unit_zero (S := S408x512) hz_two, View.ld_unit_zero (S := S1280x512) hz_two,
    View.ld_unit_zero (S := S1x1280) hz_two, View.ld_unit_zero (S := S408x1) hz_two]

/-- The output block at (r, cc): the class score less the row's log-sum-exp. -/
theorem out2_4_apply (x0 : Vec Ideal S408x512 .bf16) (x1 : Vec Ideal S1280x512 .bf16) (x2 : Vec Ideal S1x1280 .f32)
    (x3 : Vec Ideal S408x1 .f32) (r : Fin 408) (cc : Fin 1280) :
    out2_4 x0 x1 x2 x3 (ix2 r cc) = Pay.logit x0 x1 x2 r cc - x3 (ix2 r (0 : Fin 1)) := by
  rw [out2_4_eq]
  exact Pay.k2_pay1_apply x0 x1 x2 x3 r cc

end Cert.KernelIdeal.Hand

end
-- ==== Proof.KIComp2.lean ====
/-
  THE THIRD REGION'S RESULT ARRAY AS A FUNCTION OF THE ARRAYS IT READS, entry by entry.

  The grid point that owns entry (p, u) of the result is t = 25·(p / 408) + u / 1280; it left there, at
  (p mod 408, u mod 1280), the class score of its blocks less the row offset of its block. Its activation and offset
  blocks are rows 408·(t / 25) … of their arrays and 408·(t / 25) + p mod 408 = p; its class-weight and bias blocks
  are rows 1280·(t mod 25) … of theirs and 1280·(t mod 25) + u mod 1280 = u (u / 1280 < 25). So the entry is the sum
  over k of activation (p, k) times weight (u, k), plus bias u, less offset p.
-/
import proofs.«150782_j29695403885316_1_alg».proof.Proof.KIArr2
import proofs.«150782_j29695403885316_1_alg».proof.Proof.KIValue2

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-- The row of an entry inside its block. -/
def rowIn (p : Fin 3264) : Fin 408 := ⟨p.val % 408, Nat.mod_lt _ (by decide)⟩
/-- The column of an entry inside its block. -/
def colIn (u : Fin 32000) : Fin 1280 := ⟨u.val % 1280, Nat.mod_lt _ (by decide)⟩

/-- The block row of the owning point, times 408, plus the row inside the block, is the row. -/
theorem row_back (p : Fin 3264) (u : Fin 32000) :
    (⟨408 * ((pt2 p u).val / 25) + (rowIn p).val, row_lt (pt2 p u) (rowIn p)⟩ : Fin 3264) = p :=
  Fin.ext (by
    show 408 * ((25 * (p.val / 408) + u.val / 1280) / 25) + p.val % 408 = p.val
    have := p.isLt; have := u.isLt; omega)

/-- The block column of the owning point, times 1280, plus the column inside the block, is the column. -/
theorem col_back (p : Fin 3264) (u : Fin 32000) :
    (⟨1280 * ((pt2 p u).val % 25) + (colIn u).val, col_lt (pt2 p u) (colIn u)⟩ : Fin 32000) = u :=
  Fin.ext (by
    show 1280 * ((25 * (p.val / 408) + u.val / 1280) % 25) + u.val % 1280 = u.val
    have := p.isLt; have := u.isLt; omega)

/-- The result array of the third region at (p, u), for any contents of the arrays the region reads, named `X`
    (activations), `W` (class weights), `B` (class bias row) and `L` (row offsets). -/
theorem arrAt2_4_value_of (c : Dev nD) (p : Fin 3264) (u : Fin 32000)
    (X : S3264x512.Idx → EReal) (W : S32000x512.Idx → EReal) (B : S1x32000.Idx → EReal) (L : S3264x1.Idx → EReal)
    (hX : (V c main_v17 : S3264x512.Idx → EReal) = X) (hW : (V c main_v18 : S32000x512.Idx → EReal) = W)
    (hB : (V c main_v19 : S1x32000.Idx → EReal) = B) (hL : (V c main_v20 : S3264x1.Idx → EReal) = L) :
    ((dat2 V c).arrAt 4 cfg2.N : S3264x32000.Idx → EReal) (ix2 p u)
      = ((∑ k : Fin 512, X (ix2 p k) * W (ix2 u k)) + B (ix2 0 u)) - L (ix2 p 0) := by
  subst hX; subst hW; subst hB; subst hL
  refine (arrAt2_4_apply V c p u).trans ?_
  refine (out2_4_apply _ _ _ _ (rowIn p) (colIn u)).trans ?_
  unfold Pay.logit
  refine congrArg₂ (· - ·) (congrArg₂ (· + ·) (Finset.sum_congr rfl fun k _ => congrArg₂ (· * ·) ?_ ?_) ?_) ?_
  · exact (iblk2_0_apply V c (pt2 p u) (rowIn p) k).trans
      (congrArg (fun q => (V c main_v17 : S3264x512.Idx → EReal) (ix2 q k)) (row_back p u))
  · exact (iblk2_1_apply V c (pt2 p u) (colIn u) k).trans
      (congrArg (fun q => (V c main_v18 : S32000x512.Idx → EReal) (ix2 q k)) (col_back p u))
  · exact (iblk2_2_apply V c (pt2 p u) (colIn u)).trans
      (congrArg (fun q => (V c main_v19 : S1x32000.Idx → EReal) (ix2 0 q)) (col_back p u))
  · exact (iblk2_3_apply V c (pt2 p u) (rowIn p)).trans
      (congrArg (fun q => (V c main_v20 : S3264x1.Idx → EReal) (ix2 q 0)) (row_back p u))

/-- The four arrays the third region reads, as it finds them, as functions into the extended reals. -/
def in2_x (c : Dev nD) : S3264x512.Idx → EReal := V c main_v17
def in2_w (c : Dev nD) : S32000x512.Idx → EReal := V c main_v18
def in2_b (c : Dev nD) : S1x32000.Idx → EReal := V c main_v19
def in2_l (c : Dev nD) : S3264x1.Idx → EReal := V c main_v20

/-- The same at the arrays themselves. -/
theorem arrAt2_4_value (c : Dev nD) (p : Fin 3264) (u : Fin 32000) :
    ((dat2 V c).arrAt 4 cfg2.N : S3264x32000.Idx → EReal) (ix2 p u)
      = ((∑ k : Fin 512, in2_x V c (ix2 p k) * in2_w V c (ix2 u k)) + in2_b V c (ix2 0 u)) - in2_l V c (ix2 p 0) :=
  arrAt2_4_value_of V c p u _ _ _ _ rfl rfl rfl rfl

end Cert.KernelIdeal.Hand

end
-- ==== Proof.LibOnlineSoftmax.lean ====
import Idealize.ShloMosaic.PureOps.Ideal

/-!
# Streaming ("online") softmax equals plain softmax, on the extended reals

One query row of an attention computation has scores `s k c` (tile `k`, column `c`) and values
`v k c h` (head coordinate `h`). Its softmax-weighted sum is
`∑ k c, (exp (s k c - M) / L) * v k c h` with `M` the maximum of all scores and
`L = ∑ k c, exp (s k c - M)`.

The streaming form never sees all scores at once: it keeps a state `(m, l, acc)` — the running
maximum, the running normaliser and the running weighted sum — starts from `(⊥, 0, 0)`, and folds
in one tile at a time:
`m' = max m (max of the tile)`, `a = exp (m - m')`,
`l' = a * l + ∑ c, exp (s c - m')`, `acc' h = a * acc h + ∑ c, exp (s c - m') * v c h`;
the result is `acc h / l`.

Everything is an extended real (`EReal`) with the exact operations `Ideal.exp` and `Ideal.div`.
A masked column has score `⊥`, where `exp ⊥ = 0`. Under the hypotheses that no score is `⊤`, every
value is a real number, and the first tile has at least one real score, the two results agree
(`run_div_eq_softmax`).

The proof: after the tiles `k ≤ n` the state is
`(M, ∑ exp (s - M), ∑ exp (s - M) * v)` with `M` the maximum so far, a real number (`run_inv`).
A step rescales by `exp (M - M')`, and `exp (M - M') * exp (x - M) = exp (x - M')` for real `x`,
`0 = 0` for `x = ⊥` (`E_shift`). Every quantity is the coercion of a real number, so the algebra is
done in `ℝ` and the coercion is pushed through the finite sums (`coe_sum`). The last step is
`(∑ e * v) / L = ∑ (e / L) * v` for a real `L ≠ 0`.

The last section drops masked columns from a maximum, a normaliser and a weighted sum.
-/

noncomputable section

namespace Cert.LibOnlineSoftmax

open Idealize.ShloMosaic
open scoped BigOperators

variable {C : Type*} {H : Type*} [Fintype C]

/-- Coercion of a finite real sum. -/
theorem coe_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The real number `exp (x - M)` for a score `x` that is real or `⊥` (where it is `0`). -/
def E (x : EReal) (M : ℝ) : ℝ := (Ideal.exp (x - (M : EReal))).toReal

/-- A masked score contributes `0`. -/
theorem E_bot (M : ℝ) : E ⊥ M = 0 := by
  rw [E, EReal.bot_sub, Ideal.exp_bot, EReal.toReal_zero]

/-- A real score `r` contributes `exp (r - M)`. -/
theorem E_coe (r M : ℝ) : E (r : EReal) M = Real.exp (r - M) := by
  rw [E, ← EReal.coe_sub, Ideal.exp_coe, EReal.toReal_coe]

/-- For a score that is not `⊤`, `exp (x - M)` against a real `M` is a real number. -/
theorem exp_sub_coe {x : EReal} (hx : x ≠ ⊤) (M : ℝ) :
    Ideal.exp (x - (M : EReal)) = ((E x M : ℝ) : EReal) := by
  induction x using EReal.rec with
  | bot => rw [E_bot, EReal.bot_sub, Ideal.exp_bot, EReal.coe_zero]
  | coe r => rw [E_coe, ← EReal.coe_sub, Ideal.exp_coe]
  | top => exact absurd rfl hx

/-- Every term is non-negative. -/
theorem E_nonneg (x : EReal) (M : ℝ) : 0 ≤ E x M := by
  induction x using EReal.rec with
  | bot => rw [E_bot]
  | coe r => rw [E_coe]; exact (Real.exp_pos _).le
  | top => rw [E, EReal.top_sub_coe, Ideal.exp_top, EReal.toReal_top]

/-- A real score's term is positive. -/
theorem E_pos {x : EReal} (hx : x ≠ ⊤) (hx' : x ≠ ⊥) (M : ℝ) : 0 < E x M := by
  induction x using EReal.rec with
  | bot => exact absurd rfl hx'
  | coe r => rw [E_coe]; exact Real.exp_pos _
  | top => exact absurd rfl hx

/-- Changing the reference maximum from `M` to `M'` rescales a term by `exp (M - M')`: for a real
    score `exp (M - M') * exp (x - M) = exp (x - M')`, and for a masked one `0 = 0`. -/
theorem E_shift {x : EReal} (hx : x ≠ ⊤) (M M' : ℝ) : Real.exp (M - M') * E x M = E x M' := by
  induction x using EReal.rec with
  | bot => rw [E_bot, E_bot, mul_zero]
  | coe r => rw [E_coe, E_coe, ← Real.exp_add]; congr 1; ring
  | top => exact absurd rfl hx

/-! ### The streaming state -/

/-- The state of the streaming softmax of one query row: the running maximum `m`, the running
    normaliser `l`, and the running weighted sum `acc` (one entry per head coordinate). -/
structure St (H : Type*) where
  m : EReal
  l : EReal
  acc : H → EReal

/-- The state before any tile: maximum `⊥`, normaliser `0`, weighted sum `0`. -/
def St.init : St H := ⟨⊥, 0, fun _ => 0⟩

/-- Fold one tile, with scores `s` and values `v`, into the state: the new maximum is
    `m' = max m (max of s)`, the old normaliser and weighted sum are rescaled by `exp (m - m')`, and
    the tile's terms `exp (s c - m')` and `exp (s c - m') * v c h` are added. -/
def St.step (s : C → EReal) (v : C → H → EReal) (st : St H) : St H where
  m := max st.m (Finset.univ.fold max ⊥ s)
  l := Ideal.exp (st.m - max st.m (Finset.univ.fold max ⊥ s)) * st.l
        + ∑ c, Ideal.exp (s c - max st.m (Finset.univ.fold max ⊥ s))
  acc := fun h => Ideal.exp (st.m - max st.m (Finset.univ.fold max ⊥ s)) * st.acc h
        + ∑ c, Ideal.exp (s c - max st.m (Finset.univ.fold max ⊥ s)) * v c h

theorem St.step_m (s : C → EReal) (v : C → H → EReal) (st : St H) :
    (St.step s v st).m = max st.m (Finset.univ.fold max ⊥ s) := rfl

theorem St.step_l (s : C → EReal) (v : C → H → EReal) (st : St H) :
    (St.step s v st).l
      = Ideal.exp (st.m - max st.m (Finset.univ.fold max ⊥ s)) * st.l
        + ∑ c, Ideal.exp (s c - max st.m (Finset.univ.fold max ⊥ s)) := rfl

theorem St.step_acc (s : C → EReal) (v : C → H → EReal) (st : St H) (h : H) :
    (St.step s v st).acc h
      = Ideal.exp (st.m - max st.m (Finset.univ.fold max ⊥ s)) * st.acc h
        + ∑ c, Ideal.exp (s c - max st.m (Finset.univ.fold max ⊥ s)) * v c h := rfl

/-- The state after the tiles `k < n`, folded in in order from `St.init`. -/
def St.run (s : ℕ → C → EReal) (v : ℕ → C → H → EReal) : ℕ → St H
  | 0 => St.init
  | n + 1 => St.step (s n) (v n) (St.run s v n)

theorem St.run_zero (s : ℕ → C → EReal) (v : ℕ → C → H → EReal) :
    St.run s v 0 = St.init := rfl

theorem St.run_succ (s : ℕ → C → EReal) (v : ℕ → C → H → EReal) (n : ℕ) :
    St.run s v (n + 1) = St.step (s n) (v n) (St.run s v n) := rfl

/-- The maximum of the scores of the tiles `k < n`, as the nested fold of `max` from `⊥`. -/
def runMax (s : ℕ → C → EReal) (n : ℕ) : EReal :=
  (Finset.range n).fold max ⊥ (fun k => Finset.univ.fold max ⊥ (s k))

/-- No tiles: the maximum is `⊥`. -/
theorem runMax_zero (s : ℕ → C → EReal) : runMax s 0 = ⊥ := by
  rw [runMax, Finset.range_zero, Finset.fold_empty]

/-- One more tile: the maximum so far against that tile's maximum. -/
theorem runMax_succ (s : ℕ → C → EReal) (n : ℕ) :
    runMax s (n + 1) = max (runMax s n) (Finset.univ.fold max ⊥ (s n)) := by
  rw [runMax, Finset.range_add_one, Finset.fold_insert Finset.notMem_range_self, max_comm, runMax]

/-- The running maximum after the tiles `k < n` is the maximum of all their scores. -/
theorem run_m (s : ℕ → C → EReal) (v : ℕ → C → H → EReal) (n : ℕ) :
    (St.run s v n).m = runMax s n := by
  induction n with
  | zero => rw [runMax_zero]; rfl
  | succ n ih =>
    show max (St.run s v n).m (Finset.univ.fold max ⊥ (s n)) = _
    rw [ih, runMax_succ]

/-- No score is `⊤`, so the maximum is not. -/
theorem runMax_ne_top (s : ℕ → C → EReal) (n : ℕ) (hs : ∀ k < n, ∀ c, s k c ≠ ⊤) :
    runMax s n ≠ ⊤ := by
  refine ((Finset.fold_max_lt _).2 ⟨bot_lt_top, fun k hk => ?_⟩).ne
  exact (Finset.fold_max_lt _).2
    ⟨bot_lt_top, fun c _ => lt_top_iff_ne_top.2 (hs k (Finset.mem_range.1 hk) c)⟩

/-- Tile `0` has a score above `⊥`, so every maximum that includes tile `0` is above `⊥`. -/
theorem runMax_ne_bot (s : ℕ → C → EReal) (n : ℕ) (h0 : ∃ c, s 0 c ≠ ⊥) :
    runMax s (n + 1) ≠ ⊥ := by
  obtain ⟨c, hc⟩ := h0
  refine ((Finset.lt_fold_max _).2 (Or.inr ⟨0, Finset.mem_range.2 n.succ_pos, ?_⟩)).ne'
  exact (Finset.lt_fold_max _).2 (Or.inr ⟨c, Finset.mem_univ c, bot_lt_iff_ne_bot.2 hc⟩)

/-! ### One step, on a state of real numbers -/

/-- A tile's normaliser terms against a real maximum sum to a real number. -/
theorem sum_exp_coe (s : C → EReal) (hs : ∀ c, s c ≠ ⊤) (M : ℝ) :
    ∑ c, Ideal.exp (s c - (M : EReal)) = ((∑ c, E (s c) M : ℝ) : EReal) := by
  rw [coe_sum]
  exact Finset.sum_congr rfl (fun c _ => exp_sub_coe (hs c) M)

/-- A tile's weighted terms against a real maximum, with real values, sum to a real number. -/
theorem sum_exp_mul_coe (s : C → EReal) (hs : ∀ c, s c ≠ ⊤) (w : C → EReal)
    (hw : ∀ c, w c ≠ ⊤ ∧ w c ≠ ⊥) (M : ℝ) :
    ∑ c, Ideal.exp (s c - (M : EReal)) * w c
      = ((∑ c, E (s c) M * (w c).toReal : ℝ) : EReal) := by
  rw [coe_sum]
  refine Finset.sum_congr rfl (fun c _ => ?_)
  rw [EReal.coe_mul, EReal.coe_toReal (hw c).1 (hw c).2, exp_sub_coe (hs c) M]

/-- One step on a state whose normaliser and weighted sum are real, when the new maximum `M'` is
    real and the rescaling factor `exp (m - M')` is the real `a`: the new normaliser and weighted sum
    are the real numbers `a * L + ∑ exp (s - M')` and `a * A h + ∑ exp (s - M') * v`. -/
theorem step_coe (s : C → EReal) (v : C → H → EReal) (hs : ∀ c, s c ≠ ⊤)
    (hv : ∀ c h, v c h ≠ ⊤ ∧ v c h ≠ ⊥) (st : St H) (M' : ℝ)
    (hM' : max st.m (Finset.univ.fold max ⊥ s) = (M' : EReal)) (a : ℝ)
    (ha : Ideal.exp (st.m - (M' : EReal)) = (a : EReal)) (L : ℝ) (hl : st.l = (L : EReal))
    (A : H → ℝ) (hacc : ∀ h, st.acc h = (A h : EReal)) :
    (St.step s v st).l = ((a * L + ∑ c, E (s c) M' : ℝ) : EReal)
      ∧ ∀ h, (St.step s v st).acc h
          = ((a * A h + ∑ c, E (s c) M' * (v c h).toReal : ℝ) : EReal) := by
  constructor
  · show Ideal.exp (st.m - max st.m (Finset.univ.fold max ⊥ s)) * st.l
        + ∑ c, Ideal.exp (s c - max st.m (Finset.univ.fold max ⊥ s)) = _
    rw [hM', ha, hl, sum_exp_coe s hs M', EReal.coe_add, EReal.coe_mul]
  · intro h
    show Ideal.exp (st.m - max st.m (Finset.univ.fold max ⊥ s)) * st.acc h
        + ∑ c, Ideal.exp (s c - max st.m (Finset.univ.fold max ⊥ s)) * v c h = _
    rw [hM', ha, hacc h, sum_exp_mul_coe s hs (fun c => v c h) (fun c => hv c h) M',
      EReal.coe_add, EReal.coe_mul]

/-! ### The invariant -/

/-- After the tiles `k ≤ n` the running maximum is the maximum `M` of all their scores, a real
    number; the running normaliser is `∑ exp (s - M)` and the running weighted sum is
    `∑ exp (s - M) · v`, over all their columns, both real. -/
theorem run_inv (n : ℕ) (s : ℕ → C → EReal) (v : ℕ → C → H → EReal)
    (hs : ∀ k ≤ n, ∀ c, s k c ≠ ⊤) (hv : ∀ k ≤ n, ∀ c h, v k c h ≠ ⊤ ∧ v k c h ≠ ⊥)
    (h0 : ∃ c, s 0 c ≠ ⊥) :
    (St.run s v (n + 1)).l
        = ((∑ k ∈ Finset.range (n + 1), ∑ c, E (s k c) (runMax s (n + 1)).toReal : ℝ) : EReal)
      ∧ ∀ h, (St.run s v (n + 1)).acc h
        = ((∑ k ∈ Finset.range (n + 1), ∑ c,
              E (s k c) (runMax s (n + 1)).toReal * (v k c h).toReal : ℝ) : EReal) := by
  induction n with
  | zero =>
    have hM : runMax s 1 = ((runMax s 1).toReal : EReal) :=
      (EReal.coe_toReal (runMax_ne_top s 1 (fun k hk => hs k (Nat.lt_succ_iff.1 hk)))
        (runMax_ne_bot s 0 h0)).symm
    have hstep := step_coe (s 0) (v 0) (hs 0 le_rfl) (hv 0 le_rfl) (St.init : St H)
      (runMax s 1).toReal
      (by rw [← hM, runMax_succ, runMax_zero]; rfl) 0
      (by show Ideal.exp (⊥ - _) = _; rw [EReal.bot_sub, Ideal.exp_bot, EReal.coe_zero]) 0
      (by show (0 : EReal) = _; rw [EReal.coe_zero]) (fun _ => 0)
      (fun _ => by show (0 : EReal) = _; rw [EReal.coe_zero])
    refine ⟨?_, fun h => ?_⟩
    · rw [Finset.sum_range_one]
      have := hstep.1
      rw [mul_zero, zero_add] at this
      exact this
    · rw [Finset.sum_range_one]
      have := hstep.2 h
      rw [mul_zero, zero_add] at this
      exact this
  | succ n ih =>
    obtain ⟨ihl, ihacc⟩ := ih (fun k hk => hs k (Nat.le_succ_of_le hk))
      (fun k hk => hv k (Nat.le_succ_of_le hk))
    have hM : runMax s (n + 1) = ((runMax s (n + 1)).toReal : EReal) :=
      (EReal.coe_toReal (runMax_ne_top s (n + 1) (fun k hk => hs k (Nat.le_of_lt hk)))
        (runMax_ne_bot s n h0)).symm
    have hM' : runMax s (n + 2) = ((runMax s (n + 2)).toReal : EReal) :=
      (EReal.coe_toReal (runMax_ne_top s (n + 2) (fun k hk => hs k (Nat.lt_succ_iff.1 hk)))
        (runMax_ne_bot s (n + 1) h0)).symm
    set M := (runMax s (n + 1)).toReal with hMdef
    set M' := (runMax s (n + 2)).toReal with hM'def
    have hstep := step_coe (s (n + 1)) (v (n + 1)) (hs (n + 1) le_rfl) (hv (n + 1) le_rfl)
      (St.run s v (n + 1)) M'
      (by rw [run_m, ← hM', runMax_succ s (n + 1)]) (Real.exp (M - M'))
      (by rw [run_m, hM, ← EReal.coe_sub, Ideal.exp_coe]) _ ihl _ ihacc
    have hsk : ∀ k ∈ Finset.range (n + 1), ∀ c, s k c ≠ ⊤ :=
      fun k hk c => hs k (Nat.le_of_lt (Finset.mem_range.1 hk)) c
    refine ⟨?_, fun h => ?_⟩
    · show (St.step (s (n + 1)) (v (n + 1)) (St.run s v (n + 1))).l = _
      rw [hstep.1, Finset.sum_range_succ _ (n + 1), Finset.mul_sum]
      congr 2
      refine Finset.sum_congr rfl (fun k hk => ?_)
      rw [Finset.mul_sum]
      exact Finset.sum_congr rfl (fun c _ => E_shift (hsk k hk c) M M')
    · show (St.step (s (n + 1)) (v (n + 1)) (St.run s v (n + 1))).acc h = _
      rw [hstep.2 h, Finset.sum_range_succ _ (n + 1), Finset.mul_sum]
      congr 2
      refine Finset.sum_congr rfl (fun k hk => ?_)
      rw [Finset.mul_sum]
      refine Finset.sum_congr rfl (fun c _ => ?_)
      rw [← mul_assoc, E_shift (hsk k hk c) M M']

/-- The normaliser is positive: tile `0` has a real score and every term is non-negative. -/
theorem runSum_pos (n : ℕ) (s : ℕ → C → EReal) (hs : ∀ k ≤ n, ∀ c, s k c ≠ ⊤)
    (h0 : ∃ c, s 0 c ≠ ⊥) (M : ℝ) :
    0 < ∑ k ∈ Finset.range (n + 1), ∑ c, E (s k c) M := by
  obtain ⟨c0, hc0⟩ := h0
  refine Finset.sum_pos' (fun k _ => Finset.sum_nonneg (fun c _ => E_nonneg _ _))
    ⟨0, Finset.mem_range.2 n.succ_pos, ?_⟩
  exact Finset.sum_pos' (fun c _ => E_nonneg _ _)
    ⟨c0, Finset.mem_univ c0, E_pos (hs 0 (Nat.zero_le n) c0) hc0 M⟩

/-- The maximum of all scores of the tiles `k ≤ n` is a real number. -/
theorem runMax_coe (n : ℕ) (s : ℕ → C → EReal) (hs : ∀ k ≤ n, ∀ c, s k c ≠ ⊤)
    (h0 : ∃ c, s 0 c ≠ ⊥) :
    runMax s (n + 1) = ((runMax s (n + 1)).toReal : EReal) :=
  (EReal.coe_toReal (runMax_ne_top s (n + 1) (fun k hk => hs k (Nat.lt_succ_iff.1 hk)))
    (runMax_ne_bot s n h0)).symm

/-- The softmax normaliser `∑ exp (s - M)` over the tiles `k ≤ n` is a real number. -/
theorem runSum_coe (n : ℕ) (s : ℕ → C → EReal) (hs : ∀ k ≤ n, ∀ c, s k c ≠ ⊤) (M : ℝ) :
    ∑ k ∈ Finset.range (n + 1), ∑ c, Ideal.exp (s k c - (M : EReal))
      = ((∑ k ∈ Finset.range (n + 1), ∑ c, E (s k c) M : ℝ) : EReal) := by
  rw [coe_sum]
  exact Finset.sum_congr rfl
    (fun k hk => sum_exp_coe (s k) (hs k (Nat.lt_succ_iff.1 (Finset.mem_range.1 hk))) M)

/-- **Streaming softmax equals plain softmax.** Fold the tiles `0, …, n` of one query row into the
    state `(m, l, acc)` from `(⊥, 0, 0)`; then `acc / l` is the softmax-weighted sum of the values
    over all the columns of those tiles, with the softmax taken against the maximum `M` of all the
    scores and normalised by `L = ∑ exp (s - M)`. Scores are real or `⊥` (a masked column), values
    are real, and tile `0` has at least one real score. -/
theorem run_div_eq_softmax (n : ℕ) (s : ℕ → C → EReal) (v : ℕ → C → H → EReal)
    (hs : ∀ k ≤ n, ∀ c, s k c ≠ ⊤) (hv : ∀ k ≤ n, ∀ c h, v k c h ≠ ⊤ ∧ v k c h ≠ ⊥)
    (h0 : ∃ c, s 0 c ≠ ⊥) (h : H) :
    Ideal.div ((St.run s v (n + 1)).acc h) (St.run s v (n + 1)).l
      = ∑ k ∈ Finset.range (n + 1), ∑ c,
          Ideal.div
            (Ideal.exp (s k c
              - (Finset.range (n + 1)).fold max ⊥ (fun k => Finset.univ.fold max ⊥ (s k))))
            (∑ k' ∈ Finset.range (n + 1), ∑ c',
              Ideal.exp (s k' c'
                - (Finset.range (n + 1)).fold max ⊥ (fun k => Finset.univ.fold max ⊥ (s k))))
          * v k c h := by
  obtain ⟨hl, hacc⟩ := run_inv n s v hs hv h0
  have hM := runMax_coe n s hs h0
  show Ideal.div ((St.run s v (n + 1)).acc h) (St.run s v (n + 1)).l
      = ∑ k ∈ Finset.range (n + 1), ∑ c,
          Ideal.div (Ideal.exp (s k c - runMax s (n + 1)))
            (∑ k' ∈ Finset.range (n + 1), ∑ c', Ideal.exp (s k' c' - runMax s (n + 1)))
          * v k c h
  set M := (runMax s (n + 1)).toReal with hMdef
  have hLpos := runSum_pos n s hs h0 M
  have hmem : ∀ k ∈ Finset.range (n + 1), k ≤ n :=
    fun k hk => Nat.lt_succ_iff.1 (Finset.mem_range.1 hk)
  rw [hM, runSum_coe n s hs M, hl, hacc h]
  set L : ℝ := ∑ k ∈ Finset.range (n + 1), ∑ c, E (s k c) M with hLdef
  have hLne : L ≠ 0 := hLpos.ne'
  have hR : ∀ k ∈ Finset.range (n + 1),
      ∑ c, Ideal.div (Ideal.exp (s k c - (M : EReal))) (L : EReal) * v k c h
        = ((∑ c, E (s k c) M * (1 / L) * (v k c h).toReal : ℝ) : EReal) := by
    intro k hk
    refine ((coe_sum _ _).trans ?_).symm
    refine Finset.sum_congr rfl (fun c _ => ?_)
    rw [Ideal.div_coe hLne, exp_sub_coe (hs k (hmem k hk) c) M, EReal.coe_mul, EReal.coe_mul,
      EReal.coe_toReal (hv k (hmem k hk) c h).1 (hv k (hmem k hk) c h).2]
  have hsum : (∑ k ∈ Finset.range (n + 1), ∑ c,
        Ideal.div (Ideal.exp (s k c - (M : EReal))) (L : EReal) * v k c h)
      = ∑ k ∈ Finset.range (n + 1),
          ((∑ c, E (s k c) M * (1 / L) * (v k c h).toReal : ℝ) : EReal) :=
    Finset.sum_congr rfl hR
  rw [hsum, Ideal.div_coe hLne, ← coe_sum, ← EReal.coe_mul, Finset.sum_mul]
  congr 1
  refine Finset.sum_congr rfl (fun k _ => ?_)
  rw [Finset.sum_mul]
  exact Finset.sum_congr rfl (fun c _ => by ring)

/-- The running maximum after the tiles `k ≤ n` is the maximum of all their scores. -/
theorem run_m_eq (n : ℕ) (s : ℕ → C → EReal) (v : ℕ → C → H → EReal) :
    (St.run s v (n + 1)).m
      = (Finset.range (n + 1)).fold max ⊥ (fun k => Finset.univ.fold max ⊥ (s k)) :=
  run_m s v (n + 1)

/-- The maximum of all scores of the tiles `k ≤ n` is a real number. -/
theorem runMax_real (n : ℕ) (s : ℕ → C → EReal) (hs : ∀ k ≤ n, ∀ c, s k c ≠ ⊤)
    (h0 : ∃ c, s 0 c ≠ ⊥) :
    ∃ M : ℝ, (Finset.range (n + 1)).fold max ⊥ (fun k => Finset.univ.fold max ⊥ (s k))
      = (M : EReal) :=
  ⟨_, runMax_coe n s hs h0⟩

/-- The softmax normaliser over the tiles `k ≤ n` is a positive real number. -/
theorem runSum_real_pos (n : ℕ) (s : ℕ → C → EReal) (hs : ∀ k ≤ n, ∀ c, s k c ≠ ⊤)
    (h0 : ∃ c, s 0 c ≠ ⊥) :
    ∃ L : ℝ, 0 < L ∧
      ∑ k ∈ Finset.range (n + 1), ∑ c,
        Ideal.exp (s k c
          - (Finset.range (n + 1)).fold max ⊥ (fun k => Finset.univ.fold max ⊥ (s k)))
        = (L : EReal) := by
  refine ⟨_, runSum_pos n s hs h0 (runMax s (n + 1)).toReal, ?_⟩
  show ∑ k ∈ Finset.range (n + 1), ∑ c, Ideal.exp (s k c - runMax s (n + 1)) = _
  have hM := runMax_coe n s hs h0
  generalize (runMax s (n + 1)).toReal = M at hM ⊢
  rw [hM]
  exact runSum_coe n s hs M

/-- The running normaliser after the tiles `k ≤ n` is the softmax normaliser `∑ exp (s - M)` over
    all their columns, `M` the maximum of all their scores. -/
theorem run_l_eq (n : ℕ) (s : ℕ → C → EReal) (v : ℕ → C → H → EReal)
    (hs : ∀ k ≤ n, ∀ c, s k c ≠ ⊤) (hv : ∀ k ≤ n, ∀ c h, v k c h ≠ ⊤ ∧ v k c h ≠ ⊥)
    (h0 : ∃ c, s 0 c ≠ ⊥) :
    (St.run s v (n + 1)).l
      = ∑ k ∈ Finset.range (n + 1), ∑ c,
          Ideal.exp (s k c
            - (Finset.range (n + 1)).fold max ⊥ (fun k => Finset.univ.fold max ⊥ (s k))) := by
  show _ = ∑ k ∈ Finset.range (n + 1), ∑ c, Ideal.exp (s k c - runMax s (n + 1))
  rw [(run_inv n s v hs hv h0).1]
  have hM := runMax_coe n s hs h0
  generalize (runMax s (n + 1)).toReal = M at hM ⊢
  rw [hM]
  exact (runSum_coe n s hs M).symm

/-- The running weighted sum after the tiles `k ≤ n` is `∑ exp (s - M) * v` over all their columns,
    `M` the maximum of all their scores. -/
theorem run_acc_eq (n : ℕ) (s : ℕ → C → EReal) (v : ℕ → C → H → EReal)
    (hs : ∀ k ≤ n, ∀ c, s k c ≠ ⊤) (hv : ∀ k ≤ n, ∀ c h, v k c h ≠ ⊤ ∧ v k c h ≠ ⊥)
    (h0 : ∃ c, s 0 c ≠ ⊥) (h : H) :
    (St.run s v (n + 1)).acc h
      = ∑ k ∈ Finset.range (n + 1), ∑ c,
          Ideal.exp (s k c
            - (Finset.range (n + 1)).fold max ⊥ (fun k => Finset.univ.fold max ⊥ (s k)))
          * v k c h := by
  show _ = ∑ k ∈ Finset.range (n + 1), ∑ c, Ideal.exp (s k c - runMax s (n + 1)) * v k c h
  rw [(run_inv n s v hs hv h0).2 h]
  have hM := runMax_coe n s hs h0
  generalize (runMax s (n + 1)).toReal = M at hM ⊢
  rw [hM]
  refine (coe_sum _ _).trans (Finset.sum_congr rfl (fun k hk => ?_))
  have hk' : k ≤ n := Nat.lt_succ_iff.1 (Finset.mem_range.1 hk)
  exact (sum_exp_mul_coe (s k) (hs k hk') (fun c => v k c h) (fun c => hv k hk' c h) M).symm

/-! ### Dropping masked columns -/

/-- A maximum over all indices is the maximum over any set outside which the scores are `⊥`. -/
theorem fold_max_univ_eq {J : Type*} [Fintype J] (S : Finset J) (s : J → EReal)
    (hS : ∀ j, j ∉ S → s j = ⊥) : Finset.univ.fold max ⊥ s = S.fold max ⊥ s := by
  apply le_antisymm
  · refine (Finset.fold_max_le _).2 ⟨bot_le, fun j _ => ?_⟩
    by_cases hj : j ∈ S
    · exact (Finset.le_fold_max _).2 (Or.inr ⟨j, hj, le_rfl⟩)
    · rw [hS j hj]; exact bot_le
  · exact (Finset.fold_max_le _).2 ⟨bot_le, fun j _ =>
      (Finset.le_fold_max _).2 (Or.inr ⟨j, Finset.mem_univ j, le_rfl⟩)⟩

/-- A masked column (score `⊥`) contributes `exp ⊥ = 0` to the normaliser. -/
theorem sum_exp_univ_eq {J : Type*} [Fintype J] (S : Finset J) (s : J → EReal)
    (hS : ∀ j, j ∉ S → s j = ⊥) (M : EReal) :
    ∑ j, Ideal.exp (s j - M) = ∑ j ∈ S, Ideal.exp (s j - M) := by
  refine (Finset.sum_subset (Finset.subset_univ S) (fun j _ hj => ?_)).symm
  rw [hS j hj, EReal.bot_sub, Ideal.exp_bot]

/-- A masked column (score `⊥`) has weight `0 / L = 0` and contributes nothing to the weighted
    sum, whatever its value. -/
theorem sum_div_exp_univ_eq {J : Type*} [Fintype J] (S : Finset J) (s : J → EReal)
    (hS : ∀ j, j ∉ S → s j = ⊥) (M L : EReal) (hL : L ≠ 0) (w : J → EReal) :
    ∑ j, Ideal.div (Ideal.exp (s j - M)) L * w j
      = ∑ j ∈ S, Ideal.div (Ideal.exp (s j - M)) L * w j := by
  refine (Finset.sum_subset (Finset.subset_univ S) (fun j _ hj => ?_)).symm
  rw [hS j hj, EReal.bot_sub, Ideal.exp_bot, Ideal.div, if_neg hL, zero_mul, zero_mul]

end Cert.LibOnlineSoftmax

end
-- ==== Proof.LibLogSumExp.lean ====
import Idealize.ShloMosaic.PureOps.Ideal
import proofs.«150782_j29695403885316_1_alg».proof.Proof.LibOnlineSoftmax

/-!
# The streaming log-sum-exp of a row, on the extended reals

A row of class scores arrives tile by tile: tile `k` holds the scores `s k c`, `c` ranging over a finite set of
columns. The streaming form keeps two numbers, a running maximum `m` and a running sum `l`, starts from `(⊥, 0)` and
folds in one tile at a time: `m' = max m (the tile's maximum)`, `l' = exp (m - m') * l + ∑ c, exp (s k c - m')`.

When every score is a real number, after the tiles `0, …, n`
* the running maximum is the maximum `M` of all the scores seen, a real number;
* the running sum is `∑ k c, exp (s k c - M)`, a real number that is at least `1` (the maximum is attained, and its
  term is `exp 0`);
* the same two facts hold with the pairs (tile, column) relabelled by any bijection with a single index set, in
  particular with `(v, c) ↦ K · v + c` onto `Fin (N · K)`;
* for a real `x`, `x - (M + log L) = (x - M) - log L`: the logarithm of the softmax computed through the
  log-sum-exp is the shifted score less the logarithm of the sum of the shifted exponentials.

Everything is an extended real with the exact operations `Ideal.exp` and `Ideal.log`. The first tile meets the
maximum `⊥`, where `exp (⊥ - m') = 0` and the empty sum it multiplies is `0`. The invariant itself is the streaming
softmax's (its state with no values attached); what is added here is the two-number state, the lower bound, the
relabelling and the last identity.
-/

noncomputable section

namespace Cert.LibLogSumExp

open Idealize.ShloMosaic Cert.LibOnlineSoftmax
open scoped BigOperators

variable {C : Type*} [Fintype C]

/-! ### The two-number state -/

/-- Fold one tile of scores `t` into the state `(m, l)`. -/
def step (t : C → EReal) (st : EReal × EReal) : EReal × EReal :=
  (max st.1 (Finset.univ.fold max ⊥ t),
    Ideal.exp (st.1 - max st.1 (Finset.univ.fold max ⊥ t)) * st.2
      + ∑ c, Ideal.exp (t c - max st.1 (Finset.univ.fold max ⊥ t)))

/-- The state after the tiles `k < n`, folded in in order from `(⊥, 0)`. -/
def run (s : ℕ → C → EReal) : ℕ → EReal × EReal
  | 0 => (⊥, 0)
  | n + 1 => step (s n) (run s n)

theorem run_zero (s : ℕ → C → EReal) : run s 0 = (⊥, 0) := rfl

theorem run_succ (s : ℕ → C → EReal) (n : ℕ) : run s (n + 1) = step (s n) (run s n) := rfl

theorem step_fst (t : C → EReal) (st : EReal × EReal) :
    (step t st).1 = max st.1 (Finset.univ.fold max ⊥ t) := rfl

theorem step_snd (t : C → EReal) (st : EReal × EReal) :
    (step t st).2 = Ideal.exp (st.1 - (step t st).1) * st.2 + ∑ c, Ideal.exp (t c - (step t st).1) := rfl

/-- No values ride along: the value family over the empty type. -/
def noValues : ℕ → C → Empty → EReal := fun _ _ h => h.elim

/-- The two numbers are the maximum and the normaliser of the streaming softmax's state. -/
theorem run_eq (s : ℕ → C → EReal) (n : ℕ) :
    run s n = ((St.run s noValues n).m, (St.run s noValues n).l) := by
  induction n with
  | zero => rfl
  | succ n ih =>
    show step (s n) (run s n) = _
    rw [ih]
    rfl

/-! ### Real scores -/

/-- A real number is neither infinity. -/
theorem ne_top_of_real {x : EReal} (h : ∃ r : ℝ, x = (r : EReal)) : x ≠ ⊤ := by
  obtain ⟨r, rfl⟩ := h; exact EReal.coe_ne_top r

theorem ne_bot_of_real {x : EReal} (h : ∃ r : ℝ, x = (r : EReal)) : x ≠ ⊥ := by
  obtain ⟨r, rfl⟩ := h; exact EReal.coe_ne_bot r

/-- The fold of `max` from `⊥` over a non-empty finite set is attained. -/
theorem fold_max_attained {ι : Type*} (S : Finset ι) (f : ι → EReal) (hS : S.Nonempty) :
    ∃ i ∈ S, S.fold max ⊥ f = f i := by
  classical
  induction S using Finset.induction_on with
  | empty => exact absurd hS Finset.not_nonempty_empty
  | insert a S ha ih =>
    rw [Finset.fold_insert ha]
    rcases S.eq_empty_or_nonempty with rfl | hne
    · exact ⟨a, Finset.mem_insert_self _ _, by rw [Finset.fold_empty, max_eq_left bot_le]⟩
    · obtain ⟨i, hi, hfi⟩ := ih hne
      rcases le_total (f a) (S.fold max ⊥ f) with h | h
      · exact ⟨i, Finset.mem_insert_of_mem hi, by rw [max_eq_right h, hfi]⟩
      · exact ⟨a, Finset.mem_insert_self _ _, max_eq_left h⟩

section Real

variable [Nonempty C] (n : ℕ) (s : ℕ → C → EReal) (hr : ∀ k ≤ n, ∀ c, ∃ r : ℝ, s k c = (r : EReal))
include hr

theorem hs_of_real : ∀ k ≤ n, ∀ c, s k c ≠ ⊤ := fun k hk c => ne_top_of_real (hr k hk c)

theorem h0_of_real : ∃ c, s 0 c ≠ ⊥ := ⟨Classical.arbitrary C, ne_bot_of_real (hr 0 (Nat.zero_le n) _)⟩

omit hr [Nonempty C] in
/-- The running maximum after the tiles `k ≤ n` is the maximum of all their scores. -/
theorem run_fst :
    (run s (n + 1)).1 = (Finset.range (n + 1)).fold max ⊥ (fun k => Finset.univ.fold max ⊥ (s k)) := by
  rw [run_eq]; exact run_m_eq n s noValues

/-- It is a real number. -/
theorem run_fst_real : ∃ M : ℝ, (run s (n + 1)).1 = (M : EReal) := by
  rw [run_fst]; exact runMax_real n s (hs_of_real n s hr) (h0_of_real n s hr)

/-- The running sum after the tiles `k ≤ n` is the sum of the exponentials of all their scores shifted by the
    maximum of all their scores. -/
theorem run_snd :
    (run s (n + 1)).2 = ∑ k ∈ Finset.range (n + 1), ∑ c, Ideal.exp (s k c - (run s (n + 1)).1) := by
  rw [run_fst, run_eq]
  exact run_l_eq n s noValues (hs_of_real n s hr) (fun _ _ _ h => h.elim) (h0_of_real n s hr)

/-- The maximum of all the scores is one of them. -/
theorem run_fst_attained : ∃ k ≤ n, ∃ c, (run s (n + 1)).1 = s k c := by
  rw [run_fst]
  obtain ⟨k, hk, hk'⟩ := fold_max_attained (Finset.range (n + 1))
    (fun k => Finset.univ.fold max ⊥ (s k)) ⟨0, Finset.mem_range.2 n.succ_pos⟩
  obtain ⟨c, -, hc⟩ := fold_max_attained (Finset.univ : Finset C) (s k) Finset.univ_nonempty
  exact ⟨k, Nat.lt_succ_iff.1 (Finset.mem_range.1 hk), c, hk'.trans hc⟩

/-- The running sum is a real number, at least `1`: every term is non-negative and the maximum's own term is
    `exp 0`. -/
theorem run_snd_real : ∃ L : ℝ, 1 ≤ L ∧ (run s (n + 1)).2 = (L : EReal) := by
  have hs := hs_of_real n s hr
  have h0 := h0_of_real n s hr
  obtain ⟨k0, hk0, c0, hatt⟩ := run_fst_attained n s hr
  obtain ⟨r0, hr0⟩ := hr k0 hk0 c0
  have hM : runMax s (n + 1) = (r0 : EReal) := by
    have := run_fst n s; rw [← runMax] at this
    rw [← this, hatt, hr0]
  refine ⟨∑ k ∈ Finset.range (n + 1), ∑ c, E (s k c) r0, ?_, ?_⟩
  · have h1 : E (s k0 c0) r0 = 1 := by rw [hr0, E_coe, sub_self, Real.exp_zero]
    rw [← h1]
    refine le_trans ?_ (Finset.single_le_sum (f := fun k => ∑ c, E (s k c) r0)
      (fun k _ => Finset.sum_nonneg fun c _ => E_nonneg _ _) (Finset.mem_range.2 (Nat.lt_succ_iff.2 hk0)))
    exact Finset.single_le_sum (f := fun c => E (s k0 c) r0) (fun c _ => E_nonneg _ _) (Finset.mem_univ c0)
  · rw [run_eq]
    show (St.run s noValues (n + 1)).l = _
    rw [(run_inv n s noValues hs (fun _ _ _ h => h.elim) h0).1, hM, EReal.toReal_coe]

end Real

/-! ### Tiles indexed by `Fin N` -/

/-- A family of `N` tiles as a sequence of tiles: the family, continued by tiles of zeros that are never read. -/
def tiles {N : ℕ} (a : Fin N → C → EReal) : ℕ → C → EReal :=
  fun k => if h : k < N then a ⟨k, h⟩ else fun _ => 0

theorem tiles_of_lt {N : ℕ} (a : Fin N → C → EReal) (k : ℕ) (h : k < N) : tiles a k = a ⟨k, h⟩ := by
  unfold tiles; rw [dif_pos h]

theorem tiles_val {N : ℕ} (a : Fin N → C → EReal) (v : Fin N) : tiles a v.val = a v :=
  tiles_of_lt a v.val v.isLt

/-- A maximum over the first `N` tiles of the sequence is the maximum over the family. -/
theorem fold_range_tiles {N : ℕ} (a : Fin N → C → EReal) (g : (C → EReal) → EReal) :
    (Finset.range N).fold max ⊥ (fun k => g (tiles a k))
      = (Finset.univ : Finset (Fin N)).fold max ⊥ (fun v => g (a v)) := by
  apply le_antisymm
  · refine (Finset.fold_max_le _).2 ⟨bot_le, fun k hk => ?_⟩
    have hk' := Finset.mem_range.1 hk
    rw [tiles_of_lt a k hk']
    exact (Finset.le_fold_max _).2 (Or.inr ⟨⟨k, hk'⟩, Finset.mem_univ _, le_rfl⟩)
  · refine (Finset.fold_max_le _).2 ⟨bot_le, fun v _ => ?_⟩
    refine (Finset.le_fold_max _).2 (Or.inr ⟨v.val, Finset.mem_range.2 v.isLt, ?_⟩)
    rw [tiles_val]

/-- A sum over the first `N` tiles of the sequence is the sum over the family. -/
theorem sum_range_tiles {N : ℕ} (a : Fin N → C → EReal) (f : (C → EReal) → EReal) :
    ∑ k ∈ Finset.range N, f (tiles a k) = ∑ v : Fin N, f (a v) := by
  rw [Finset.sum_range]
  exact Finset.sum_congr rfl fun v _ => by rw [tiles_val]

/-- The state after all the tiles of a family of `N` tiles. -/
def streamed {N : ℕ} (a : Fin N → C → EReal) : EReal × EReal := run (tiles a) N

/-! ### A sequence of tiles and the family of its first tiles -/

/-- The state after `n` tiles depends on the first `n` tiles only. -/
theorem run_congr {s s' : ℕ → C → EReal} {n : ℕ} (h : ∀ k < n, s k = s' k) : run s n = run s' n := by
  induction n with
  | zero => rfl
  | succ n ih =>
    rw [run_succ, run_succ, ih fun k hk => h k (Nat.lt_succ_of_lt hk), h n n.lt_succ_self]

/-- The state after the first `N` tiles of a sequence is the streamed state of the family of those tiles. -/
theorem run_eq_streamed (s : ℕ → C → EReal) (N : ℕ) : run s N = streamed fun v : Fin N => s v.val :=
  run_congr fun k hk => (tiles_of_lt (fun v : Fin N => s v.val) k hk).symm

section Family

variable [Nonempty C] {n : ℕ} (a : Fin (n + 1) → C → EReal) (ha : ∀ v c, ∃ r : ℝ, a v c = (r : EReal))
include ha

theorem tiles_real : ∀ k ≤ n, ∀ c, ∃ r : ℝ, tiles a k c = (r : EReal) := fun k hk c => by
  rw [tiles_of_lt a k (Nat.lt_succ_of_le hk)]; exact ha _ c

omit ha [Nonempty C] in
/-- (i) The running maximum after all the tiles is the maximum of all the scores … -/
theorem streamed_fst :
    (streamed a).1 = (Finset.univ : Finset (Fin (n + 1))).fold max ⊥ (fun v => Finset.univ.fold max ⊥ (a v)) :=
  (run_fst n (tiles a)).trans (fold_range_tiles a fun t => Finset.univ.fold max ⊥ t)

/-- … a real number. -/
theorem streamed_fst_real : ∃ M : ℝ, (streamed a).1 = (M : EReal) := run_fst_real n (tiles a) (tiles_real a ha)

/-- (ii) The running sum after all the tiles is the sum of the exponentials of all the scores shifted by their
    maximum … -/
theorem streamed_snd : (streamed a).2 = ∑ v, ∑ c, Ideal.exp (a v c - (streamed a).1) :=
  (run_snd n (tiles a) (tiles_real a ha)).trans
    (sum_range_tiles a fun t => ∑ c, Ideal.exp (t c - (streamed a).1))

/-- … a real number, at least `1`. -/
theorem streamed_snd_real : ∃ L : ℝ, 1 ≤ L ∧ (streamed a).2 = (L : EReal) := run_snd_real n (tiles a) (tiles_real a ha)

end Family

/-! ### Relabelling the pairs (tile, column) by one index -/

section Relabel

variable {V J : Type*} [Fintype V] [Fintype J] (e : V × C ≃ J) (a : V → C → EReal) (A : J → EReal)
  (hA : ∀ v c, A (e (v, c)) = a v c)
include hA

/-- The maximum over tiles of the maxima over columns is the maximum over the single index. -/
theorem fold_relabel :
    (Finset.univ : Finset V).fold max ⊥ (fun v => Finset.univ.fold max ⊥ (a v)) = Finset.univ.fold max ⊥ A := by
  apply le_antisymm
  · refine (Finset.fold_max_le _).2 ⟨bot_le, fun v _ => (Finset.fold_max_le _).2 ⟨bot_le, fun c _ => ?_⟩⟩
    rw [← hA v c]
    exact (Finset.le_fold_max _).2 (Or.inr ⟨e (v, c), Finset.mem_univ _, le_rfl⟩)
  · refine (Finset.fold_max_le _).2 ⟨bot_le, fun j _ => ?_⟩
    obtain ⟨⟨v, c⟩, rfl⟩ := e.surjective j
    rw [hA v c]
    exact (Finset.le_fold_max _).2 (Or.inr ⟨v, Finset.mem_univ _,
      (Finset.le_fold_max _).2 (Or.inr ⟨c, Finset.mem_univ _, le_rfl⟩)⟩)

/-- The sum over tiles of the sums over columns is the sum over the single index. -/
theorem sum_relabel (f : EReal → EReal) : ∑ v, ∑ c, f (a v c) = ∑ j, f (A j) := by
  rw [← Equiv.sum_comp e (fun j => f (A j)), Fintype.sum_prod_type]
  exact Finset.sum_congr rfl fun v _ => Finset.sum_congr rfl fun c _ => by rw [hA v c]

end Relabel

/-- The pairs (tile `v`, column `c`) of `N` tiles of `K` columns, numbered `K · v + c`. -/
def flatEquiv (N K M : ℕ) (hM : N * K = M) : Fin N × Fin K ≃ Fin M := finProdFinEquiv.trans (finCongr hM)

theorem flatEquiv_val (N K M : ℕ) (hM : N * K = M) (v : Fin N) (c : Fin K) :
    (flatEquiv N K M hM (v, c)).val = K * v.val + c.val := by
  show c.val + K * v.val = K * v.val + c.val
  exact Nat.add_comm _ _

/-! ### The logarithm of the softmax through the log-sum-exp -/

/-- For real `x`, `M` and a real `L ≥ 1`: subtracting `M + log L` is subtracting `M` and then `log L`. -/
theorem sub_add_log (x M L : ℝ) (hL : 1 ≤ L) :
    (x : EReal) - ((M : EReal) + Ideal.log (L : EReal)) = ((x : EReal) - (M : EReal)) - Ideal.log (L : EReal) := by
  have hlog : Ideal.log (L : EReal) = ((Real.log L : ℝ) : EReal) := by
    rw [Ideal.log_coe, if_neg (not_le.2 (lt_of_lt_of_le one_pos hL))]
  rw [hlog, ← EReal.coe_add, ← EReal.coe_sub, ← EReal.coe_sub, ← EReal.coe_sub]
  exact congrArg (fun t : ℝ => (t : EReal)) (by ring)

section Final

variable [Nonempty C] {n : ℕ} (a : Fin (n + 1) → C → EReal) (ha : ∀ v c, ∃ r : ℝ, a v c = (r : EReal))
include ha

/-- (iv) For a real `x`, subtracting the streamed log-sum-exp is subtracting the maximum and then the logarithm of
    the sum. -/
theorem sub_streamed (x : EReal) (hx : ∃ r : ℝ, x = (r : EReal)) :
    x - ((streamed a).1 + Ideal.log (streamed a).2) = (x - (streamed a).1) - Ideal.log (streamed a).2 := by
  obtain ⟨r, rfl⟩ := hx
  obtain ⟨M, hM⟩ := streamed_fst_real a ha
  obtain ⟨L, hL, hL'⟩ := streamed_snd_real a ha
  rw [hM, hL']
  exact sub_add_log r M L hL

/-- (iii) and (iv) together, over one index set: with the scores relabelled as `A`, a real `x` less the streamed
    log-sum-exp is `x` less the maximum of `A`, less the logarithm of the sum of the exponentials of `A` shifted by
    that maximum. -/
theorem sub_streamed_relabel {J : Type*} [Fintype J] (e : Fin (n + 1) × C ≃ J) (A : J → EReal)
    (hA : ∀ v c, A (e (v, c)) = a v c) (x : EReal) (hx : ∃ r : ℝ, x = (r : EReal)) :
    x - ((streamed a).1 + Ideal.log (streamed a).2)
      = (x - Finset.univ.fold max ⊥ A) - Ideal.log (∑ j, Ideal.exp (A j - Finset.univ.fold max ⊥ A)) := by
  have h1 : (streamed a).1 = Finset.univ.fold max ⊥ A := (streamed_fst a).trans (fold_relabel e a A hA)
  have h2 : (streamed a).2 = ∑ j, Ideal.exp (A j - Finset.univ.fold max ⊥ A) := by
    rw [streamed_snd a ha, h1]
    exact sum_relabel e a A hA fun t => Ideal.exp (t - Finset.univ.fold max ⊥ A)
  rw [sub_streamed a ha x hx, h1, h2]

omit ha in
/-- (iii) The running maximum over one index set. -/
theorem streamed_fst_relabel {J : Type*} [Fintype J] (e : Fin (n + 1) × C ≃ J) (A : J → EReal)
    (hA : ∀ v c, A (e (v, c)) = a v c) : (streamed a).1 = Finset.univ.fold max ⊥ A :=
  (streamed_fst a).trans (fold_relabel e a A hA)

/-- (iii) The running sum over one index set. -/
theorem streamed_snd_relabel {J : Type*} [Fintype J] (e : Fin (n + 1) × C ≃ J) (A : J → EReal)
    (hA : ∀ v c, A (e (v, c)) = a v c) :
    (streamed a).2 = ∑ j, Ideal.exp (A j - Finset.univ.fold max ⊥ A) := by
  rw [streamed_snd a ha, streamed_fst_relabel a e A hA]
  exact sum_relabel e a A hA fun t => Ideal.exp (t - Finset.univ.fold max ⊥ A)

end Final

/-- The case of the flattening `(v, c) ↦ K · v + c`: `N + 1` tiles of `K` columns, the scores relabelled as
    `A : Fin M → EReal` with `M = (N + 1) · K`. -/
theorem sub_streamed_flat {N K M : ℕ} [NeZero K] (hM : (N + 1) * K = M) (a : Fin (N + 1) → Fin K → EReal)
    (ha : ∀ v c, ∃ r : ℝ, a v c = (r : EReal)) (A : Fin M → EReal)
    (hA : ∀ (v : Fin (N + 1)) (c : Fin K) (i : Fin M), i.val = K * v.val + c.val → A i = a v c)
    (x : EReal) (hx : ∃ r : ℝ, x = (r : EReal)) :
    x - ((streamed a).1 + Ideal.log (streamed a).2)
      = (x - Finset.univ.fold max ⊥ A) - Ideal.log (∑ i, Ideal.exp (A i - Finset.univ.fold max ⊥ A)) :=
  sub_streamed_relabel a ha (flatEquiv (N + 1) K M hM) A
    (fun v c => hA v c _ (flatEquiv_val (N + 1) K M hM v c)) x hx

end Cert.LibLogSumExp

end
-- ==== Proof.StreamLse.lean ====
/-
  The streaming state after the 25 tiles of a row, in closed form over the row's 32000 scores.

  A row of 32000 real scores `A` is cut into 25 tiles of 1280: tile `v`, column `c` holds the score `1280 · v + c`.
  After the 25 tiles the running maximum is the maximum `M` of the row and the running sum is the sum of
  `exp (A i - M)` over the row, a real number that is at least 1; so a real `x` less the streamed log-sum-exp
  `m + log l` is `(x - M) - log (∑ i, exp (A i - M))`, the logarithm of the softmax in its textbook form. The facts are
  those of the general two-number state, which obeys the same recursion.
-/
import proofs.«150782_j29695403885316_1_alg».proof.Proof.StreamState
import proofs.«150782_j29695403885316_1_alg».proof.Proof.LibLogSumExp

noncomputable section

open scoped BigOperators

namespace Cert.Stream

open Idealize.ShloMosaic Cert.LibLogSumExp

/-- The state is the general two-number state of the same sequence of tiles. -/
theorem S_eq_run (a : ℕ → Fin 1280 → EReal) (n : ℕ) : S a n = run a n := by
  induction n with
  | zero => rfl
  | succ n ih => rw [S_succ, run_succ, ih]; rfl

/-- After 25 tiles it is the streamed state of the family of those tiles. -/
theorem S_eq_streamed (a : ℕ → Fin 1280 → EReal) : S a 25 = streamed fun v : Fin (24 + 1) => a v.val :=
  (S_eq_run a 25).trans (run_eq_streamed a 25)

section Row

variable (a : ℕ → Fin 1280 → EReal) (ha : ∀ v < 25, ∀ c, ∃ r : ℝ, a v c = (r : EReal))
  (A : Fin 32000 → EReal)
  (hA : ∀ (v : Fin 25) (c : Fin 1280) (i : Fin 32000), i.val = 1280 * v.val + c.val → A i = a v.val c)

/-- The tiles are real. -/
theorem family_real (ha : ∀ v < 25, ∀ c, ∃ r : ℝ, a v c = (r : EReal)) :
    ∀ (v : Fin (24 + 1)) (c : Fin 1280), ∃ r : ℝ, (fun v : Fin (24 + 1) => a v.val) v c = (r : EReal) :=
  fun v c => ha v.val v.isLt c

/-- The row is the tiles laid end to end. -/
theorem family_flat
    (hA : ∀ (v : Fin 25) (c : Fin 1280) (i : Fin 32000), i.val = 1280 * v.val + c.val → A i = a v.val c) :
    ∀ (v : Fin (24 + 1)) (c : Fin 1280),
      A (flatEquiv (24 + 1) 1280 32000 rfl (v, c)) = (fun v : Fin (24 + 1) => a v.val) v c :=
  fun v c => hA v c _ (flatEquiv_val (24 + 1) 1280 32000 rfl v c)

include hA

/-- The running maximum after the 25 tiles is the maximum of the row. -/
theorem S25_fst : (S a 25).1 = Finset.univ.fold max ⊥ A := by
  rw [S_eq_streamed]
  exact streamed_fst_relabel _ (flatEquiv (24 + 1) 1280 32000 rfl) A (family_flat a A hA)

include ha

/-- It is a real number. -/
theorem S25_fst_real : ∃ M : ℝ, (S a 25).1 = (M : EReal) := by
  rw [S_eq_streamed]
  exact streamed_fst_real _ (family_real a ha)

/-- The running sum after the 25 tiles is the sum over the row of the exponentials shifted by the row's maximum. -/
theorem S25_snd : (S a 25).2 = ∑ i, Ideal.exp (A i - Finset.univ.fold max ⊥ A) := by
  rw [S_eq_streamed]
  exact streamed_snd_relabel _ (family_real a ha) (flatEquiv (24 + 1) 1280 32000 rfl) A (family_flat a A hA)

omit hA in
/-- It is a real number, at least 1. -/
theorem S25_snd_real : ∃ L : ℝ, 1 ≤ L ∧ (S a 25).2 = (L : EReal) := by
  rw [S_eq_streamed]
  exact streamed_snd_real _ (family_real a ha)

/-- A real `x` less the streamed log-sum-exp is `x` less the row's maximum, less the logarithm of the sum of the
    row's shifted exponentials. -/
theorem sub_S25 (x : EReal) (hx : ∃ r : ℝ, x = (r : EReal)) :
    x - ((S a 25).1 + Ideal.log (S a 25).2)
      = (x - Finset.univ.fold max ⊥ A) - Ideal.log (∑ i, Ideal.exp (A i - Finset.univ.fold max ⊥ A)) := by
  rw [S_eq_streamed]
  exact sub_streamed_relabel _ (family_real a ha) (flatEquiv (24 + 1) 1280 32000 rfl) A (family_flat a A hA) x hx

end Row

end Cert.Stream

end
-- ==== Proof.LibNormSum.lean ====
/-
  Extended-real algebra for a normalised neighbour sum. A graph convolution scales each neighbour's contribution by
  the factors `1 / sqrt (degree)` of both end points. One way of computing it multiplies every summand by both
  factors and then sums; another sums first and multiplies the total by the destination's factor afterwards. On the
  extended reals multiplication does not distribute over addition in general (`⊤ + ⊥ = ⊥`), but it does for a
  multiplier that is NON-NEGATIVE and FINITE, whatever the summands are (they may be `±∞`). The factor
  `1 / sqrt (1 + number of neighbours)` is such a multiplier. No program appears in this module.
-/
import Idealize.ShloMosaic.PureOps.Ideal.Laws

noncomputable section

namespace Cert.NormSum

open Idealize.ShloMosaic
open scoped BigOperators

/-- A non-negative finite extended real `cv` distributes over any finite sum of extended reals, infinite summands
    included: `cv * Σ f = Σ cv * f`. Induction on the index set; the step is distributivity of such a multiplier
    over one addition. -/
theorem mul_sum_of_nonneg_ne_top {ι : Type*} (S : Finset ι) (f : ι → EReal) (cv : EReal) (h0 : 0 ≤ cv)
    (ht : cv ≠ ⊤) : cv * ∑ e ∈ S, f e = ∑ e ∈ S, cv * f e := by
  classical
  induction S using Finset.induction_on with
  | empty => simp
  | insert a s ha ih =>
    rw [Finset.sum_insert ha, Finset.sum_insert ha, EReal.left_distrib_of_nonneg_of_ne_top h0 ht, ih]

/-- Pulling the destination's factor out of a normalised sum. With every destination factor `dd e` equal to the one
    non-negative finite `cv`: `cv * ((0 + Σ a·ds) + hp·cv) = (0 + Σ a·(ds·dd)) + hp·(cv·cv)`. The left side
    distributes `cv` over the outer sum and then over the inner one; each term then agrees by commutativity and
    associativity of the extended reals' multiplication. -/
theorem norm_pull {ι : Type*} (S : Finset ι) (a ds dd : ι → EReal) (hp cv : EReal) (h0 : 0 ≤ cv) (ht : cv ≠ ⊤)
    (hdd : ∀ e ∈ S, dd e = cv) :
    cv * ((0 + ∑ e ∈ S, a e * ds e) + hp * cv) = (0 + ∑ e ∈ S, a e * (ds e * dd e)) + hp * (cv * cv) := by
  rw [EReal.left_distrib_of_nonneg_of_ne_top h0 ht, zero_add, zero_add,
    mul_sum_of_nonneg_ne_top S (fun e => a e * ds e) cv h0 ht]
  congr 1
  · refine Finset.sum_congr rfl fun e he => ?_
    rw [hdd e he, mul_comm cv (a e * ds e), mul_assoc]
  · exact mul_left_comm cv hp cv

/-- The single-precision pattern `0x3F800000` (sign 0, biased exponent 127, fraction 0) denotes the extended real
    one: `2 ^ 23 * 2 ^ (127 - 127 - 23) = 1`. -/
theorem one_word : Ideal.ofBits .f32 0x3F800000#32 = (1 : EReal) := by
  rw [show (1 : EReal) = ((1 : ℝ) : EReal) by norm_cast]
  simp [Ideal.ofBits, Ideal.ieee, -EReal.coe_mul]; norm_num

/-- At a positive real the reciprocal square root is the real `(sqrt r)⁻¹`: neither of its corners (a negative
    argument, a zero argument) applies. -/
theorem rsqrt_coe_pos (r : ℝ) (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr hr.le), if_neg hr.ne']

/-- A sum of ones over a finite set, plus one, is the real number `card S + 1`. -/
theorem count_add_one {ι : Type*} (S : Finset ι) :
    (0 + ∑ _e ∈ S, (1 : EReal)) + 1 = (((S.card : ℝ) + 1 : ℝ) : EReal) := by
  rw [zero_add, Finset.sum_const, EReal.nsmul_eq_mul, mul_one, EReal.coe_add, EReal.coe_natCast, EReal.coe_one]

/-- The normalising factor `1 / sqrt (1 + number of neighbours)` is a non-negative finite extended real: its
    argument is the positive real `card S + 1`, where the reciprocal square root is the real `(sqrt _)⁻¹ ≥ 0`. -/
theorem rsqrt_count_nonneg_ne_top {ι : Type*} (S : Finset ι) :
    0 ≤ Ideal.rsqrt ((0 + ∑ _e ∈ S, (1 : EReal)) + 1) ∧ Ideal.rsqrt ((0 + ∑ _e ∈ S, (1 : EReal)) + 1) ≠ ⊤ := by
  have hpos : (0 : ℝ) < (S.card : ℝ) + 1 := by positivity
  rw [count_add_one, rsqrt_coe_pos _ hpos]
  exact ⟨EReal.coe_nonneg.mpr (inv_nonneg.mpr (Real.sqrt_nonneg _)), EReal.coe_ne_top _⟩

end Cert.NormSum

end
-- ==== Proof.LibRealEntries.lean ====
/-
  EXTENDED REALS THAT ARE REAL NUMBERS, and the one place a graph Laplacian needs them.

  Over the extended reals a product does not distribute over a difference at the infinities: `(1 - a) · y` and
  `y - a · y` differ when `y` is infinite.  A program that applies `I - A` to a vector as `y - A · y` and one that builds
  the matrix `I - A` and multiplies therefore agree only where the entries are real numbers.  Proved here, free of any
  program:
  • `IsR x` — the extended real `x` is a real number — is closed under sum, difference, product, maximum, the
    exponential and finite sums (`IsR.add` … `IsR.sum`), and holds of the reciprocal square root of a positive real;
  • `coe_sum`: the coercion of a finite real sum is the sum of the coercions;
  • `sum_sub_mul`: `∑ j, (d j - a j) · y j = ∑ j, d j · y j - ∑ j, a j · y j` over real entries;
  • `sum_ind_mul`, `sum_ind_sub_mul`: with `d` the indicator of `i` (the identity matrix's row), the left side is
    `y i - ∑ j, a j · y j`: row `i` of `(I - A) y` is row `i` of `y - A y`;
  • `one_div_sqrt`: at a positive real, `1 / sqrt` is the reciprocal square root;
  • `two_word`: the single-precision pattern `0x40000000` denotes the real number two.
-/
import Idealize.ShloMosaic.PureOps.Ideal
import Idealize.ShloMosaic.PureOps.Ideal.Laws
import proofs.«150782_j29695403885316_1_alg».proof.Proof.LibNormSum

noncomputable section

open scoped BigOperators

namespace Cert.RealEntries

open Idealize.ShloMosaic

/-- The extended real is a real number. -/
def IsR (x : EReal) : Prop := ∃ r : ℝ, x = (r : EReal)

theorem IsR.coe (r : ℝ) : IsR (r : EReal) := ⟨r, rfl⟩

theorem IsR.zero : IsR 0 := ⟨0, rfl⟩

theorem IsR.one : IsR 1 := ⟨1, rfl⟩

theorem IsR.add {a b : EReal} (ha : IsR a) (hb : IsR b) : IsR (a + b) := by
  obtain ⟨r, rfl⟩ := ha; obtain ⟨s, rfl⟩ := hb; exact ⟨r + s, (EReal.coe_add r s).symm⟩

theorem IsR.sub {a b : EReal} (ha : IsR a) (hb : IsR b) : IsR (a - b) := by
  obtain ⟨r, rfl⟩ := ha; obtain ⟨s, rfl⟩ := hb; exact ⟨r - s, (EReal.coe_sub r s).symm⟩

theorem IsR.mul {a b : EReal} (ha : IsR a) (hb : IsR b) : IsR (a * b) := by
  obtain ⟨r, rfl⟩ := ha; obtain ⟨s, rfl⟩ := hb; exact ⟨r * s, (EReal.coe_mul r s).symm⟩

theorem IsR.max {a b : EReal} (ha : IsR a) (hb : IsR b) : IsR (max a b) := by
  rcases le_total a b with h | h
  · rwa [max_eq_right h]
  · rwa [max_eq_left h]

theorem IsR.exp {a : EReal} (ha : IsR a) : IsR (Ideal.exp a) := by
  obtain ⟨r, rfl⟩ := ha; exact ⟨Real.exp r, rfl⟩

theorem IsR.sum {ι : Type*} (s : Finset ι) (f : ι → EReal) (h : ∀ i ∈ s, IsR (f i)) : IsR (∑ i ∈ s, f i) := by
  classical
  induction s using Finset.induction_on with
  | empty => exact ⟨0, by simp⟩
  | insert a s ha ih =>
    rw [Finset.sum_insert ha]
    exact (h _ (Finset.mem_insert_self _ _)).add (ih fun i hi => h i (Finset.mem_insert_of_mem hi))

/-- The coercion of a real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of real numbers is the coercion of a real family. -/
theorem exists_real_family {ι : Type*} (f : ι → EReal) (h : ∀ i, IsR (f i)) : ∃ g : ι → ℝ, f = fun i => (g i : EReal) :=
  ⟨fun i => (h i).choose, funext fun i => (h i).choose_spec⟩

/-- Over real numbers, `∑ j, (d j - a j) · y j = ∑ j, d j · y j - ∑ j, a j · y j`. -/
theorem sum_sub_mul {ι : Type*} (s : Finset ι) (d a y : ι → EReal) (hd : ∀ j, IsR (d j)) (ha : ∀ j, IsR (a j))
    (hy : ∀ j, IsR (y j)) : ∑ j ∈ s, (d j - a j) * y j = ∑ j ∈ s, d j * y j - ∑ j ∈ s, a j * y j := by
  obtain ⟨d', rfl⟩ := exists_real_family d hd
  obtain ⟨a', rfl⟩ := exists_real_family a ha
  obtain ⟨y', rfl⟩ := exists_real_family y hy
  simp only [← EReal.coe_sub, ← EReal.coe_mul, ← coe_sum]
  congr 1
  rw [← Finset.sum_sub_distrib]
  exact Finset.sum_congr rfl fun j _ => sub_mul _ _ _

/-- The indicator of `i` picks the `i`-th entry. -/
theorem sum_ind_mul {n : ℕ} (i : Fin n) (y : Fin n → EReal) :
    ∑ j : Fin n, (if i = j then (1 : EReal) else 0) * y j = y i := by
  rw [Finset.sum_eq_single i]
  · rw [if_pos rfl, one_mul]
  · intro j _ hj; rw [if_neg (Ne.symm hj), zero_mul]
  · intro h; exact absurd (Finset.mem_univ i) h

/-- The matrix `I - a` applied to `y`, at row `i`, is `y i - ∑ j, a j · y j` when the entries are real numbers. -/
theorem sum_ind_sub_mul {n : ℕ} (i : Fin n) (a y : Fin n → EReal) (ha : ∀ j, IsR (a j)) (hy : ∀ j, IsR (y j)) :
    ∑ j : Fin n, ((if i = j then (1 : EReal) else 0) - a j) * y j = y i - ∑ j : Fin n, a j * y j := by
  rw [sum_sub_mul Finset.univ _ a y (fun j => by split_ifs; exact IsR.one; exact IsR.zero) ha hy, sum_ind_mul]

/-- At a positive real number `1 / sqrt` is the reciprocal square root. -/
theorem one_div_sqrt (r : ℝ) (hr : 0 < r) : Ideal.div 1 (Ideal.sqrt (r : EReal)) = Ideal.rsqrt (r : EReal) := by
  rw [Cert.NormSum.rsqrt_coe_pos r hr]
  show Ideal.div 1 (if r < 0 then (⊥ : EReal) else (Real.sqrt r : EReal)) = _
  rw [if_neg (not_lt.mpr hr.le), Ideal.div_coe (Real.sqrt_pos.mpr hr).ne', one_mul, one_div]

/-- The reciprocal square root of a positive real number is a real number. -/
theorem IsR.rsqrt_pos (r : ℝ) (hr : 0 < r) : IsR (Ideal.rsqrt (r : EReal)) :=
  ⟨_, Cert.NormSum.rsqrt_coe_pos r hr⟩

/-- The single-precision pattern `0x40000000` denotes the real number two. -/
theorem two_word : Ideal.ofBits .f32 0x40000000#32 = ((2 : ℝ) : EReal) := by
  simp [Ideal.ofBits, Ideal.ieee, -EReal.coe_mul]; norm_num

end Cert.RealEntries

end
-- ==== Proof.SpecReal.lean ====
/-
  WHERE THE INPUTS ARE REAL NUMBERS, SO IS EVERY STAGE OF THE DECODER STEP.

  Over the extended reals sums cannot be rescaled at the infinities, so the comparison of two ways of taking a
  logarithm of a sum of exponentials needs every number involved to be a real number. Proved here, free of any program:
  if the embedded input, the two gate biases, the gate weights, the encoder outputs and the weights and bias of the two
  output layers are real-valued, then so are the hidden state, the attention scores, their row maximum, the attention
  weights, the context, the output layer and the class scores, at every index; the shifted exponentials are positive
  reals and so are their row sums.

  The ingredients: the logistic function, the hyperbolic tangent and the exponential of a real are real (the exponential
  is positive); a finite sum, a product, a difference and a maximum of reals are real; a fold of `max` started at `⊥`
  over a NONEMPTY range of reals is real; a nonempty sum of positive reals is a positive real; and the quotient of a real
  by a positive real is real.
-/
import proofs.«150782_j29695403885316_1_alg».proof.Proof.Spec
import proofs.«150782_j29695403885316_1_alg».proof.Proof.LibRealEntries

noncomputable section

open scoped BigOperators

namespace Cert.Spec

open Idealize.ShloMosaic Cert.RealEntries

/-! ## Closure facts about real and positive real extended reals -/

/-- The extended real is a positive real number. -/
def IsPos (x : EReal) : Prop := ∃ r : ℝ, 0 < r ∧ x = (r : EReal)

theorem IsPos.isR {a : EReal} (ha : IsPos a) : IsR a := by
  obtain ⟨r, _, rfl⟩ := ha; exact ⟨r, rfl⟩

theorem IsPos.add {a b : EReal} (ha : IsPos a) (hb : IsPos b) : IsPos (a + b) := by
  obtain ⟨r, hr, rfl⟩ := ha; obtain ⟨s, hs, rfl⟩ := hb
  exact ⟨r + s, add_pos hr hs, (EReal.coe_add r s).symm⟩

/-- A sum of positive reals over a nonempty range is a positive real. -/
theorem IsPos.sum {ι : Type*} (s : Finset ι) (f : ι → EReal) (hs : s.Nonempty) (h : ∀ i ∈ s, IsPos (f i)) :
    IsPos (∑ i ∈ s, f i) := by
  revert h
  induction hs using Finset.Nonempty.cons_induction with
  | singleton a =>
    intro h; rw [Finset.sum_singleton]; exact h a (Finset.mem_singleton_self a)
  | cons a s ha hs ih =>
    intro h; rw [Finset.sum_cons]
    exact (h a (Finset.mem_cons_self a s)).add (ih fun i hi => h i (Finset.mem_cons.mpr (Or.inr hi)))

/-- The exponential of a real is a positive real. -/
theorem isPos_exp {a : EReal} (ha : IsR a) : IsPos (Ideal.exp a) := by
  obtain ⟨r, rfl⟩ := ha; exact ⟨Real.exp r, Real.exp_pos r, rfl⟩

/-- The logistic function of a real is real. -/
theorem isR_logistic {a : EReal} (ha : IsR a) : IsR (Ideal.logistic a) := by
  obtain ⟨r, rfl⟩ := ha; exact ⟨_, Ideal.logistic_coe r⟩

/-- The hyperbolic tangent of a real is real. -/
theorem isR_tanh {a : EReal} (ha : IsR a) : IsR (Ideal.tanh a) := by
  obtain ⟨r, rfl⟩ := ha; exact ⟨Real.tanh r, rfl⟩

/-- The quotient of a real by a positive real is real. -/
theorem isR_div_pos {a b : EReal} (ha : IsR a) (hb : IsPos b) : IsR (Ideal.div a b) := by
  obtain ⟨r, rfl⟩ := ha; obtain ⟨s, hs, rfl⟩ := hb
  rw [Ideal.div_coe hs.ne']; exact ⟨r * (1 / s), (EReal.coe_mul _ _).symm⟩

/-- The fold of `max` from `⊥` over a nonempty range of reals is real. -/
theorem isR_fold_max {ι : Type*} (s : Finset ι) (f : ι → EReal) (hs : s.Nonempty) (h : ∀ i ∈ s, IsR (f i)) :
    IsR (s.fold max ⊥ f) := by
  revert h
  induction hs using Finset.Nonempty.cons_induction with
  | singleton a =>
    intro h; rw [Finset.fold_singleton, max_eq_left bot_le]; exact h a (Finset.mem_singleton_self a)
  | cons a s ha hs ih =>
    intro h; rw [Finset.fold_cons]
    exact (h a (Finset.mem_cons_self a s)).max (ih fun i hi => h i (Finset.mem_cons.mpr (Or.inr hi)))

/-! ## The stages -/

section
variable {x : Fin 64 → Fin 51 → Fin 256 → EReal} {w_ih : Fin 1536 → Fin 256 → EReal} {b_ih b_hh : Fin 1536 → EReal}
  {enc : Fin 64 → Fin 128 → Fin 512 → EReal} {wa : Fin 512 → Fin 1024 → EReal}
  {fc_w : Fin 32000 → Fin 512 → EReal} {fc_b : Fin 32000 → EReal}

theorem gi_real (hx : ∀ b t e, IsR (x b t e)) (hw : ∀ g e, IsR (w_ih g e)) (hbi : ∀ g, IsR (b_ih g))
    (b : Fin 64) (t : Fin 51) (g : Fin 1536) : IsR (gi x w_ih b_ih b t g) := by
  unfold gi
  exact (IsR.sum _ _ fun e _ => (hx b t e).mul (hw g e)).add (hbi g)

theorem r_real (hx : ∀ b t e, IsR (x b t e)) (hw : ∀ g e, IsR (w_ih g e)) (hbi : ∀ g, IsR (b_ih g))
    (hbh : ∀ g, IsR (b_hh g)) (b : Fin 64) (t : Fin 51) (j : Fin 512) : IsR (r x w_ih b_ih b_hh b t j) := by
  unfold r
  exact isR_logistic ((gi_real hx hw hbi b t _).add (hbh _))

theorem z_real (hx : ∀ b t e, IsR (x b t e)) (hw : ∀ g e, IsR (w_ih g e)) (hbi : ∀ g, IsR (b_ih g))
    (hbh : ∀ g, IsR (b_hh g)) (b : Fin 64) (t : Fin 51) (j : Fin 512) : IsR (z x w_ih b_ih b_hh b t j) := by
  unfold z
  exact isR_logistic ((gi_real hx hw hbi b t _).add (hbh _))

theorem n_real (hx : ∀ b t e, IsR (x b t e)) (hw : ∀ g e, IsR (w_ih g e)) (hbi : ∀ g, IsR (b_ih g))
    (hbh : ∀ g, IsR (b_hh g)) (b : Fin 64) (t : Fin 51) (j : Fin 512) : IsR (n x w_ih b_ih b_hh b t j) := by
  unfold n
  exact isR_tanh ((gi_real hx hw hbi b t _).add ((r_real hx hw hbi hbh b t j).mul (hbh _)))

/-- The hidden state is real. -/
theorem h_real (hx : ∀ b t e, IsR (x b t e)) (hw : ∀ g e, IsR (w_ih g e)) (hbi : ∀ g, IsR (b_ih g))
    (hbh : ∀ g, IsR (b_hh g)) (b : Fin 64) (t : Fin 51) (j : Fin 512) : IsR (h x w_ih b_ih b_hh b t j) := by
  unfold h
  exact (IsR.one.sub (z_real hx hw hbi hbh b t j)).mul (n_real hx hw hbi hbh b t j)

/-- The attention scores are real. -/
theorem scores_real (hx : ∀ b t e, IsR (x b t e)) (hw : ∀ g e, IsR (w_ih g e)) (hbi : ∀ g, IsR (b_ih g))
    (hbh : ∀ g, IsR (b_hh g)) (henc : ∀ b s j, IsR (enc b s j)) (b : Fin 64) (t : Fin 51) (s : Fin 128) :
    IsR (scores x w_ih b_ih b_hh enc b t s) := by
  unfold scores
  exact IsR.sum _ _ fun j _ => (h_real hx hw hbi hbh b t j).mul (henc b s j)

/-- The row maximum of the scores is real: the row is not empty. -/
theorem smax_real (hx : ∀ b t e, IsR (x b t e)) (hw : ∀ g e, IsR (w_ih g e)) (hbi : ∀ g, IsR (b_ih g))
    (hbh : ∀ g, IsR (b_hh g)) (henc : ∀ b s j, IsR (enc b s j)) (b : Fin 64) (t : Fin 51) :
    IsR (smax x w_ih b_ih b_hh enc b t) := by
  unfold smax
  exact isR_fold_max _ _ Finset.univ_nonempty fun s _ => scores_real hx hw hbi hbh henc b t s

/-- The shifted exponentials are positive reals. -/
theorem sexp_pos (hx : ∀ b t e, IsR (x b t e)) (hw : ∀ g e, IsR (w_ih g e)) (hbi : ∀ g, IsR (b_ih g))
    (hbh : ∀ g, IsR (b_hh g)) (henc : ∀ b s j, IsR (enc b s j)) (b : Fin 64) (t : Fin 51) (s : Fin 128) :
    IsPos (sexp x w_ih b_ih b_hh enc b t s) := by
  unfold sexp
  exact isPos_exp ((scores_real hx hw hbi hbh henc b t s).sub (smax_real hx hw hbi hbh henc b t))

/-- The softmax denominator is a positive real. -/
theorem sexp_sum_pos (hx : ∀ b t e, IsR (x b t e)) (hw : ∀ g e, IsR (w_ih g e)) (hbi : ∀ g, IsR (b_ih g))
    (hbh : ∀ g, IsR (b_hh g)) (henc : ∀ b s j, IsR (enc b s j)) (b : Fin 64) (t : Fin 51) :
    IsPos (∑ s' : Fin 128, sexp x w_ih b_ih b_hh enc b t s') :=
  IsPos.sum _ _ Finset.univ_nonempty fun s _ => sexp_pos hx hw hbi hbh henc b t s

/-- The attention weights are real. -/
theorem attn_real (hx : ∀ b t e, IsR (x b t e)) (hw : ∀ g e, IsR (w_ih g e)) (hbi : ∀ g, IsR (b_ih g))
    (hbh : ∀ g, IsR (b_hh g)) (henc : ∀ b s j, IsR (enc b s j)) (b : Fin 64) (t : Fin 51) (s : Fin 128) :
    IsR (attn x w_ih b_ih b_hh enc b t s) := by
  unfold attn
  exact isR_div_pos (sexp_pos hx hw hbi hbh henc b t s).isR (sexp_sum_pos hx hw hbi hbh henc b t)

/-- The context is real. -/
theorem ctx_real (hx : ∀ b t e, IsR (x b t e)) (hw : ∀ g e, IsR (w_ih g e)) (hbi : ∀ g, IsR (b_ih g))
    (hbh : ∀ g, IsR (b_hh g)) (henc : ∀ b s j, IsR (enc b s j)) (b : Fin 64) (t : Fin 51) (j : Fin 512) :
    IsR (ctx x w_ih b_ih b_hh enc b t j) := by
  unfold ctx
  exact IsR.sum _ _ fun s _ => (attn_real hx hw hbi hbh henc b t s).mul (henc b s j)

/-- The pair (hidden state, context) is real. -/
theorem cat_real (hx : ∀ b t e, IsR (x b t e)) (hw : ∀ g e, IsR (w_ih g e)) (hbi : ∀ g, IsR (b_ih g))
    (hbh : ∀ g, IsR (b_hh g)) (henc : ∀ b s j, IsR (enc b s j)) (b : Fin 64) (t : Fin 51) (k : Fin 1024) :
    IsR (cat x w_ih b_ih b_hh enc b t k) := by
  unfold cat
  split_ifs with hk
  · exact h_real hx hw hbi hbh b t _
  · exact ctx_real hx hw hbi hbh henc b t _

/-- The output layer is real. -/
theorem o_real (hx : ∀ b t e, IsR (x b t e)) (hw : ∀ g e, IsR (w_ih g e)) (hbi : ∀ g, IsR (b_ih g))
    (hbh : ∀ g, IsR (b_hh g)) (henc : ∀ b s j, IsR (enc b s j)) (hwa : ∀ j k, IsR (wa j k))
    (b : Fin 64) (t : Fin 51) (j : Fin 512) : IsR (o x w_ih b_ih b_hh enc wa b t j) := by
  unfold o
  exact isR_tanh (IsR.sum _ _ fun k _ => (cat_real hx hw hbi hbh henc b t k).mul (hwa j k))

/-- The class scores are real. -/
theorem logits_real (hx : ∀ b t e, IsR (x b t e)) (hw : ∀ g e, IsR (w_ih g e)) (hbi : ∀ g, IsR (b_ih g))
    (hbh : ∀ g, IsR (b_hh g)) (henc : ∀ b s j, IsR (enc b s j)) (hwa : ∀ j k, IsR (wa j k))
    (hfw : ∀ v k, IsR (fc_w v k)) (hfb : ∀ v, IsR (fc_b v)) (b : Fin 64) (t : Fin 51) (v : Fin 32000) :
    IsR (logits x w_ih b_ih b_hh enc wa fc_w fc_b b t v) := by
  unfold logits
  exact (IsR.sum _ _ fun k _ => (o_real hx hw hbi hbh henc hwa b t k).mul (hfw v k)).add (hfb v)

/-- The row maximum of the class scores is real: the row is not empty. -/
theorem lmax_real (hx : ∀ b t e, IsR (x b t e)) (hw : ∀ g e, IsR (w_ih g e)) (hbi : ∀ g, IsR (b_ih g))
    (hbh : ∀ g, IsR (b_hh g)) (henc : ∀ b s j, IsR (enc b s j)) (hwa : ∀ j k, IsR (wa j k))
    (hfw : ∀ v k, IsR (fc_w v k)) (hfb : ∀ v, IsR (fc_b v)) (b : Fin 64) (t : Fin 51) :
    IsR (lmax x w_ih b_ih b_hh enc wa fc_w fc_b b t) := by
  unfold lmax
  exact isR_fold_max _ _ Finset.univ_nonempty fun v _ => logits_real hx hw hbi hbh henc hwa hfw hfb b t v

/-- The shifted class scores are real. -/
theorem shifted_real (hx : ∀ b t e, IsR (x b t e)) (hw : ∀ g e, IsR (w_ih g e)) (hbi : ∀ g, IsR (b_ih g))
    (hbh : ∀ g, IsR (b_hh g)) (henc : ∀ b s j, IsR (enc b s j)) (hwa : ∀ j k, IsR (wa j k))
    (hfw : ∀ v k, IsR (fc_w v k)) (hfb : ∀ v, IsR (fc_b v)) (b : Fin 64) (t : Fin 51) (v : Fin 32000) :
    IsR (shifted x w_ih b_ih b_hh enc wa fc_w fc_b b t v) := by
  unfold shifted
  exact (logits_real hx hw hbi hbh henc hwa hfw hfb b t v).sub (lmax_real hx hw hbi hbh henc hwa hfw hfb b t)

/-- The sum of the shifted exponentials of a row of class scores is a positive real. -/
theorem shifted_exp_sum_pos (hx : ∀ b t e, IsR (x b t e)) (hw : ∀ g e, IsR (w_ih g e)) (hbi : ∀ g, IsR (b_ih g))
    (hbh : ∀ g, IsR (b_hh g)) (henc : ∀ b s j, IsR (enc b s j)) (hwa : ∀ j k, IsR (wa j k))
    (hfw : ∀ v k, IsR (fc_w v k)) (hfb : ∀ v, IsR (fc_b v)) (b : Fin 64) (t : Fin 51) :
    IsPos (∑ v' : Fin 32000, Ideal.exp (shifted x w_ih b_ih b_hh enc wa fc_w fc_b b t v')) :=
  IsPos.sum _ _ Finset.univ_nonempty fun v _ => isPos_exp (shifted_real hx hw hbi hbh henc hwa hfw hfb b t v)

end

end Cert.Spec

end
-- ==== Proof.SpecReal2.lean ====
/-
  THE OUTPUT LAYER AND THE CLASS SCORES ARE REAL NUMBERS WHATEVER THE EARLIER STAGES ARE.

  The hyperbolic tangent over the extended reals sends the bottom element to -1, the top element to 1 and a real number
  to a real number: it is real at EVERY extended real. So the output layer, a hyperbolic tangent, is real with no
  assumption on the embedded input, the gate weights and biases, the encoder outputs or the weights of the output
  layer; and the class scores, a finite sum of products of the output layer with the projection's weights plus its
  bias, are real as soon as those weights and that bias are.
-/
import proofs.«150782_j29695403885316_1_alg».proof.Proof.Spec
import proofs.«150782_j29695403885316_1_alg».proof.Proof.SpecReal

noncomputable section

open scoped BigOperators

namespace Cert.Spec

open Idealize.ShloMosaic Cert.RealEntries

/-- The hyperbolic tangent of any extended real is a real number. -/
theorem tanh_isR (a : EReal) : IsR (Ideal.tanh a) := by
  induction a using EReal.rec with
  | bot => exact ⟨-1, by show (-1 : EReal) = ((-1 : ℝ) : EReal); simp⟩
  | coe r => exact ⟨Real.tanh r, rfl⟩
  | top => exact ⟨1, by show (1 : EReal) = ((1 : ℝ) : EReal); simp⟩

section
variable (x : Fin 64 → Fin 51 → Fin 256 → EReal) (w_ih : Fin 1536 → Fin 256 → EReal) (b_ih b_hh : Fin 1536 → EReal)
  (enc : Fin 64 → Fin 128 → Fin 512 → EReal) (wa : Fin 512 → Fin 1024 → EReal)
  (fc_w : Fin 32000 → Fin 512 → EReal) (fc_b : Fin 32000 → EReal)

/-- The output layer is real, with no assumption on what it is computed from. -/
theorem o_isR (b : Fin 64) (t : Fin 51) (j : Fin 512) : IsR (o x w_ih b_ih b_hh enc wa b t j) := by
  unfold o
  exact tanh_isR _

/-- The class scores are real once the projection's weights and bias are. -/
theorem logits_isR (hfw : ∀ v k, IsR (fc_w v k)) (hfb : ∀ v, IsR (fc_b v)) (b : Fin 64) (t : Fin 51) (v : Fin 32000) :
    IsR (logits x w_ih b_ih b_hh enc wa fc_w fc_b b t v) := by
  unfold logits
  exact (IsR.sum _ _ fun k _ => (o_isR x w_ih b_ih b_hh enc wa b t k).mul (hfw v k)).add (hfb v)

/-- The same, spelt out: every class score is the coercion of a real number. -/
theorem logits_real_exists (hfw : ∀ v k, IsR (fc_w v k)) (hfb : ∀ v, IsR (fc_b v)) (b : Fin 64) (t : Fin 51)
    (v : Fin 32000) : ∃ r : ℝ, logits x w_ih b_ih b_hh enc wa fc_w fc_b b t v = (r : EReal) :=
  logits_isR x w_ih b_ih b_hh enc wa fc_w fc_b hfw hfb b t v

end

end Cert.Spec

end
-- ==== Proof.LibFiniteEntry.lean ====
/-
  FROM "EVERY ENTRY IS BELOW INFINITY IN ABSOLUTE VALUE" TO "EVERY ENTRY IS A REAL NUMBER", at the ideal values.

  A precondition that an array is finite is printed as: the absolute value of the array, compared entry by entry (ordered,
  less than) with the single-precision word of `+∞` broadcast from a scalar.  At the ideal values the absolute value of
  `x` is `max x (-x)`, the word `0x7F800000` is `⊤`, and an extended real whose absolute value is below `⊤` is neither `⊤`
  nor `⊥`: it is a real number.  No program appears in this module.
-/
import Idealize.ShloMosaic.PureOps.Ideal.Laws
import Idealize.ShloMosaic.Lib.ValueIdx
import Idealize.ShloMosaic.Lib.Pipeline.Value
import proofs.«150782_j29695403885316_1_alg».proof.Proof.LibRealEntries

noncomputable section

namespace Cert.FiniteEntry

open Idealize.ShloMosaic Idealize.ShloMosaic.ValueIdx Cert.RealEntries

/-- The single-precision pattern `0x7F800000` (sign 0, exponent all ones, fraction 0) denotes `+∞`. -/
theorem inf_word : Ideal.ofBits .f32 0x7F800000#32 = (⊤ : EReal) := by simp [Ideal.ofBits, Ideal.ieee]

/-- An extended real whose absolute value is below `⊤` is a real number. -/
theorem isR_of_abs_lt_top (x : EReal) (h : max x (-x) < ⊤) : IsR x := by
  induction x using EReal.rec with
  | bot => simp at h
  | coe r => exact ⟨r, rfl⟩
  | top => simp at h

/-- The printed comparison at an index. -/
theorem isR_of_cmp {s : Shape} (x : FVec Ideal s .f32) (hb : (⟨0, ![]⟩ : Shape).BroadcastsInDim s ![]) (i : s.Idx)
    (h : cmpf .olt (Host.absf x) (broadcastInDim s ![] hb (constant (F := Ideal) ⟨0, ![]⟩ .f32 0x7F800000#32)) i = 1#1) :
    IsR (x i) := by
  have h' : FloatOps.cmpf (F := Ideal) (φ := .f32) .olt (max (x i) (-(x i)))
      (broadcastInDim s ![] hb (constant (F := Ideal) ⟨0, ![]⟩ .f32 0x7F800000#32) i) = 1#1 := h
  rw [broadcastInDim_apply _ hb _ i ix0 (fun a => a.elim0)] at h'
  have h2 : FloatOps.cmpf (F := Ideal) (φ := .f32) .olt (max (x i) (-(x i))) (Ideal.ofBits .f32 0x7F800000#32) = 1#1 := h'
  rw [inf_word] at h2
  by_cases hlt : max (x i) (-(x i)) < (⊤ : EReal)
  · exact isR_of_abs_lt_top _ hlt
  · exfalso
    have h3 : BitVec.ofBool (decide (max (x i) (-(x i)) < (⊤ : EReal))) = 1#1 := h2
    rw [decide_eq_false hlt] at h3
    exact absurd h3 (by decide)

end Cert.FiniteEntry

end
-- ==== Proof.KIFinite.lean ====
/-
  THE PRECONDITION, READ BACK: every float argument of the idealized kernel holds real numbers.

  The precondition is the conjunction, over the float arguments, of "every entry is below +∞ in absolute value": each
  conjunct is printed as a reduction by `and`, from the constant 1, of the entry-by-entry comparison of the absolute
  value with the word of `+∞` broadcast from a scalar, and the conjuncts are joined by `and` on one-bit words. A
  conjunction of one-bit words is 1 only if both are; a reduction by `and` over all axes that is 1 met a 1 at every
  index; and at the ideal values an entry whose absolute value is below `⊤` is a real number.
-/
import proofs.«150782_j29695403885316_1_alg».proof.Defs
import proofs.«150782_j29695403885316_1_alg».proof.Proof.LibFiniteEntry
import Idealize.ShloMosaic.Lib.ReduceAll

noncomputable section

namespace Cert.KIFinite

open Idealize.ShloMosaic Idealize.ShloMosaic.ValueIdx Idealize.SL.Sem Cert.RealEntries Cert.FiniteEntry

/-- The shape of a scalar has one index. -/
instance : Subsingleton Cert.Pre_finite_inputs.S_.Idx := ⟨fun a b => funext fun d => d.elim0⟩

section
open Cert.Pre_finite_inputs

/-- One conjunct: a reduction by `and` over all axes of the test "absolute value below the word of +∞" that is 1
    says that every entry is a real number. -/
theorem real_of_all {s : Shape} {axes : List (Fin s.rank)} (x : FVec Ideal s .f32) (hb : S_.BroadcastsInDim s ![])
    (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ix0 = 1#1) (i : s.Idx) : IsR (x i) :=
  isR_of_cmp x hb i (Host.reduce_andi_all _ _ hr hu ix0 e i)

variable [hP : Cert.Pre_finite_inputs.Facts]

/-- The printed precondition, all ones, says that each of its ten float operands holds real numbers. -/
theorem real_of_fn (a0 : IVec S64x51 32) (a1 : FVec Ideal S1x64x512 .f32) (a2 : FVec Ideal S64x128x512 .f32)
    (a3 : FVec Ideal S32000x256 .f32) (a4 : FVec Ideal S1536x256 .f32) (a5 : FVec Ideal S1536x512 .f32)
    (a6 : FVec Ideal S1536 .f32) (a7 : FVec Ideal S1536 .f32) (a8 : FVec Ideal S512x1024 .f32)
    (a9 : FVec Ideal S32000x512 .f32) (a10 : FVec Ideal S32000 .f32)
    (h : fn (F := Ideal) a0 a1 a2 a3 a4 a5 a6 a7 a8 a9 a10 = fun _ => 1#1) :
    (∀ i, IsR (a1 i)) ∧ (∀ i, IsR (a2 i)) ∧ (∀ i, IsR (a3 i)) ∧ (∀ i, IsR (a4 i)) ∧ (∀ i, IsR (a5 i))
      ∧ (∀ i, IsR (a6 i)) ∧ (∀ i, IsR (a7 i)) ∧ (∀ i, IsR (a8 i)) ∧ (∀ i, IsR (a9 i)) ∧ (∀ i, IsR (a10 i)) := by
  have h0 : fn (F := Ideal) a0 a1 a2 a3 a4 a5 a6 a7 a8 a9 a10 ix0 = 1#1 := congrFun h ix0
  dsimp only [fn, fn_part1, fn_part2] at h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e1, e2⟩ := IntOp.andi_eq_one.1 h0
  exact ⟨real_of_all a1 _ _ _ e1, real_of_all a2 _ _ _ e2, real_of_all a3 _ _ _ e3, real_of_all a4 _ _ _ e4,
    real_of_all a5 _ _ _ e5, real_of_all a6 _ _ _ e6, real_of_all a7 _ _ _ e7, real_of_all a8 _ _ _ e8,
    real_of_all a9 _ _ _ e9, real_of_all a10 _ _ _ e10⟩

end

/-! ## At the idealized kernel's memory -/

section
open Cert.KernelIdeal

variable [hP : Cert.Pre_finite_inputs.Facts]
variable (m : (ℓ : Loc nD τ sig) → Buf (Elt Ideal) ℓ) (hpre : Cert.Pre_KernelIdeal m) (c : Dev nD)
include hpre

/-- The precondition at the kernel's memory, as the ten facts about its float arguments. -/
theorem args_real :
    (∀ i, IsR ((m ((c.tc : Thread nD τ).loc main_arg1) : FVec Ideal S1x64x512 .f32) i))
      ∧ (∀ i, IsR ((m ((c.tc : Thread nD τ).loc main_arg2) : FVec Ideal S64x128x512 .f32) i))
      ∧ (∀ i, IsR ((m ((c.tc : Thread nD τ).loc main_arg3) : FVec Ideal S32000x256 .f32) i))
      ∧ (∀ i, IsR ((m ((c.tc : Thread nD τ).loc main_arg4) : FVec Ideal S1536x256 .f32) i))
      ∧ (∀ i, IsR ((m ((c.tc : Thread nD τ).loc main_arg5) : FVec Ideal S1536x512 .f32) i))
      ∧ (∀ i, IsR ((m ((c.tc : Thread nD τ).loc main_arg6) : FVec Ideal S1536 .f32) i))
      ∧ (∀ i, IsR ((m ((c.tc : Thread nD τ).loc main_arg7) : FVec Ideal S1536 .f32) i))
      ∧ (∀ i, IsR ((m ((c.tc : Thread nD τ).loc main_arg8) : FVec Ideal S512x1024 .f32) i))
      ∧ (∀ i, IsR ((m ((c.tc : Thread nD τ).loc main_arg9) : FVec Ideal S32000x512 .f32) i))
      ∧ (∀ i, IsR ((m ((c.tc : Thread nD τ).loc main_arg10) : FVec Ideal S32000 .f32) i)) :=
  real_of_fn _ _ _ _ _ _ _ _ _ _ _ (hpre c)

/-- Encoder outputs. -/
theorem arg2_real (i : S64x128x512.Idx) :
    IsR ((m ((c.tc : Thread nD τ).loc main_arg2) : FVec Ideal S64x128x512 .f32) i) := (args_real m hpre c).2.1 i
/-- Embedding table. -/
theorem arg3_real (i : S32000x256.Idx) :
    IsR ((m ((c.tc : Thread nD τ).loc main_arg3) : FVec Ideal S32000x256 .f32) i) := (args_real m hpre c).2.2.1 i
/-- Input-side gate weights. -/
theorem arg4_real (i : S1536x256.Idx) :
    IsR ((m ((c.tc : Thread nD τ).loc main_arg4) : FVec Ideal S1536x256 .f32) i) := (args_real m hpre c).2.2.2.1 i
/-- Hidden-side gate weights. -/
theorem arg5_real (i : S1536x512.Idx) :
    IsR ((m ((c.tc : Thread nD τ).loc main_arg5) : FVec Ideal S1536x512 .f32) i) := (args_real m hpre c).2.2.2.2.1 i
/-- Input-side gate bias. -/
theorem arg6_real (i : S1536.Idx) :
    IsR ((m ((c.tc : Thread nD τ).loc main_arg6) : FVec Ideal S1536 .f32) i) := (args_real m hpre c).2.2.2.2.2.1 i
/-- Hidden-side gate bias. -/
theorem arg7_real (i : S1536.Idx) :
    IsR ((m ((c.tc : Thread nD τ).loc main_arg7) : FVec Ideal S1536 .f32) i) := (args_real m hpre c).2.2.2.2.2.2.1 i
/-- Output-layer weights. -/
theorem arg8_real (i : S512x1024.Idx) :
    IsR ((m ((c.tc : Thread nD τ).loc main_arg8) : FVec Ideal S512x1024 .f32) i) := (args_real m hpre c).2.2.2.2.2.2.2.1 i
/-- Class weights. -/
theorem arg9_real (i : S32000x512.Idx) :
    IsR ((m ((c.tc : Thread nD τ).loc main_arg9) : FVec Ideal S32000x512 .f32) i) := (args_real m hpre c).2.2.2.2.2.2.2.2.1 i
/-- Class bias. -/
theorem arg10_real (i : S32000.Idx) :
    IsR ((m ((c.tc : Thread nD τ).loc main_arg10) : FVec Ideal S32000 .f32) i) := (args_real m hpre c).2.2.2.2.2.2.2.2.2 i
/-- Initial hidden state. -/
theorem arg1_real (i : S1x64x512.Idx) :
    IsR ((m ((c.tc : Thread nD τ).loc main_arg1) : FVec Ideal S1x64x512 .f32) i) := (args_real m hpre c).1 i

end

end Cert.KIFinite

end
-- ==== Proof.KIGlueB.lean ====
/-
  The idealized kernel program from the second region's entry to its end, in the terms of the specification. A flat
  row p = 51·b + t of the activations lies in row block p / 408 at row p % 408; against tile w of the class weights
  its scores are the specification's class scores of (b, t) at the classes 1280·w … 1280·w + 1279. The statistics
  region streams the 25 tiles and leaves maximum + log sum, which for real scores is the direct log-sum-exp; the
  output region subtracts it from each score; the final reshape puts row p back at (b, t). The class scores are real
  because tanh is real everywhere and the class weights and biases are finite.
-/
import proofs.«150782_j29695403885316_1_alg».proof.Proof.KIGlueA
import proofs.«150782_j29695403885316_1_alg».proof.Proof.KIValue1
import proofs.«150782_j29695403885316_1_alg».proof.Proof.KIArr1
import proofs.«150782_j29695403885316_1_alg».proof.Proof.KIArr1Out
import proofs.«150782_j29695403885316_1_alg».proof.Proof.KIComp2
import proofs.«150782_j29695403885316_1_alg».proof.Proof.StreamLse
import proofs.«150782_j29695403885316_1_alg».proof.Proof.SpecReal2
import proofs.«150782_j29695403885316_1_alg».proof.Proof.KIFinite

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The specification's class scores of (b, t), over the argument arrays. -/
abbrev aLogits (b : Fin 64) (t : Fin 51) (v : Fin 32000) : EReal :=
  Cert.Spec.logits (aX m ρ c) (aWih m c) (abih m c) (abhh m c) (aEnc m c) (aWa m c) (aFcw m c) (aFcb m c) b t v

/-! ## The statistics region leaves its inputs and the handed-on hidden state alone -/

theorem V4_v17 : V4 (F := Ideal) m ρ c main_v17 = V3 (F := Ideal) m ρ c main_v17 :=
  (W4_arr m ρ c 0).trans (((dat1 (V3 (F := Ideal) m ρ) c).arrAt_in 0 rfl _).trans (A_eq1 (V3 (F := Ideal) m ρ) c 0))
theorem V4_v18 : V4 (F := Ideal) m ρ c main_v18 = V3 (F := Ideal) m ρ c main_v18 :=
  (W4_arr m ρ c 1).trans (((dat1 (V3 (F := Ideal) m ρ) c).arrAt_in 1 rfl _).trans (A_eq1 (V3 (F := Ideal) m ρ) c 1))
theorem V4_v19 : V4 (F := Ideal) m ρ c main_v19 = V3 (F := Ideal) m ρ c main_v19 :=
  (W4_arr m ρ c 2).trans (((dat1 (V3 (F := Ideal) m ρ) c).arrAt_in 2 rfl _).trans (A_eq1 (V3 (F := Ideal) m ρ) c 2))

/-! ## A row's class scores, tile by tile -/

set_option maxHeartbeats 4000000 in
/-- Row p = 51·b + t against tile w: the specification's class scores at the classes of that tile. -/
theorem tileRows_logits (b : Fin 64) (t : Fin 51) (i : Fin 8) (r : Fin 408) (hp : 408 * i.val + r.val = 51 * b.val + t.val)
    (w : ℕ) (hw : w < 25) (cc : Fin 1280) (u : Fin 32000) (hu : u.val = 1280 * w + cc.val) :
    tileRows (V3 (F := Ideal) m ρ) c i r w cc = aLogits m ρ c b t u := by
  rw [tileRows_of_lt (V3 (F := Ideal) m ρ) c i r w hw]
  unfold rowN blkA blkW blkB
  show Pay.logit (iblk1 (V3 (F := Ideal) m ρ) c 0 ⟨25 * i.val + w, tile_lt i w hw⟩) (iblk1 (V3 (F := Ideal) m ρ) c 1 ⟨25 * i.val + w, tile_lt i w hw⟩)
      (iblk1 (V3 (F := Ideal) m ρ) c 2 ⟨25 * i.val + w, tile_lt i w hw⟩) r cc
    = Cert.Spec.logits (aX m ρ c) (aWih m c) (abih m c) (abhh m c) (aEnc m c) (aWa m c) (aFcw m c) (aFcb m c) b t u
  unfold Pay.logit Cert.Spec.logits
  have hi : (25 * i.val + w) / 25 = i.val := by omega
  have hv : (25 * i.val + w) % 25 = w := by omega
  have hrow : 408 * ((25 * i.val + w) / 25) + r.val < 3264 := by have := i.isLt; have := r.isLt; omega
  have hcol : 1280 * ((25 * i.val + w) % 25) + cc.val < 32000 := by have := cc.isLt; omega
  refine congrArg₂ (· + ·) (Finset.sum_congr rfl fun k _ => ?_) ?_
  · rw [iblk1_0_apply (V3 (F := Ideal) m ρ) c ⟨25 * i.val + w, tile_lt i w hw⟩ r k hrow,
      iblk1_1_apply (V3 (F := Ideal) m ρ) c ⟨25 * i.val + w, tile_lt i w hw⟩ cc k hcol]
    rw [V3_v17 m ρ c b t k ⟨408 * ((25 * i.val + w) / 25) + r.val, hrow⟩ (by show 408 * ((25 * i.val + w) / 25) + r.val = _; omega)]
    rw [show (⟨1280 * ((25 * i.val + w) % 25) + cc.val, hcol⟩ : Fin 32000) = u from Fin.ext (by show 1280 * ((25 * i.val + w) % 25) + cc.val = u.val; omega)]
    rw [V3_v18 m ρ c u k]
  · rw [iblk1_2_apply (V3 (F := Ideal) m ρ) c ⟨25 * i.val + w, tile_lt i w hw⟩ cc hcol]
    rw [show (⟨1280 * ((25 * i.val + w) % 25) + cc.val, hcol⟩ : Fin 32000) = u from Fin.ext (by show 1280 * ((25 * i.val + w) % 25) + cc.val = u.val; omega)]
    exact V3_v19 m ρ c u

/-! ## The class scores are real -/

variable [hP : Cert.Pre_finite_inputs.Facts]

theorem aLogits_real (hpre : Cert.Pre_KernelIdeal m) (b : Fin 64) (t : Fin 51) (v : Fin 32000) : ∃ x : ℝ, aLogits m ρ c b t v = (x : EReal) :=
  Cert.Spec.logits_real_exists _ _ _ _ _ _ _ _
    (fun v k => Cert.KIFinite.arg9_real m hpre c (ix2 v k)) (fun v => Cert.KIFinite.arg10_real m hpre c (ix1 v)) b t v

/-! ## The statistics region's result -/

/-- Row p = 51·b + t of the log-sum-exp column, as the stream's final state over that row's 25 tiles. -/
theorem V4_v20 (b : Fin 64) (t : Fin 51) (i : Fin 8) (r : Fin 408) (p : Fin 3264) (hpi : p.val = 408 * i.val + r.val) :
    (V4 (F := Ideal) m ρ c main_v20 : S3264x1.Idx → EReal) (ix2 p (0 : Fin 1))
      = (Cert.Stream.S (tileRows (V3 (F := Ideal) m ρ) c i r) 25).1 + Ideal.log (Cert.Stream.S (tileRows (V3 (F := Ideal) m ρ) c i r) 25).2 := by
  rw [show (V4 (F := Ideal) m ρ c main_v20 : S3264x1.Idx → EReal) = (dat1 (V3 (F := Ideal) m ρ) c).arrAt 3 cfg1.N from W4_arr m ρ c 3]
  have h1 : 408 * i.val + r.val < 3264 := hpi ▸ p.isLt
  rw [show p = (⟨408 * i.val + r.val, h1⟩ : Fin 3264) from Fin.ext hpi]
  rw [arr1_3_apply (V3 (F := Ideal) m ρ) c i r h1 (tile_lt i 24 (by omega))]
  exact out_stream (V3 (F := Ideal) m ρ) c i r

/-! ## The output region's result, and the program's -/

/-- Row p = 51·b + t of the flat result is the logarithm of the softmax of (b, t)'s class scores. -/
theorem V5_v21 (hpre : Cert.Pre_KernelIdeal m) (b : Fin 64) (t : Fin 51) (p : Fin 3264) (hp : p.val = 51 * b.val + t.val) (u : Fin 32000) :
    (V5 (F := Ideal) m ρ c main_v21 : S3264x32000.Idx → EReal) (ix2 p u)
      = Cert.Spec.out (aX m ρ c) (aWih m c) (abih m c) (abhh m c) (aEnc m c) (aWa m c) (aFcw m c) (aFcb m c) b t u := by
  have hi : p.val / 408 < 8 := by have := p.isLt; omega
  have hr : p.val % 408 < 408 := Nat.mod_lt _ (by decide)
  have hpi : p.val = 408 * (⟨p.val / 408, hi⟩ : Fin 8).val + (⟨p.val % 408, hr⟩ : Fin 408).val := by
    show p.val = 408 * (p.val / 408) + p.val % 408; omega
  have hrow : 408 * (⟨p.val / 408, hi⟩ : Fin 8).val + (⟨p.val % 408, hr⟩ : Fin 408).val = 51 * b.val + t.val := hpi.symm.trans hp
  rw [show (V5 (F := Ideal) m ρ c main_v21 : S3264x32000.Idx → EReal) = (dat2 (V4 (F := Ideal) m ρ) c).arrAt 4 cfg2.N from W5_arr m ρ c 4]
  rw [arrAt2_4_value_of (V4 (F := Ideal) m ρ) c p u _ _ _ _ (V4_v17 m ρ c) (V4_v18 m ρ c) (V4_v19 m ρ c) rfl]
  rw [V4_v20 m ρ c b t ⟨p.val / 408, hi⟩ ⟨p.val % 408, hr⟩ p hpi]
  have e1 : ∀ k : Fin 512, (V3 (F := Ideal) m ρ c main_v17 : S3264x512.Idx → EReal) (ix2 p k)
      = Cert.Spec.o (aX m ρ c) (aWih m c) (abih m c) (abhh m c) (aEnc m c) (aWa m c) b t k := fun k => V3_v17 m ρ c b t k p hp
  have e2 : ∀ k : Fin 512, (V3 (F := Ideal) m ρ c main_v18 : S32000x512.Idx → EReal) (ix2 u k) = aFcw m c u k := V3_v18 m ρ c u
  have e3 : (V3 (F := Ideal) m ρ c main_v19 : S1x32000.Idx → EReal) (ix2 (0 : Fin 1) u) = aFcb m c u := V3_v19 m ρ c u
  simp only [e1, e2, e3]
  rw [show ((∑ k : Fin 512, Cert.Spec.o (aX m ρ c) (aWih m c) (abih m c) (abhh m c) (aEnc m c) (aWa m c) b t k * aFcw m c u k) + aFcb m c u)
      = aLogits m ρ c b t u from rfl]
  have hsub := Cert.Stream.sub_S25 (tileRows (V3 (F := Ideal) m ρ) c ⟨p.val / 408, hi⟩ ⟨p.val % 408, hr⟩)
    (fun w hw cc => by
      have hu : 1280 * w + cc.val < 32000 := by have := cc.isLt; omega
      rw [tileRows_logits m ρ c b t ⟨p.val / 408, hi⟩ ⟨p.val % 408, hr⟩ hrow w hw cc ⟨1280 * w + cc.val, hu⟩ rfl]
      exact aLogits_real m ρ c hpre b t _)
    (fun v => aLogits m ρ c b t v)
    (fun w cc v hv => (tileRows_logits m ρ c b t ⟨p.val / 408, hi⟩ ⟨p.val % 408, hr⟩ hrow w.val w.isLt cc v hv).symm)
    (aLogits m ρ c b t u) (aLogits_real m ρ c hpre b t u)
  rw [hsub]
  rfl

/-- The first result of the program. -/
theorem W6_v22 (hpre : Cert.Pre_KernelIdeal m) (b : Fin 64) (t : Fin 51) (v : Fin 32000) :
    (W6 (F := Ideal) m ρ c main_v22 : S64x51x32000.Idx → EReal) (ix3 b t v)
      = Cert.Spec.out (aX m ρ c) (aWih m c) (abih m c) (abhh m c) (aEnc m c) (aWa m c) (aFcw m c) (aFcb m c) b t v :=
  (host3_v22_flat (W5 m ρ c) b t v).trans (V5_v21 m ρ c hpre b t _ rfl v)

/-- The second. -/
theorem W6_v15 (b : Fin 64) (j : Fin 512) :
    (W6 (F := Ideal) m ρ c main_v15 : S1x64x512.Idx → EReal) (ix3 (0 : Fin 1) b j)
      = Cert.Spec.hidden (aX m ρ c) (aWih m c) (abih m c) (abhh m c) b j := by
  rw [show (W6 (F := Ideal) m ρ c main_v15 : S1x64x512.Idx → EReal) = W5 m ρ c main_v15 from host3_v15 (W5 m ρ c)]
  rw [show (W5 (F := Ideal) m ρ c main_v15 : S1x64x512.Idx → EReal) = W4 m ρ c main_v15 from W5_of_ne m ρ c main_v15 (by decide)]
  rw [show (W4 (F := Ideal) m ρ c main_v15 : S1x64x512.Idx → EReal) = W3 m ρ c main_v15 from W4_of_ne m ρ c main_v15 (by decide)]
  exact V3_v15 m ρ c b j

end Cert.KernelIdeal.Hand

end
-- ==== Proof.RefStages.lean ====
/-
  The reference computation, one operation at a time. `val_<buffer>` (one per operation of the reference program, in
  program order) is the value that operation writes, as a function of the argument arrays it depends on; each is stated
  over the stages before it, so no stage's term is long. `val_<buffer>_apply` reads a stage at an index `i` from its
  operands at an index: an elementwise operation at `i` itself, a layout operation (slice, broadcast, reshape) at
  `idx_<buffer> i`, computed from the literal shapes; at the ideal instance a contraction over one axis is the sum over
  `k` of the left operand at `lidx_<buffer> i k` times the right at `ridx_<buffer> i k`, and a float sum over one axis
  the initial value plus the sum over `k` of the operand at `idx_<buffer> i k`. Five operations have no such lemma
  here (two concatenations, the table look-up, two row maxima): they are read where they are used.
-/
import proofs.«150782_j29695403885316_1_alg».proof.Proof.Gen.ReferenceIdeal
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

-- %c = stablehlo.constant dense<1> : tensor<i32>
def val_main_c : (⟨S_, .i32⟩ : BufTy).Contents (Elt F) :=
  constantI S_ 32 1#32
theorem val_main_c_apply (i : S_.Idx) :
    val_main_c (F := F) i = 1#32 := rfl

-- %0 = stablehlo.broadcast_in_dim %c, dims = [] : (tensor<i32>) -> tensor<64x1xi32>
def val_main_v0 : (⟨S64x1, .i32⟩ : BufTy).Contents (Elt F) :=
  broadcastInDim S64x1 ![] bcast_S_S64x1 (val_main_c (F := F))
abbrev idx_main_v0 (i : S64x1.Idx) : S_.Idx := fun a => a.elim0
theorem val_main_v0_apply (i : S64x1.Idx) :
    val_main_v0 (F := F) i = val_main_c (F := F) (idx_main_v0 i) := by
  unfold val_main_v0
  generalize val_main_c (F := F) = y
  exact broadcastInDim_apply _ bcast_S_S64x1 y i (idx_main_v0 i) (fun a => a.elim0)

-- %1 = stablehlo.slice %arg0 [0:64, 0:50] : (tensor<64x51xi32>) -> tensor<64x50xi32>
def val_main_v1 (x0 : (⟨S64x51, .i32⟩ : BufTy).Contents (Elt F)) : (⟨S64x50, .i32⟩ : BufTy).Contents (Elt F) :=
  extractStridedSlice S64x50 ![0, 0] (x0) slices_S64x51_S64x50_0_0
abbrev idx_main_v1 (i : S64x50.Idx) : S64x51.Idx := fun a => match a with
  | ⟨0, _⟩ => ⟨(i 0).val, (i 0).isLt⟩
  | ⟨1, _⟩ => ⟨(i 1).val, by have h1 : (i 1).val < 50 := (i 1).isLt; show (i 1).val < 51; omega⟩
theorem val_main_v1_apply (x0 : (⟨S64x51, .i32⟩ : BufTy).Contents (Elt F)) (i : S64x50.Idx) :
    val_main_v1 (F := F) x0 i = x0 (idx_main_v1 i) := by
  unfold val_main_v1
  exact extractStridedSlice_apply ![0, 0] x0 slices_S64x51_S64x50_0_0 i (idx_main_v1 i) (fun a => match a with
    | ⟨0, _⟩ => by show (i 0).val = 0 + (i 0).val; omega
    | ⟨1, _⟩ => by show (i 1).val = 0 + (i 1).val; omega)

-- %2 = stablehlo.concatenate %0, %1, dim = 1 : (tensor<64x1xi32>, tensor<64x50xi32>) -> tensor<64x51xi32>
def val_main_v2 (x0 : (⟨S64x51, .i32⟩ : BufTy).Contents (Elt F)) : (⟨S64x51, .i32⟩ : BufTy).Contents (Elt F) :=
  concatenate S64x51 1 [⟨S64x1, (val_main_v0 (F := F))⟩, ⟨S64x50, (val_main_v1 (F := F) x0)⟩] concatenates_S64x1_S64x50_S64x51_d1

-- %c_0 = stablehlo.constant dense<0> : tensor<i32>
def val_main_c_0 : (⟨S_, .i32⟩ : BufTy).Contents (Elt F) :=
  constantI S_ 32 0#32
theorem val_main_c_0_apply (i : S_.Idx) :
    val_main_c_0 (F := F) i = 0#32 := rfl

-- %3 = stablehlo.broadcast_in_dim %c_0, dims = [] : (tensor<i32>) -> tensor<64x51xi32>
def val_main_v3 : (⟨S64x51, .i32⟩ : BufTy).Contents (Elt F) :=
  broadcastInDim S64x51 ![] bcast_S_S64x51 (val_main_c_0 (F := F))
abbrev idx_main_v3 (i : S64x51.Idx) : S_.Idx := fun a => a.elim0
theorem val_main_v3_apply (i : S64x51.Idx) :
    val_main_v3 (F := F) i = val_main_c_0 (F := F) (idx_main_v3 i) := by
  unfold val_main_v3
  generalize val_main_c_0 (F := F) = y
  exact broadcastInDim_apply _ bcast_S_S64x51 y i (idx_main_v3 i) (fun a => a.elim0)

-- %4 = stablehlo.compare LT, %2, %3, SIGNED : (tensor<64x51xi32>, tensor<64x51xi32>) -> tensor<64x51xi1>
def val_main_v4 (x0 : (⟨S64x51, .i32⟩ : BufTy).Contents (Elt F)) : (⟨S64x51, .i1⟩ : BufTy).Contents (Elt F) :=
  cmpi .slt (val_main_v2 (F := F) x0) (val_main_v3 (F := F))
theorem val_main_v4_apply (x0 : (⟨S64x51, .i32⟩ : BufTy).Contents (Elt F)) (i : S64x51.Idx) :
    val_main_v4 (F := F) x0 i = IntOp.cmpi .slt (val_main_v2 (F := F) x0 i) (val_main_v3 (F := F) i) := rfl

-- %c_1 = stablehlo.constant dense<32000> : tensor<i32>
def val_main_c_1 : (⟨S_, .i32⟩ : BufTy).Contents (Elt F) :=
  constantI S_ 32 32000#32
theorem val_main_c_1_apply (i : S_.Idx) :
    val_main_c_1 (F := F) i = 32000#32 := rfl

-- %5 = stablehlo.broadcast_in_dim %c_1, dims = [] : (tensor<i32>) -> tensor<64x51xi32>
def val_main_v5 : (⟨S64x51, .i32⟩ : BufTy).Contents (Elt F) :=
  broadcastInDim S64x51 ![] bcast_S_S64x51 (val_main_c_1 (F := F))
abbrev idx_main_v5 (i : S64x51.Idx) : S_.Idx := fun a => a.elim0
theorem val_main_v5_apply (i : S64x51.Idx) :
    val_main_v5 (F := F) i = val_main_c_1 (F := F) (idx_main_v5 i) := by
  unfold val_main_v5
  generalize val_main_c_1 (F := F) = y
  exact broadcastInDim_apply _ bcast_S_S64x51 y i (idx_main_v5 i) (fun a => a.elim0)

-- %6 = stablehlo.add %2, %5 : tensor<64x51xi32>
def val_main_v6 (x0 : (⟨S64x51, .i32⟩ : BufTy).Contents (Elt F)) : (⟨S64x51, .i32⟩ : BufTy).Contents (Elt F) :=
  addi (val_main_v2 (F := F) x0) (val_main_v5 (F := F))
theorem val_main_v6_apply (x0 : (⟨S64x51, .i32⟩ : BufTy).Contents (Elt F)) (i : S64x51.Idx) :
    val_main_v6 (F := F) x0 i = IntOp.addi (val_main_v2 (F := F) x0 i) (val_main_v5 (F := F) i) := rfl

-- %7 = stablehlo.select %4, %6, %2 : tensor<64x51xi1>, tensor<64x51xi32>
def val_main_v7 (x0 : (⟨S64x51, .i32⟩ : BufTy).Contents (Elt F)) : (⟨S64x51, .i32⟩ : BufTy).Contents (Elt F) :=
  select (val_main_v4 (F := F) x0) (val_main_v6 (F := F) x0) (val_main_v2 (F := F) x0)
theorem val_main_v7_apply (x0 : (⟨S64x51, .i32⟩ : BufTy).Contents (Elt F)) (i : S64x51.Idx) :
    val_main_v7 (F := F) x0 i = Scalar.select (val_main_v4 (F := F) x0 i) (val_main_v6 (F := F) x0 i) (val_main_v2 (F := F) x0 i) := rfl

-- %8 = stablehlo.broadcast_in_dim %7, dims = [0, 1] : (tensor<64x51xi32>) -> tensor<64x51x1xi32>
def val_main_v8 (x0 : (⟨S64x51, .i32⟩ : BufTy).Contents (Elt F)) : (⟨S64x51x1, .i32⟩ : BufTy).Contents (Elt F) :=
  broadcastInDim S64x51x1 ![0, 1] bcast_S64x51_S64x51x1_0_1 (val_main_v7 (F := F) x0)
abbrev idx_main_v8 (i : S64x51x1.Idx) : S64x51.Idx := fun a => match a with
  | ⟨0, _⟩ => ⟨(i 0).val, (i 0).isLt⟩
  | ⟨1, _⟩ => ⟨(i 1).val, (i 1).isLt⟩
theorem val_main_v8_apply (x0 : (⟨S64x51, .i32⟩ : BufTy).Contents (Elt F)) (i : S64x51x1.Idx) :
    val_main_v8 (F := F) x0 i = val_main_v7 (F := F) x0 (idx_main_v8 i) := by
  unfold val_main_v8
  generalize val_main_v7 (F := F) x0 = y
  exact broadcastInDim_apply _ bcast_S64x51_S64x51x1_0_1 y i (idx_main_v8 i) (fun a => match a with
    | ⟨0, _⟩ => by show (i 0).val = if (64 : Nat) = 1 then 0 else (i 0).val; rw [if_neg (by decide)]
    | ⟨1, _⟩ => by show (i 1).val = if (51 : Nat) = 1 then 0 else (i 1).val; rw [if_neg (by decide)])

-- %9 = "stablehlo.gather"(%arg3, %8) <{dimension_numbers = #stablehlo.gather<offset_dims = [2], collapsed_slice_dims = [0], start_index_map = [0], index_vector_dim = 2>, indices_are_sorted = false, slice_sizes = array<i64: 1, 256>}> : (tensor<32000x256xf32>, tensor<64x51x1xi32>) -> tensor<64x51x256xf32>
def val_main_v9 (x0 : (⟨S64x51, .i32⟩ : BufTy).Contents (Elt F)) (x3 : (⟨S32000x256, .f32⟩ : BufTy).Contents (Elt F)) : (⟨S64x51x256, .f32⟩ : BufTy).Contents (Elt F) :=
  Host.gather gather_S32000x256_S64x51x1_S64x51x256_2_0_n_n_0_2_1256 (x3) (val_main_v8 (F := F) x0)

-- %10 = stablehlo.dot_general %9, %arg4, contracting_dims = [2] x [1], precision = [DEFAULT, DEFAULT] : (tensor<64x51x256xf32>, tensor<1536x256xf32>) -> tensor<64x51x1536xf32>
def val_main_v10 (x0 : (⟨S64x51, .i32⟩ : BufTy).Contents (Elt F)) (x3 : (⟨S32000x256, .f32⟩ : BufTy).Contents (Elt F)) (x4 : (⟨S1536x256, .f32⟩ : BufTy).Contents (Elt F)) : (⟨S64x51x1536, .f32⟩ : BufTy).Contents (Elt F) :=
  Host.dotGeneral dot_S64x51x256_S1536x256_S64x51x1536_2_1_01_0_n_n none (val_main_v9 (F := F) x0 x3) (x4)
theorem lhs_main_v10_0 (i : S64x51x1536.Idx) (q : dot_S64x51x256_S1536x256_S64x51x1536_2_1_01_0_n_n.contr.Idx) :
    (dot_S64x51x256_S1536x256_S64x51x1536_2_1_01_0_n_n.lhsIdx i q 0).val = (i 0).val := by
  unfold DotDims.lhsIdx
  rw [dif_neg (show ¬(0 : Fin S64x51x256.rank) ∈ dot_S64x51x256_S1536x256_S64x51x1536_2_1_01_0_n_n.lhsBatch by decide), dif_pos (show (0 : Fin S64x51x256.rank) ∈ dot_S64x51x256_S1536x256_S64x51x1536_2_1_01_0_n_n.lhsNonContracting by decide)]
  rfl
theorem lhs_main_v10_1 (i : S64x51x1536.Idx) (q : dot_S64x51x256_S1536x256_S64x51x1536_2_1_01_0_n_n.contr.Idx) :
    (dot_S64x51x256_S1536x256_S64x51x1536_2_1_01_0_n_n.lhsIdx i q 1).val = (i 1).val := by
  unfold DotDims.lhsIdx
  rw [dif_neg (show ¬(1 : Fin S64x51x256.rank) ∈ dot_S64x51x256_S1536x256_S64x51x1536_2_1_01_0_n_n.lhsBatch by decide), dif_pos (show (1 : Fin S64x51x256.rank) ∈ dot_S64x51x256_S1536x256_S64x51x1536_2_1_01_0_n_n.lhsNonContracting by decide)]
  rfl
theorem lhs_main_v10_2 (i : S64x51x1536.Idx) (q : dot_S64x51x256_S1536x256_S64x51x1536_2_1_01_0_n_n.contr.Idx) :
    (dot_S64x51x256_S1536x256_S64x51x1536_2_1_01_0_n_n.lhsIdx i q 2).val = (q ⟨0, by decide⟩).val :=
  dot_S64x51x256_S1536x256_S64x51x1536_2_1_01_0_n_n.lhsIdx_val_of_single rfl i q
theorem rhs_main_v10_0 (i : S64x51x1536.Idx) (q : dot_S64x51x256_S1536x256_S64x51x1536_2_1_01_0_n_n.contr.Idx) :
    (dot_S64x51x256_S1536x256_S64x51x1536_2_1_01_0_n_n.rhsIdx i q 0).val = (i 2).val := by
  unfold DotDims.rhsIdx
  rw [dif_neg (show ¬(0 : Fin S1536x256.rank) ∈ dot_S64x51x256_S1536x256_S64x51x1536_2_1_01_0_n_n.rhsBatch by decide), dif_pos (show (0 : Fin S1536x256.rank) ∈ dot_S64x51x256_S1536x256_S64x51x1536_2_1_01_0_n_n.rhsNonContracting by decide)]
  rfl
theorem rhs_main_v10_1 (i : S64x51x1536.Idx) (q : dot_S64x51x256_S1536x256_S64x51x1536_2_1_01_0_n_n.contr.Idx) :
    (dot_S64x51x256_S1536x256_S64x51x1536_2_1_01_0_n_n.rhsIdx i q 1).val = (q ⟨0, by decide⟩).val :=
  dot_S64x51x256_S1536x256_S64x51x1536_2_1_01_0_n_n.rhsIdx_val_of_single rfl i q
abbrev lidx_main_v10 (i : S64x51x1536.Idx) (k : Fin 256) : S64x51x256.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v10 (i : S64x51x1536.Idx) (k : Fin 256) : S1536x256.Idx := fun a => match a with
  | ⟨0, _⟩ => ⟨(i 2).val, (i 2).isLt⟩
  | ⟨1, _⟩ => ⟨k.val, k.isLt⟩
/-- Stated at `F := Ideal`, where the host's `dot_general` is this sum; at a bit-exact instance it is an opaque function of its operands. -/
theorem val_main_v10_apply (x0 : (⟨S64x51, .i32⟩ : BufTy).Contents (Elt Ideal)) (x3 : (⟨S32000x256, .f32⟩ : BufTy).Contents (Elt Ideal)) (x4 : (⟨S1536x256, .f32⟩ : BufTy).Contents (Elt Ideal)) (i : S64x51x1536.Idx) :
    val_main_v10 (F := Ideal) x0 x3 x4 i = ∑ k : Fin 256, (val_main_v9 (F := Ideal) x0 x3) (lidx_main_v10 i k) * x4 (ridx_main_v10 i k) := by
  unfold val_main_v10
  generalize val_main_v9 (F := Ideal) x0 x3 = y0
  simp only [Host.dotGeneral]
  rw [Ideal.dotGeneral_apply, ← Equiv.sum_comp (ValueIdx.contrEquiv1 dot_S64x51x256_S1536x256_S64x51x1536_2_1_01_0_n_n 256 rfl rfl).symm]
  refine Finset.sum_congr rfl fun k _ => ?_
  have hk := ValueIdx.contrEquiv1_symm_val dot_S64x51x256_S1536x256_S64x51x1536_2_1_01_0_n_n 256 rfl rfl k
  have el : dot_S64x51x256_S1536x256_S64x51x1536_2_1_01_0_n_n.lhsIdx i ((ValueIdx.contrEquiv1 dot_S64x51x256_S1536x256_S64x51x1536_2_1_01_0_n_n 256 rfl rfl).symm k) = lidx_main_v10 i k := funext fun a => Fin.ext (by
    match a with
    | ⟨0, _⟩ => exact lhs_main_v10_0 _ _
    | ⟨1, _⟩ => exact lhs_main_v10_1 _ _
    | ⟨2, _⟩ => exact (lhs_main_v10_2 _ _).trans hk)
  have er : dot_S64x51x256_S1536x256_S64x51x1536_2_1_01_0_n_n.rhsIdx i ((ValueIdx.contrEquiv1 dot_S64x51x256_S1536x256_S64x51x1536_2_1_01_0_n_n 256 rfl rfl).symm k) = ridx_main_v10 i k := funext fun a => Fin.ext (by
    match a with
    | ⟨0, _⟩ => exact rhs_main_v10_0 _ _
    | ⟨1, _⟩ => exact (rhs_main_v10_1 _ _).trans hk)
  rw [el, er]

-- %11 = stablehlo.broadcast_in_dim %arg6, dims = [2] : (tensor<1536xf32>) -> tensor<1x1x1536xf32>
def val_main_v11 (x6 : (⟨S1536, .f32⟩ : BufTy).Contents (Elt F)) : (⟨S1x1x1536, .f32⟩ : BufTy).Contents (Elt F) :=
  broadcastInDim S1x1x1536 ![2] bcast_S1536_S1x1x1536_2 (x6)
abbrev idx_main_v11 (i : S1x1x1536.Idx) : S1536.Idx := fun a => match a with
  | ⟨0, _⟩ => ⟨(i 2).val, (i 2).isLt⟩
theorem val_main_v11_apply (x6 : (⟨S1536, .f32⟩ : BufTy).Contents (Elt F)) (i : S1x1x1536.Idx) :
    val_main_v11 (F := F) x6 i = x6 (idx_main_v11 i) := by
  unfold val_main_v11
  exact broadcastInDim_apply _ bcast_S1536_S1x1x1536_2 x6 i (idx_main_v11 i) (fun a => match a with
    | ⟨0, _⟩ => by show (i 2).val = if (1536 : Nat) = 1 then 0 else (i 2).val; rw [if_neg (by decide)])

-- %12 = stablehlo.broadcast_in_dim %11, dims = [0, 1, 2] : (tensor<1x1x1536xf32>) -> tensor<64x51x1536xf32>
def val_main_v12 (x6 : (⟨S1536, .f32⟩ : BufTy).Contents (Elt F)) : (⟨S64x51x1536, .f32⟩ : BufTy).Contents (Elt F) :=
  broadcastInDim S64x51x1536 ![0, 1, 2] bcast_S1x1x1536_S64x51x1536_0_1_2 (val_main_v11 (F := F) x6)
abbrev idx_main_v12 (i : S64x51x1536.Idx) : S1x1x1536.Idx := fun a => match a with
  | ⟨0, _⟩ => ⟨0, Nat.one_pos⟩
  | ⟨1, _⟩ => ⟨0, Nat.one_pos⟩
  | ⟨2, _⟩ => ⟨(i 2).val, (i 2).isLt⟩
theorem val_main_v12_apply (x6 : (⟨S1536, .f32⟩ : BufTy).Contents (Elt F)) (i : S64x51x1536.Idx) :
    val_main_v12 (F := F) x6 i = val_main_v11 (F := F) x6 (idx_main_v12 i) := by
  unfold val_main_v12
  generalize val_main_v11 (F := F) x6 = y
  exact broadcastInDim_apply _ bcast_S1x1x1536_S64x51x1536_0_1_2 y i (idx_main_v12 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (1536 : Nat) = 1 then 0 else (i 2).val; rw [if_neg (by decide)])

-- %13 = stablehlo.add %10, %12 : tensor<64x51x1536xf32>
def val_main_v13 (x0 : (⟨S64x51, .i32⟩ : BufTy).Contents (Elt F)) (x3 : (⟨S32000x256, .f32⟩ : BufTy).Contents (Elt F)) (x4 : (⟨S1536x256, .f32⟩ : BufTy).Contents (Elt F)) (x6 : (⟨S1536, .f32⟩ : BufTy).Contents (Elt F)) : (⟨S64x51x1536, .f32⟩ : BufTy).Contents (Elt F) :=
  addf (val_main_v10 (F := F) x0 x3 x4) (val_main_v12 (F := F) x6)
theorem val_main_v13_apply (x0 : (⟨S64x51, .i32⟩ : BufTy).Contents (Elt F)) (x3 : (⟨S32000x256, .f32⟩ : BufTy).Contents (Elt F)) (x4 : (⟨S1536x256, .f32⟩ : BufTy).Contents (Elt F)) (x6 : (⟨S1536, .f32⟩ : BufTy).Contents (Elt F)) (i : S64x51x1536.Idx) :
    val_main_v13 (F := F) x0 x3 x4 x6 i = FloatOps.addf (val_main_v10 (F := F) x0 x3 x4 i) (val_main_v12 (F := F) x6 i) := rfl

-- %14 = stablehlo.slice %13 [0:64, 0:51, 0:512] : (tensor<64x51x1536xf32>) -> tensor<64x51x512xf32>
def val_main_v14 (x0 : (⟨S64x51, .i32⟩ : BufTy).Contents (Elt F)) (x3 : (⟨S32000x256, .f32⟩ : BufTy).Contents (Elt F)) (x4 : (⟨S1536x256, .f32⟩ : BufTy).Contents (Elt F)) (x6 : (⟨S1536, .f32⟩ : BufTy).Contents (Elt F)) : (⟨S64x51x512, .f32⟩ : BufTy).Contents (Elt F) :=
  extractStridedSlice S64x51x512 ![0, 0, 0] (val_main_v13 (F := F) x0 x3 x4 x6) slices_S64x51x1536_S64x51x512_0_0_0
abbrev idx_main_v14 (i : S64x51x512.Idx) : S64x51x1536.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 512 := (i 2).isLt; show (i 2).val < 1536; omega⟩
theorem val_main_v14_apply (x0 : (⟨S64x51, .i32⟩ : BufTy).Contents (Elt F)) (x3 : (⟨S32000x256, .f32⟩ : BufTy).Contents (Elt F)) (x4 : (⟨S1536x256, .f32⟩ : BufTy).Contents (Elt F)) (x6 : (⟨S1536, .f32⟩ : BufTy).Contents (Elt F)) (i : S64x51x512.Idx) :
    val_main_v14 (F := F) x0 x3 x4 x6 i = val_main_v13 (F := F) x0 x3 x4 x6 (idx_main_v14 i) := by
  unfold val_main_v14
  generalize val_main_v13 (F := F) x0 x3 x4 x6 = y
  exact extractStridedSlice_apply ![0, 0, 0] y slices_S64x51x1536_S64x51x512_0_0_0 i (idx_main_v14 i) (fun a => match a with
    | ⟨0, _⟩ => by show (i 0).val = 0 + (i 0).val; omega
    | ⟨1, _⟩ => by show (i 1).val = 0 + (i 1).val; omega
    | ⟨2, _⟩ => by show (i 2).val = 0 + (i 2).val; omega)

-- %15 = stablehlo.slice %arg7 [0:512] : (tensor<1536xf32>) -> tensor<512xf32>
def val_main_v15 (x7 : (⟨S1536, .f32⟩ : BufTy).Contents (Elt F)) : (⟨S512, .f32⟩ : BufTy).Contents (Elt F) :=
  extractStridedSlice S512 ![0] (x7) slices_S1536_S512_0
abbrev idx_main_v15 (i : S512.Idx) : S1536.Idx := fun a => match a with
  | ⟨0, _⟩ => ⟨(i 0).val, by have h0 : (i 0).val < 512 := (i 0).isLt; show (i 0).val < 1536; omega⟩
theorem val_main_v15_apply (x7 : (⟨S1536, .f32⟩ : BufTy).Contents (Elt F)) (i : S512.Idx) :
    val_main_v15 (F := F) x7 i = x7 (idx_main_v15 i) := by
  unfold val_main_v15
  exact extractStridedSlice_apply ![0] x7 slices_S1536_S512_0 i (idx_main_v15 i) (fun a => match a with
    | ⟨0, _⟩ => by show (i 0).val = 0 + (i 0).val; omega)

-- %16 = stablehlo.broadcast_in_dim %15, dims = [2] : (tensor<512xf32>) -> tensor<1x1x512xf32>
def val_main_v16 (x7 : (⟨S1536, .f32⟩ : BufTy).Contents (Elt F)) : (⟨S1x1x512, .f32⟩ : BufTy).Contents (Elt F) :=
  broadcastInDim S1x1x512 ![2] bcast_S512_S1x1x512_2 (val_main_v15 (F := F) x7)
abbrev idx_main_v16 (i : S1x1x512.Idx) : S512.Idx := fun a => match a with
  | ⟨0, _⟩ => ⟨(i 2).val, (i 2).isLt⟩
theorem val_main_v16_apply (x7 : (⟨S1536, .f32⟩ : BufTy).Contents (Elt F)) (i : S1x1x512.Idx) :
    val_main_v16 (F := F) x7 i = val_main_v15 (F := F) x7 (idx_main_v16 i) := by
  unfold val_main_v16
  generalize val_main_v15 (F := F) x7 = y
  exact broadcastInDim_apply _ bcast_S512_S1x1x512_2 y i (idx_main_v16 i) (fun a => match a with
    | ⟨0, _⟩ => by show (i 2).val = if (512 : Nat) = 1 then 0 else (i 2).val; rw [if_neg (by decide)])

-- %17 = stablehlo.broadcast_in_dim %16, dims = [0, 1, 2] : (tensor<1x1x512xf32>) -> tensor<64x51x512xf32>
def val_main_v17 (x7 : (⟨S1536, .f32⟩ : BufTy).Contents (Elt F)) : (⟨S64x51x512, .f32⟩ : BufTy).Contents (Elt F) :=
  broadcastInDim S64x51x512 ![0, 1, 2] bcast_S1x1x512_S64x51x512_0_1_2 (val_main_v16 (F := F) x7)
abbrev idx_main_v17 (i : S64x51x512.Idx) : S1x1x512.Idx := fun a => match a with
  | ⟨0, _⟩ => ⟨0, Nat.one_pos⟩
  | ⟨1, _⟩ => ⟨0, Nat.one_pos⟩
  | ⟨2, _⟩ => ⟨(i 2).val, (i 2).isLt⟩
theorem val_main_v17_apply (x7 : (⟨S1536, .f32⟩ : BufTy).Contents (Elt F)) (i : S64x51x512.Idx) :
    val_main_v17 (F := F) x7 i = val_main_v16 (F := F) x7 (idx_main_v17 i) := by
  unfold val_main_v17
  generalize val_main_v16 (F := F) x7 = y
  exact broadcastInDim_apply _ bcast_S1x1x512_S64x51x512_0_1_2 y i (idx_main_v17 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (512 : Nat) = 1 then 0 else (i 2).val; rw [if_neg (by decide)])

-- %18 = stablehlo.add %14, %17 : tensor<64x51x512xf32>
def val_main_v18 (x0 : (⟨S64x51, .i32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) : (⟨S64x51x512, .f32⟩ : BufTy).Contents (Elt F) :=
  addf (val_main_v14 (F := F) x0 x3 x4 x6) (val_main_v17 (F := F) x7)
theorem val_main_v18_apply (x0 : (⟨S64x51, .i32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (i : S64x51x512.Idx) :
    val_main_v18 (F := F) x0 x3 x4 x6 x7 i = FloatOps.addf (val_main_v14 (F := F) x0 x3 x4 x6 i) (val_main_v17 (F := F) x7 i) := rfl

-- %19 = stablehlo.negate %18 : tensor<64x51x512xf32>
def val_main_v19 (x0 : (⟨S64x51, .i32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) : (⟨S64x51x512, .f32⟩ : BufTy).Contents (Elt F) :=
  Host.negf (val_main_v18 (F := F) x0 x3 x4 x6 x7)
theorem val_main_v19_apply (x0 : (⟨S64x51, .i32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (i : S64x51x512.Idx) :
    val_main_v19 (F := F) x0 x3 x4 x6 x7 i = FloatOps.hostNegf (val_main_v18 (F := F) x0 x3 x4 x6 x7 i) := rfl

-- %20 = stablehlo.exponential %19 : tensor<64x51x512xf32>
def val_main_v20 (x0 : (⟨S64x51, .i32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) : (⟨S64x51x512, .f32⟩ : BufTy).Contents (Elt F) :=
  Host.exp (val_main_v19 (F := F) x0 x3 x4 x6 x7)
theorem val_main_v20_apply (x0 : (⟨S64x51, .i32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (i : S64x51x512.Idx) :
    val_main_v20 (F := F) x0 x3 x4 x6 x7 i = FloatOps.hostUnary .exp (val_main_v19 (F := F) x0 x3 x4 x6 x7 i) := rfl

-- %cst = stablehlo.constant dense<1.000000e+00> : tensor<f32>
def val_main_cst : (⟨S_, .f32⟩ : BufTy).Contents (Elt F) :=
  constant S_ .f32 0x3F800000#32
theorem val_main_cst_apply (i : S_.Idx) :
    val_main_cst (F := F) i = FloatOps.ofBits .f32 0x3F800000#32 := rfl

-- %21 = stablehlo.broadcast_in_dim %cst, dims = [] : (tensor<f32>) -> tensor<64x51x512xf32>
def val_main_v21 : (⟨S64x51x512, .f32⟩ : BufTy).Contents (Elt F) :=
  broadcastInDim S64x51x512 ![] bcast_S_S64x51x512 (val_main_cst (F := F))
abbrev idx_main_v21 (i : S64x51x512.Idx) : S_.Idx := fun a => a.elim0
theorem val_main_v21_apply (i : S64x51x512.Idx) :
    val_main_v21 (F := F) i = val_main_cst (F := F) (idx_main_v21 i) := by
  unfold val_main_v21
  generalize val_main_cst (F := F) = y
  exact broadcastInDim_apply _ bcast_S_S64x51x512 y i (idx_main_v21 i) (fun a => a.elim0)

-- %22 = stablehlo.add %21, %20 : tensor<64x51x512xf32>
def val_main_v22 (x0 : (⟨S64x51, .i32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) : (⟨S64x51x512, .f32⟩ : BufTy).Contents (Elt F) :=
  addf (val_main_v21 (F := F)) (val_main_v20 (F := F) x0 x3 x4 x6 x7)
theorem val_main_v22_apply (x0 : (⟨S64x51, .i32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (i : S64x51x512.Idx) :
    val_main_v22 (F := F) x0 x3 x4 x6 x7 i = FloatOps.addf (val_main_v21 (F := F) i) (val_main_v20 (F := F) x0 x3 x4 x6 x7 i) := rfl

-- %cst_2 = stablehlo.constant dense<1.000000e+00> : tensor<f32>
def val_main_cst_2 : (⟨S_, .f32⟩ : BufTy).Contents (Elt F) :=
  constant S_ .f32 0x3F800000#32
theorem val_main_cst_2_apply (i : S_.Idx) :
    val_main_cst_2 (F := F) i = FloatOps.ofBits .f32 0x3F800000#32 := rfl

-- %23 = stablehlo.broadcast_in_dim %cst_2, dims = [] : (tensor<f32>) -> tensor<64x51x512xf32>
def val_main_v23 : (⟨S64x51x512, .f32⟩ : BufTy).Contents (Elt F) :=
  broadcastInDim S64x51x512 ![] bcast_S_S64x51x512 (val_main_cst_2 (F := F))
abbrev idx_main_v23 (i : S64x51x512.Idx) : S_.Idx := fun a => a.elim0
theorem val_main_v23_apply (i : S64x51x512.Idx) :
    val_main_v23 (F := F) i = val_main_cst_2 (F := F) (idx_main_v23 i) := by
  unfold val_main_v23
  generalize val_main_cst_2 (F := F) = y
  exact broadcastInDim_apply _ bcast_S_S64x51x512 y i (idx_main_v23 i) (fun a => a.elim0)

-- %24 = stablehlo.divide %23, %22 : tensor<64x51x512xf32>
def val_main_v24 (x0 : (⟨S64x51, .i32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) : (⟨S64x51x512, .f32⟩ : BufTy).Contents (Elt F) :=
  Host.divf (val_main_v23 (F := F)) (val_main_v22 (F := F) x0 x3 x4 x6 x7)
theorem val_main_v24_apply (x0 : (⟨S64x51, .i32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (i : S64x51x512.Idx) :
    val_main_v24 (F := F) x0 x3 x4 x6 x7 i = FloatOps.hostDivf (val_main_v23 (F := F) i) (val_main_v22 (F := F) x0 x3 x4 x6 x7 i) := rfl

-- %25 = stablehlo.slice %13 [0:64, 0:51, 512:1024] : (tensor<64x51x1536xf32>) -> tensor<64x51x512xf32>
def val_main_v25 (x0 : (⟨S64x51, .i32⟩ : BufTy).Contents (Elt F)) (x3 : (⟨S32000x256, .f32⟩ : BufTy).Contents (Elt F)) (x4 : (⟨S1536x256, .f32⟩ : BufTy).Contents (Elt F)) (x6 : (⟨S1536, .f32⟩ : BufTy).Contents (Elt F)) : (⟨S64x51x512, .f32⟩ : BufTy).Contents (Elt F) :=
  extractStridedSlice S64x51x512 ![0, 0, 512] (val_main_v13 (F := F) x0 x3 x4 x6) slices_S64x51x1536_S64x51x512_0_0_512
abbrev idx_main_v25 (i : S64x51x512.Idx) : S64x51x1536.Idx := fun a => match a with
  | ⟨0, _⟩ => ⟨(i 0).val, (i 0).isLt⟩
  | ⟨1, _⟩ => ⟨(i 1).val, (i 1).isLt⟩
  | ⟨2, _⟩ => ⟨512 + (i 2).val, by have h2 : (i 2).val < 512 := (i 2).isLt; show 512 + (i 2).val < 1536; omega⟩
theorem val_main_v25_apply (x0 : (⟨S64x51, .i32⟩ : BufTy).Contents (Elt F)) (x3 : (⟨S32000x256, .f32⟩ : BufTy).Contents (Elt F)) (x4 : (⟨S1536x256, .f32⟩ : BufTy).Contents (Elt F)) (x6 : (⟨S1536, .f32⟩ : BufTy).Contents (Elt F)) (i : S64x51x512.Idx) :
    val_main_v25 (F := F) x0 x3 x4 x6 i = val_main_v13 (F := F) x0 x3 x4 x6 (idx_main_v25 i) := by
  unfold val_main_v25
  generalize val_main_v13 (F := F) x0 x3 x4 x6 = y
  exact extractStridedSlice_apply ![0, 0, 512] y slices_S64x51x1536_S64x51x512_0_0_512 i (idx_main_v25 i) (fun a => match a with
    | ⟨0, _⟩ => by show (i 0).val = 0 + (i 0).val; omega
    | ⟨1, _⟩ => by show (i 1).val = 0 + (i 1).val; omega
    | ⟨2, _⟩ => by show 512 + (i 2).val = 512 + (i 2).val; omega)

-- %26 = stablehlo.slice %arg7 [512:1024] : (tensor<1536xf32>) -> tensor<512xf32>
def val_main_v26 (x7 : (⟨S1536, .f32⟩ : BufTy).Contents (Elt F)) : (⟨S512, .f32⟩ : BufTy).Contents (Elt F) :=
  extractStridedSlice S512 ![512] (x7) slices_S1536_S512_512
abbrev idx_main_v26 (i : S512.Idx) : S1536.Idx := fun a => match a with
  | ⟨0, _⟩ => ⟨512 + (i 0).val, by have h0 : (i 0).val < 512 := (i 0).isLt; show 512 + (i 0).val < 1536; omega⟩
theorem val_main_v26_apply (x7 : (⟨S1536, .f32⟩ : BufTy).Contents (Elt F)) (i : S512.Idx) :
    val_main_v26 (F := F) x7 i = x7 (idx_main_v26 i) := by
  unfold val_main_v26
  exact extractStridedSlice_apply ![512] x7 slices_S1536_S512_512 i (idx_main_v26 i) (fun a => match a with
    | ⟨0, _⟩ => by show 512 + (i 0).val = 512 + (i 0).val; omega)

-- %27 = stablehlo.broadcast_in_dim %26, dims = [2] : (tensor<512xf32>) -> tensor<1x1x512xf32>
def val_main_v27 (x7 : (⟨S1536, .f32⟩ : BufTy).Contents (Elt F)) : (⟨S1x1x512, .f32⟩ : BufTy).Contents (Elt F) :=
  broadcastInDim S1x1x512 ![2] bcast_S512_S1x1x512_2 (val_main_v26 (F := F) x7)
abbrev idx_main_v27 (i : S1x1x512.Idx) : S512.Idx := fun a => match a with
  | ⟨0, _⟩ => ⟨(i 2).val, (i 2).isLt⟩
theorem val_main_v27_apply (x7 : (⟨S1536, .f32⟩ : BufTy).Contents (Elt F)) (i : S1x1x512.Idx) :
    val_main_v27 (F := F) x7 i = val_main_v26 (F := F) x7 (idx_main_v27 i) := by
  unfold val_main_v27
  generalize val_main_v26 (F := F) x7 = y
  exact broadcastInDim_apply _ bcast_S512_S1x1x512_2 y i (idx_main_v27 i) (fun a => match a with
    | ⟨0, _⟩ => by show (i 2).val = if (512 : Nat) = 1 then 0 else (i 2).val; rw [if_neg (by decide)])

-- %28 = stablehlo.broadcast_in_dim %27, dims = [0, 1, 2] : (tensor<1x1x512xf32>) -> tensor<64x51x512xf32>
def val_main_v28 (x7 : (⟨S1536, .f32⟩ : BufTy).Contents (Elt F)) : (⟨S64x51x512, .f32⟩ : BufTy).Contents (Elt F) :=
  broadcastInDim S64x51x512 ![0, 1, 2] bcast_S1x1x512_S64x51x512_0_1_2 (val_main_v27 (F := F) x7)
abbrev idx_main_v28 (i : S64x51x512.Idx) : S1x1x512.Idx := fun a => match a with
  | ⟨0, _⟩ => ⟨0, Nat.one_pos⟩
  | ⟨1, _⟩ => ⟨0, Nat.one_pos⟩
  | ⟨2, _⟩ => ⟨(i 2).val, (i 2).isLt⟩
theorem val_main_v28_apply (x7 : (⟨S1536, .f32⟩ : BufTy).Contents (Elt F)) (i : S64x51x512.Idx) :
    val_main_v28 (F := F) x7 i = val_main_v27 (F := F) x7 (idx_main_v28 i) := by
  unfold val_main_v28
  generalize val_main_v27 (F := F) x7 = y
  exact broadcastInDim_apply _ bcast_S1x1x512_S64x51x512_0_1_2 y i (idx_main_v28 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (512 : Nat) = 1 then 0 else (i 2).val; rw [if_neg (by decide)])

-- %29 = stablehlo.add %25, %28 : tensor<64x51x512xf32>
def val_main_v29 (x0 : (⟨S64x51, .i32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) : (⟨S64x51x512, .f32⟩ : BufTy).Contents (Elt F) :=
  addf (val_main_v25 (F := F) x0 x3 x4 x6) (val_main_v28 (F := F) x7)
theorem val_main_v29_apply (x0 : (⟨S64x51, .i32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (i : S64x51x512.Idx) :
    val_main_v29 (F := F) x0 x3 x4 x6 x7 i = FloatOps.addf (val_main_v25 (F := F) x0 x3 x4 x6 i) (val_main_v28 (F := F) x7 i) := rfl

-- %30 = stablehlo.negate %29 : tensor<64x51x512xf32>
def val_main_v30 (x0 : (⟨S64x51, .i32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) : (⟨S64x51x512, .f32⟩ : BufTy).Contents (Elt F) :=
  Host.negf (val_main_v29 (F := F) x0 x3 x4 x6 x7)
theorem val_main_v30_apply (x0 : (⟨S64x51, .i32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (i : S64x51x512.Idx) :
    val_main_v30 (F := F) x0 x3 x4 x6 x7 i = FloatOps.hostNegf (val_main_v29 (F := F) x0 x3 x4 x6 x7 i) := rfl

-- %31 = stablehlo.exponential %30 : tensor<64x51x512xf32>
def val_main_v31 (x0 : (⟨S64x51, .i32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) : (⟨S64x51x512, .f32⟩ : BufTy).Contents (Elt F) :=
  Host.exp (val_main_v30 (F := F) x0 x3 x4 x6 x7)
theorem val_main_v31_apply (x0 : (⟨S64x51, .i32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (i : S64x51x512.Idx) :
    val_main_v31 (F := F) x0 x3 x4 x6 x7 i = FloatOps.hostUnary .exp (val_main_v30 (F := F) x0 x3 x4 x6 x7 i) := rfl

-- %cst_3 = stablehlo.constant dense<1.000000e+00> : tensor<f32>
def val_main_cst_3 : (⟨S_, .f32⟩ : BufTy).Contents (Elt F) :=
  constant S_ .f32 0x3F800000#32
theorem val_main_cst_3_apply (i : S_.Idx) :
    val_main_cst_3 (F := F) i = FloatOps.ofBits .f32 0x3F800000#32 := rfl

-- %32 = stablehlo.broadcast_in_dim %cst_3, dims = [] : (tensor<f32>) -> tensor<64x51x512xf32>
def val_main_v32 : (⟨S64x51x512, .f32⟩ : BufTy).Contents (Elt F) :=
  broadcastInDim S64x51x512 ![] bcast_S_S64x51x512 (val_main_cst_3 (F := F))
abbrev idx_main_v32 (i : S64x51x512.Idx) : S_.Idx := fun a => a.elim0
theorem val_main_v32_apply (i : S64x51x512.Idx) :
    val_main_v32 (F := F) i = val_main_cst_3 (F := F) (idx_main_v32 i) := by
  unfold val_main_v32
  generalize val_main_cst_3 (F := F) = y
  exact broadcastInDim_apply _ bcast_S_S64x51x512 y i (idx_main_v32 i) (fun a => a.elim0)

-- %33 = stablehlo.add %32, %31 : tensor<64x51x512xf32>
def val_main_v33 (x0 : (⟨S64x51, .i32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) : (⟨S64x51x512, .f32⟩ : BufTy).Contents (Elt F) :=
  addf (val_main_v32 (F := F)) (val_main_v31 (F := F) x0 x3 x4 x6 x7)
theorem val_main_v33_apply (x0 : (⟨S64x51, .i32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (i : S64x51x512.Idx) :
    val_main_v33 (F := F) x0 x3 x4 x6 x7 i = FloatOps.addf (val_main_v32 (F := F) i) (val_main_v31 (F := F) x0 x3 x4 x6 x7 i) := rfl

-- %cst_4 = stablehlo.constant dense<1.000000e+00> : tensor<f32>
def val_main_cst_4 : (⟨S_, .f32⟩ : BufTy).Contents (Elt F) :=
  constant S_ .f32 0x3F800000#32
theorem val_main_cst_4_apply (i : S_.Idx) :
    val_main_cst_4 (F := F) i = FloatOps.ofBits .f32 0x3F800000#32 := rfl

-- %34 = stablehlo.broadcast_in_dim %cst_4, dims = [] : (tensor<f32>) -> tensor<64x51x512xf32>
def val_main_v34 : (⟨S64x51x512, .f32⟩ : BufTy).Contents (Elt F) :=
  broadcastInDim S64x51x512 ![] bcast_S_S64x51x512 (val_main_cst_4 (F := F))
abbrev idx_main_v34 (i : S64x51x512.Idx) : S_.Idx := fun a => a.elim0
theorem val_main_v34_apply (i : S64x51x512.Idx) :
    val_main_v34 (F := F) i = val_main_cst_4 (F := F) (idx_main_v34 i) := by
  unfold val_main_v34
  generalize val_main_cst_4 (F := F) = y
  exact broadcastInDim_apply _ bcast_S_S64x51x512 y i (idx_main_v34 i) (fun a => a.elim0)

-- %35 = stablehlo.divide %34, %33 : tensor<64x51x512xf32>
def val_main_v35 (x0 : (⟨S64x51, .i32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) : (⟨S64x51x512, .f32⟩ : BufTy).Contents (Elt F) :=
  Host.divf (val_main_v34 (F := F)) (val_main_v33 (F := F) x0 x3 x4 x6 x7)
theorem val_main_v35_apply (x0 : (⟨S64x51, .i32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (i : S64x51x512.Idx) :
    val_main_v35 (F := F) x0 x3 x4 x6 x7 i = FloatOps.hostDivf (val_main_v34 (F := F) i) (val_main_v33 (F := F) x0 x3 x4 x6 x7 i) := rfl

-- %36 = stablehlo.slice %13 [0:64, 0:51, 1024:1536] : (tensor<64x51x1536xf32>) -> tensor<64x51x512xf32>
def val_main_v36 (x0 : (⟨S64x51, .i32⟩ : BufTy).Contents (Elt F)) (x3 : (⟨S32000x256, .f32⟩ : BufTy).Contents (Elt F)) (x4 : (⟨S1536x256, .f32⟩ : BufTy).Contents (Elt F)) (x6 : (⟨S1536, .f32⟩ : BufTy).Contents (Elt F)) : (⟨S64x51x512, .f32⟩ : BufTy).Contents (Elt F) :=
  extractStridedSlice S64x51x512 ![0, 0, 1024] (val_main_v13 (F := F) x0 x3 x4 x6) slices_S64x51x1536_S64x51x512_0_0_1024
abbrev idx_main_v36 (i : S64x51x512.Idx) : S64x51x1536.Idx := fun a => match a with
  | ⟨0, _⟩ => ⟨(i 0).val, (i 0).isLt⟩
  | ⟨1, _⟩ => ⟨(i 1).val, (i 1).isLt⟩
  | ⟨2, _⟩ => ⟨1024 + (i 2).val, by have h2 : (i 2).val < 512 := (i 2).isLt; show 1024 + (i 2).val < 1536; omega⟩
theorem val_main_v36_apply (x0 : (⟨S64x51, .i32⟩ : BufTy).Contents (Elt F)) (x3 : (⟨S32000x256, .f32⟩ : BufTy).Contents (Elt F)) (x4 : (⟨S1536x256, .f32⟩ : BufTy).Contents (Elt F)) (x6 : (⟨S1536, .f32⟩ : BufTy).Contents (Elt F)) (i : S64x51x512.Idx) :
    val_main_v36 (F := F) x0 x3 x4 x6 i = val_main_v13 (F := F) x0 x3 x4 x6 (idx_main_v36 i) := by
  unfold val_main_v36
  generalize val_main_v13 (F := F) x0 x3 x4 x6 = y
  exact extractStridedSlice_apply ![0, 0, 1024] y slices_S64x51x1536_S64x51x512_0_0_1024 i (idx_main_v36 i) (fun a => match a with
    | ⟨0, _⟩ => by show (i 0).val = 0 + (i 0).val; omega
    | ⟨1, _⟩ => by show (i 1).val = 0 + (i 1).val; omega
    | ⟨2, _⟩ => by show 1024 + (i 2).val = 1024 + (i 2).val; omega)

-- %37 = stablehlo.slice %arg7 [1024:1536] : (tensor<1536xf32>) -> tensor<512xf32>
def val_main_v37 (x7 : (⟨S1536, .f32⟩ : BufTy).Contents (Elt F)) : (⟨S512, .f32⟩ : BufTy).Contents (Elt F) :=
  extractStridedSlice S512 ![1024] (x7) slices_S1536_S512_1024
abbrev idx_main_v37 (i : S512.Idx) : S1536.Idx := fun a => match a with
  | ⟨0, _⟩ => ⟨1024 + (i 0).val, by have h0 : (i 0).val < 512 := (i 0).isLt; show 1024 + (i 0).val < 1536; omega⟩
theorem val_main_v37_apply (x7 : (⟨S1536, .f32⟩ : BufTy).Contents (Elt F)) (i : S512.Idx) :
    val_main_v37 (F := F) x7 i = x7 (idx_main_v37 i) := by
  unfold val_main_v37
  exact extractStridedSlice_apply ![1024] x7 slices_S1536_S512_1024 i (idx_main_v37 i) (fun a => match a with
    | ⟨0, _⟩ => by show 1024 + (i 0).val = 1024 + (i 0).val; omega)

-- %38 = stablehlo.broadcast_in_dim %37, dims = [2] : (tensor<512xf32>) -> tensor<1x1x512xf32>
def val_main_v38 (x7 : (⟨S1536, .f32⟩ : BufTy).Contents (Elt F)) : (⟨S1x1x512, .f32⟩ : BufTy).Contents (Elt F) :=
  broadcastInDim S1x1x512 ![2] bcast_S512_S1x1x512_2 (val_main_v37 (F := F) x7)
abbrev idx_main_v38 (i : S1x1x512.Idx) : S512.Idx := fun a => match a with
  | ⟨0, _⟩ => ⟨(i 2).val, (i 2).isLt⟩
theorem val_main_v38_apply (x7 : (⟨S1536, .f32⟩ : BufTy).Contents (Elt F)) (i : S1x1x512.Idx) :
    val_main_v38 (F := F) x7 i = val_main_v37 (F := F) x7 (idx_main_v38 i) := by
  unfold val_main_v38
  generalize val_main_v37 (F := F) x7 = y
  exact broadcastInDim_apply _ bcast_S512_S1x1x512_2 y i (idx_main_v38 i) (fun a => match a with
    | ⟨0, _⟩ => by show (i 2).val = if (512 : Nat) = 1 then 0 else (i 2).val; rw [if_neg (by decide)])

-- %39 = stablehlo.broadcast_in_dim %38, dims = [0, 1, 2] : (tensor<1x1x512xf32>) -> tensor<64x51x512xf32>
def val_main_v39 (x7 : (⟨S1536, .f32⟩ : BufTy).Contents (Elt F)) : (⟨S64x51x512, .f32⟩ : BufTy).Contents (Elt F) :=
  broadcastInDim S64x51x512 ![0, 1, 2] bcast_S1x1x512_S64x51x512_0_1_2 (val_main_v38 (F := F) x7)
abbrev idx_main_v39 (i : S64x51x512.Idx) : S1x1x512.Idx := fun a => match a with
  | ⟨0, _⟩ => ⟨0, Nat.one_pos⟩
  | ⟨1, _⟩ => ⟨0, Nat.one_pos⟩
  | ⟨2, _⟩ => ⟨(i 2).val, (i 2).isLt⟩
theorem val_main_v39_apply (x7 : (⟨S1536, .f32⟩ : BufTy).Contents (Elt F)) (i : S64x51x512.Idx) :
    val_main_v39 (F := F) x7 i = val_main_v38 (F := F) x7 (idx_main_v39 i) := by
  unfold val_main_v39
  generalize val_main_v38 (F := F) x7 = y
  exact broadcastInDim_apply _ bcast_S1x1x512_S64x51x512_0_1_2 y i (idx_main_v39 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (512 : Nat) = 1 then 0 else (i 2).val; rw [if_neg (by decide)])

-- %40 = stablehlo.multiply %24, %39 : tensor<64x51x512xf32>
def val_main_v40 (x0 : (⟨S64x51, .i32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) : (⟨S64x51x512, .f32⟩ : BufTy).Contents (Elt F) :=
  mulf (val_main_v24 (F := F) x0 x3 x4 x6 x7) (val_main_v39 (F := F) x7)
theorem val_main_v40_apply (x0 : (⟨S64x51, .i32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (i : S64x51x512.Idx) :
    val_main_v40 (F := F) x0 x3 x4 x6 x7 i = FloatOps.mulf (val_main_v24 (F := F) x0 x3 x4 x6 x7 i) (val_main_v39 (F := F) x7 i) := rfl

-- %41 = stablehlo.add %36, %40 : tensor<64x51x512xf32>
def val_main_v41 (x0 : (⟨S64x51, .i32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) : (⟨S64x51x512, .f32⟩ : BufTy).Contents (Elt F) :=
  addf (val_main_v36 (F := F) x0 x3 x4 x6) (val_main_v40 (F := F) x0 x3 x4 x6 x7)
theorem val_main_v41_apply (x0 : (⟨S64x51, .i32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (i : S64x51x512.Idx) :
    val_main_v41 (F := F) x0 x3 x4 x6 x7 i = FloatOps.addf (val_main_v36 (F := F) x0 x3 x4 x6 i) (val_main_v40 (F := F) x0 x3 x4 x6 x7 i) := rfl

-- %42 = stablehlo.tanh %41 : tensor<64x51x512xf32>
def val_main_v42 (x0 : (⟨S64x51, .i32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) : (⟨S64x51x512, .f32⟩ : BufTy).Contents (Elt F) :=
  Host.tanh (val_main_v41 (F := F) x0 x3 x4 x6 x7)
theorem val_main_v42_apply (x0 : (⟨S64x51, .i32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (i : S64x51x512.Idx) :
    val_main_v42 (F := F) x0 x3 x4 x6 x7 i = FloatOps.hostUnary .tanh (val_main_v41 (F := F) x0 x3 x4 x6 x7 i) := rfl

-- %cst_5 = stablehlo.constant dense<1.000000e+00> : tensor<f32>
def val_main_cst_5 : (⟨S_, .f32⟩ : BufTy).Contents (Elt F) :=
  constant S_ .f32 0x3F800000#32
theorem val_main_cst_5_apply (i : S_.Idx) :
    val_main_cst_5 (F := F) i = FloatOps.ofBits .f32 0x3F800000#32 := rfl

-- %43 = stablehlo.broadcast_in_dim %cst_5, dims = [] : (tensor<f32>) -> tensor<64x51x512xf32>
def val_main_v43 : (⟨S64x51x512, .f32⟩ : BufTy).Contents (Elt F) :=
  broadcastInDim S64x51x512 ![] bcast_S_S64x51x512 (val_main_cst_5 (F := F))
abbrev idx_main_v43 (i : S64x51x512.Idx) : S_.Idx := fun a => a.elim0
theorem val_main_v43_apply (i : S64x51x512.Idx) :
    val_main_v43 (F := F) i = val_main_cst_5 (F := F) (idx_main_v43 i) := by
  unfold val_main_v43
  generalize val_main_cst_5 (F := F) = y
  exact broadcastInDim_apply _ bcast_S_S64x51x512 y i (idx_main_v43 i) (fun a => a.elim0)

-- %44 = stablehlo.subtract %43, %35 : tensor<64x51x512xf32>
def val_main_v44 (x0 : (⟨S64x51, .i32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) : (⟨S64x51x512, .f32⟩ : BufTy).Contents (Elt F) :=
  subf (val_main_v43 (F := F)) (val_main_v35 (F := F) x0 x3 x4 x6 x7)
theorem val_main_v44_apply (x0 : (⟨S64x51, .i32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (i : S64x51x512.Idx) :
    val_main_v44 (F := F) x0 x3 x4 x6 x7 i = FloatOps.subf (val_main_v43 (F := F) i) (val_main_v35 (F := F) x0 x3 x4 x6 x7 i) := rfl

-- %45 = stablehlo.multiply %44, %42 : tensor<64x51x512xf32>
def val_main_v45 (x0 : (⟨S64x51, .i32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) : (⟨S64x51x512, .f32⟩ : BufTy).Contents (Elt F) :=
  mulf (val_main_v44 (F := F) x0 x3 x4 x6 x7) (val_main_v42 (F := F) x0 x3 x4 x6 x7)
theorem val_main_v45_apply (x0 : (⟨S64x51, .i32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (i : S64x51x512.Idx) :
    val_main_v45 (F := F) x0 x3 x4 x6 x7 i = FloatOps.mulf (val_main_v44 (F := F) x0 x3 x4 x6 x7 i) (val_main_v42 (F := F) x0 x3 x4 x6 x7 i) := rfl

-- %46 = stablehlo.dot_general %45, %arg2, batching_dims = [0] x [0], contracting_dims = [2] x [2], precision = [DEFAULT, DEFAULT] : (tensor<64x51x512xf32>, tensor<64x128x512xf32>) -> tensor<64x51x128xf32>
def val_main_v46 (x0 : (⟨S64x51, .i32⟩ : BufTy).Contents (Elt F)) (x2 : (⟨S64x128x512, .f32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) : (⟨S64x51x128, .f32⟩ : BufTy).Contents (Elt F) :=
  Host.dotGeneral dot_S64x51x512_S64x128x512_S64x51x128_2_2_1_1_0_0 none (val_main_v45 (F := F) x0 x3 x4 x6 x7) (x2)
theorem lhs_main_v46_0 (i : S64x51x128.Idx) (q : dot_S64x51x512_S64x128x512_S64x51x128_2_2_1_1_0_0.contr.Idx) :
    (dot_S64x51x512_S64x128x512_S64x51x128_2_2_1_1_0_0.lhsIdx i q 0).val = (i 0).val := by
  unfold DotDims.lhsIdx
  rw [dif_pos (show (0 : Fin S64x51x512.rank) ∈ dot_S64x51x512_S64x128x512_S64x51x128_2_2_1_1_0_0.lhsBatch by decide)]
  rfl
theorem lhs_main_v46_1 (i : S64x51x128.Idx) (q : dot_S64x51x512_S64x128x512_S64x51x128_2_2_1_1_0_0.contr.Idx) :
    (dot_S64x51x512_S64x128x512_S64x51x128_2_2_1_1_0_0.lhsIdx i q 1).val = (i 1).val := by
  unfold DotDims.lhsIdx
  rw [dif_neg (show ¬(1 : Fin S64x51x512.rank) ∈ dot_S64x51x512_S64x128x512_S64x51x128_2_2_1_1_0_0.lhsBatch by decide), dif_pos (show (1 : Fin S64x51x512.rank) ∈ dot_S64x51x512_S64x128x512_S64x51x128_2_2_1_1_0_0.lhsNonContracting by decide)]
  rfl
theorem lhs_main_v46_2 (i : S64x51x128.Idx) (q : dot_S64x51x512_S64x128x512_S64x51x128_2_2_1_1_0_0.contr.Idx) :
    (dot_S64x51x512_S64x128x512_S64x51x128_2_2_1_1_0_0.lhsIdx i q 2).val = (q ⟨0, by decide⟩).val :=
  dot_S64x51x512_S64x128x512_S64x51x128_2_2_1_1_0_0.lhsIdx_val_of_single rfl i q
theorem rhs_main_v46_0 (i : S64x51x128.Idx) (q : dot_S64x51x512_S64x128x512_S64x51x128_2_2_1_1_0_0.contr.Idx) :
    (dot_S64x51x512_S64x128x512_S64x51x128_2_2_1_1_0_0.rhsIdx i q 0).val = (i 0).val := by
  unfold DotDims.rhsIdx
  rw [dif_pos (show (0 : Fin S64x128x512.rank) ∈ dot_S64x51x512_S64x128x512_S64x51x128_2_2_1_1_0_0.rhsBatch by decide)]
  rfl
theorem rhs_main_v46_1 (i : S64x51x128.Idx) (q : dot_S64x51x512_S64x128x512_S64x51x128_2_2_1_1_0_0.contr.Idx) :
    (dot_S64x51x512_S64x128x512_S64x51x128_2_2_1_1_0_0.rhsIdx i q 1).val = (i 2).val := by
  unfold DotDims.rhsIdx
  rw [dif_neg (show ¬(1 : Fin S64x128x512.rank) ∈ dot_S64x51x512_S64x128x512_S64x51x128_2_2_1_1_0_0.rhsBatch by decide), dif_pos (show (1 : Fin S64x128x512.rank) ∈ dot_S64x51x512_S64x128x512_S64x51x128_2_2_1_1_0_0.rhsNonContracting by decide)]
  rfl
theorem rhs_main_v46_2 (i : S64x51x128.Idx) (q : dot_S64x51x512_S64x128x512_S64x51x128_2_2_1_1_0_0.contr.Idx) :
    (dot_S64x51x512_S64x128x512_S64x51x128_2_2_1_1_0_0.rhsIdx i q 2).val = (q ⟨0, by decide⟩).val :=
  dot_S64x51x512_S64x128x512_S64x51x128_2_2_1_1_0_0.rhsIdx_val_of_single rfl i q
abbrev lidx_main_v46 (i : S64x51x128.Idx) (k : Fin 512) : S64x51x512.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v46 (i : S64x51x128.Idx) (k : Fin 512) : S64x128x512.Idx := fun a => match a with
  | ⟨0, _⟩ => ⟨(i 0).val, (i 0).isLt⟩
  | ⟨1, _⟩ => ⟨(i 2).val, (i 2).isLt⟩
  | ⟨2, _⟩ => ⟨k.val, k.isLt⟩
/-- Stated at `F := Ideal`, where the host's `dot_general` is this sum; at a bit-exact instance it is an opaque function of its operands. -/
theorem val_main_v46_apply (x0 : (⟨S64x51, .i32⟩ : BufTy).Contents (Elt Ideal)) (x2 : (⟨S64x128x512, .f32⟩ : BufTy).Contents (Elt Ideal)) (x3 : (⟨S32000x256, .f32⟩ : BufTy).Contents (Elt Ideal)) (x4 : (⟨S1536x256, .f32⟩ : BufTy).Contents (Elt Ideal)) (x6 x7 : (⟨S1536, .f32⟩ : BufTy).Contents (Elt Ideal)) (i : S64x51x128.Idx) :
    val_main_v46 (F := Ideal) x0 x2 x3 x4 x6 x7 i = ∑ k : Fin 512, (val_main_v45 (F := Ideal) x0 x3 x4 x6 x7) (lidx_main_v46 i k) * x2 (ridx_main_v46 i k) := by
  unfold val_main_v46
  generalize val_main_v45 (F := Ideal) x0 x3 x4 x6 x7 = y0
  simp only [Host.dotGeneral]
  rw [Ideal.dotGeneral_apply, ← Equiv.sum_comp (ValueIdx.contrEquiv1 dot_S64x51x512_S64x128x512_S64x51x128_2_2_1_1_0_0 512 rfl rfl).symm]
  refine Finset.sum_congr rfl fun k _ => ?_
  have hk := ValueIdx.contrEquiv1_symm_val dot_S64x51x512_S64x128x512_S64x51x128_2_2_1_1_0_0 512 rfl rfl k
  have el : dot_S64x51x512_S64x128x512_S64x51x128_2_2_1_1_0_0.lhsIdx i ((ValueIdx.contrEquiv1 dot_S64x51x512_S64x128x512_S64x51x128_2_2_1_1_0_0 512 rfl rfl).symm k) = lidx_main_v46 i k := funext fun a => Fin.ext (by
    match a with
    | ⟨0, _⟩ => exact lhs_main_v46_0 _ _
    | ⟨1, _⟩ => exact lhs_main_v46_1 _ _
    | ⟨2, _⟩ => exact (lhs_main_v46_2 _ _).trans hk)
  have er : dot_S64x51x512_S64x128x512_S64x51x128_2_2_1_1_0_0.rhsIdx i ((ValueIdx.contrEquiv1 dot_S64x51x512_S64x128x512_S64x51x128_2_2_1_1_0_0 512 rfl rfl).symm k) = ridx_main_v46 i k := funext fun a => Fin.ext (by
    match a with
    | ⟨0, _⟩ => exact rhs_main_v46_0 _ _
    | ⟨1, _⟩ => exact rhs_main_v46_1 _ _
    | ⟨2, _⟩ => exact (rhs_main_v46_2 _ _).trans hk)
  rw [el, er]

-- %cst_6 = stablehlo.constant dense<0xFF800000> : tensor<f32>
def val_main_cst_6 : (⟨S_, .f32⟩ : BufTy).Contents (Elt F) :=
  constant S_ .f32 0xFF800000#32
theorem val_main_cst_6_apply (i : S_.Idx) :
    val_main_cst_6 (F := F) i = FloatOps.ofBits .f32 0xFF800000#32 := rfl

-- %47 = stablehlo.reduce(%46 init: %cst_6) applies stablehlo.maximum across dimensions = [2] : (tensor<64x51x128xf32>, tensor<f32>) -> tensor<64x51xf32> {
def val_main_v47 (x0 : (⟨S64x51, .i32⟩ : BufTy).Contents (Elt F)) (x2 : (⟨S64x128x512, .f32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) : (⟨S64x51, .f32⟩ : BufTy).Contents (Elt F) :=
  Host.reduce FloatOps.maximumf (val_main_v46 (F := F) x0 x2 x3 x4 x6 x7) (val_main_cst_6 (F := F)) reducesTo_S64x51x128_S64x51_d2 h_S_

-- %cst_7 = stablehlo.constant dense<0xFF800000> : tensor<f32>
def val_main_cst_7 : (⟨S_, .f32⟩ : BufTy).Contents (Elt F) :=
  constant S_ .f32 0xFF800000#32
theorem val_main_cst_7_apply (i : S_.Idx) :
    val_main_cst_7 (F := F) i = FloatOps.ofBits .f32 0xFF800000#32 := rfl

-- %48 = stablehlo.broadcast_in_dim %cst_7, dims = [] : (tensor<f32>) -> tensor<64x51xf32>
def val_main_v48 : (⟨S64x51, .f32⟩ : BufTy).Contents (Elt F) :=
  broadcastInDim S64x51 ![] bcast_S_S64x51 (val_main_cst_7 (F := F))
abbrev idx_main_v48 (i : S64x51.Idx) : S_.Idx := fun a => a.elim0
theorem val_main_v48_apply (i : S64x51.Idx) :
    val_main_v48 (F := F) i = val_main_cst_7 (F := F) (idx_main_v48 i) := by
  unfold val_main_v48
  generalize val_main_cst_7 (F := F) = y
  exact broadcastInDim_apply _ bcast_S_S64x51 y i (idx_main_v48 i) (fun a => a.elim0)

-- %49 = stablehlo.maximum %48, %47 : tensor<64x51xf32>
def val_main_v49 (x0 : (⟨S64x51, .i32⟩ : BufTy).Contents (Elt F)) (x2 : (⟨S64x128x512, .f32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) : (⟨S64x51, .f32⟩ : BufTy).Contents (Elt F) :=
  maximumf (val_main_v48 (F := F)) (val_main_v47 (F := F) x0 x2 x3 x4 x6 x7)
theorem val_main_v49_apply (x0 : (⟨S64x51, .i32⟩ : BufTy).Contents (Elt F)) (x2 : (⟨S64x128x512, .f32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (i : S64x51.Idx) :
    val_main_v49 (F := F) x0 x2 x3 x4 x6 x7 i = FloatOps.maximumf (val_main_v48 (F := F) i) (val_main_v47 (F := F) x0 x2 x3 x4 x6 x7 i) := rfl

-- %50 = stablehlo.broadcast_in_dim %49, dims = [0, 1] : (tensor<64x51xf32>) -> tensor<64x51x1xf32>
def val_main_v50 (x0 : (⟨S64x51, .i32⟩ : BufTy).Contents (Elt F)) (x2 : (⟨S64x128x512, .f32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) : (⟨S64x51x1, .f32⟩ : BufTy).Contents (Elt F) :=
  broadcastInDim S64x51x1 ![0, 1] bcast_S64x51_S64x51x1_0_1 (val_main_v49 (F := F) x0 x2 x3 x4 x6 x7)
abbrev idx_main_v50 (i : S64x51x1.Idx) : S64x51.Idx := fun a => match a with
  | ⟨0, _⟩ => ⟨(i 0).val, (i 0).isLt⟩
  | ⟨1, _⟩ => ⟨(i 1).val, (i 1).isLt⟩
theorem val_main_v50_apply (x0 : (⟨S64x51, .i32⟩ : BufTy).Contents (Elt F)) (x2 : (⟨S64x128x512, .f32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (i : S64x51x1.Idx) :
    val_main_v50 (F := F) x0 x2 x3 x4 x6 x7 i = val_main_v49 (F := F) x0 x2 x3 x4 x6 x7 (idx_main_v50 i) := by
  unfold val_main_v50
  generalize val_main_v49 (F := F) x0 x2 x3 x4 x6 x7 = y
  exact broadcastInDim_apply _ bcast_S64x51_S64x51x1_0_1 y i (idx_main_v50 i) (fun a => match a with
    | ⟨0, _⟩ => by show (i 0).val = if (64 : Nat) = 1 then 0 else (i 0).val; rw [if_neg (by decide)]
    | ⟨1, _⟩ => by show (i 1).val = if (51 : Nat) = 1 then 0 else (i 1).val; rw [if_neg (by decide)])

-- %51 = stablehlo.broadcast_in_dim %50, dims = [0, 1, 2] : (tensor<64x51x1xf32>) -> tensor<64x51x128xf32>
def val_main_v51 (x0 : (⟨S64x51, .i32⟩ : BufTy).Contents (Elt F)) (x2 : (⟨S64x128x512, .f32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) : (⟨S64x51x128, .f32⟩ : BufTy).Contents (Elt F) :=
  broadcastInDim S64x51x128 ![0, 1, 2] bcast_S64x51x1_S64x51x128_0_1_2 (val_main_v50 (F := F) x0 x2 x3 x4 x6 x7)
abbrev idx_main_v51 (i : S64x51x128.Idx) : S64x51x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v51_apply (x0 : (⟨S64x51, .i32⟩ : BufTy).Contents (Elt F)) (x2 : (⟨S64x128x512, .f32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (i : S64x51x128.Idx) :
    val_main_v51 (F := F) x0 x2 x3 x4 x6 x7 i = val_main_v50 (F := F) x0 x2 x3 x4 x6 x7 (idx_main_v51 i) := by
  unfold val_main_v51
  generalize val_main_v50 (F := F) x0 x2 x3 x4 x6 x7 = y
  exact broadcastInDim_apply _ bcast_S64x51x1_S64x51x128_0_1_2 y i (idx_main_v51 i) (fun a => match a with
    | ⟨0, _⟩ => by show (i 0).val = if (64 : Nat) = 1 then 0 else (i 0).val; rw [if_neg (by decide)]
    | ⟨1, _⟩ => by show (i 1).val = if (51 : Nat) = 1 then 0 else (i 1).val; rw [if_neg (by decide)]
    | ⟨2, _⟩ => by show 0 = if (1 : Nat) = 1 then 0 else (i 2).val; rw [if_pos rfl])

-- %52 = stablehlo.subtract %46, %51 : tensor<64x51x128xf32>
def val_main_v52 (x0 : (⟨S64x51, .i32⟩ : BufTy).Contents (Elt F)) (x2 : (⟨S64x128x512, .f32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) : (⟨S64x51x128, .f32⟩ : BufTy).Contents (Elt F) :=
  subf (val_main_v46 (F := F) x0 x2 x3 x4 x6 x7) (val_main_v51 (F := F) x0 x2 x3 x4 x6 x7)
theorem val_main_v52_apply (x0 : (⟨S64x51, .i32⟩ : BufTy).Contents (Elt F)) (x2 : (⟨S64x128x512, .f32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (i : S64x51x128.Idx) :
    val_main_v52 (F := F) x0 x2 x3 x4 x6 x7 i = FloatOps.subf (val_main_v46 (F := F) x0 x2 x3 x4 x6 x7 i) (val_main_v51 (F := F) x0 x2 x3 x4 x6 x7 i) := rfl

-- %53 = stablehlo.exponential %52 : tensor<64x51x128xf32>
def val_main_v53 (x0 : (⟨S64x51, .i32⟩ : BufTy).Contents (Elt F)) (x2 : (⟨S64x128x512, .f32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) : (⟨S64x51x128, .f32⟩ : BufTy).Contents (Elt F) :=
  Host.exp (val_main_v52 (F := F) x0 x2 x3 x4 x6 x7)
theorem val_main_v53_apply (x0 : (⟨S64x51, .i32⟩ : BufTy).Contents (Elt F)) (x2 : (⟨S64x128x512, .f32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (i : S64x51x128.Idx) :
    val_main_v53 (F := F) x0 x2 x3 x4 x6 x7 i = FloatOps.hostUnary .exp (val_main_v52 (F := F) x0 x2 x3 x4 x6 x7 i) := rfl

-- %cst_8 = stablehlo.constant dense<0.000000e+00> : tensor<f32>
def val_main_cst_8 : (⟨S_, .f32⟩ : BufTy).Contents (Elt F) :=
  constant S_ .f32 0x00000000#32
theorem val_main_cst_8_apply (i : S_.Idx) :
    val_main_cst_8 (F := F) i = FloatOps.ofBits .f32 0x00000000#32 := rfl

-- %54 = stablehlo.reduce(%53 init: %cst_8) applies stablehlo.add across dimensions = [2] : (tensor<64x51x128xf32>, tensor<f32>) -> tensor<64x51xf32> {
def val_main_v54 (x0 : (⟨S64x51, .i32⟩ : BufTy).Contents (Elt F)) (x2 : (⟨S64x128x512, .f32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) : (⟨S64x51, .f32⟩ : BufTy).Contents (Elt F) :=
  Host.reduceAdd (val_main_v53 (F := F) x0 x2 x3 x4 x6 x7) (val_main_cst_8 (F := F)) reducesTo_S64x51x128_S64x51_d2 h_S_
abbrev idx_main_v54 (i : S64x51.Idx) (k : Fin 128) : S64x51x128.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_v54_apply (x0 : (⟨S64x51, .i32⟩ : BufTy).Contents (Elt Ideal)) (x2 : (⟨S64x128x512, .f32⟩ : BufTy).Contents (Elt Ideal)) (x3 : (⟨S32000x256, .f32⟩ : BufTy).Contents (Elt Ideal)) (x4 : (⟨S1536x256, .f32⟩ : BufTy).Contents (Elt Ideal)) (x6 x7 : (⟨S1536, .f32⟩ : BufTy).Contents (Elt Ideal)) (i : S64x51.Idx) :
    val_main_v54 (F := Ideal) x0 x2 x3 x4 x6 x7 i = (val_main_cst_8 (F := Ideal)) (Shape.Idx.first h_S_) + ∑ k : Fin 128, (val_main_v53 (F := Ideal) x0 x2 x3 x4 x6 x7) (idx_main_v54 i k) := by
  unfold val_main_v54
  generalize val_main_v53 (F := Ideal) x0 x2 x3 x4 x6 x7 = y0
  simp only [Host.reduceAdd, Ideal.hostReduceAdd_def]
  rw [Ideal.hostReduceAdd_single reducesTo_S64x51x128_S64x51_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

-- %55 = stablehlo.broadcast_in_dim %54, dims = [0, 1] : (tensor<64x51xf32>) -> tensor<64x51x1xf32>
def val_main_v55 (x0 : (⟨S64x51, .i32⟩ : BufTy).Contents (Elt F)) (x2 : (⟨S64x128x512, .f32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) : (⟨S64x51x1, .f32⟩ : BufTy).Contents (Elt F) :=
  broadcastInDim S64x51x1 ![0, 1] bcast_S64x51_S64x51x1_0_1 (val_main_v54 (F := F) x0 x2 x3 x4 x6 x7)
abbrev idx_main_v55 (i : S64x51x1.Idx) : S64x51.Idx := fun a => match a with
  | ⟨0, _⟩ => ⟨(i 0).val, (i 0).isLt⟩
  | ⟨1, _⟩ => ⟨(i 1).val, (i 1).isLt⟩
theorem val_main_v55_apply (x0 : (⟨S64x51, .i32⟩ : BufTy).Contents (Elt F)) (x2 : (⟨S64x128x512, .f32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (i : S64x51x1.Idx) :
    val_main_v55 (F := F) x0 x2 x3 x4 x6 x7 i = val_main_v54 (F := F) x0 x2 x3 x4 x6 x7 (idx_main_v55 i) := by
  unfold val_main_v55
  generalize val_main_v54 (F := F) x0 x2 x3 x4 x6 x7 = y
  exact broadcastInDim_apply _ bcast_S64x51_S64x51x1_0_1 y i (idx_main_v55 i) (fun a => match a with
    | ⟨0, _⟩ => by show (i 0).val = if (64 : Nat) = 1 then 0 else (i 0).val; rw [if_neg (by decide)]
    | ⟨1, _⟩ => by show (i 1).val = if (51 : Nat) = 1 then 0 else (i 1).val; rw [if_neg (by decide)])

-- %56 = stablehlo.broadcast_in_dim %55, dims = [0, 1, 2] : (tensor<64x51x1xf32>) -> tensor<64x51x128xf32>
def val_main_v56 (x0 : (⟨S64x51, .i32⟩ : BufTy).Contents (Elt F)) (x2 : (⟨S64x128x512, .f32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) : (⟨S64x51x128, .f32⟩ : BufTy).Contents (Elt F) :=
  broadcastInDim S64x51x128 ![0, 1, 2] bcast_S64x51x1_S64x51x128_0_1_2 (val_main_v55 (F := F) x0 x2 x3 x4 x6 x7)
abbrev idx_main_v56 (i : S64x51x128.Idx) : S64x51x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v56_apply (x0 : (⟨S64x51, .i32⟩ : BufTy).Contents (Elt F)) (x2 : (⟨S64x128x512, .f32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (i : S64x51x128.Idx) :
    val_main_v56 (F := F) x0 x2 x3 x4 x6 x7 i = val_main_v55 (F := F) x0 x2 x3 x4 x6 x7 (idx_main_v56 i) := by
  unfold val_main_v56
  generalize val_main_v55 (F := F) x0 x2 x3 x4 x6 x7 = y
  exact broadcastInDim_apply _ bcast_S64x51x1_S64x51x128_0_1_2 y i (idx_main_v56 i) (fun a => match a with
    | ⟨0, _⟩ => by show (i 0).val = if (64 : Nat) = 1 then 0 else (i 0).val; rw [if_neg (by decide)]
    | ⟨1, _⟩ => by show (i 1).val = if (51 : Nat) = 1 then 0 else (i 1).val; rw [if_neg (by decide)]
    | ⟨2, _⟩ => by show 0 = if (1 : Nat) = 1 then 0 else (i 2).val; rw [if_pos rfl])

-- %57 = stablehlo.divide %53, %56 : tensor<64x51x128xf32>
def val_main_v57 (x0 : (⟨S64x51, .i32⟩ : BufTy).Contents (Elt F)) (x2 : (⟨S64x128x512, .f32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) : (⟨S64x51x128, .f32⟩ : BufTy).Contents (Elt F) :=
  Host.divf (val_main_v53 (F := F) x0 x2 x3 x4 x6 x7) (val_main_v56 (F := F) x0 x2 x3 x4 x6 x7)
theorem val_main_v57_apply (x0 : (⟨S64x51, .i32⟩ : BufTy).Contents (Elt F)) (x2 : (⟨S64x128x512, .f32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (i : S64x51x128.Idx) :
    val_main_v57 (F := F) x0 x2 x3 x4 x6 x7 i = FloatOps.hostDivf (val_main_v53 (F := F) x0 x2 x3 x4 x6 x7 i) (val_main_v56 (F := F) x0 x2 x3 x4 x6 x7 i) := rfl

-- %58 = stablehlo.dot_general %57, %arg2, batching_dims = [0] x [0], contracting_dims = [2] x [1], precision = [DEFAULT, DEFAULT] : (tensor<64x51x128xf32>, tensor<64x128x512xf32>) -> tensor<64x51x512xf32>
def val_main_v58 (x0 : (⟨S64x51, .i32⟩ : BufTy).Contents (Elt F)) (x2 : (⟨S64x128x512, .f32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) : (⟨S64x51x512, .f32⟩ : BufTy).Contents (Elt F) :=
  Host.dotGeneral dot_S64x51x128_S64x128x512_S64x51x512_2_1_1_2_0_0 none (val_main_v57 (F := F) x0 x2 x3 x4 x6 x7) (x2)
theorem lhs_main_v58_0 (i : S64x51x512.Idx) (q : dot_S64x51x128_S64x128x512_S64x51x512_2_1_1_2_0_0.contr.Idx) :
    (dot_S64x51x128_S64x128x512_S64x51x512_2_1_1_2_0_0.lhsIdx i q 0).val = (i 0).val := by
  unfold DotDims.lhsIdx
  rw [dif_pos (show (0 : Fin S64x51x128.rank) ∈ dot_S64x51x128_S64x128x512_S64x51x512_2_1_1_2_0_0.lhsBatch by decide)]
  rfl
theorem lhs_main_v58_1 (i : S64x51x512.Idx) (q : dot_S64x51x128_S64x128x512_S64x51x512_2_1_1_2_0_0.contr.Idx) :
    (dot_S64x51x128_S64x128x512_S64x51x512_2_1_1_2_0_0.lhsIdx i q 1).val = (i 1).val := by
  unfold DotDims.lhsIdx
  rw [dif_neg (show ¬(1 : Fin S64x51x128.rank) ∈ dot_S64x51x128_S64x128x512_S64x51x512_2_1_1_2_0_0.lhsBatch by decide), dif_pos (show (1 : Fin S64x51x128.rank) ∈ dot_S64x51x128_S64x128x512_S64x51x512_2_1_1_2_0_0.lhsNonContracting by decide)]
  rfl
theorem lhs_main_v58_2 (i : S64x51x512.Idx) (q : dot_S64x51x128_S64x128x512_S64x51x512_2_1_1_2_0_0.contr.Idx) :
    (dot_S64x51x128_S64x128x512_S64x51x512_2_1_1_2_0_0.lhsIdx i q 2).val = (q ⟨0, by decide⟩).val :=
  dot_S64x51x128_S64x128x512_S64x51x512_2_1_1_2_0_0.lhsIdx_val_of_single rfl i q
theorem rhs_main_v58_0 (i : S64x51x512.Idx) (q : dot_S64x51x128_S64x128x512_S64x51x512_2_1_1_2_0_0.contr.Idx) :
    (dot_S64x51x128_S64x128x512_S64x51x512_2_1_1_2_0_0.rhsIdx i q 0).val = (i 0).val := by
  unfold DotDims.rhsIdx
  rw [dif_pos (show (0 : Fin S64x128x512.rank) ∈ dot_S64x51x128_S64x128x512_S64x51x512_2_1_1_2_0_0.rhsBatch by decide)]
  rfl
theorem rhs_main_v58_1 (i : S64x51x512.Idx) (q : dot_S64x51x128_S64x128x512_S64x51x512_2_1_1_2_0_0.contr.Idx) :
    (dot_S64x51x128_S64x128x512_S64x51x512_2_1_1_2_0_0.rhsIdx i q 1).val = (q ⟨0, by decide⟩).val :=
  dot_S64x51x128_S64x128x512_S64x51x512_2_1_1_2_0_0.rhsIdx_val_of_single rfl i q
theorem rhs_main_v58_2 (i : S64x51x512.Idx) (q : dot_S64x51x128_S64x128x512_S64x51x512_2_1_1_2_0_0.contr.Idx) :
    (dot_S64x51x128_S64x128x512_S64x51x512_2_1_1_2_0_0.rhsIdx i q 2).val = (i 2).val := by
  unfold DotDims.rhsIdx
  rw [dif_neg (show ¬(2 : Fin S64x128x512.rank) ∈ dot_S64x51x128_S64x128x512_S64x51x512_2_1_1_2_0_0.rhsBatch by decide), dif_pos (show (2 : Fin S64x128x512.rank) ∈ dot_S64x51x128_S64x128x512_S64x51x512_2_1_1_2_0_0.rhsNonContracting by decide)]
  rfl
abbrev lidx_main_v58 (i : S64x51x512.Idx) (k : Fin 128) : S64x51x128.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v58 (i : S64x51x512.Idx) (k : Fin 128) : S64x128x512.Idx := fun a => match a with
  | ⟨0, _⟩ => ⟨(i 0).val, (i 0).isLt⟩
  | ⟨1, _⟩ => ⟨k.val, k.isLt⟩
  | ⟨2, _⟩ => ⟨(i 2).val, (i 2).isLt⟩
/-- Stated at `F := Ideal`, where the host's `dot_general` is this sum; at a bit-exact instance it is an opaque function of its operands. -/
theorem val_main_v58_apply (x0 : (⟨S64x51, .i32⟩ : BufTy).Contents (Elt Ideal)) (x2 : (⟨S64x128x512, .f32⟩ : BufTy).Contents (Elt Ideal)) (x3 : (⟨S32000x256, .f32⟩ : BufTy).Contents (Elt Ideal)) (x4 : (⟨S1536x256, .f32⟩ : BufTy).Contents (Elt Ideal)) (x6 x7 : (⟨S1536, .f32⟩ : BufTy).Contents (Elt Ideal)) (i : S64x51x512.Idx) :
    val_main_v58 (F := Ideal) x0 x2 x3 x4 x6 x7 i = ∑ k : Fin 128, (val_main_v57 (F := Ideal) x0 x2 x3 x4 x6 x7) (lidx_main_v58 i k) * x2 (ridx_main_v58 i k) := by
  unfold val_main_v58
  generalize val_main_v57 (F := Ideal) x0 x2 x3 x4 x6 x7 = y0
  simp only [Host.dotGeneral]
  rw [Ideal.dotGeneral_apply, ← Equiv.sum_comp (ValueIdx.contrEquiv1 dot_S64x51x128_S64x128x512_S64x51x512_2_1_1_2_0_0 128 rfl rfl).symm]
  refine Finset.sum_congr rfl fun k _ => ?_
  have hk := ValueIdx.contrEquiv1_symm_val dot_S64x51x128_S64x128x512_S64x51x512_2_1_1_2_0_0 128 rfl rfl k
  have el : dot_S64x51x128_S64x128x512_S64x51x512_2_1_1_2_0_0.lhsIdx i ((ValueIdx.contrEquiv1 dot_S64x51x128_S64x128x512_S64x51x512_2_1_1_2_0_0 128 rfl rfl).symm k) = lidx_main_v58 i k := funext fun a => Fin.ext (by
    match a with
    | ⟨0, _⟩ => exact lhs_main_v58_0 _ _
    | ⟨1, _⟩ => exact lhs_main_v58_1 _ _
    | ⟨2, _⟩ => exact (lhs_main_v58_2 _ _).trans hk)
  have er : dot_S64x51x128_S64x128x512_S64x51x512_2_1_1_2_0_0.rhsIdx i ((ValueIdx.contrEquiv1 dot_S64x51x128_S64x128x512_S64x51x512_2_1_1_2_0_0 128 rfl rfl).symm k) = ridx_main_v58 i k := funext fun a => Fin.ext (by
    match a with
    | ⟨0, _⟩ => exact rhs_main_v58_0 _ _
    | ⟨1, _⟩ => exact (rhs_main_v58_1 _ _).trans hk
    | ⟨2, _⟩ => exact rhs_main_v58_2 _ _)
  rw [el, er]

-- %59 = stablehlo.concatenate %45, %58, dim = 2 : (tensor<64x51x512xf32>, tensor<64x51x512xf32>) -> tensor<64x51x1024xf32>
def val_main_v59 (x0 : (⟨S64x51, .i32⟩ : BufTy).Contents (Elt F)) (x2 : (⟨S64x128x512, .f32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) : (⟨S64x51x1024, .f32⟩ : BufTy).Contents (Elt F) :=
  concatenate S64x51x1024 2 [⟨S64x51x512, (val_main_v45 (F := F) x0 x3 x4 x6 x7)⟩, ⟨S64x51x512, (val_main_v58 (F := F) x0 x2 x3 x4 x6 x7)⟩] concatenates_S64x51x512_S64x51x512_S64x51x1024_d2

-- %60 = stablehlo.dot_general %59, %arg8, contracting_dims = [2] x [1], precision = [DEFAULT, DEFAULT] : (tensor<64x51x1024xf32>, tensor<512x1024xf32>) -> tensor<64x51x512xf32>
def val_main_v60 (x0 : (⟨S64x51, .i32⟩ : BufTy).Contents (Elt F)) (x2 : (⟨S64x128x512, .f32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (x8 : (⟨S512x1024, .f32⟩ : BufTy).Contents (Elt F)) : (⟨S64x51x512, .f32⟩ : BufTy).Contents (Elt F) :=
  Host.dotGeneral dot_S64x51x1024_S512x1024_S64x51x512_2_1_01_0_n_n none (val_main_v59 (F := F) x0 x2 x3 x4 x6 x7) (x8)
theorem lhs_main_v60_0 (i : S64x51x512.Idx) (q : dot_S64x51x1024_S512x1024_S64x51x512_2_1_01_0_n_n.contr.Idx) :
    (dot_S64x51x1024_S512x1024_S64x51x512_2_1_01_0_n_n.lhsIdx i q 0).val = (i 0).val := by
  unfold DotDims.lhsIdx
  rw [dif_neg (show ¬(0 : Fin S64x51x1024.rank) ∈ dot_S64x51x1024_S512x1024_S64x51x512_2_1_01_0_n_n.lhsBatch by decide), dif_pos (show (0 : Fin S64x51x1024.rank) ∈ dot_S64x51x1024_S512x1024_S64x51x512_2_1_01_0_n_n.lhsNonContracting by decide)]
  rfl
theorem lhs_main_v60_1 (i : S64x51x512.Idx) (q : dot_S64x51x1024_S512x1024_S64x51x512_2_1_01_0_n_n.contr.Idx) :
    (dot_S64x51x1024_S512x1024_S64x51x512_2_1_01_0_n_n.lhsIdx i q 1).val = (i 1).val := by
  unfold DotDims.lhsIdx
  rw [dif_neg (show ¬(1 : Fin S64x51x1024.rank) ∈ dot_S64x51x1024_S512x1024_S64x51x512_2_1_01_0_n_n.lhsBatch by decide), dif_pos (show (1 : Fin S64x51x1024.rank) ∈ dot_S64x51x1024_S512x1024_S64x51x512_2_1_01_0_n_n.lhsNonContracting by decide)]
  rfl
theorem lhs_main_v60_2 (i : S64x51x512.Idx) (q : dot_S64x51x1024_S512x1024_S64x51x512_2_1_01_0_n_n.contr.Idx) :
    (dot_S64x51x1024_S512x1024_S64x51x512_2_1_01_0_n_n.lhsIdx i q 2).val = (q ⟨0, by decide⟩).val :=
  dot_S64x51x1024_S512x1024_S64x51x512_2_1_01_0_n_n.lhsIdx_val_of_single rfl i q
theorem rhs_main_v60_0 (i : S64x51x512.Idx) (q : dot_S64x51x1024_S512x1024_S64x51x512_2_1_01_0_n_n.contr.Idx) :
    (dot_S64x51x1024_S512x1024_S64x51x512_2_1_01_0_n_n.rhsIdx i q 0).val = (i 2).val := by
  unfold DotDims.rhsIdx
  rw [dif_neg (show ¬(0 : Fin S512x1024.rank) ∈ dot_S64x51x1024_S512x1024_S64x51x512_2_1_01_0_n_n.rhsBatch by decide), dif_pos (show (0 : Fin S512x1024.rank) ∈ dot_S64x51x1024_S512x1024_S64x51x512_2_1_01_0_n_n.rhsNonContracting by decide)]
  rfl
theorem rhs_main_v60_1 (i : S64x51x512.Idx) (q : dot_S64x51x1024_S512x1024_S64x51x512_2_1_01_0_n_n.contr.Idx) :
    (dot_S64x51x1024_S512x1024_S64x51x512_2_1_01_0_n_n.rhsIdx i q 1).val = (q ⟨0, by decide⟩).val :=
  dot_S64x51x1024_S512x1024_S64x51x512_2_1_01_0_n_n.rhsIdx_val_of_single rfl i q
abbrev lidx_main_v60 (i : S64x51x512.Idx) (k : Fin 1024) : S64x51x1024.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v60 (i : S64x51x512.Idx) (k : Fin 1024) : S512x1024.Idx := fun a => match a with
  | ⟨0, _⟩ => ⟨(i 2).val, (i 2).isLt⟩
  | ⟨1, _⟩ => ⟨k.val, k.isLt⟩
/-- Stated at `F := Ideal`, where the host's `dot_general` is this sum; at a bit-exact instance it is an opaque function of its operands. -/
theorem val_main_v60_apply (x0 : (⟨S64x51, .i32⟩ : BufTy).Contents (Elt Ideal)) (x2 : (⟨S64x128x512, .f32⟩ : BufTy).Contents (Elt Ideal)) (x3 : (⟨S32000x256, .f32⟩ : BufTy).Contents (Elt Ideal)) (x4 : (⟨S1536x256, .f32⟩ : BufTy).Contents (Elt Ideal)) (x6 x7 : (⟨S1536, .f32⟩ : BufTy).Contents (Elt Ideal)) (x8 : (⟨S512x1024, .f32⟩ : BufTy).Contents (Elt Ideal)) (i : S64x51x512.Idx) :
    val_main_v60 (F := Ideal) x0 x2 x3 x4 x6 x7 x8 i = ∑ k : Fin 1024, (val_main_v59 (F := Ideal) x0 x2 x3 x4 x6 x7) (lidx_main_v60 i k) * x8 (ridx_main_v60 i k) := by
  unfold val_main_v60
  generalize val_main_v59 (F := Ideal) x0 x2 x3 x4 x6 x7 = y0
  simp only [Host.dotGeneral]
  rw [Ideal.dotGeneral_apply, ← Equiv.sum_comp (ValueIdx.contrEquiv1 dot_S64x51x1024_S512x1024_S64x51x512_2_1_01_0_n_n 1024 rfl rfl).symm]
  refine Finset.sum_congr rfl fun k _ => ?_
  have hk := ValueIdx.contrEquiv1_symm_val dot_S64x51x1024_S512x1024_S64x51x512_2_1_01_0_n_n 1024 rfl rfl k
  have el : dot_S64x51x1024_S512x1024_S64x51x512_2_1_01_0_n_n.lhsIdx i ((ValueIdx.contrEquiv1 dot_S64x51x1024_S512x1024_S64x51x512_2_1_01_0_n_n 1024 rfl rfl).symm k) = lidx_main_v60 i k := funext fun a => Fin.ext (by
    match a with
    | ⟨0, _⟩ => exact lhs_main_v60_0 _ _
    | ⟨1, _⟩ => exact lhs_main_v60_1 _ _
    | ⟨2, _⟩ => exact (lhs_main_v60_2 _ _).trans hk)
  have er : dot_S64x51x1024_S512x1024_S64x51x512_2_1_01_0_n_n.rhsIdx i ((ValueIdx.contrEquiv1 dot_S64x51x1024_S512x1024_S64x51x512_2_1_01_0_n_n 1024 rfl rfl).symm k) = ridx_main_v60 i k := funext fun a => Fin.ext (by
    match a with
    | ⟨0, _⟩ => exact rhs_main_v60_0 _ _
    | ⟨1, _⟩ => exact (rhs_main_v60_1 _ _).trans hk)
  rw [el, er]

-- %61 = stablehlo.tanh %60 : tensor<64x51x512xf32>
def val_main_v61 (x0 : (⟨S64x51, .i32⟩ : BufTy).Contents (Elt F)) (x2 : (⟨S64x128x512, .f32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (x8 : (⟨S512x1024, .f32⟩ : BufTy).Contents (Elt F)) : (⟨S64x51x512, .f32⟩ : BufTy).Contents (Elt F) :=
  Host.tanh (val_main_v60 (F := F) x0 x2 x3 x4 x6 x7 x8)
theorem val_main_v61_apply (x0 : (⟨S64x51, .i32⟩ : BufTy).Contents (Elt F)) (x2 : (⟨S64x128x512, .f32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (x8 : (⟨S512x1024, .f32⟩ : BufTy).Contents (Elt F)) (i : S64x51x512.Idx) :
    val_main_v61 (F := F) x0 x2 x3 x4 x6 x7 x8 i = FloatOps.hostUnary .tanh (val_main_v60 (F := F) x0 x2 x3 x4 x6 x7 x8 i) := rfl

-- %62 = stablehlo.dot_general %61, %arg9, contracting_dims = [2] x [1], precision = [DEFAULT, DEFAULT] : (tensor<64x51x512xf32>, tensor<32000x512xf32>) -> tensor<64x51x32000xf32>
def val_main_v62 (x0 : (⟨S64x51, .i32⟩ : BufTy).Contents (Elt F)) (x2 : (⟨S64x128x512, .f32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (x8 : (⟨S512x1024, .f32⟩ : BufTy).Contents (Elt F)) (x9 : (⟨S32000x512, .f32⟩ : BufTy).Contents (Elt F)) : (⟨S64x51x32000, .f32⟩ : BufTy).Contents (Elt F) :=
  Host.dotGeneral dot_S64x51x512_S32000x512_S64x51x32000_2_1_01_0_n_n none (val_main_v61 (F := F) x0 x2 x3 x4 x6 x7 x8) (x9)
theorem lhs_main_v62_0 (i : S64x51x32000.Idx) (q : dot_S64x51x512_S32000x512_S64x51x32000_2_1_01_0_n_n.contr.Idx) :
    (dot_S64x51x512_S32000x512_S64x51x32000_2_1_01_0_n_n.lhsIdx i q 0).val = (i 0).val := by
  unfold DotDims.lhsIdx
  rw [dif_neg (show ¬(0 : Fin S64x51x512.rank) ∈ dot_S64x51x512_S32000x512_S64x51x32000_2_1_01_0_n_n.lhsBatch by decide), dif_pos (show (0 : Fin S64x51x512.rank) ∈ dot_S64x51x512_S32000x512_S64x51x32000_2_1_01_0_n_n.lhsNonContracting by decide)]
  rfl
theorem lhs_main_v62_1 (i : S64x51x32000.Idx) (q : dot_S64x51x512_S32000x512_S64x51x32000_2_1_01_0_n_n.contr.Idx) :
    (dot_S64x51x512_S32000x512_S64x51x32000_2_1_01_0_n_n.lhsIdx i q 1).val = (i 1).val := by
  unfold DotDims.lhsIdx
  rw [dif_neg (show ¬(1 : Fin S64x51x512.rank) ∈ dot_S64x51x512_S32000x512_S64x51x32000_2_1_01_0_n_n.lhsBatch by decide), dif_pos (show (1 : Fin S64x51x512.rank) ∈ dot_S64x51x512_S32000x512_S64x51x32000_2_1_01_0_n_n.lhsNonContracting by decide)]
  rfl
theorem lhs_main_v62_2 (i : S64x51x32000.Idx) (q : dot_S64x51x512_S32000x512_S64x51x32000_2_1_01_0_n_n.contr.Idx) :
    (dot_S64x51x512_S32000x512_S64x51x32000_2_1_01_0_n_n.lhsIdx i q 2).val = (q ⟨0, by decide⟩).val :=
  dot_S64x51x512_S32000x512_S64x51x32000_2_1_01_0_n_n.lhsIdx_val_of_single rfl i q
theorem rhs_main_v62_0 (i : S64x51x32000.Idx) (q : dot_S64x51x512_S32000x512_S64x51x32000_2_1_01_0_n_n.contr.Idx) :
    (dot_S64x51x512_S32000x512_S64x51x32000_2_1_01_0_n_n.rhsIdx i q 0).val = (i 2).val := by
  unfold DotDims.rhsIdx
  rw [dif_neg (show ¬(0 : Fin S32000x512.rank) ∈ dot_S64x51x512_S32000x512_S64x51x32000_2_1_01_0_n_n.rhsBatch by decide), dif_pos (show (0 : Fin S32000x512.rank) ∈ dot_S64x51x512_S32000x512_S64x51x32000_2_1_01_0_n_n.rhsNonContracting by decide)]
  rfl
theorem rhs_main_v62_1 (i : S64x51x32000.Idx) (q : dot_S64x51x512_S32000x512_S64x51x32000_2_1_01_0_n_n.contr.Idx) :
    (dot_S64x51x512_S32000x512_S64x51x32000_2_1_01_0_n_n.rhsIdx i q 1).val = (q ⟨0, by decide⟩).val :=
  dot_S64x51x512_S32000x512_S64x51x32000_2_1_01_0_n_n.rhsIdx_val_of_single rfl i q
abbrev lidx_main_v62 (i : S64x51x32000.Idx) (k : Fin 512) : S64x51x512.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v62 (i : S64x51x32000.Idx) (k : Fin 512) : S32000x512.Idx := fun a => match a with
  | ⟨0, _⟩ => ⟨(i 2).val, (i 2).isLt⟩
  | ⟨1, _⟩ => ⟨k.val, k.isLt⟩
/-- Stated at `F := Ideal`, where the host's `dot_general` is this sum; at a bit-exact instance it is an opaque function of its operands. -/
theorem val_main_v62_apply (x0 : (⟨S64x51, .i32⟩ : BufTy).Contents (Elt Ideal)) (x2 : (⟨S64x128x512, .f32⟩ : BufTy).Contents (Elt Ideal)) (x3 : (⟨S32000x256, .f32⟩ : BufTy).Contents (Elt Ideal)) (x4 : (⟨S1536x256, .f32⟩ : BufTy).Contents (Elt Ideal)) (x6 x7 : (⟨S1536, .f32⟩ : BufTy).Contents (Elt Ideal)) (x8 : (⟨S512x1024, .f32⟩ : BufTy).Contents (Elt Ideal)) (x9 : (⟨S32000x512, .f32⟩ : BufTy).Contents (Elt Ideal)) (i : S64x51x32000.Idx) :
    val_main_v62 (F := Ideal) x0 x2 x3 x4 x6 x7 x8 x9 i = ∑ k : Fin 512, (val_main_v61 (F := Ideal) x0 x2 x3 x4 x6 x7 x8) (lidx_main_v62 i k) * x9 (ridx_main_v62 i k) := by
  unfold val_main_v62
  generalize val_main_v61 (F := Ideal) x0 x2 x3 x4 x6 x7 x8 = y0
  simp only [Host.dotGeneral]
  rw [Ideal.dotGeneral_apply, ← Equiv.sum_comp (ValueIdx.contrEquiv1 dot_S64x51x512_S32000x512_S64x51x32000_2_1_01_0_n_n 512 rfl rfl).symm]
  refine Finset.sum_congr rfl fun k _ => ?_
  have hk := ValueIdx.contrEquiv1_symm_val dot_S64x51x512_S32000x512_S64x51x32000_2_1_01_0_n_n 512 rfl rfl k
  have el : dot_S64x51x512_S32000x512_S64x51x32000_2_1_01_0_n_n.lhsIdx i ((ValueIdx.contrEquiv1 dot_S64x51x512_S32000x512_S64x51x32000_2_1_01_0_n_n 512 rfl rfl).symm k) = lidx_main_v62 i k := funext fun a => Fin.ext (by
    match a with
    | ⟨0, _⟩ => exact lhs_main_v62_0 _ _
    | ⟨1, _⟩ => exact lhs_main_v62_1 _ _
    | ⟨2, _⟩ => exact (lhs_main_v62_2 _ _).trans hk)
  have er : dot_S64x51x512_S32000x512_S64x51x32000_2_1_01_0_n_n.rhsIdx i ((ValueIdx.contrEquiv1 dot_S64x51x512_S32000x512_S64x51x32000_2_1_01_0_n_n 512 rfl rfl).symm k) = ridx_main_v62 i k := funext fun a => Fin.ext (by
    match a with
    | ⟨0, _⟩ => exact rhs_main_v62_0 _ _
    | ⟨1, _⟩ => exact (rhs_main_v62_1 _ _).trans hk)
  rw [el, er]

-- %63 = stablehlo.broadcast_in_dim %arg10, dims = [2] : (tensor<32000xf32>) -> tensor<1x1x32000xf32>
def val_main_v63 (x10 : (⟨S32000, .f32⟩ : BufTy).Contents (Elt F)) : (⟨S1x1x32000, .f32⟩ : BufTy).Contents (Elt F) :=
  broadcastInDim S1x1x32000 ![2] bcast_S32000_S1x1x32000_2 (x10)
abbrev idx_main_v63 (i : S1x1x32000.Idx) : S32000.Idx := fun a => match a with
  | ⟨0, _⟩ => ⟨(i 2).val, (i 2).isLt⟩
theorem val_main_v63_apply (x10 : (⟨S32000, .f32⟩ : BufTy).Contents (Elt F)) (i : S1x1x32000.Idx) :
    val_main_v63 (F := F) x10 i = x10 (idx_main_v63 i) := by
  unfold val_main_v63
  exact broadcastInDim_apply _ bcast_S32000_S1x1x32000_2 x10 i (idx_main_v63 i) (fun a => match a with
    | ⟨0, _⟩ => by show (i 2).val = if (32000 : Nat) = 1 then 0 else (i 2).val; rw [if_neg (by decide)])

-- %64 = stablehlo.broadcast_in_dim %63, dims = [0, 1, 2] : (tensor<1x1x32000xf32>) -> tensor<64x51x32000xf32>
def val_main_v64 (x10 : (⟨S32000, .f32⟩ : BufTy).Contents (Elt F)) : (⟨S64x51x32000, .f32⟩ : BufTy).Contents (Elt F) :=
  broadcastInDim S64x51x32000 ![0, 1, 2] bcast_S1x1x32000_S64x51x32000_0_1_2 (val_main_v63 (F := F) x10)
abbrev idx_main_v64 (i : S64x51x32000.Idx) : S1x1x32000.Idx := fun a => match a with
  | ⟨0, _⟩ => ⟨0, Nat.one_pos⟩
  | ⟨1, _⟩ => ⟨0, Nat.one_pos⟩
  | ⟨2, _⟩ => ⟨(i 2).val, (i 2).isLt⟩
theorem val_main_v64_apply (x10 : (⟨S32000, .f32⟩ : BufTy).Contents (Elt F)) (i : S64x51x32000.Idx) :
    val_main_v64 (F := F) x10 i = val_main_v63 (F := F) x10 (idx_main_v64 i) := by
  unfold val_main_v64
  generalize val_main_v63 (F := F) x10 = y
  exact broadcastInDim_apply _ bcast_S1x1x32000_S64x51x32000_0_1_2 y i (idx_main_v64 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (32000 : Nat) = 1 then 0 else (i 2).val; rw [if_neg (by decide)])

-- %65 = stablehlo.add %62, %64 : tensor<64x51x32000xf32>
def val_main_v65 (x0 : (⟨S64x51, .i32⟩ : BufTy).Contents (Elt F)) (x2 : (⟨S64x128x512, .f32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (x8 : (⟨S512x1024, .f32⟩ : BufTy).Contents (Elt F)) (x9 : (⟨S32000x512, .f32⟩ : BufTy).Contents (Elt F)) (x10 : (⟨S32000, .f32⟩ : BufTy).Contents (Elt F)) : (⟨S64x51x32000, .f32⟩ : BufTy).Contents (Elt F) :=
  addf (val_main_v62 (F := F) x0 x2 x3 x4 x6 x7 x8 x9) (val_main_v64 (F := F) x10)
theorem val_main_v65_apply (x0 : (⟨S64x51, .i32⟩ : BufTy).Contents (Elt F)) (x2 : (⟨S64x128x512, .f32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (x8 : (⟨S512x1024, .f32⟩ : BufTy).Contents (Elt F)) (x9 : (⟨S32000x512, .f32⟩ : BufTy).Contents (Elt F)) (x10 : (⟨S32000, .f32⟩ : BufTy).Contents (Elt F)) (i : S64x51x32000.Idx) :
    val_main_v65 (F := F) x0 x2 x3 x4 x6 x7 x8 x9 x10 i = FloatOps.addf (val_main_v62 (F := F) x0 x2 x3 x4 x6 x7 x8 x9 i) (val_main_v64 (F := F) x10 i) := rfl

-- @log_softmax's %cst = stablehlo.constant dense<0xFF800000> : tensor<f32>, in %66 = func.call @log_softmax(…) (record main_call0)
def val_main_call0_cst : (⟨S_, .f32⟩ : BufTy).Contents (Elt F) :=
  constant S_ .f32 0xFF800000#32
theorem val_main_call0_cst_apply (i : S_.Idx) :
    val_main_call0_cst (F := F) i = FloatOps.ofBits .f32 0xFF800000#32 := rfl

-- @log_softmax's %0 = stablehlo.reduce(%arg0 init: %cst) applies stablehlo.maximum across dimensions = [2] : (tensor<64x51x32000xf32>, tensor<f32>) -> tensor<64x51xf32> {, in %66 = func.call @log_softmax(…) (record main_call0)
def val_main_call0_v0 (x0 : (⟨S64x51, .i32⟩ : BufTy).Contents (Elt F)) (x2 : (⟨S64x128x512, .f32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (x8 : (⟨S512x1024, .f32⟩ : BufTy).Contents (Elt F)) (x9 : (⟨S32000x512, .f32⟩ : BufTy).Contents (Elt F)) (x10 : (⟨S32000, .f32⟩ : BufTy).Contents (Elt F)) : (⟨S64x51, .f32⟩ : BufTy).Contents (Elt F) :=
  Host.reduce FloatOps.maximumf (val_main_v65 (F := F) x0 x2 x3 x4 x6 x7 x8 x9 x10) (val_main_call0_cst (F := F)) reducesTo_S64x51x32000_S64x51_d2 h_S_

-- @log_softmax's %cst_0 = stablehlo.constant dense<0xFF800000> : tensor<f32>, in %66 = func.call @log_softmax(…) (record main_call0)
def val_main_call0_cst_0 : (⟨S_, .f32⟩ : BufTy).Contents (Elt F) :=
  constant S_ .f32 0xFF800000#32
theorem val_main_call0_cst_0_apply (i : S_.Idx) :
    val_main_call0_cst_0 (F := F) i = FloatOps.ofBits .f32 0xFF800000#32 := rfl

-- @log_softmax's %1 = stablehlo.broadcast_in_dim %cst_0, dims = [] : (tensor<f32>) -> tensor<64x51xf32>, in %66 = func.call @log_softmax(…) (record main_call0)
def val_main_call0_v1 : (⟨S64x51, .f32⟩ : BufTy).Contents (Elt F) :=
  broadcastInDim S64x51 ![] bcast_S_S64x51 (val_main_call0_cst_0 (F := F))
abbrev idx_main_call0_v1 (i : S64x51.Idx) : S_.Idx := fun a => a.elim0
theorem val_main_call0_v1_apply (i : S64x51.Idx) :
    val_main_call0_v1 (F := F) i = val_main_call0_cst_0 (F := F) (idx_main_call0_v1 i) := by
  unfold val_main_call0_v1
  generalize val_main_call0_cst_0 (F := F) = y
  exact broadcastInDim_apply _ bcast_S_S64x51 y i (idx_main_call0_v1 i) (fun a => a.elim0)

-- @log_softmax's %2 = stablehlo.maximum %1, %0 : tensor<64x51xf32>, in %66 = func.call @log_softmax(…) (record main_call0)
def val_main_call0_v2 (x0 : (⟨S64x51, .i32⟩ : BufTy).Contents (Elt F)) (x2 : (⟨S64x128x512, .f32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (x8 : (⟨S512x1024, .f32⟩ : BufTy).Contents (Elt F)) (x9 : (⟨S32000x512, .f32⟩ : BufTy).Contents (Elt F)) (x10 : (⟨S32000, .f32⟩ : BufTy).Contents (Elt F)) : (⟨S64x51, .f32⟩ : BufTy).Contents (Elt F) :=
  maximumf (val_main_call0_v1 (F := F)) (val_main_call0_v0 (F := F) x0 x2 x3 x4 x6 x7 x8 x9 x10)
theorem val_main_call0_v2_apply (x0 : (⟨S64x51, .i32⟩ : BufTy).Contents (Elt F)) (x2 : (⟨S64x128x512, .f32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (x8 : (⟨S512x1024, .f32⟩ : BufTy).Contents (Elt F)) (x9 : (⟨S32000x512, .f32⟩ : BufTy).Contents (Elt F)) (x10 : (⟨S32000, .f32⟩ : BufTy).Contents (Elt F)) (i : S64x51.Idx) :
    val_main_call0_v2 (F := F) x0 x2 x3 x4 x6 x7 x8 x9 x10 i = FloatOps.maximumf (val_main_call0_v1 (F := F) i) (val_main_call0_v0 (F := F) x0 x2 x3 x4 x6 x7 x8 x9 x10 i) := rfl

-- @log_softmax's %3 = stablehlo.broadcast_in_dim %2, dims = [0, 1] : (tensor<64x51xf32>) -> tensor<64x51x1xf32>, in %66 = func.call @log_softmax(…) (record main_call0)
def val_main_call0_v3 (x0 : (⟨S64x51, .i32⟩ : BufTy).Contents (Elt F)) (x2 : (⟨S64x128x512, .f32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (x8 : (⟨S512x1024, .f32⟩ : BufTy).Contents (Elt F)) (x9 : (⟨S32000x512, .f32⟩ : BufTy).Contents (Elt F)) (x10 : (⟨S32000, .f32⟩ : BufTy).Contents (Elt F)) : (⟨S64x51x1, .f32⟩ : BufTy).Contents (Elt F) :=
  broadcastInDim S64x51x1 ![0, 1] bcast_S64x51_S64x51x1_0_1 (val_main_call0_v2 (F := F) x0 x2 x3 x4 x6 x7 x8 x9 x10)
abbrev idx_main_call0_v3 (i : S64x51x1.Idx) : S64x51.Idx := fun a => match a with
  | ⟨0, _⟩ => ⟨(i 0).val, (i 0).isLt⟩
  | ⟨1, _⟩ => ⟨(i 1).val, (i 1).isLt⟩
theorem val_main_call0_v3_apply (x0 : (⟨S64x51, .i32⟩ : BufTy).Contents (Elt F)) (x2 : (⟨S64x128x512, .f32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (x8 : (⟨S512x1024, .f32⟩ : BufTy).Contents (Elt F)) (x9 : (⟨S32000x512, .f32⟩ : BufTy).Contents (Elt F)) (x10 : (⟨S32000, .f32⟩ : BufTy).Contents (Elt F)) (i : S64x51x1.Idx) :
    val_main_call0_v3 (F := F) x0 x2 x3 x4 x6 x7 x8 x9 x10 i = val_main_call0_v2 (F := F) x0 x2 x3 x4 x6 x7 x8 x9 x10 (idx_main_call0_v3 i) := by
  unfold val_main_call0_v3
  generalize val_main_call0_v2 (F := F) x0 x2 x3 x4 x6 x7 x8 x9 x10 = y
  exact broadcastInDim_apply _ bcast_S64x51_S64x51x1_0_1 y i (idx_main_call0_v3 i) (fun a => match a with
    | ⟨0, _⟩ => by show (i 0).val = if (64 : Nat) = 1 then 0 else (i 0).val; rw [if_neg (by decide)]
    | ⟨1, _⟩ => by show (i 1).val = if (51 : Nat) = 1 then 0 else (i 1).val; rw [if_neg (by decide)])

-- @log_softmax's %4 = stablehlo.broadcast_in_dim %3, dims = [0, 1, 2] : (tensor<64x51x1xf32>) -> tensor<64x51x32000xf32>, in %66 = func.call @log_softmax(…) (record main_call0)
def val_main_call0_v4 (x0 : (⟨S64x51, .i32⟩ : BufTy).Contents (Elt F)) (x2 : (⟨S64x128x512, .f32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (x8 : (⟨S512x1024, .f32⟩ : BufTy).Contents (Elt F)) (x9 : (⟨S32000x512, .f32⟩ : BufTy).Contents (Elt F)) (x10 : (⟨S32000, .f32⟩ : BufTy).Contents (Elt F)) : (⟨S64x51x32000, .f32⟩ : BufTy).Contents (Elt F) :=
  broadcastInDim S64x51x32000 ![0, 1, 2] bcast_S64x51x1_S64x51x32000_0_1_2 (val_main_call0_v3 (F := F) x0 x2 x3 x4 x6 x7 x8 x9 x10)
abbrev idx_main_call0_v4 (i : S64x51x32000.Idx) : S64x51x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_call0_v4_apply (x0 : (⟨S64x51, .i32⟩ : BufTy).Contents (Elt F)) (x2 : (⟨S64x128x512, .f32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (x8 : (⟨S512x1024, .f32⟩ : BufTy).Contents (Elt F)) (x9 : (⟨S32000x512, .f32⟩ : BufTy).Contents (Elt F)) (x10 : (⟨S32000, .f32⟩ : BufTy).Contents (Elt F)) (i : S64x51x32000.Idx) :
    val_main_call0_v4 (F := F) x0 x2 x3 x4 x6 x7 x8 x9 x10 i = val_main_call0_v3 (F := F) x0 x2 x3 x4 x6 x7 x8 x9 x10 (idx_main_call0_v4 i) := by
  unfold val_main_call0_v4
  generalize val_main_call0_v3 (F := F) x0 x2 x3 x4 x6 x7 x8 x9 x10 = y
  exact broadcastInDim_apply _ bcast_S64x51x1_S64x51x32000_0_1_2 y i (idx_main_call0_v4 i) (fun a => match a with
    | ⟨0, _⟩ => by show (i 0).val = if (64 : Nat) = 1 then 0 else (i 0).val; rw [if_neg (by decide)]
    | ⟨1, _⟩ => by show (i 1).val = if (51 : Nat) = 1 then 0 else (i 1).val; rw [if_neg (by decide)]
    | ⟨2, _⟩ => by show 0 = if (1 : Nat) = 1 then 0 else (i 2).val; rw [if_pos rfl])

-- @log_softmax's %5 = stablehlo.subtract %arg0, %4 : tensor<64x51x32000xf32>, in %66 = func.call @log_softmax(…) (record main_call0)
def val_main_call0_v5 (x0 : (⟨S64x51, .i32⟩ : BufTy).Contents (Elt F)) (x2 : (⟨S64x128x512, .f32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (x8 : (⟨S512x1024, .f32⟩ : BufTy).Contents (Elt F)) (x9 : (⟨S32000x512, .f32⟩ : BufTy).Contents (Elt F)) (x10 : (⟨S32000, .f32⟩ : BufTy).Contents (Elt F)) : (⟨S64x51x32000, .f32⟩ : BufTy).Contents (Elt F) :=
  subf (val_main_v65 (F := F) x0 x2 x3 x4 x6 x7 x8 x9 x10) (val_main_call0_v4 (F := F) x0 x2 x3 x4 x6 x7 x8 x9 x10)
theorem val_main_call0_v5_apply (x0 : (⟨S64x51, .i32⟩ : BufTy).Contents (Elt F)) (x2 : (⟨S64x128x512, .f32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (x8 : (⟨S512x1024, .f32⟩ : BufTy).Contents (Elt F)) (x9 : (⟨S32000x512, .f32⟩ : BufTy).Contents (Elt F)) (x10 : (⟨S32000, .f32⟩ : BufTy).Contents (Elt F)) (i : S64x51x32000.Idx) :
    val_main_call0_v5 (F := F) x0 x2 x3 x4 x6 x7 x8 x9 x10 i = FloatOps.subf (val_main_v65 (F := F) x0 x2 x3 x4 x6 x7 x8 x9 x10 i) (val_main_call0_v4 (F := F) x0 x2 x3 x4 x6 x7 x8 x9 x10 i) := rfl

-- @log_softmax's %6 = stablehlo.exponential %5 : tensor<64x51x32000xf32>, in %66 = func.call @log_softmax(…) (record main_call0)
def val_main_call0_v6 (x0 : (⟨S64x51, .i32⟩ : BufTy).Contents (Elt F)) (x2 : (⟨S64x128x512, .f32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (x8 : (⟨S512x1024, .f32⟩ : BufTy).Contents (Elt F)) (x9 : (⟨S32000x512, .f32⟩ : BufTy).Contents (Elt F)) (x10 : (⟨S32000, .f32⟩ : BufTy).Contents (Elt F)) : (⟨S64x51x32000, .f32⟩ : BufTy).Contents (Elt F) :=
  Host.exp (val_main_call0_v5 (F := F) x0 x2 x3 x4 x6 x7 x8 x9 x10)
theorem val_main_call0_v6_apply (x0 : (⟨S64x51, .i32⟩ : BufTy).Contents (Elt F)) (x2 : (⟨S64x128x512, .f32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (x8 : (⟨S512x1024, .f32⟩ : BufTy).Contents (Elt F)) (x9 : (⟨S32000x512, .f32⟩ : BufTy).Contents (Elt F)) (x10 : (⟨S32000, .f32⟩ : BufTy).Contents (Elt F)) (i : S64x51x32000.Idx) :
    val_main_call0_v6 (F := F) x0 x2 x3 x4 x6 x7 x8 x9 x10 i = FloatOps.hostUnary .exp (val_main_call0_v5 (F := F) x0 x2 x3 x4 x6 x7 x8 x9 x10 i) := rfl

-- @log_softmax's %cst_1 = stablehlo.constant dense<0.000000e+00> : tensor<f32>, in %66 = func.call @log_softmax(…) (record main_call0)
def val_main_call0_cst_1 : (⟨S_, .f32⟩ : BufTy).Contents (Elt F) :=
  constant S_ .f32 0x00000000#32
theorem val_main_call0_cst_1_apply (i : S_.Idx) :
    val_main_call0_cst_1 (F := F) i = FloatOps.ofBits .f32 0x00000000#32 := rfl

-- @log_softmax's %7 = stablehlo.reduce(%6 init: %cst_1) applies stablehlo.add across dimensions = [2] : (tensor<64x51x32000xf32>, tensor<f32>) -> tensor<64x51xf32> {, in %66 = func.call @log_softmax(…) (record main_call0)
def val_main_call0_v7 (x0 : (⟨S64x51, .i32⟩ : BufTy).Contents (Elt F)) (x2 : (⟨S64x128x512, .f32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (x8 : (⟨S512x1024, .f32⟩ : BufTy).Contents (Elt F)) (x9 : (⟨S32000x512, .f32⟩ : BufTy).Contents (Elt F)) (x10 : (⟨S32000, .f32⟩ : BufTy).Contents (Elt F)) : (⟨S64x51, .f32⟩ : BufTy).Contents (Elt F) :=
  Host.reduceAdd (val_main_call0_v6 (F := F) x0 x2 x3 x4 x6 x7 x8 x9 x10) (val_main_call0_cst_1 (F := F)) reducesTo_S64x51x32000_S64x51_d2 h_S_
abbrev idx_main_call0_v7 (i : S64x51.Idx) (k : Fin 32000) : S64x51x32000.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_call0_v7_apply (x0 : (⟨S64x51, .i32⟩ : BufTy).Contents (Elt Ideal)) (x2 : (⟨S64x128x512, .f32⟩ : BufTy).Contents (Elt Ideal)) (x3 : (⟨S32000x256, .f32⟩ : BufTy).Contents (Elt Ideal)) (x4 : (⟨S1536x256, .f32⟩ : BufTy).Contents (Elt Ideal)) (x6 x7 : (⟨S1536, .f32⟩ : BufTy).Contents (Elt Ideal)) (x8 : (⟨S512x1024, .f32⟩ : BufTy).Contents (Elt Ideal)) (x9 : (⟨S32000x512, .f32⟩ : BufTy).Contents (Elt Ideal)) (x10 : (⟨S32000, .f32⟩ : BufTy).Contents (Elt Ideal)) (i : S64x51.Idx) :
    val_main_call0_v7 (F := Ideal) x0 x2 x3 x4 x6 x7 x8 x9 x10 i = (val_main_call0_cst_1 (F := Ideal)) (Shape.Idx.first h_S_) + ∑ k : Fin 32000, (val_main_call0_v6 (F := Ideal) x0 x2 x3 x4 x6 x7 x8 x9 x10) (idx_main_call0_v7 i k) := by
  unfold val_main_call0_v7
  generalize val_main_call0_v6 (F := Ideal) x0 x2 x3 x4 x6 x7 x8 x9 x10 = y0
  simp only [Host.reduceAdd, Ideal.hostReduceAdd_def]
  rw [Ideal.hostReduceAdd_single reducesTo_S64x51x32000_S64x51_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

-- @log_softmax's %8 = stablehlo.broadcast_in_dim %7, dims = [0, 1] : (tensor<64x51xf32>) -> tensor<64x51x1xf32>, in %66 = func.call @log_softmax(…) (record main_call0)
def val_main_call0_v8 (x0 : (⟨S64x51, .i32⟩ : BufTy).Contents (Elt F)) (x2 : (⟨S64x128x512, .f32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (x8 : (⟨S512x1024, .f32⟩ : BufTy).Contents (Elt F)) (x9 : (⟨S32000x512, .f32⟩ : BufTy).Contents (Elt F)) (x10 : (⟨S32000, .f32⟩ : BufTy).Contents (Elt F)) : (⟨S64x51x1, .f32⟩ : BufTy).Contents (Elt F) :=
  broadcastInDim S64x51x1 ![0, 1] bcast_S64x51_S64x51x1_0_1 (val_main_call0_v7 (F := F) x0 x2 x3 x4 x6 x7 x8 x9 x10)
abbrev idx_main_call0_v8 (i : S64x51x1.Idx) : S64x51.Idx := fun a => match a with
  | ⟨0, _⟩ => ⟨(i 0).val, (i 0).isLt⟩
  | ⟨1, _⟩ => ⟨(i 1).val, (i 1).isLt⟩
theorem val_main_call0_v8_apply (x0 : (⟨S64x51, .i32⟩ : BufTy).Contents (Elt F)) (x2 : (⟨S64x128x512, .f32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (x8 : (⟨S512x1024, .f32⟩ : BufTy).Contents (Elt F)) (x9 : (⟨S32000x512, .f32⟩ : BufTy).Contents (Elt F)) (x10 : (⟨S32000, .f32⟩ : BufTy).Contents (Elt F)) (i : S64x51x1.Idx) :
    val_main_call0_v8 (F := F) x0 x2 x3 x4 x6 x7 x8 x9 x10 i = val_main_call0_v7 (F := F) x0 x2 x3 x4 x6 x7 x8 x9 x10 (idx_main_call0_v8 i) := by
  unfold val_main_call0_v8
  generalize val_main_call0_v7 (F := F) x0 x2 x3 x4 x6 x7 x8 x9 x10 = y
  exact broadcastInDim_apply _ bcast_S64x51_S64x51x1_0_1 y i (idx_main_call0_v8 i) (fun a => match a with
    | ⟨0, _⟩ => by show (i 0).val = if (64 : Nat) = 1 then 0 else (i 0).val; rw [if_neg (by decide)]
    | ⟨1, _⟩ => by show (i 1).val = if (51 : Nat) = 1 then 0 else (i 1).val; rw [if_neg (by decide)])

-- @log_softmax's %9 = stablehlo.log %8 : tensor<64x51x1xf32>, in %66 = func.call @log_softmax(…) (record main_call0)
def val_main_call0_v9 (x0 : (⟨S64x51, .i32⟩ : BufTy).Contents (Elt F)) (x2 : (⟨S64x128x512, .f32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (x8 : (⟨S512x1024, .f32⟩ : BufTy).Contents (Elt F)) (x9 : (⟨S32000x512, .f32⟩ : BufTy).Contents (Elt F)) (x10 : (⟨S32000, .f32⟩ : BufTy).Contents (Elt F)) : (⟨S64x51x1, .f32⟩ : BufTy).Contents (Elt F) :=
  Host.log (val_main_call0_v8 (F := F) x0 x2 x3 x4 x6 x7 x8 x9 x10)
theorem val_main_call0_v9_apply (x0 : (⟨S64x51, .i32⟩ : BufTy).Contents (Elt F)) (x2 : (⟨S64x128x512, .f32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (x8 : (⟨S512x1024, .f32⟩ : BufTy).Contents (Elt F)) (x9 : (⟨S32000x512, .f32⟩ : BufTy).Contents (Elt F)) (x10 : (⟨S32000, .f32⟩ : BufTy).Contents (Elt F)) (i : S64x51x1.Idx) :
    val_main_call0_v9 (F := F) x0 x2 x3 x4 x6 x7 x8 x9 x10 i = FloatOps.hostUnary .log (val_main_call0_v8 (F := F) x0 x2 x3 x4 x6 x7 x8 x9 x10 i) := rfl

-- @log_softmax's %10 = stablehlo.broadcast_in_dim %9, dims = [0, 1, 2] : (tensor<64x51x1xf32>) -> tensor<64x51x32000xf32>, in %66 = func.call @log_softmax(…) (record main_call0)
def val_main_call0_v10 (x0 : (⟨S64x51, .i32⟩ : BufTy).Contents (Elt F)) (x2 : (⟨S64x128x512, .f32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (x8 : (⟨S512x1024, .f32⟩ : BufTy).Contents (Elt F)) (x9 : (⟨S32000x512, .f32⟩ : BufTy).Contents (Elt F)) (x10 : (⟨S32000, .f32⟩ : BufTy).Contents (Elt F)) : (⟨S64x51x32000, .f32⟩ : BufTy).Contents (Elt F) :=
  broadcastInDim S64x51x32000 ![0, 1, 2] bcast_S64x51x1_S64x51x32000_0_1_2 (val_main_call0_v9 (F := F) x0 x2 x3 x4 x6 x7 x8 x9 x10)
abbrev idx_main_call0_v10 (i : S64x51x32000.Idx) : S64x51x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_call0_v10_apply (x0 : (⟨S64x51, .i32⟩ : BufTy).Contents (Elt F)) (x2 : (⟨S64x128x512, .f32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (x8 : (⟨S512x1024, .f32⟩ : BufTy).Contents (Elt F)) (x9 : (⟨S32000x512, .f32⟩ : BufTy).Contents (Elt F)) (x10 : (⟨S32000, .f32⟩ : BufTy).Contents (Elt F)) (i : S64x51x32000.Idx) :
    val_main_call0_v10 (F := F) x0 x2 x3 x4 x6 x7 x8 x9 x10 i = val_main_call0_v9 (F := F) x0 x2 x3 x4 x6 x7 x8 x9 x10 (idx_main_call0_v10 i) := by
  unfold val_main_call0_v10
  generalize val_main_call0_v9 (F := F) x0 x2 x3 x4 x6 x7 x8 x9 x10 = y
  exact broadcastInDim_apply _ bcast_S64x51x1_S64x51x32000_0_1_2 y i (idx_main_call0_v10 i) (fun a => match a with
    | ⟨0, _⟩ => by show (i 0).val = if (64 : Nat) = 1 then 0 else (i 0).val; rw [if_neg (by decide)]
    | ⟨1, _⟩ => by show (i 1).val = if (51 : Nat) = 1 then 0 else (i 1).val; rw [if_neg (by decide)]
    | ⟨2, _⟩ => by show 0 = if (1 : Nat) = 1 then 0 else (i 2).val; rw [if_pos rfl])

-- %66 = func.call @log_softmax(…) (record main_call0) result 0: @log_softmax's %11 = stablehlo.subtract %5, %10 : tensor<64x51x32000xf32>
def val_main_v66 (x0 : (⟨S64x51, .i32⟩ : BufTy).Contents (Elt F)) (x2 : (⟨S64x128x512, .f32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (x8 : (⟨S512x1024, .f32⟩ : BufTy).Contents (Elt F)) (x9 : (⟨S32000x512, .f32⟩ : BufTy).Contents (Elt F)) (x10 : (⟨S32000, .f32⟩ : BufTy).Contents (Elt F)) : (⟨S64x51x32000, .f32⟩ : BufTy).Contents (Elt F) :=
  subf (val_main_call0_v5 (F := F) x0 x2 x3 x4 x6 x7 x8 x9 x10) (val_main_call0_v10 (F := F) x0 x2 x3 x4 x6 x7 x8 x9 x10)
theorem val_main_v66_apply (x0 : (⟨S64x51, .i32⟩ : BufTy).Contents (Elt F)) (x2 : (⟨S64x128x512, .f32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (x8 : (⟨S512x1024, .f32⟩ : BufTy).Contents (Elt F)) (x9 : (⟨S32000x512, .f32⟩ : BufTy).Contents (Elt F)) (x10 : (⟨S32000, .f32⟩ : BufTy).Contents (Elt F)) (i : S64x51x32000.Idx) :
    val_main_v66 (F := F) x0 x2 x3 x4 x6 x7 x8 x9 x10 i = FloatOps.subf (val_main_call0_v5 (F := F) x0 x2 x3 x4 x6 x7 x8 x9 x10 i) (val_main_call0_v10 (F := F) x0 x2 x3 x4 x6 x7 x8 x9 x10 i) := rfl

-- %67 = stablehlo.slice %45 [0:64, 50:51, 0:512] : (tensor<64x51x512xf32>) -> tensor<64x1x512xf32>
def val_main_v67 (x0 : (⟨S64x51, .i32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) : (⟨S64x1x512, .f32⟩ : BufTy).Contents (Elt F) :=
  extractStridedSlice S64x1x512 ![0, 50, 0] (val_main_v45 (F := F) x0 x3 x4 x6 x7) slices_S64x51x512_S64x1x512_0_50_0
abbrev idx_main_v67 (i : S64x1x512.Idx) : S64x51x512.Idx := fun a => match a with
  | ⟨0, _⟩ => ⟨(i 0).val, (i 0).isLt⟩
  | ⟨1, _⟩ => ⟨50 + (i 1).val, by have h1 : (i 1).val < 1 := (i 1).isLt; show 50 + (i 1).val < 51; omega⟩
  | ⟨2, _⟩ => ⟨(i 2).val, (i 2).isLt⟩
theorem val_main_v67_apply (x0 : (⟨S64x51, .i32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (i : S64x1x512.Idx) :
    val_main_v67 (F := F) x0 x3 x4 x6 x7 i = val_main_v45 (F := F) x0 x3 x4 x6 x7 (idx_main_v67 i) := by
  unfold val_main_v67
  generalize val_main_v45 (F := F) x0 x3 x4 x6 x7 = y
  exact extractStridedSlice_apply ![0, 50, 0] y slices_S64x51x512_S64x1x512_0_50_0 i (idx_main_v67 i) (fun a => match a with
    | ⟨0, _⟩ => by show (i 0).val = 0 + (i 0).val; omega
    | ⟨1, _⟩ => by show 50 + (i 1).val = 50 + (i 1).val; omega
    | ⟨2, _⟩ => by show (i 2).val = 0 + (i 2).val; omega)

-- %68 = stablehlo.reshape %67 : (tensor<64x1x512xf32>) -> tensor<64x512xf32>
def val_main_v68 (x0 : (⟨S64x51, .i32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) : (⟨S64x512, .f32⟩ : BufTy).Contents (Elt F) :=
  shapeCast _ (val_main_v67 (F := F) x0 x3 x4 x6 x7) shapeCasts_S64x1x512_S64x512
abbrev idx_main_v68 (i : S64x512.Idx) : S64x1x512.Idx := fun a => match a with
  | ⟨0, _⟩ => ⟨((i 0).val * 512 + (i 1).val) / 512, by have h0 : (i 0).val < 64 := (i 0).isLt; have h1 : (i 1).val < 512 := (i 1).isLt; show ((i 0).val * 512 + (i 1).val) / 512 < 64; omega⟩
  | ⟨1, _⟩ => ⟨0, Nat.one_pos⟩
  | ⟨2, _⟩ => ⟨((i 0).val * 512 + (i 1).val) % 512, by have h0 : (i 0).val < 64 := (i 0).isLt; have h1 : (i 1).val < 512 := (i 1).isLt; show ((i 0).val * 512 + (i 1).val) % 512 < 512; omega⟩
theorem val_main_v68_apply (x0 : (⟨S64x51, .i32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (i : S64x512.Idx) :
    val_main_v68 (F := F) x0 x3 x4 x6 x7 i = val_main_v67 (F := F) x0 x3 x4 x6 x7 (idx_main_v68 i) := by
  unfold val_main_v68
  generalize val_main_v67 (F := F) x0 x3 x4 x6 x7 = y
  exact shapeCast_apply y shapeCasts_S64x1x512_S64x512 i (idx_main_v68 i)
    (by rewrite [Shape.rowMajor_val_three, Shape.rowMajor_val_two]; have h0 : (i 0).val < 64 := (i 0).isLt; have h1 : (i 1).val < 512 := (i 1).isLt; show (((i 0).val * 512 + (i 1).val) / 512 * 1 + 0) * 512 + ((i 0).val * 512 + (i 1).val) % 512 = (i 0).val * 512 + (i 1).val; omega)

-- %69 = stablehlo.broadcast_in_dim %68, dims = [1, 2] : (tensor<64x512xf32>) -> tensor<1x64x512xf32>
def val_main_v69 (x0 : (⟨S64x51, .i32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) : (⟨S1x64x512, .f32⟩ : BufTy).Contents (Elt F) :=
  broadcastInDim S1x64x512 ![1, 2] bcast_S64x512_S1x64x512_1_2 (val_main_v68 (F := F) x0 x3 x4 x6 x7)
abbrev idx_main_v69 (i : S1x64x512.Idx) : S64x512.Idx := fun a => match a with
  | ⟨0, _⟩ => ⟨(i 1).val, (i 1).isLt⟩
  | ⟨1, _⟩ => ⟨(i 2).val, (i 2).isLt⟩
theorem val_main_v69_apply (x0 : (⟨S64x51, .i32⟩ : BufTy).Contents (Elt F)) (x3 : (⟨S32000x256, .f32⟩ : BufTy).Contents (Elt F)) (x4 : (⟨S1536x256, .f32⟩ : BufTy).Contents (Elt F)) (x6 x7 : (⟨S1536, .f32⟩ : BufTy).Contents (Elt F)) (i : S1x64x512.Idx) :
    val_main_v69 (F := F) x0 x3 x4 x6 x7 i = val_main_v68 (F := F) x0 x3 x4 x6 x7 (idx_main_v69 i) := by
  unfold val_main_v69
  generalize val_main_v68 (F := F) x0 x3 x4 x6 x7 = y
  exact broadcastInDim_apply _ bcast_S64x512_S1x64x512_1_2 y i (idx_main_v69 i) (fun a => match a with
    | ⟨0, _⟩ => by show (i 1).val = if (64 : Nat) = 1 then 0 else (i 1).val; rw [if_neg (by decide)]
    | ⟨1, _⟩ => by show (i 2).val = if (512 : Nat) = 1 then 0 else (i 2).val; rw [if_neg (by decide)])

end Cert.ReferenceIdeal.RefValue

end
-- ==== Proof.KIFinal.lean ====
/-
  The idealized kernel program's two results, as whole functions of the argument arrays: the logarithm of the
  softmax of every (batch row, position)'s class scores, and the hidden state at the last position — the
  specification's, with the embedded input the same table look-up the plain array program makes.
-/
import proofs.«150782_j29695403885316_1_alg».proof.Proof.KIGlueB
import proofs.«150782_j29695403885316_1_alg».proof.Proof.RefStages
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

set_option maxHeartbeats 1000000 in
/-- The first host stretch leaves in the embedded-input buffer the table look-up of the wrapped, shifted target
    indices: the same composed term as the plain array program's stage. -/
theorem v9_eq : (V1 (F := Ideal) m ρ c main_v9 : S64x51x256.Idx → EReal)
    = Cert.ReferenceIdeal.RefValue.val_main_v9 (F := Ideal) (m ((c : Thread nD τ).loc main_arg0)) (m ((c : Thread nD τ).loc main_arg3)) := by
  show StableHlo.after hostOps0 (W0 (F := Ideal) m ρ c) (Proc.devRef .tc main_v9) = _
  simp only [hostOps0]
  after_results
  rfl

theorem aX_eq : aX m ρ c = fun b t e =>
    Cert.ReferenceIdeal.RefValue.val_main_v9 (F := Ideal) (m ((c : Thread nD τ).loc main_arg0)) (m ((c : Thread nD τ).loc main_arg3)) (ix3 b t e) := by
  funext b t e
  exact congrFun (v9_eq m ρ c) (ix3 b t e)

variable [hP : Cert.Pre_finite_inputs.Facts]

theorem kernel_out (hpre : Cert.Pre_KernelIdeal m) : (W6 (F := Ideal) m ρ c main_v22 : S64x51x32000.Idx → EReal)
    = fun i => Cert.Spec.out (aX m ρ c) (aWih m c) (abih m c) (abhh m c) (aEnc m c) (aWa m c) (aFcw m c) (aFcb m c) (i 0) (i 1) (i 2) := by
  funext i
  have e : (i : S64x51x32000.Idx) = ix3 (i 0) (i 1) (i 2) := eq_ix3 (n0 := 64) (n1 := 51) (n2 := 32000) i
  exact (congrArg (W6 (F := Ideal) m ρ c main_v22 : S64x51x32000.Idx → EReal) e).trans (W6_v22 m ρ c hpre (i 0) (i 1) (i 2))

theorem kernel_hidden : (W6 (F := Ideal) m ρ c main_v15 : S1x64x512.Idx → EReal)
    = fun i => Cert.Spec.hidden (aX m ρ c) (aWih m c) (abih m c) (abhh m c) (i 1) (i 2) := by
  funext i
  have z : @Eq (Fin 1) (i 0) (0 : Fin 1) := Subsingleton.elim (α := Fin 1) _ _
  have e : (i : S1x64x512.Idx) = ix3 (0 : Fin 1) (i 1) (i 2) :=
    (eq_ix3 (n0 := 1) (n1 := 64) (n2 := 512) i).trans (congrArg (fun a : Fin 1 => ix3 a (i 1) (i 2)) z)
  exact (congrArg (W6 (F := Ideal) m ρ c main_v15 : S1x64x512.Idx → EReal) e).trans (W6_v15 m ρ c (i 1) (i 2))

end Cert.KernelIdeal.Hand

end
-- ==== Proof.RefRunA.lean ====
/-
  The reference program's run. Its main function is a straight line of 95 host operations (the log-softmax helper's
  fifteen stand at its call site); the line is cut into seven consecutive windows, one per stretch of the computation:
  the embedded input, the input-side gate pre-activations, the GRU cell, the attention, the class scores, the
  log-softmax, the hidden state handed on. After each window the buffers still needed hold the stage of RefStages.lean
  of the argument arrays; a buffer a window does not write keeps its contents through it. So every weakly fair
  execution terminates with the two results at their stages (`refOut`, `refHidden`) and the eleven arguments unchanged.
-/
import proofs.«150782_j29695403885316_1_alg».proof.Proof.RefStages
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The operations, in order -/

/-- The main function's 95 operations. -/
abbrev ops : List (HloOp τ sig (Elt F)) :=
  [ nullary main_c (constantI S_ 32 1#32),
    unary main_c main_v0 (broadcastInDim S64x1 ![] bcast_S_S64x1 : (⟨S_, .i32⟩ : BufTy).Contents (Elt F) → (⟨S64x1, .i32⟩ : BufTy).Contents (Elt F)),
    unary main_arg0 main_v1 ((extractStridedSlice S64x50 ![0, 0] · slices_S64x51_S64x50_0_0) : (⟨S64x51, .i32⟩ : BufTy).Contents (Elt F) → (⟨S64x50, .i32⟩ : BufTy).Contents (Elt F)),
    binary main_v0 main_v1 main_v2 ((fun a b => concatenate S64x51 1 [⟨S64x1, a⟩, ⟨S64x50, b⟩] concatenates_S64x1_S64x50_S64x51_d1) : (⟨S64x1, .i32⟩ : BufTy).Contents (Elt F) → (⟨S64x50, .i32⟩ : BufTy).Contents (Elt F) → (⟨S64x51, .i32⟩ : BufTy).Contents (Elt F)),
    nullary main_c_0 (constantI S_ 32 0#32),
    unary main_c_0 main_v3 (broadcastInDim S64x51 ![] bcast_S_S64x51 : (⟨S_, .i32⟩ : BufTy).Contents (Elt F) → (⟨S64x51, .i32⟩ : BufTy).Contents (Elt F)),
    binary main_v2 main_v3 main_v4 (cmpi .slt : (⟨S64x51, .i32⟩ : BufTy).Contents (Elt F) → (⟨S64x51, .i32⟩ : BufTy).Contents (Elt F) → (⟨S64x51, .i1⟩ : BufTy).Contents (Elt F)),
    nullary main_c_1 (constantI S_ 32 32000#32),
    unary main_c_1 main_v5 (broadcastInDim S64x51 ![] bcast_S_S64x51 : (⟨S_, .i32⟩ : BufTy).Contents (Elt F) → (⟨S64x51, .i32⟩ : BufTy).Contents (Elt F)),
    binary main_v2 main_v5 main_v6 (addi : (⟨S64x51, .i32⟩ : BufTy).Contents (Elt F) → (⟨S64x51, .i32⟩ : BufTy).Contents (Elt F) → (⟨S64x51, .i32⟩ : BufTy).Contents (Elt F)),
    ternary main_v4 main_v6 main_v2 main_v7 (select : (⟨S64x51, .i1⟩ : BufTy).Contents (Elt F) → (⟨S64x51, .i32⟩ : BufTy).Contents (Elt F) → (⟨S64x51, .i32⟩ : BufTy).Contents (Elt F) → (⟨S64x51, .i32⟩ : BufTy).Contents (Elt F)),
    unary main_v7 main_v8 (broadcastInDim S64x51x1 ![0, 1] bcast_S64x51_S64x51x1_0_1 : (⟨S64x51, .i32⟩ : BufTy).Contents (Elt F) → (⟨S64x51x1, .i32⟩ : BufTy).Contents (Elt F)),
    binary main_arg3 main_v8 main_v9 ((fun x i => Host.gather gather_S32000x256_S64x51x1_S64x51x256_2_0_n_n_0_2_1256 x i) : (⟨S32000x256, .f32⟩ : BufTy).Contents (Elt F) → (⟨S64x51x1, .i32⟩ : BufTy).Contents (Elt F) → (⟨S64x51x256, .f32⟩ : BufTy).Contents (Elt F)),
    binary main_v9 main_arg4 main_v10 ((fun l r => Host.dotGeneral dot_S64x51x256_S1536x256_S64x51x1536_2_1_01_0_n_n none l r) : (⟨S64x51x256, .f32⟩ : BufTy).Contents (Elt F) → (⟨S1536x256, .f32⟩ : BufTy).Contents (Elt F) → (⟨S64x51x1536, .f32⟩ : BufTy).Contents (Elt F)),
    unary main_arg6 main_v11 (broadcastInDim S1x1x1536 ![2] bcast_S1536_S1x1x1536_2 : (⟨S1536, .f32⟩ : BufTy).Contents (Elt F) → (⟨S1x1x1536, .f32⟩ : BufTy).Contents (Elt F)),
    unary main_v11 main_v12 (broadcastInDim S64x51x1536 ![0, 1, 2] bcast_S1x1x1536_S64x51x1536_0_1_2 : (⟨S1x1x1536, .f32⟩ : BufTy).Contents (Elt F) → (⟨S64x51x1536, .f32⟩ : BufTy).Contents (Elt F)),
    binary main_v10 main_v12 main_v13 (addf : (⟨S64x51x1536, .f32⟩ : BufTy).Contents (Elt F) → (⟨S64x51x1536, .f32⟩ : BufTy).Contents (Elt F) → (⟨S64x51x1536, .f32⟩ : BufTy).Contents (Elt F)),
    unary main_v13 main_v14 ((extractStridedSlice S64x51x512 ![0, 0, 0] · slices_S64x51x1536_S64x51x512_0_0_0) : (⟨S64x51x1536, .f32⟩ : BufTy).Contents (Elt F) → (⟨S64x51x512, .f32⟩ : BufTy).Contents (Elt F)),
    unary main_arg7 main_v15 ((extractStridedSlice S512 ![0] · slices_S1536_S512_0) : (⟨S1536, .f32⟩ : BufTy).Contents (Elt F) → (⟨S512, .f32⟩ : BufTy).Contents (Elt F)),
    unary main_v15 main_v16 (broadcastInDim S1x1x512 ![2] bcast_S512_S1x1x512_2 : (⟨S512, .f32⟩ : BufTy).Contents (Elt F) → (⟨S1x1x512, .f32⟩ : BufTy).Contents (Elt F)),
    unary main_v16 main_v17 (broadcastInDim S64x51x512 ![0, 1, 2] bcast_S1x1x512_S64x51x512_0_1_2 : (⟨S1x1x512, .f32⟩ : BufTy).Contents (Elt F) → (⟨S64x51x512, .f32⟩ : BufTy).Contents (Elt F)),
    binary main_v14 main_v17 main_v18 (addf : (⟨S64x51x512, .f32⟩ : BufTy).Contents (Elt F) → (⟨S64x51x512, .f32⟩ : BufTy).Contents (Elt F) → (⟨S64x51x512, .f32⟩ : BufTy).Contents (Elt F)),
    unary main_v18 main_v19 (Host.negf : (⟨S64x51x512, .f32⟩ : BufTy).Contents (Elt F) → (⟨S64x51x512, .f32⟩ : BufTy).Contents (Elt F)),
    unary main_v19 main_v20 (Host.exp : (⟨S64x51x512, .f32⟩ : BufTy).Contents (Elt F) → (⟨S64x51x512, .f32⟩ : BufTy).Contents (Elt F)),
    nullary main_cst (constant S_ .f32 0x3F800000#32),
    unary main_cst main_v21 (broadcastInDim S64x51x512 ![] bcast_S_S64x51x512 : (⟨S_, .f32⟩ : BufTy).Contents (Elt F) → (⟨S64x51x512, .f32⟩ : BufTy).Contents (Elt F)),
    binary main_v21 main_v20 main_v22 (addf : (⟨S64x51x512, .f32⟩ : BufTy).Contents (Elt F) → (⟨S64x51x512, .f32⟩ : BufTy).Contents (Elt F) → (⟨S64x51x512, .f32⟩ : BufTy).Contents (Elt F)),
    nullary main_cst_2 (constant S_ .f32 0x3F800000#32),
    unary main_cst_2 main_v23 (broadcastInDim S64x51x512 ![] bcast_S_S64x51x512 : (⟨S_, .f32⟩ : BufTy).Contents (Elt F) → (⟨S64x51x512, .f32⟩ : BufTy).Contents (Elt F)),
    binary main_v23 main_v22 main_v24 (Host.divf : (⟨S64x51x512, .f32⟩ : BufTy).Contents (Elt F) → (⟨S64x51x512, .f32⟩ : BufTy).Contents (Elt F) → (⟨S64x51x512, .f32⟩ : BufTy).Contents (Elt F)),
    unary main_v13 main_v25 ((extractStridedSlice S64x51x512 ![0, 0, 512] · slices_S64x51x1536_S64x51x512_0_0_512) : (⟨S64x51x1536, .f32⟩ : BufTy).Contents (Elt F) → (⟨S64x51x512, .f32⟩ : BufTy).Contents (Elt F)),
    unary main_arg7 main_v26 ((extractStridedSlice S512 ![512] · slices_S1536_S512_512) : (⟨S1536, .f32⟩ : BufTy).Contents (Elt F) → (⟨S512, .f32⟩ : BufTy).Contents (Elt F)),
    unary main_v26 main_v27 (broadcastInDim S1x1x512 ![2] bcast_S512_S1x1x512_2 : (⟨S512, .f32⟩ : BufTy).Contents (Elt F) → (⟨S1x1x512, .f32⟩ : BufTy).Contents (Elt F)),
    unary main_v27 main_v28 (broadcastInDim S64x51x512 ![0, 1, 2] bcast_S1x1x512_S64x51x512_0_1_2 : (⟨S1x1x512, .f32⟩ : BufTy).Contents (Elt F) → (⟨S64x51x512, .f32⟩ : BufTy).Contents (Elt F)),
    binary main_v25 main_v28 main_v29 (addf : (⟨S64x51x512, .f32⟩ : BufTy).Contents (Elt F) → (⟨S64x51x512, .f32⟩ : BufTy).Contents (Elt F) → (⟨S64x51x512, .f32⟩ : BufTy).Contents (Elt F)),
    unary main_v29 main_v30 (Host.negf : (⟨S64x51x512, .f32⟩ : BufTy).Contents (Elt F) → (⟨S64x51x512, .f32⟩ : BufTy).Contents (Elt F)),
    unary main_v30 main_v31 (Host.exp : (⟨S64x51x512, .f32⟩ : BufTy).Contents (Elt F) → (⟨S64x51x512, .f32⟩ : BufTy).Contents (Elt F)),
    nullary main_cst_3 (constant S_ .f32 0x3F800000#32),
    unary main_cst_3 main_v32 (broadcastInDim S64x51x512 ![] bcast_S_S64x51x512 : (⟨S_, .f32⟩ : BufTy).Contents (Elt F) → (⟨S64x51x512, .f32⟩ : BufTy).Contents (Elt F)),
    binary main_v32 main_v31 main_v33 (addf : (⟨S64x51x512, .f32⟩ : BufTy).Contents (Elt F) → (⟨S64x51x512, .f32⟩ : BufTy).Contents (Elt F) → (⟨S64x51x512, .f32⟩ : BufTy).Contents (Elt F)),
    nullary main_cst_4 (constant S_ .f32 0x3F800000#32),
    unary main_cst_4 main_v34 (broadcastInDim S64x51x512 ![] bcast_S_S64x51x512 : (⟨S_, .f32⟩ : BufTy).Contents (Elt F) → (⟨S64x51x512, .f32⟩ : BufTy).Contents (Elt F)),
    binary main_v34 main_v33 main_v35 (Host.divf : (⟨S64x51x512, .f32⟩ : BufTy).Contents (Elt F) → (⟨S64x51x512, .f32⟩ : BufTy).Contents (Elt F) → (⟨S64x51x512, .f32⟩ : BufTy).Contents (Elt F)),
    unary main_v13 main_v36 ((extractStridedSlice S64x51x512 ![0, 0, 1024] · slices_S64x51x1536_S64x51x512_0_0_1024) : (⟨S64x51x1536, .f32⟩ : BufTy).Contents (Elt F) → (⟨S64x51x512, .f32⟩ : BufTy).Contents (Elt F)),
    unary main_arg7 main_v37 ((extractStridedSlice S512 ![1024] · slices_S1536_S512_1024) : (⟨S1536, .f32⟩ : BufTy).Contents (Elt F) → (⟨S512, .f32⟩ : BufTy).Contents (Elt F)),
    unary main_v37 main_v38 (broadcastInDim S1x1x512 ![2] bcast_S512_S1x1x512_2 : (⟨S512, .f32⟩ : BufTy).Contents (Elt F) → (⟨S1x1x512, .f32⟩ : BufTy).Contents (Elt F)),
    unary main_v38 main_v39 (broadcastInDim S64x51x512 ![0, 1, 2] bcast_S1x1x512_S64x51x512_0_1_2 : (⟨S1x1x512, .f32⟩ : BufTy).Contents (Elt F) → (⟨S64x51x512, .f32⟩ : BufTy).Contents (Elt F)),
    binary main_v24 main_v39 main_v40 (mulf : (⟨S64x51x512, .f32⟩ : BufTy).Contents (Elt F) → (⟨S64x51x512, .f32⟩ : BufTy).Contents (Elt F) → (⟨S64x51x512, .f32⟩ : BufTy).Contents (Elt F)),
    binary main_v36 main_v40 main_v41 (addf : (⟨S64x51x512, .f32⟩ : BufTy).Contents (Elt F) → (⟨S64x51x512, .f32⟩ : BufTy).Contents (Elt F) → (⟨S64x51x512, .f32⟩ : BufTy).Contents (Elt F)),
    unary main_v41 main_v42 (Host.tanh : (⟨S64x51x512, .f32⟩ : BufTy).Contents (Elt F) → (⟨S64x51x512, .f32⟩ : BufTy).Contents (Elt F)),
    nullary main_cst_5 (constant S_ .f32 0x3F800000#32),
    unary main_cst_5 main_v43 (broadcastInDim S64x51x512 ![] bcast_S_S64x51x512 : (⟨S_, .f32⟩ : BufTy).Contents (Elt F) → (⟨S64x51x512, .f32⟩ : BufTy).Contents (Elt F)),
    binary main_v43 main_v35 main_v44 (subf : (⟨S64x51x512, .f32⟩ : BufTy).Contents (Elt F) → (⟨S64x51x512, .f32⟩ : BufTy).Contents (Elt F) → (⟨S64x51x512, .f32⟩ : BufTy).Contents (Elt F)),
    binary main_v44 main_v42 main_v45 (mulf : (⟨S64x51x512, .f32⟩ : BufTy).Contents (Elt F) → (⟨S64x51x512, .f32⟩ : BufTy).Contents (Elt F) → (⟨S64x51x512, .f32⟩ : BufTy).Contents (Elt F)),
    binary main_v45 main_arg2 main_v46 ((fun l r => Host.dotGeneral dot_S64x51x512_S64x128x512_S64x51x128_2_2_1_1_0_0 none l r) : (⟨S64x51x512, .f32⟩ : BufTy).Contents (Elt F) → (⟨S64x128x512, .f32⟩ : BufTy).Contents (Elt F) → (⟨S64x51x128, .f32⟩ : BufTy).Contents (Elt F)),
    nullary main_cst_6 (constant S_ .f32 0xFF800000#32),
    binary main_v46 main_cst_6 main_v47 ((fun x v => Host.reduce FloatOps.maximumf x v reducesTo_S64x51x128_S64x51_d2 h_S_) : (⟨S64x51x128, .f32⟩ : BufTy).Contents (Elt F) → (⟨S_, .f32⟩ : BufTy).Contents (Elt F) → (⟨S64x51, .f32⟩ : BufTy).Contents (Elt F)),
    nullary main_cst_7 (constant S_ .f32 0xFF800000#32),
    unary main_cst_7 main_v48 (broadcastInDim S64x51 ![] bcast_S_S64x51 : (⟨S_, .f32⟩ : BufTy).Contents (Elt F) → (⟨S64x51, .f32⟩ : BufTy).Contents (Elt F)),
    binary main_v48 main_v47 main_v49 (maximumf : (⟨S64x51, .f32⟩ : BufTy).Contents (Elt F) → (⟨S64x51, .f32⟩ : BufTy).Contents (Elt F) → (⟨S64x51, .f32⟩ : BufTy).Contents (Elt F)),
    unary main_v49 main_v50 (broadcastInDim S64x51x1 ![0, 1] bcast_S64x51_S64x51x1_0_1 : (⟨S64x51, .f32⟩ : BufTy).Contents (Elt F) → (⟨S64x51x1, .f32⟩ : BufTy).Contents (Elt F)),
    unary main_v50 main_v51 (broadcastInDim S64x51x128 ![0, 1, 2] bcast_S64x51x1_S64x51x128_0_1_2 : (⟨S64x51x1, .f32⟩ : BufTy).Contents (Elt F) → (⟨S64x51x128, .f32⟩ : BufTy).Contents (Elt F)),
    binary main_v46 main_v51 main_v52 (subf : (⟨S64x51x128, .f32⟩ : BufTy).Contents (Elt F) → (⟨S64x51x128, .f32⟩ : BufTy).Contents (Elt F) → (⟨S64x51x128, .f32⟩ : BufTy).Contents (Elt F)),
    unary main_v52 main_v53 (Host.exp : (⟨S64x51x128, .f32⟩ : BufTy).Contents (Elt F) → (⟨S64x51x128, .f32⟩ : BufTy).Contents (Elt F)),
    nullary main_cst_8 (constant S_ .f32 0x00000000#32),
    binary main_v53 main_cst_8 main_v54 ((fun x v => Host.reduceAdd x v reducesTo_S64x51x128_S64x51_d2 h_S_) : (⟨S64x51x128, .f32⟩ : BufTy).Contents (Elt F) → (⟨S_, .f32⟩ : BufTy).Contents (Elt F) → (⟨S64x51, .f32⟩ : BufTy).Contents (Elt F)),
    unary main_v54 main_v55 (broadcastInDim S64x51x1 ![0, 1] bcast_S64x51_S64x51x1_0_1 : (⟨S64x51, .f32⟩ : BufTy).Contents (Elt F) → (⟨S64x51x1, .f32⟩ : BufTy).Contents (Elt F)),
    unary main_v55 main_v56 (broadcastInDim S64x51x128 ![0, 1, 2] bcast_S64x51x1_S64x51x128_0_1_2 : (⟨S64x51x1, .f32⟩ : BufTy).Contents (Elt F) → (⟨S64x51x128, .f32⟩ : BufTy).Contents (Elt F)),
    binary main_v53 main_v56 main_v57 (Host.divf : (⟨S64x51x128, .f32⟩ : BufTy).Contents (Elt F) → (⟨S64x51x128, .f32⟩ : BufTy).Contents (Elt F) → (⟨S64x51x128, .f32⟩ : BufTy).Contents (Elt F)),
    binary main_v57 main_arg2 main_v58 ((fun l r => Host.dotGeneral dot_S64x51x128_S64x128x512_S64x51x512_2_1_1_2_0_0 none l r) : (⟨S64x51x128, .f32⟩ : BufTy).Contents (Elt F) → (⟨S64x128x512, .f32⟩ : BufTy).Contents (Elt F) → (⟨S64x51x512, .f32⟩ : BufTy).Contents (Elt F)),
    binary main_v45 main_v58 main_v59 ((fun a b => concatenate S64x51x1024 2 [⟨S64x51x512, a⟩, ⟨S64x51x512, b⟩] concatenates_S64x51x512_S64x51x512_S64x51x1024_d2) : (⟨S64x51x512, .f32⟩ : BufTy).Contents (Elt F) → (⟨S64x51x512, .f32⟩ : BufTy).Contents (Elt F) → (⟨S64x51x1024, .f32⟩ : BufTy).Contents (Elt F)),
    binary main_v59 main_arg8 main_v60 ((fun l r => Host.dotGeneral dot_S64x51x1024_S512x1024_S64x51x512_2_1_01_0_n_n none l r) : (⟨S64x51x1024, .f32⟩ : BufTy).Contents (Elt F) → (⟨S512x1024, .f32⟩ : BufTy).Contents (Elt F) → (⟨S64x51x512, .f32⟩ : BufTy).Contents (Elt F)),
    unary main_v60 main_v61 (Host.tanh : (⟨S64x51x512, .f32⟩ : BufTy).Contents (Elt F) → (⟨S64x51x512, .f32⟩ : BufTy).Contents (Elt F)),
    binary main_v61 main_arg9 main_v62 ((fun l r => Host.dotGeneral dot_S64x51x512_S32000x512_S64x51x32000_2_1_01_0_n_n none l r) : (⟨S64x51x512, .f32⟩ : BufTy).Contents (Elt F) → (⟨S32000x512, .f32⟩ : BufTy).Contents (Elt F) → (⟨S64x51x32000, .f32⟩ : BufTy).Contents (Elt F)),
    unary main_arg10 main_v63 (broadcastInDim S1x1x32000 ![2] bcast_S32000_S1x1x32000_2 : (⟨S32000, .f32⟩ : BufTy).Contents (Elt F) → (⟨S1x1x32000, .f32⟩ : BufTy).Contents (Elt F)),
    unary main_v63 main_v64 (broadcastInDim S64x51x32000 ![0, 1, 2] bcast_S1x1x32000_S64x51x32000_0_1_2 : (⟨S1x1x32000, .f32⟩ : BufTy).Contents (Elt F) → (⟨S64x51x32000, .f32⟩ : BufTy).Contents (Elt F)),
    binary main_v62 main_v64 main_v65 (addf : (⟨S64x51x32000, .f32⟩ : BufTy).Contents (Elt F) → (⟨S64x51x32000, .f32⟩ : BufTy).Contents (Elt F) → (⟨S64x51x32000, .f32⟩ : BufTy).Contents (Elt F)),
    TRef.nullary main_call0.cst (constant S_ .f32 0xFF800000#32),
    TRef.binary (TRef.of (T := ⟨S64x51x32000, .f32⟩) main_v65) main_call0.cst main_call0.v0 (fun x v => Host.reduce FloatOps.maximumf x v reducesTo_S64x51x32000_S64x51_d2 h_S_),
    TRef.nullary main_call0.cst_0 (constant S_ .f32 0xFF800000#32),
    TRef.unary main_call0.cst_0 main_call0.v1 (broadcastInDim S64x51 ![] bcast_S_S64x51),
    TRef.binary main_call0.v1 main_call0.v0 main_call0.v2 maximumf,
    TRef.unary main_call0.v2 main_call0.v3 (broadcastInDim S64x51x1 ![0, 1] bcast_S64x51_S64x51x1_0_1),
    TRef.unary main_call0.v3 main_call0.v4 (broadcastInDim S64x51x32000 ![0, 1, 2] bcast_S64x51x1_S64x51x32000_0_1_2),
    TRef.binary (TRef.of (T := ⟨S64x51x32000, .f32⟩) main_v65) main_call0.v4 main_call0.v5 subf,
    TRef.unary main_call0.v5 main_call0.v6 Host.exp,
    TRef.nullary main_call0.cst_1 (constant S_ .f32 0x00000000#32),
    TRef.binary main_call0.v6 main_call0.cst_1 main_call0.v7 (fun x v => Host.reduceAdd x v reducesTo_S64x51x32000_S64x51_d2 h_S_),
    TRef.unary main_call0.v7 main_call0.v8 (broadcastInDim S64x51x1 ![0, 1] bcast_S64x51_S64x51x1_0_1),
    TRef.unary main_call0.v8 main_call0.v9 Host.log,
    TRef.unary main_call0.v9 main_call0.v10 (broadcastInDim S64x51x32000 ![0, 1, 2] bcast_S64x51x1_S64x51x32000_0_1_2),
    TRef.binary main_call0.v5 main_call0.v10 main_call0.v11 subf,
    unary main_v45 main_v67 ((extractStridedSlice S64x1x512 ![0, 50, 0] · slices_S64x51x512_S64x1x512_0_50_0) : (⟨S64x51x512, .f32⟩ : BufTy).Contents (Elt F) → (⟨S64x1x512, .f32⟩ : BufTy).Contents (Elt F)),
    reshape main_v67 main_v68 rfl shapeCasts_S64x1x512_S64x512,
    unary main_v68 main_v69 (broadcastInDim S1x64x512 ![1, 2] bcast_S64x512_S1x64x512_1_2 : (⟨S64x512, .f32⟩ : BufTy).Contents (Elt F) → (⟨S1x64x512, .f32⟩ : BufTy).Contents (Elt F)) ]

/-- Window 1: operations 1 … 13. -/
abbrev w1 : List (HloOp τ sig (Elt F)) :=
  [ nullary main_c (constantI S_ 32 1#32),
    unary main_c main_v0 (broadcastInDim S64x1 ![] bcast_S_S64x1 : (⟨S_, .i32⟩ : BufTy).Contents (Elt F) → (⟨S64x1, .i32⟩ : BufTy).Contents (Elt F)),
    unary main_arg0 main_v1 ((extractStridedSlice S64x50 ![0, 0] · slices_S64x51_S64x50_0_0) : (⟨S64x51, .i32⟩ : BufTy).Contents (Elt F) → (⟨S64x50, .i32⟩ : BufTy).Contents (Elt F)),
    binary main_v0 main_v1 main_v2 ((fun a b => concatenate S64x51 1 [⟨S64x1, a⟩, ⟨S64x50, b⟩] concatenates_S64x1_S64x50_S64x51_d1) : (⟨S64x1, .i32⟩ : BufTy).Contents (Elt F) → (⟨S64x50, .i32⟩ : BufTy).Contents (Elt F) → (⟨S64x51, .i32⟩ : BufTy).Contents (Elt F)),
    nullary main_c_0 (constantI S_ 32 0#32),
    unary main_c_0 main_v3 (broadcastInDim S64x51 ![] bcast_S_S64x51 : (⟨S_, .i32⟩ : BufTy).Contents (Elt F) → (⟨S64x51, .i32⟩ : BufTy).Contents (Elt F)),
    binary main_v2 main_v3 main_v4 (cmpi .slt : (⟨S64x51, .i32⟩ : BufTy).Contents (Elt F) → (⟨S64x51, .i32⟩ : BufTy).Contents (Elt F) → (⟨S64x51, .i1⟩ : BufTy).Contents (Elt F)),
    nullary main_c_1 (constantI S_ 32 32000#32),
    unary main_c_1 main_v5 (broadcastInDim S64x51 ![] bcast_S_S64x51 : (⟨S_, .i32⟩ : BufTy).Contents (Elt F) → (⟨S64x51, .i32⟩ : BufTy).Contents (Elt F)),
    binary main_v2 main_v5 main_v6 (addi : (⟨S64x51, .i32⟩ : BufTy).Contents (Elt F) → (⟨S64x51, .i32⟩ : BufTy).Contents (Elt F) → (⟨S64x51, .i32⟩ : BufTy).Contents (Elt F)),
    ternary main_v4 main_v6 main_v2 main_v7 (select : (⟨S64x51, .i1⟩ : BufTy).Contents (Elt F) → (⟨S64x51, .i32⟩ : BufTy).Contents (Elt F) → (⟨S64x51, .i32⟩ : BufTy).Contents (Elt F) → (⟨S64x51, .i32⟩ : BufTy).Contents (Elt F)),
    unary main_v7 main_v8 (broadcastInDim S64x51x1 ![0, 1] bcast_S64x51_S64x51x1_0_1 : (⟨S64x51, .i32⟩ : BufTy).Contents (Elt F) → (⟨S64x51x1, .i32⟩ : BufTy).Contents (Elt F)),
    binary main_arg3 main_v8 main_v9 ((fun x i => Host.gather gather_S32000x256_S64x51x1_S64x51x256_2_0_n_n_0_2_1256 x i) : (⟨S32000x256, .f32⟩ : BufTy).Contents (Elt F) → (⟨S64x51x1, .i32⟩ : BufTy).Contents (Elt F) → (⟨S64x51x256, .f32⟩ : BufTy).Contents (Elt F)) ]

/-- Window 2: operations 14 … 17. -/
abbrev w2 : List (HloOp τ sig (Elt F)) :=
  [ binary main_v9 main_arg4 main_v10 ((fun l r => Host.dotGeneral dot_S64x51x256_S1536x256_S64x51x1536_2_1_01_0_n_n none l r) : (⟨S64x51x256, .f32⟩ : BufTy).Contents (Elt F) → (⟨S1536x256, .f32⟩ : BufTy).Contents (Elt F) → (⟨S64x51x1536, .f32⟩ : BufTy).Contents (Elt F)),
    unary main_arg6 main_v11 (broadcastInDim S1x1x1536 ![2] bcast_S1536_S1x1x1536_2 : (⟨S1536, .f32⟩ : BufTy).Contents (Elt F) → (⟨S1x1x1536, .f32⟩ : BufTy).Contents (Elt F)),
    unary main_v11 main_v12 (broadcastInDim S64x51x1536 ![0, 1, 2] bcast_S1x1x1536_S64x51x1536_0_1_2 : (⟨S1x1x1536, .f32⟩ : BufTy).Contents (Elt F) → (⟨S64x51x1536, .f32⟩ : BufTy).Contents (Elt F)),
    binary main_v10 main_v12 main_v13 (addf : (⟨S64x51x1536, .f32⟩ : BufTy).Contents (Elt F) → (⟨S64x51x1536, .f32⟩ : BufTy).Contents (Elt F) → (⟨S64x51x1536, .f32⟩ : BufTy).Contents (Elt F)) ]

/-- Window 3: operations 18 … 54. -/
abbrev w3 : List (HloOp τ sig (Elt F)) :=
  [ unary main_v13 main_v14 ((extractStridedSlice S64x51x512 ![0, 0, 0] · slices_S64x51x1536_S64x51x512_0_0_0) : (⟨S64x51x1536, .f32⟩ : BufTy).Contents (Elt F) → (⟨S64x51x512, .f32⟩ : BufTy).Contents (Elt F)),
    unary main_arg7 main_v15 ((extractStridedSlice S512 ![0] · slices_S1536_S512_0) : (⟨S1536, .f32⟩ : BufTy).Contents (Elt F) → (⟨S512, .f32⟩ : BufTy).Contents (Elt F)),
    unary main_v15 main_v16 (broadcastInDim S1x1x512 ![2] bcast_S512_S1x1x512_2 : (⟨S512, .f32⟩ : BufTy).Contents (Elt F) → (⟨S1x1x512, .f32⟩ : BufTy).Contents (Elt F)),
    unary main_v16 main_v17 (broadcastInDim S64x51x512 ![0, 1, 2] bcast_S1x1x512_S64x51x512_0_1_2 : (⟨S1x1x512, .f32⟩ : BufTy).Contents (Elt F) → (⟨S64x51x512, .f32⟩ : BufTy).Contents (Elt F)),
    binary main_v14 main_v17 main_v18 (addf : (⟨S64x51x512, .f32⟩ : BufTy).Contents (Elt F) → (⟨S64x51x512, .f32⟩ : BufTy).Contents (Elt F) → (⟨S64x51x512, .f32⟩ : BufTy).Contents (Elt F)),
    unary main_v18 main_v19 (Host.negf : (⟨S64x51x512, .f32⟩ : BufTy).Contents (Elt F) → (⟨S64x51x512, .f32⟩ : BufTy).Contents (Elt F)),
    unary main_v19 main_v20 (Host.exp : (⟨S64x51x512, .f32⟩ : BufTy).Contents (Elt F) → (⟨S64x51x512, .f32⟩ : BufTy).Contents (Elt F)),
    nullary main_cst (constant S_ .f32 0x3F800000#32),
    unary main_cst main_v21 (broadcastInDim S64x51x512 ![] bcast_S_S64x51x512 : (⟨S_, .f32⟩ : BufTy).Contents (Elt F) → (⟨S64x51x512, .f32⟩ : BufTy).Contents (Elt F)),
    binary main_v21 main_v20 main_v22 (addf : (⟨S64x51x512, .f32⟩ : BufTy).Contents (Elt F) → (⟨S64x51x512, .f32⟩ : BufTy).Contents (Elt F) → (⟨S64x51x512, .f32⟩ : BufTy).Contents (Elt F)),
    nullary main_cst_2 (constant S_ .f32 0x3F800000#32),
    unary main_cst_2 main_v23 (broadcastInDim S64x51x512 ![] bcast_S_S64x51x512 : (⟨S_, .f32⟩ : BufTy).Contents (Elt F) → (⟨S64x51x512, .f32⟩ : BufTy).Contents (Elt F)),
    binary main_v23 main_v22 main_v24 (Host.divf : (⟨S64x51x512, .f32⟩ : BufTy).Contents (Elt F) → (⟨S64x51x512, .f32⟩ : BufTy).Contents (Elt F) → (⟨S64x51x512, .f32⟩ : BufTy).Contents (Elt F)),
    unary main_v13 main_v25 ((extractStridedSlice S64x51x512 ![0, 0, 512] · slices_S64x51x1536_S64x51x512_0_0_512) : (⟨S64x51x1536, .f32⟩ : BufTy).Contents (Elt F) → (⟨S64x51x512, .f32⟩ : BufTy).Contents (Elt F)),
    unary main_arg7 main_v26 ((extractStridedSlice S512 ![512] · slices_S1536_S512_512) : (⟨S1536, .f32⟩ : BufTy).Contents (Elt F) → (⟨S512, .f32⟩ : BufTy).Contents (Elt F)),
    unary main_v26 main_v27 (broadcastInDim S1x1x512 ![2] bcast_S512_S1x1x512_2 : (⟨S512, .f32⟩ : BufTy).Contents (Elt F) → (⟨S1x1x512, .f32⟩ : BufTy).Contents (Elt F)),
    unary main_v27 main_v28 (broadcastInDim S64x51x512 ![0, 1, 2] bcast_S1x1x512_S64x51x512_0_1_2 : (⟨S1x1x512, .f32⟩ : BufTy).Contents (Elt F) → (⟨S64x51x512, .f32⟩ : BufTy).Contents (Elt F)),
    binary main_v25 main_v28 main_v29 (addf : (⟨S64x51x512, .f32⟩ : BufTy).Contents (Elt F) → (⟨S64x51x512, .f32⟩ : BufTy).Contents (Elt F) → (⟨S64x51x512, .f32⟩ : BufTy).Contents (Elt F)),
    unary main_v29 main_v30 (Host.negf : (⟨S64x51x512, .f32⟩ : BufTy).Contents (Elt F) → (⟨S64x51x512, .f32⟩ : BufTy).Contents (Elt F)),
    unary main_v30 main_v31 (Host.exp : (⟨S64x51x512, .f32⟩ : BufTy).Contents (Elt F) → (⟨S64x51x512, .f32⟩ : BufTy).Contents (Elt F)),
    nullary main_cst_3 (constant S_ .f32 0x3F800000#32),
    unary main_cst_3 main_v32 (broadcastInDim S64x51x512 ![] bcast_S_S64x51x512 : (⟨S_, .f32⟩ : BufTy).Contents (Elt F) → (⟨S64x51x512, .f32⟩ : BufTy).Contents (Elt F)),
    binary main_v32 main_v31 main_v33 (addf : (⟨S64x51x512, .f32⟩ : BufTy).Contents (Elt F) → (⟨S64x51x512, .f32⟩ : BufTy).Contents (Elt F) → (⟨S64x51x512, .f32⟩ : BufTy).Contents (Elt F)),
    nullary main_cst_4 (constant S_ .f32 0x3F800000#32),
    unary main_cst_4 main_v34 (broadcastInDim S64x51x512 ![] bcast_S_S64x51x512 : (⟨S_, .f32⟩ : BufTy).Contents (Elt F) → (⟨S64x51x512, .f32⟩ : BufTy).Contents (Elt F)),
    binary main_v34 main_v33 main_v35 (Host.divf : (⟨S64x51x512, .f32⟩ : BufTy).Contents (Elt F) → (⟨S64x51x512, .f32⟩ : BufTy).Contents (Elt F) → (⟨S64x51x512, .f32⟩ : BufTy).Contents (Elt F)),
    unary main_v13 main_v36 ((extractStridedSlice S64x51x512 ![0, 0, 1024] · slices_S64x51x1536_S64x51x512_0_0_1024) : (⟨S64x51x1536, .f32⟩ : BufTy).Contents (Elt F) → (⟨S64x51x512, .f32⟩ : BufTy).Contents (Elt F)),
    unary main_arg7 main_v37 ((extractStridedSlice S512 ![1024] · slices_S1536_S512_1024) : (⟨S1536, .f32⟩ : BufTy).Contents (Elt F) → (⟨S512, .f32⟩ : BufTy).Contents (Elt F)),
    unary main_v37 main_v38 (broadcastInDim S1x1x512 ![2] bcast_S512_S1x1x512_2 : (⟨S512, .f32⟩ : BufTy).Contents (Elt F) → (⟨S1x1x512, .f32⟩ : BufTy).Contents (Elt F)),
    unary main_v38 main_v39 (broadcastInDim S64x51x512 ![0, 1, 2] bcast_S1x1x512_S64x51x512_0_1_2 : (⟨S1x1x512, .f32⟩ : BufTy).Contents (Elt F) → (⟨S64x51x512, .f32⟩ : BufTy).Contents (Elt F)),
    binary main_v24 main_v39 main_v40 (mulf : (⟨S64x51x512, .f32⟩ : BufTy).Contents (Elt F) → (⟨S64x51x512, .f32⟩ : BufTy).Contents (Elt F) → (⟨S64x51x512, .f32⟩ : BufTy).Contents (Elt F)),
    binary main_v36 main_v40 main_v41 (addf : (⟨S64x51x512, .f32⟩ : BufTy).Contents (Elt F) → (⟨S64x51x512, .f32⟩ : BufTy).Contents (Elt F) → (⟨S64x51x512, .f32⟩ : BufTy).Contents (Elt F)),
    unary main_v41 main_v42 (Host.tanh : (⟨S64x51x512, .f32⟩ : BufTy).Contents (Elt F) → (⟨S64x51x512, .f32⟩ : BufTy).Contents (Elt F)),
    nullary main_cst_5 (constant S_ .f32 0x3F800000#32),
    unary main_cst_5 main_v43 (broadcastInDim S64x51x512 ![] bcast_S_S64x51x512 : (⟨S_, .f32⟩ : BufTy).Contents (Elt F) → (⟨S64x51x512, .f32⟩ : BufTy).Contents (Elt F)),
    binary main_v43 main_v35 main_v44 (subf : (⟨S64x51x512, .f32⟩ : BufTy).Contents (Elt F) → (⟨S64x51x512, .f32⟩ : BufTy).Contents (Elt F) → (⟨S64x51x512, .f32⟩ : BufTy).Contents (Elt F)),
    binary main_v44 main_v42 main_v45 (mulf : (⟨S64x51x512, .f32⟩ : BufTy).Contents (Elt F) → (⟨S64x51x512, .f32⟩ : BufTy).Contents (Elt F) → (⟨S64x51x512, .f32⟩ : BufTy).Contents (Elt F)) ]

/-- Window 4: operations 55 … 70. -/
abbrev w4 : List (HloOp τ sig (Elt F)) :=
  [ binary main_v45 main_arg2 main_v46 ((fun l r => Host.dotGeneral dot_S64x51x512_S64x128x512_S64x51x128_2_2_1_1_0_0 none l r) : (⟨S64x51x512, .f32⟩ : BufTy).Contents (Elt F) → (⟨S64x128x512, .f32⟩ : BufTy).Contents (Elt F) → (⟨S64x51x128, .f32⟩ : BufTy).Contents (Elt F)),
    nullary main_cst_6 (constant S_ .f32 0xFF800000#32),
    binary main_v46 main_cst_6 main_v47 ((fun x v => Host.reduce FloatOps.maximumf x v reducesTo_S64x51x128_S64x51_d2 h_S_) : (⟨S64x51x128, .f32⟩ : BufTy).Contents (Elt F) → (⟨S_, .f32⟩ : BufTy).Contents (Elt F) → (⟨S64x51, .f32⟩ : BufTy).Contents (Elt F)),
    nullary main_cst_7 (constant S_ .f32 0xFF800000#32),
    unary main_cst_7 main_v48 (broadcastInDim S64x51 ![] bcast_S_S64x51 : (⟨S_, .f32⟩ : BufTy).Contents (Elt F) → (⟨S64x51, .f32⟩ : BufTy).Contents (Elt F)),
    binary main_v48 main_v47 main_v49 (maximumf : (⟨S64x51, .f32⟩ : BufTy).Contents (Elt F) → (⟨S64x51, .f32⟩ : BufTy).Contents (Elt F) → (⟨S64x51, .f32⟩ : BufTy).Contents (Elt F)),
    unary main_v49 main_v50 (broadcastInDim S64x51x1 ![0, 1] bcast_S64x51_S64x51x1_0_1 : (⟨S64x51, .f32⟩ : BufTy).Contents (Elt F) → (⟨S64x51x1, .f32⟩ : BufTy).Contents (Elt F)),
    unary main_v50 main_v51 (broadcastInDim S64x51x128 ![0, 1, 2] bcast_S64x51x1_S64x51x128_0_1_2 : (⟨S64x51x1, .f32⟩ : BufTy).Contents (Elt F) → (⟨S64x51x128, .f32⟩ : BufTy).Contents (Elt F)),
    binary main_v46 main_v51 main_v52 (subf : (⟨S64x51x128, .f32⟩ : BufTy).Contents (Elt F) → (⟨S64x51x128, .f32⟩ : BufTy).Contents (Elt F) → (⟨S64x51x128, .f32⟩ : BufTy).Contents (Elt F)),
    unary main_v52 main_v53 (Host.exp : (⟨S64x51x128, .f32⟩ : BufTy).Contents (Elt F) → (⟨S64x51x128, .f32⟩ : BufTy).Contents (Elt F)),
    nullary main_cst_8 (constant S_ .f32 0x00000000#32),
    binary main_v53 main_cst_8 main_v54 ((fun x v => Host.reduceAdd x v reducesTo_S64x51x128_S64x51_d2 h_S_) : (⟨S64x51x128, .f32⟩ : BufTy).Contents (Elt F) → (⟨S_, .f32⟩ : BufTy).Contents (Elt F) → (⟨S64x51, .f32⟩ : BufTy).Contents (Elt F)),
    unary main_v54 main_v55 (broadcastInDim S64x51x1 ![0, 1] bcast_S64x51_S64x51x1_0_1 : (⟨S64x51, .f32⟩ : BufTy).Contents (Elt F) → (⟨S64x51x1, .f32⟩ : BufTy).Contents (Elt F)),
    unary main_v55 main_v56 (broadcastInDim S64x51x128 ![0, 1, 2] bcast_S64x51x1_S64x51x128_0_1_2 : (⟨S64x51x1, .f32⟩ : BufTy).Contents (Elt F) → (⟨S64x51x128, .f32⟩ : BufTy).Contents (Elt F)),
    binary main_v53 main_v56 main_v57 (Host.divf : (⟨S64x51x128, .f32⟩ : BufTy).Contents (Elt F) → (⟨S64x51x128, .f32⟩ : BufTy).Contents (Elt F) → (⟨S64x51x128, .f32⟩ : BufTy).Contents (Elt F)),
    binary main_v57 main_arg2 main_v58 ((fun l r => Host.dotGeneral dot_S64x51x128_S64x128x512_S64x51x512_2_1_1_2_0_0 none l r) : (⟨S64x51x128, .f32⟩ : BufTy).Contents (Elt F) → (⟨S64x128x512, .f32⟩ : BufTy).Contents (Elt F) → (⟨S64x51x512, .f32⟩ : BufTy).Contents (Elt F)) ]

/-- Window 5: operations 71 … 77. -/
abbrev w5 : List (HloOp τ sig (Elt F)) :=
  [ binary main_v45 main_v58 main_v59 ((fun a b => concatenate S64x51x1024 2 [⟨S64x51x512, a⟩, ⟨S64x51x512, b⟩] concatenates_S64x51x512_S64x51x512_S64x51x1024_d2) : (⟨S64x51x512, .f32⟩ : BufTy).Contents (Elt F) → (⟨S64x51x512, .f32⟩ : BufTy).Contents (Elt F) → (⟨S64x51x1024, .f32⟩ : BufTy).Contents (Elt F)),
    binary main_v59 main_arg8 main_v60 ((fun l r => Host.dotGeneral dot_S64x51x1024_S512x1024_S64x51x512_2_1_01_0_n_n none l r) : (⟨S64x51x1024, .f32⟩ : BufTy).Contents (Elt F) → (⟨S512x1024, .f32⟩ : BufTy).Contents (Elt F) → (⟨S64x51x512, .f32⟩ : BufTy).Contents (Elt F)),
    unary main_v60 main_v61 (Host.tanh : (⟨S64x51x512, .f32⟩ : BufTy).Contents (Elt F) → (⟨S64x51x512, .f32⟩ : BufTy).Contents (Elt F)),
    binary main_v61 main_arg9 main_v62 ((fun l r => Host.dotGeneral dot_S64x51x512_S32000x512_S64x51x32000_2_1_01_0_n_n none l r) : (⟨S64x51x512, .f32⟩ : BufTy).Contents (Elt F) → (⟨S32000x512, .f32⟩ : BufTy).Contents (Elt F) → (⟨S64x51x32000, .f32⟩ : BufTy).Contents (Elt F)),
    unary main_arg10 main_v63 (broadcastInDim S1x1x32000 ![2] bcast_S32000_S1x1x32000_2 : (⟨S32000, .f32⟩ : BufTy).Contents (Elt F) → (⟨S1x1x32000, .f32⟩ : BufTy).Contents (Elt F)),
    unary main_v63 main_v64 (broadcastInDim S64x51x32000 ![0, 1, 2] bcast_S1x1x32000_S64x51x32000_0_1_2 : (⟨S1x1x32000, .f32⟩ : BufTy).Contents (Elt F) → (⟨S64x51x32000, .f32⟩ : BufTy).Contents (Elt F)),
    binary main_v62 main_v64 main_v65 (addf : (⟨S64x51x32000, .f32⟩ : BufTy).Contents (Elt F) → (⟨S64x51x32000, .f32⟩ : BufTy).Contents (Elt F) → (⟨S64x51x32000, .f32⟩ : BufTy).Contents (Elt F)) ]

/-- Window 6: operations 78 … 92. -/
abbrev w6 : List (HloOp τ sig (Elt F)) :=
  [ TRef.nullary main_call0.cst (constant S_ .f32 0xFF800000#32),
    TRef.binary (TRef.of (T := ⟨S64x51x32000, .f32⟩) main_v65) main_call0.cst main_call0.v0 (fun x v => Host.reduce FloatOps.maximumf x v reducesTo_S64x51x32000_S64x51_d2 h_S_),
    TRef.nullary main_call0.cst_0 (constant S_ .f32 0xFF800000#32),
    TRef.unary main_call0.cst_0 main_call0.v1 (broadcastInDim S64x51 ![] bcast_S_S64x51),
    TRef.binary main_call0.v1 main_call0.v0 main_call0.v2 maximumf,
    TRef.unary main_call0.v2 main_call0.v3 (broadcastInDim S64x51x1 ![0, 1] bcast_S64x51_S64x51x1_0_1),
    TRef.unary main_call0.v3 main_call0.v4 (broadcastInDim S64x51x32000 ![0, 1, 2] bcast_S64x51x1_S64x51x32000_0_1_2),
    TRef.binary (TRef.of (T := ⟨S64x51x32000, .f32⟩) main_v65) main_call0.v4 main_call0.v5 subf,
    TRef.unary main_call0.v5 main_call0.v6 Host.exp,
    TRef.nullary main_call0.cst_1 (constant S_ .f32 0x00000000#32),
    TRef.binary main_call0.v6 main_call0.cst_1 main_call0.v7 (fun x v => Host.reduceAdd x v reducesTo_S64x51x32000_S64x51_d2 h_S_),
    TRef.unary main_call0.v7 main_call0.v8 (broadcastInDim S64x51x1 ![0, 1] bcast_S64x51_S64x51x1_0_1),
    TRef.unary main_call0.v8 main_call0.v9 Host.log,
    TRef.unary main_call0.v9 main_call0.v10 (broadcastInDim S64x51x32000 ![0, 1, 2] bcast_S64x51x1_S64x51x32000_0_1_2),
    TRef.binary main_call0.v5 main_call0.v10 main_call0.v11 subf ]

/-- Window 7: operations 93 … 95. -/
abbrev w7 : List (HloOp τ sig (Elt F)) :=
  [ unary main_v45 main_v67 ((extractStridedSlice S64x1x512 ![0, 50, 0] · slices_S64x51x512_S64x1x512_0_50_0) : (⟨S64x51x512, .f32⟩ : BufTy).Contents (Elt F) → (⟨S64x1x512, .f32⟩ : BufTy).Contents (Elt F)),
    reshape main_v67 main_v68 rfl shapeCasts_S64x1x512_S64x512,
    unary main_v68 main_v69 (broadcastInDim S1x64x512 ![1, 2] bcast_S64x512_S1x64x512_1_2 : (⟨S64x512, .f32⟩ : BufTy).Contents (Elt F) → (⟨S1x64x512, .f32⟩ : BufTy).Contents (Elt F)) ]

theorem ops_split : (ops : List (HloOp τ sig (Elt F))) = w1 ++ (w2 ++ (w3 ++ (w4 ++ (w5 ++ (w6 ++ w7))))) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., unary_bufs_sub .., unary_bufs_sub .., binary_bufs_sub .., binary_bufs_sub .., unary_bufs_sub .., nullary_bufs_sub .., unary_bufs_sub .., binary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., binary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., reshape_bufs_sub .., unary_bufs_sub ..⟩

/-! ## The buffer contents window by window -/

/-- The buffers window 1 writes. -/
abbrev w1_W : List (Ref sig .tc) := [main_c, main_v0, main_v1, main_v2, main_c_0, main_v3, main_v4, main_c_1, main_v5, main_v6, main_v7, main_v8, main_v9]
theorem w1_writes : (w1 : List (HloOp τ sig (Elt F))).Forall fun op => op.writes ⊆ (w1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- The device's buffer contents after the first 1 window. -/
def val1 (V0 : Valuation τ sig (Elt F)) : Valuation τ sig (Elt F) := after w1 V0
/-- A buffer window 1 does not write keeps its contents through it. -/
theorem val1_keep (V0 : Valuation τ sig (Elt F)) (r : Ref sig .tc) (h : r ∉ w1_W) :
    val1 V0 (Proc.devRef .tc r) = V0 (Proc.devRef .tc r) :=
  after_of_writes_sub w1 _ w1_writes h
/-- A buffer none of the first 1 windows writes still holds what it held at the start. -/
theorem val1_start (V0 : Valuation τ sig (Elt F)) (r : Ref sig .tc) (h1 : r ∉ w1_W) :
    val1 V0 (Proc.devRef .tc r) = V0 (Proc.devRef .tc r) :=
  val1_keep V0 r h1

/-- The buffers window 2 writes. -/
abbrev w2_W : List (Ref sig .tc) := [main_v10, main_v11, main_v12, main_v13]
theorem w2_writes : (w2 : List (HloOp τ sig (Elt F))).Forall fun op => op.writes ⊆ (w2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- The device's buffer contents after the first 2 windows. -/
def val2 (V0 : Valuation τ sig (Elt F)) : Valuation τ sig (Elt F) := after w2 (val1 V0)
/-- A buffer window 2 does not write keeps its contents through it. -/
theorem val2_keep (V0 : Valuation τ sig (Elt F)) (r : Ref sig .tc) (h : r ∉ w2_W) :
    val2 V0 (Proc.devRef .tc r) = val1 V0 (Proc.devRef .tc r) :=
  after_of_writes_sub w2 _ w2_writes h
/-- A buffer none of the first 2 windows writes still holds what it held at the start. -/
theorem val2_start (V0 : Valuation τ sig (Elt F)) (r : Ref sig .tc) (h1 : r ∉ w1_W) (h2 : r ∉ w2_W) :
    val2 V0 (Proc.devRef .tc r) = V0 (Proc.devRef .tc r) :=
  (val2_keep V0 r h2).trans (val1_start V0 r h1)

/-- The buffers window 3 writes. -/
abbrev w3_W : List (Ref sig .tc) := [main_v14, main_v15, main_v16, main_v17, main_v18, main_v19, main_v20, main_cst, main_v21, main_v22, main_cst_2, main_v23, main_v24, main_v25, main_v26, main_v27, main_v28, main_v29, main_v30, main_v31, main_cst_3, main_v32, main_v33, main_cst_4, main_v34, main_v35, main_v36, main_v37, main_v38, main_v39, main_v40, main_v41, main_v42, main_cst_5, main_v43, main_v44, main_v45]
theorem w3_writes : (w3 : List (HloOp τ sig (Elt F))).Forall fun op => op.writes ⊆ (w3_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- The device's buffer contents after the first 3 windows. -/
def val3 (V0 : Valuation τ sig (Elt F)) : Valuation τ sig (Elt F) := after w3 (val2 V0)
/-- A buffer window 3 does not write keeps its contents through it. -/
theorem val3_keep (V0 : Valuation τ sig (Elt F)) (r : Ref sig .tc) (h : r ∉ w3_W) :
    val3 V0 (Proc.devRef .tc r) = val2 V0 (Proc.devRef .tc r) :=
  after_of_writes_sub w3 _ w3_writes h
/-- A buffer none of the first 3 windows writes still holds what it held at the start. -/
theorem val3_start (V0 : Valuation τ sig (Elt F)) (r : Ref sig .tc) (h1 : r ∉ w1_W) (h2 : r ∉ w2_W) (h3 : r ∉ w3_W) :
    val3 V0 (Proc.devRef .tc r) = V0 (Proc.devRef .tc r) :=
  (val3_keep V0 r h3).trans (val2_start V0 r h1 h2)

/-- The buffers window 4 writes. -/
abbrev w4_W : List (Ref sig .tc) := [main_v46, main_cst_6, main_v47, main_cst_7, main_v48, main_v49, main_v50, main_v51, main_v52, main_v53, main_cst_8, main_v54, main_v55, main_v56, main_v57, main_v58]
theorem w4_writes : (w4 : List (HloOp τ sig (Elt F))).Forall fun op => op.writes ⊆ (w4_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- The device's buffer contents after the first 4 windows. -/
def val4 (V0 : Valuation τ sig (Elt F)) : Valuation τ sig (Elt F) := after w4 (val3 V0)
/-- A buffer window 4 does not write keeps its contents through it. -/
theorem val4_keep (V0 : Valuation τ sig (Elt F)) (r : Ref sig .tc) (h : r ∉ w4_W) :
    val4 V0 (Proc.devRef .tc r) = val3 V0 (Proc.devRef .tc r) :=
  after_of_writes_sub w4 _ w4_writes h
/-- A buffer none of the first 4 windows writes still holds what it held at the start. -/
theorem val4_start (V0 : Valuation τ sig (Elt F)) (r : Ref sig .tc) (h1 : r ∉ w1_W) (h2 : r ∉ w2_W) (h3 : r ∉ w3_W) (h4 : r ∉ w4_W) :
    val4 V0 (Proc.devRef .tc r) = V0 (Proc.devRef .tc r) :=
  (val4_keep V0 r h4).trans (val3_start V0 r h1 h2 h3)

/-- The buffers window 5 writes. -/
abbrev w5_W : List (Ref sig .tc) := [main_v59, main_v60, main_v61, main_v62, main_v63, main_v64, main_v65]
theorem w5_writes : (w5 : List (HloOp τ sig (Elt F))).Forall fun op => op.writes ⊆ (w5_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- The device's buffer contents after the first 5 windows. -/
def val5 (V0 : Valuation τ sig (Elt F)) : Valuation τ sig (Elt F) := after w5 (val4 V0)
/-- A buffer window 5 does not write keeps its contents through it. -/
theorem val5_keep (V0 : Valuation τ sig (Elt F)) (r : Ref sig .tc) (h : r ∉ w5_W) :
    val5 V0 (Proc.devRef .tc r) = val4 V0 (Proc.devRef .tc r) :=
  after_of_writes_sub w5 _ w5_writes h
/-- A buffer none of the first 5 windows writes still holds what it held at the start. -/
theorem val5_start (V0 : Valuation τ sig (Elt F)) (r : Ref sig .tc) (h1 : r ∉ w1_W) (h2 : r ∉ w2_W) (h3 : r ∉ w3_W) (h4 : r ∉ w4_W) (h5 : r ∉ w5_W) :
    val5 V0 (Proc.devRef .tc r) = V0 (Proc.devRef .tc r) :=
  (val5_keep V0 r h5).trans (val4_start V0 r h1 h2 h3 h4)

/-- The buffers window 6 writes. -/
abbrev w6_W : List (Ref sig .tc) := [main_call0_cst, main_call0_v0, main_call0_cst_0, main_call0_v1, main_call0_v2, main_call0_v3, main_call0_v4, main_call0_v5, main_call0_v6, main_call0_cst_1, main_call0_v7, main_call0_v8, main_call0_v9, main_call0_v10, main_v66]
theorem w6_writes : (w6 : List (HloOp τ sig (Elt F))).Forall fun op => op.writes ⊆ (w6_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- The device's buffer contents after the first 6 windows. -/
def val6 (V0 : Valuation τ sig (Elt F)) : Valuation τ sig (Elt F) := after w6 (val5 V0)
/-- A buffer window 6 does not write keeps its contents through it. -/
theorem val6_keep (V0 : Valuation τ sig (Elt F)) (r : Ref sig .tc) (h : r ∉ w6_W) :
    val6 V0 (Proc.devRef .tc r) = val5 V0 (Proc.devRef .tc r) :=
  after_of_writes_sub w6 _ w6_writes h
/-- A buffer none of the first 6 windows writes still holds what it held at the start. -/
theorem val6_start (V0 : Valuation τ sig (Elt F)) (r : Ref sig .tc) (h1 : r ∉ w1_W) (h2 : r ∉ w2_W) (h3 : r ∉ w3_W) (h4 : r ∉ w4_W) (h5 : r ∉ w5_W) (h6 : r ∉ w6_W) :
    val6 V0 (Proc.devRef .tc r) = V0 (Proc.devRef .tc r) :=
  (val6_keep V0 r h6).trans (val5_start V0 r h1 h2 h3 h4 h5)

/-- The buffers window 7 writes. -/
abbrev w7_W : List (Ref sig .tc) := [main_v67, main_v68, main_v69]
theorem w7_writes : (w7 : List (HloOp τ sig (Elt F))).Forall fun op => op.writes ⊆ (w7_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- The device's buffer contents after the first 7 windows. -/
def val7 (V0 : Valuation τ sig (Elt F)) : Valuation τ sig (Elt F) := after w7 (val6 V0)
/-- A buffer window 7 does not write keeps its contents through it. -/
theorem val7_keep (V0 : Valuation τ sig (Elt F)) (r : Ref sig .tc) (h : r ∉ w7_W) :
    val7 V0 (Proc.devRef .tc r) = val6 V0 (Proc.devRef .tc r) :=
  after_of_writes_sub w7 _ w7_writes h
/-- A buffer none of the first 7 windows writes still holds what it held at the start. -/
theorem val7_start (V0 : Valuation τ sig (Elt F)) (r : Ref sig .tc) (h1 : r ∉ w1_W) (h2 : r ∉ w2_W) (h3 : r ∉ w3_W) (h4 : r ∉ w4_W) (h5 : r ∉ w5_W) (h6 : r ∉ w6_W) (h7 : r ∉ w7_W) :
    val7 V0 (Proc.devRef .tc r) = V0 (Proc.devRef .tc r) :=
  (val7_keep V0 r h7).trans (val6_start V0 r h1 h2 h3 h4 h5 h6)

/-- The fold over a concatenation is the fold over the second part from the fold over the first. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The whole line's fold is the seventh window's contents. -/
theorem after_ops (V0 : Valuation τ sig (Elt F)) : after ops V0 = val7 V0 := by
  rw [ops_split]; simp only [after_app]; rfl

/-! ## What each window leaves: the stages -/

theorem val1_v9 (V0 : Valuation τ sig (Elt F)) :
    val1 V0 (no_index (Proc.devRef .tc main_v9)) = val_main_v9 (F := F) (V0 (Proc.devRef .tc main_arg0)) (V0 (Proc.devRef .tc main_arg3)) := by
  unfold val1
  simp only [w1]
  after_results_simp
  all_goals rfl

theorem val1_arg4 (V0 : Valuation τ sig (Elt F)) : val1 V0 (no_index (Proc.devRef .tc main_arg4)) = V0 (Proc.devRef .tc main_arg4) :=
  val1_start V0 main_arg4 (by decide)
theorem val1_arg6 (V0 : Valuation τ sig (Elt F)) : val1 V0 (no_index (Proc.devRef .tc main_arg6)) = V0 (Proc.devRef .tc main_arg6) :=
  val1_start V0 main_arg6 (by decide)

theorem val2_v13 (V0 : Valuation τ sig (Elt F)) :
    val2 V0 (no_index (Proc.devRef .tc main_v13)) = val_main_v13 (F := F) (V0 (Proc.devRef .tc main_arg0)) (V0 (Proc.devRef .tc main_arg3)) (V0 (Proc.devRef .tc main_arg4)) (V0 (Proc.devRef .tc main_arg6)) := by
  unfold val2
  simp only [w2]
  after_results_simp
  simp only [val1_v9, val1_arg4, val1_arg6] <;> rfl

theorem val2_arg7 (V0 : Valuation τ sig (Elt F)) : val2 V0 (no_index (Proc.devRef .tc main_arg7)) = V0 (Proc.devRef .tc main_arg7) :=
  val2_start V0 main_arg7 (by decide) (by decide)

set_option maxHeartbeats 2000000 in
theorem val3_v45 (V0 : Valuation τ sig (Elt F)) :
    val3 V0 (no_index (Proc.devRef .tc main_v45)) = val_main_v45 (F := F) (V0 (Proc.devRef .tc main_arg0)) (V0 (Proc.devRef .tc main_arg3)) (V0 (Proc.devRef .tc main_arg4)) (V0 (Proc.devRef .tc main_arg6)) (V0 (Proc.devRef .tc main_arg7)) := by
  unfold val3
  simp only [w3]
  after_results_simp
  simp only [val2_v13, val2_arg7] <;> rfl

theorem val3_arg2 (V0 : Valuation τ sig (Elt F)) : val3 V0 (no_index (Proc.devRef .tc main_arg2)) = V0 (Proc.devRef .tc main_arg2) :=
  val3_start V0 main_arg2 (by decide) (by decide) (by decide)

set_option maxHeartbeats 1600000 in
theorem val4_v58 (V0 : Valuation τ sig (Elt F)) :
    val4 V0 (no_index (Proc.devRef .tc main_v58)) = val_main_v58 (F := F) (V0 (Proc.devRef .tc main_arg0)) (V0 (Proc.devRef .tc main_arg2)) (V0 (Proc.devRef .tc main_arg3)) (V0 (Proc.devRef .tc main_arg4)) (V0 (Proc.devRef .tc main_arg6)) (V0 (Proc.devRef .tc main_arg7)) := by
  unfold val4
  simp only [w4]
  after_results_simp
  simp only [val3_v45, val3_arg2] <;> rfl
theorem val4_v45 (V0 : Valuation τ sig (Elt F)) :
    val4 V0 (no_index (Proc.devRef .tc main_v45)) = val_main_v45 (F := F) (V0 (Proc.devRef .tc main_arg0)) (V0 (Proc.devRef .tc main_arg3)) (V0 (Proc.devRef .tc main_arg4)) (V0 (Proc.devRef .tc main_arg6)) (V0 (Proc.devRef .tc main_arg7)) :=
  (val4_keep V0 main_v45 (by decide)).trans (val3_v45 V0)

theorem val4_arg8 (V0 : Valuation τ sig (Elt F)) : val4 V0 (no_index (Proc.devRef .tc main_arg8)) = V0 (Proc.devRef .tc main_arg8) :=
  val4_start V0 main_arg8 (by decide) (by decide) (by decide) (by decide)
theorem val4_arg9 (V0 : Valuation τ sig (Elt F)) : val4 V0 (no_index (Proc.devRef .tc main_arg9)) = V0 (Proc.devRef .tc main_arg9) :=
  val4_start V0 main_arg9 (by decide) (by decide) (by decide) (by decide)
theorem val4_arg10 (V0 : Valuation τ sig (Elt F)) : val4 V0 (no_index (Proc.devRef .tc main_arg10)) = V0 (Proc.devRef .tc main_arg10) :=
  val4_start V0 main_arg10 (by decide) (by decide) (by decide) (by decide)

end Cert.ReferenceIdeal.RefValue

end
-- ==== Proof.RefRunB.lean ====
/-
  The reference program's run, second half: what the class-score window, the log-softmax window and the last window
  leave, and the run itself — every weakly fair execution terminates with the two results at their stages of the
  argument arrays (`refOut`, `refHidden`) and the eleven arguments unchanged.
-/
import proofs.«150782_j29695403885316_1_alg».proof.Proof.RefRunA

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The class-score window

Its first operation lays the hidden state and the context side by side; that function is named, so that what the
window reads of the two operands stays an argument of a function (not an entry of a list). -/

/-- The pair laid side by side along the last axis. -/
def catFn : (⟨S64x51x512, .f32⟩ : BufTy).Contents (Elt F) → (⟨S64x51x512, .f32⟩ : BufTy).Contents (Elt F) → (⟨S64x51x1024, .f32⟩ : BufTy).Contents (Elt F) :=
  fun a b => concatenate S64x51x1024 2 [⟨S64x51x512, a⟩, ⟨S64x51x512, b⟩] concatenates_S64x51x512_S64x51x512_S64x51x1024_d2

/-- Window 5 with that function by its name. -/
abbrev w5n : List (HloOp τ sig (Elt F)) :=
  [ binary main_v45 main_v58 main_v59 (catFn (F := F)),
    binary main_v59 main_arg8 main_v60 ((fun l r => Host.dotGeneral dot_S64x51x1024_S512x1024_S64x51x512_2_1_01_0_n_n none l r) : (⟨S64x51x1024, .f32⟩ : BufTy).Contents (Elt F) → (⟨S512x1024, .f32⟩ : BufTy).Contents (Elt F) → (⟨S64x51x512, .f32⟩ : BufTy).Contents (Elt F)),
    unary main_v60 main_v61 (Host.tanh : (⟨S64x51x512, .f32⟩ : BufTy).Contents (Elt F) → (⟨S64x51x512, .f32⟩ : BufTy).Contents (Elt F)),
    binary main_v61 main_arg9 main_v62 ((fun l r => Host.dotGeneral dot_S64x51x512_S32000x512_S64x51x32000_2_1_01_0_n_n none l r) : (⟨S64x51x512, .f32⟩ : BufTy).Contents (Elt F) → (⟨S32000x512, .f32⟩ : BufTy).Contents (Elt F) → (⟨S64x51x32000, .f32⟩ : BufTy).Contents (Elt F)),
    unary main_arg10 main_v63 (broadcastInDim S1x1x32000 ![2] bcast_S32000_S1x1x32000_2 : (⟨S32000, .f32⟩ : BufTy).Contents (Elt F) → (⟨S1x1x32000, .f32⟩ : BufTy).Contents (Elt F)),
    unary main_v63 main_v64 (broadcastInDim S64x51x32000 ![0, 1, 2] bcast_S1x1x32000_S64x51x32000_0_1_2 : (⟨S1x1x32000, .f32⟩ : BufTy).Contents (Elt F) → (⟨S64x51x32000, .f32⟩ : BufTy).Contents (Elt F)),
    binary main_v62 main_v64 main_v65 (addf : (⟨S64x51x32000, .f32⟩ : BufTy).Contents (Elt F) → (⟨S64x51x32000, .f32⟩ : BufTy).Contents (Elt F) → (⟨S64x51x32000, .f32⟩ : BufTy).Contents (Elt F)) ]
theorem w5_eq : (w5 : List (HloOp τ sig (Elt F))) = w5n := rfl

set_option maxHeartbeats 1000000 in
theorem val5_v65 (V0 : Valuation τ sig (Elt F)) :
    val5 V0 (no_index (Proc.devRef .tc main_v65)) = val_main_v65 (F := F) (V0 (Proc.devRef .tc main_arg0)) (V0 (Proc.devRef .tc main_arg2)) (V0 (Proc.devRef .tc main_arg3)) (V0 (Proc.devRef .tc main_arg4)) (V0 (Proc.devRef .tc main_arg6)) (V0 (Proc.devRef .tc main_arg7)) (V0 (Proc.devRef .tc main_arg8)) (V0 (Proc.devRef .tc main_arg9)) (V0 (Proc.devRef .tc main_arg10)) := by
  unfold val5
  rw [w5_eq]
  simp only [w5n]
  after_results_simp
  simp only [val4_v45, val4_v58, val4_arg8, val4_arg9, val4_arg10]
  rfl
theorem val5_v45 (V0 : Valuation τ sig (Elt F)) :
    val5 V0 (no_index (Proc.devRef .tc main_v45)) = val_main_v45 (F := F) (V0 (Proc.devRef .tc main_arg0)) (V0 (Proc.devRef .tc main_arg3)) (V0 (Proc.devRef .tc main_arg4)) (V0 (Proc.devRef .tc main_arg6)) (V0 (Proc.devRef .tc main_arg7)) :=
  (val5_keep V0 main_v45 (by decide)).trans (val4_v45 V0)

/-! ## The log-softmax window

Its operations are the helper function's, over references that carry their tensor type: each moves its operands'
contents from the buffer's type to the tensor's and its result back. Moved there and back, contents are unchanged;
at the helper's argument and at its result the two types are one type. -/

/-- Contents moved to a typed reference's buffer type and back are the contents. -/
theorem ofBuf_toBuf {T : BufTy} (x : TRef sig T) (v : T.Contents (Elt F)) : x.ofBuf (x.toBuf v) = v := by
  obtain ⟨r, rfl, _, _⟩ := x
  rfl
/-- At the helper's argument the move is the identity. -/
theorem ofBuf_v65 (v : (⟨S64x51x32000, .f32⟩ : BufTy).Contents (Elt F)) :
    (TRef.of (T := ⟨S64x51x32000, .f32⟩) main_v65).ofBuf v = v := rfl
/-- At the helper's result the move is the identity. -/
theorem toBuf_v66 (v : (⟨S64x51x32000, .f32⟩ : BufTy).Contents (Elt F)) :
    (TRef.of (T := ⟨S64x51x32000, .f32⟩) main_v66).toBuf v = v := rfl

set_option maxHeartbeats 1000000 in
theorem val6_v66 (V0 : Valuation τ sig (Elt F)) :
    val6 V0 (no_index (Proc.devRef .tc main_v66)) = val_main_v66 (F := F) (V0 (Proc.devRef .tc main_arg0)) (V0 (Proc.devRef .tc main_arg2)) (V0 (Proc.devRef .tc main_arg3)) (V0 (Proc.devRef .tc main_arg4)) (V0 (Proc.devRef .tc main_arg6)) (V0 (Proc.devRef .tc main_arg7)) (V0 (Proc.devRef .tc main_arg8)) (V0 (Proc.devRef .tc main_arg9)) (V0 (Proc.devRef .tc main_arg10)) := by
  unfold val6
  simp only [w6]
  after_results_simp
  simp only [val5_v65]
  simp only [ofBuf_toBuf, ofBuf_v65, toBuf_v66]
  unfold val_main_v66 val_main_call0_v10 val_main_call0_v9 val_main_call0_v8 val_main_call0_v7 val_main_call0_cst_1
    val_main_call0_v6 val_main_call0_v5 val_main_call0_v4 val_main_call0_v3 val_main_call0_v2 val_main_call0_v1
    val_main_call0_cst_0 val_main_call0_v0 val_main_call0_cst
  rfl
theorem val6_v45 (V0 : Valuation τ sig (Elt F)) :
    val6 V0 (no_index (Proc.devRef .tc main_v45)) = val_main_v45 (F := F) (V0 (Proc.devRef .tc main_arg0)) (V0 (Proc.devRef .tc main_arg3)) (V0 (Proc.devRef .tc main_arg4)) (V0 (Proc.devRef .tc main_arg6)) (V0 (Proc.devRef .tc main_arg7)) :=
  (val6_keep V0 main_v45 (by decide)).trans (val5_v45 V0)

/-! ## The last window -/

theorem val7_v69 (V0 : Valuation τ sig (Elt F)) :
    val7 V0 (no_index (Proc.devRef .tc main_v69)) = val_main_v69 (F := F) (V0 (Proc.devRef .tc main_arg0)) (V0 (Proc.devRef .tc main_arg3)) (V0 (Proc.devRef .tc main_arg4)) (V0 (Proc.devRef .tc main_arg6)) (V0 (Proc.devRef .tc main_arg7)) := by
  unfold val7
  simp only [w7]
  after_results_simp
  simp only [val6_v45] <;> rfl
theorem val7_v66 (V0 : Valuation τ sig (Elt F)) :
    val7 V0 (no_index (Proc.devRef .tc main_v66)) = val_main_v66 (F := F) (V0 (Proc.devRef .tc main_arg0)) (V0 (Proc.devRef .tc main_arg2)) (V0 (Proc.devRef .tc main_arg3)) (V0 (Proc.devRef .tc main_arg4)) (V0 (Proc.devRef .tc main_arg6)) (V0 (Proc.devRef .tc main_arg7)) (V0 (Proc.devRef .tc main_arg8)) (V0 (Proc.devRef .tc main_arg9)) (V0 (Proc.devRef .tc main_arg10)) :=
  (val7_keep V0 main_v66 (by decide)).trans (val6_v66 V0)

/-! ## The run -/

/-- The first result, the log-probabilities `[64, 51, 32000]`: its stage at the argument arrays of device `c`. -/
def refOut (m : (ℓ : Loc nD τ sig) → Buf (Elt F) ℓ) (c : Dev nD) : Buf (Elt F) ((c.tc : Thread nD τ).loc main_v66) :=
  val_main_v66 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

/-- The second result, the hidden state handed on `[1, 64, 512]`: its stage at the argument arrays of device `c`. -/
def refHidden (m : (ℓ : Loc nD τ sig) → Buf (Elt F) ℓ) (c : Dev nD) : Buf (Elt F) ((c.tc : Thread nD τ).loc main_v69) :=
  val_main_v69 (F := F) (m ((c.tc : Thread nD τ).loc main_arg0)) (m ((c.tc : Thread nD τ).loc main_arg3)) (m ((c.tc : Thread nD τ).loc main_arg4)) (m ((c.tc : Thread nD τ).loc main_arg6)) (m ((c.tc : Thread nD τ).loc main_arg7))

/-- On every device, for any float values, from any memory with zero counters: every weakly fair execution of the
    reference's main function terminates with the two results at their stages of the arguments and the eleven
    arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v66) = refOut m c
      ∧ r.2.mem ((c.tc : Thread nD τ).loc main_v69) = refHidden m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v66).trans (by rw [after_ops]; exact val7_v66 _),
      (h c main_v69).trans (by rw [after_ops]; exact val7_v69 _),
      (h c main_arg0).trans (by rw [after_ops]; exact val7_start _ main_arg0 (by decide) (by decide) (by decide) (by decide) (by decide) (by decide) (by decide)),
      (h c main_arg1).trans (by rw [after_ops]; exact val7_start _ main_arg1 (by decide) (by decide) (by decide) (by decide) (by decide) (by decide) (by decide)),
      (h c main_arg2).trans (by rw [after_ops]; exact val7_start _ main_arg2 (by decide) (by decide) (by decide) (by decide) (by decide) (by decide) (by decide)),
      (h c main_arg3).trans (by rw [after_ops]; exact val7_start _ main_arg3 (by decide) (by decide) (by decide) (by decide) (by decide) (by decide) (by decide)),
      (h c main_arg4).trans (by rw [after_ops]; exact val7_start _ main_arg4 (by decide) (by decide) (by decide) (by decide) (by decide) (by decide) (by decide)),
      (h c main_arg5).trans (by rw [after_ops]; exact val7_start _ main_arg5 (by decide) (by decide) (by decide) (by decide) (by decide) (by decide) (by decide)),
      (h c main_arg6).trans (by rw [after_ops]; exact val7_start _ main_arg6 (by decide) (by decide) (by decide) (by decide) (by decide) (by decide) (by decide)),
      (h c main_arg7).trans (by rw [after_ops]; exact val7_start _ main_arg7 (by decide) (by decide) (by decide) (by decide) (by decide) (by decide) (by decide)),
      (h c main_arg8).trans (by rw [after_ops]; exact val7_start _ main_arg8 (by decide) (by decide) (by decide) (by decide) (by decide) (by decide) (by decide)),
      (h c main_arg9).trans (by rw [after_ops]; exact val7_start _ main_arg9 (by decide) (by decide) (by decide) (by decide) (by decide) (by decide) (by decide)),
      (h c main_arg10).trans (by rw [after_ops]; exact val7_start _ main_arg10 (by decide) (by decide) (by decide) (by decide) (by decide) (by decide) (by decide))⟩)
    (run_seq scopedRefs_eq scopedSems_eq defs main (fun _ => ops) main_eq (fun _ => ops_sub) m ρ)

end Cert.ReferenceIdeal.RefValue

end
-- ==== Proof.RefValue1.lean ====
/-
  The reference's GRU cell is the specification's. Read at an index `(b, t, j)`, the stages of the reference that make
  the new hidden state are: the input-side pre-activations, a contraction of the embedded input with the input weights
  plus the input bias; the reset and update gates, each spelt `1 / (1 + exp (-y))` on the matching block of gate rows
  with the hidden bias added (the ideal division by a sum that is never zero: this IS the ideal logistic); the
  candidate, `tanh` of the third block plus the reset gate times its hidden bias; and `(1 - z) * n`. The hidden state
  handed on is the slice at the last decoder position, re-laid as `[1, 64, 512]`.
-/
import proofs.«150782_j29695403885316_1_alg».proof.Proof.RefStages
import proofs.«150782_j29695403885316_1_alg».proof.Proof.Spec

noncomputable section

open scoped BigOperators

namespace Cert.ReferenceIdeal.RefValue

open Cert.ReferenceIdeal Cert.ReferenceIdeal.Gen Idealize.ShloMosaic Idealize.ShloMosaic.ValueIdx

/-! ## The argument arrays by coordinates -/

/-- The embedded decoder input (the reference's table look-up, kept as its own stage) by coordinates. -/
abbrev embX (x0 : (⟨S64x51, .i32⟩ : BufTy).Contents (Elt Ideal)) (x3 : (⟨S32000x256, .f32⟩ : BufTy).Contents (Elt Ideal)) : Fin 64 → Fin 51 → Fin 256 → EReal :=
  fun b t e => val_main_v9 (F := Ideal) x0 x3 (ix3 b t e)
/-- A `[1536, 256]` array by coordinates (the input weights). -/
abbrev by1536x256 (a : (⟨S1536x256, .f32⟩ : BufTy).Contents (Elt Ideal)) : Fin 1536 → Fin 256 → EReal := fun g e => a (ix2 g e)
/-- A `[1536]` array by its coordinate (the two biases). -/
abbrev by1536 (a : (⟨S1536, .f32⟩ : BufTy).Contents (Elt Ideal)) : Fin 1536 → EReal := fun g => a (ix1 g)
/-- A `[64, 128, 512]` array by coordinates (the encoder outputs). -/
abbrev by64x128x512 (a : (⟨S64x128x512, .f32⟩ : BufTy).Contents (Elt Ideal)) : Fin 64 → Fin 128 → Fin 512 → EReal :=
  fun b s j => a (ix3 b s j)
/-- A `[512, 1024]` array by coordinates (the attention output weights). -/
abbrev by512x1024 (a : (⟨S512x1024, .f32⟩ : BufTy).Contents (Elt Ideal)) : Fin 512 → Fin 1024 → EReal := fun j k => a (ix2 j k)
/-- A `[32000, 512]` array by coordinates (the class weights). -/
abbrev by32000x512 (a : (⟨S32000x512, .f32⟩ : BufTy).Contents (Elt Ideal)) : Fin 32000 → Fin 512 → EReal := fun v k => a (ix2 v k)
/-- A `[32000]` array by its coordinate (the class bias). -/
abbrev by32000 (a : (⟨S32000, .f32⟩ : BufTy).Contents (Elt Ideal)) : Fin 32000 → EReal := fun v => a (ix1 v)

variable (x0 : (⟨S64x51, .i32⟩ : BufTy).Contents (Elt Ideal)) (x3 : (⟨S32000x256, .f32⟩ : BufTy).Contents (Elt Ideal))
  (x4 : (⟨S1536x256, .f32⟩ : BufTy).Contents (Elt Ideal)) (x6 x7 : (⟨S1536, .f32⟩ : BufTy).Contents (Elt Ideal))

/-! ## The cell, stage by stage -/

/-- The input-side pre-activations. -/
theorem gi_eq (b : Fin 64) (t : Fin 51) (g : Fin 1536) :
    val_main_v13 (F := Ideal) x0 x3 x4 x6 (ix3 b t g) = Spec.gi (embX x0 x3) (by1536x256 x4) (by1536 x6) b t g := by
  rw [val_main_v13_apply, val_main_v10_apply, val_main_v12_apply, val_main_v11_apply]
  have el : ∀ k : Fin 256, lidx_main_v10 (ix3 b t g) k = ix3 b t k := fun k => funext fun a => Fin.ext (by
    match a with
    | ⟨0, _⟩ => rfl
    | ⟨1, _⟩ => rfl
    | ⟨2, _⟩ => rfl)
  have er : ∀ k : Fin 256, ridx_main_v10 (ix3 b t g) k = ix2 g k := fun k => funext fun a => Fin.ext (by
    match a with
    | ⟨0, _⟩ => rfl
    | ⟨1, _⟩ => rfl)
  have eb : idx_main_v11 (idx_main_v12 (ix3 b t g)) = ix1 g := funext fun a => Fin.ext (by
    match a with
    | ⟨0, _⟩ => rfl)
  simp only [el, er, eb]
  rfl

/-- The reset gate. -/
theorem r_eq (b : Fin 64) (t : Fin 51) (j : Fin 512) :
    val_main_v24 (F := Ideal) x0 x3 x4 x6 x7 (ix3 b t j)
      = Spec.r (embX x0 x3) (by1536x256 x4) (by1536 x6) (by1536 x7) b t j := by
  rw [val_main_v24_apply, val_main_v23_apply, val_main_cst_2_apply, val_main_v22_apply, val_main_v21_apply,
    val_main_cst_apply, val_main_v20_apply, val_main_v19_apply, val_main_v18_apply, val_main_v14_apply,
    val_main_v17_apply, val_main_v16_apply, val_main_v15_apply]
  have eg : idx_main_v14 (ix3 b t j) = ix3 b t (Spec.gateR j) := funext fun a => Fin.ext (by
    match a with
    | ⟨0, _⟩ => rfl
    | ⟨1, _⟩ => rfl
    | ⟨2, _⟩ => rfl)
  have eb : idx_main_v15 (idx_main_v16 (idx_main_v17 (ix3 b t j))) = ix1 (Spec.gateR j) := funext fun a => Fin.ext (by
    match a with
    | ⟨0, _⟩ => rfl)
  rw [eg, eb, gi_eq]
  simp only [Ideal.ofBits_def, Spec.ofBits_one]
  rfl

/-- The update gate. -/
theorem z_eq (b : Fin 64) (t : Fin 51) (j : Fin 512) :
    val_main_v35 (F := Ideal) x0 x3 x4 x6 x7 (ix3 b t j)
      = Spec.z (embX x0 x3) (by1536x256 x4) (by1536 x6) (by1536 x7) b t j := by
  rw [val_main_v35_apply, val_main_v34_apply, val_main_cst_4_apply, val_main_v33_apply, val_main_v32_apply,
    val_main_cst_3_apply, val_main_v31_apply, val_main_v30_apply, val_main_v29_apply, val_main_v25_apply,
    val_main_v28_apply, val_main_v27_apply, val_main_v26_apply]
  have eg : idx_main_v25 (ix3 b t j) = ix3 b t (Spec.gateZ j) := funext fun a => Fin.ext (by
    match a with
    | ⟨0, _⟩ => rfl
    | ⟨1, _⟩ => rfl
    | ⟨2, _⟩ => rfl)
  have eb : idx_main_v26 (idx_main_v27 (idx_main_v28 (ix3 b t j))) = ix1 (Spec.gateZ j) := funext fun a => Fin.ext (by
    match a with
    | ⟨0, _⟩ => rfl)
  rw [eg, eb, gi_eq]
  simp only [Ideal.ofBits_def, Spec.ofBits_one]
  rfl

/-- The candidate state. -/
theorem n_eq (b : Fin 64) (t : Fin 51) (j : Fin 512) :
    val_main_v42 (F := Ideal) x0 x3 x4 x6 x7 (ix3 b t j)
      = Spec.n (embX x0 x3) (by1536x256 x4) (by1536 x6) (by1536 x7) b t j := by
  rw [val_main_v42_apply, val_main_v41_apply, val_main_v36_apply, val_main_v40_apply, val_main_v39_apply,
    val_main_v38_apply, val_main_v37_apply, r_eq]
  have eg : idx_main_v36 (ix3 b t j) = ix3 b t (Spec.gateN j) := funext fun a => Fin.ext (by
    match a with
    | ⟨0, _⟩ => rfl
    | ⟨1, _⟩ => rfl
    | ⟨2, _⟩ => rfl)
  have eb : idx_main_v37 (idx_main_v38 (idx_main_v39 (ix3 b t j))) = ix1 (Spec.gateN j) := funext fun a => Fin.ext (by
    match a with
    | ⟨0, _⟩ => rfl)
  rw [eg, eb, gi_eq]
  rfl

/-- The new hidden state at an index. -/
theorem h_eq (b : Fin 64) (t : Fin 51) (j : Fin 512) :
    val_main_v45 (F := Ideal) x0 x3 x4 x6 x7 (ix3 b t j)
      = Spec.h (embX x0 x3) (by1536x256 x4) (by1536 x6) (by1536 x7) b t j := by
  rw [val_main_v45_apply, val_main_v44_apply, val_main_v43_apply, val_main_cst_5_apply, z_eq, n_eq]
  simp only [Ideal.ofBits_def, Spec.ofBits_one]
  rfl

/-- The new hidden state, as an array. -/
theorem v45_eq :
    val_main_v45 (F := Ideal) x0 x3 x4 x6 x7
      = fun i => Spec.h (embX x0 x3) (by1536x256 x4) (by1536 x6) (by1536 x7) (i 0) (i 1) (i 2) := by
  funext i
  obtain ⟨b, t, j, rfl⟩ : ∃ (b : Fin 64) (t : Fin 51) (j : Fin 512), i = ix3 b t j := ⟨i 0, i 1, i 2, eq_ix3 i⟩
  exact h_eq x0 x3 x4 x6 x7 b t j

/-! ## The hidden state handed on -/

/-- The second result at an index: the hidden state of the last decoder position. -/
theorem hidden_apply (z : Fin 1) (b : Fin 64) (j : Fin 512) :
    val_main_v69 (F := Ideal) x0 x3 x4 x6 x7 (ix3 z b j)
      = Spec.hidden (embX x0 x3) (by1536x256 x4) (by1536 x6) (by1536 x7) b j := by
  rw [val_main_v69_apply, val_main_v68_apply, val_main_v67_apply]
  have e : idx_main_v67 (idx_main_v68 (idx_main_v69 (ix3 z b j))) = ix3 b (50 : Fin 51) j := funext fun a => Fin.ext (by
    have hj := j.isLt
    match a with
    | ⟨0, _⟩ => show (b.val * 512 + j.val) / 512 = b.val; omega
    | ⟨1, _⟩ => rfl
    | ⟨2, _⟩ => show (b.val * 512 + j.val) % 512 = j.val; omega)
  rw [e, h_eq]
  rfl

/-- The second result, as an array. -/
theorem v69_eq :
    val_main_v69 (F := Ideal) x0 x3 x4 x6 x7
      = fun i => Spec.hidden (embX x0 x3) (by1536x256 x4) (by1536 x6) (by1536 x7) (i 1) (i 2) := by
  funext i
  obtain ⟨z, b, j, rfl⟩ : ∃ (z : Fin 1) (b : Fin 64) (j : Fin 512), i = ix3 z b j := ⟨i 0, i 1, i 2, eq_ix3 i⟩
  exact hidden_apply x0 x3 x4 x6 x7 z b j

end Cert.ReferenceIdeal.RefValue

end
-- ==== Proof.RefValue2.lean ====
/-
  The reference's attention is the specification's. Read at an index: the scores are the contraction of the new hidden
  state with the encoder outputs over the hidden axis; the row maximum is the host's max-reduce over the encoder axis
  from `-inf` (a fold of `max` from `⊥` over the 128 positions) joined once more with `-inf`, which changes nothing;
  the weights are the exponentials of the shifted scores divided by their sum over the row (the sum started from the
  zero word, which adds nothing); the context is the contraction of the weights with the encoder outputs over the
  encoder axis.
-/
import proofs.«150782_j29695403885316_1_alg».proof.Proof.RefValue1

noncomputable section

open scoped BigOperators

namespace Cert.ReferenceIdeal.RefValue

open Cert.ReferenceIdeal Cert.ReferenceIdeal.Gen Idealize.ShloMosaic Idealize.ShloMosaic.ValueIdx

variable (x0 : (⟨S64x51, .i32⟩ : BufTy).Contents (Elt Ideal)) (x3 : (⟨S32000x256, .f32⟩ : BufTy).Contents (Elt Ideal))
  (x2 : (⟨S64x128x512, .f32⟩ : BufTy).Contents (Elt Ideal))
  (x4 : (⟨S1536x256, .f32⟩ : BufTy).Contents (Elt Ideal)) (x6 x7 : (⟨S1536, .f32⟩ : BufTy).Contents (Elt Ideal))

/-- The scores. -/
theorem scores_eq (b : Fin 64) (t : Fin 51) (s : Fin 128) :
    val_main_v46 (F := Ideal) x0 x2 x3 x4 x6 x7 (ix3 b t s) = Spec.scores (embX x0 x3) (by1536x256 x4) (by1536 x6) (by1536 x7) (by64x128x512 x2) b t s := by
  rw [val_main_v46_apply]
  have el : ∀ k : Fin 512, lidx_main_v46 (ix3 b t s) k = ix3 b t k := fun k => funext fun a => Fin.ext (by
    match a with
    | ⟨0, _⟩ => rfl
    | ⟨1, _⟩ => rfl
    | ⟨2, _⟩ => rfl)
  have er : ∀ k : Fin 512, ridx_main_v46 (ix3 b t s) k = ix3 b s k := fun k => funext fun a => Fin.ext (by
    match a with
    | ⟨0, _⟩ => rfl
    | ⟨1, _⟩ => rfl
    | ⟨2, _⟩ => rfl)
  simp only [el, er, h_eq]
  rfl

/-- The host's max-reduce over the encoder axis, at a row: the fold of `max` from `⊥` over the row's scores. -/
theorem v47_apply (b : Fin 64) (t : Fin 51) :
    val_main_v47 (F := Ideal) x0 x2 x3 x4 x6 x7 (ix2 b t)
      = (Finset.univ : Finset (Fin 128)).fold max ⊥ (fun s => val_main_v46 (F := Ideal) x0 x2 x3 x4 x6 x7 (ix3 b t s)) := by
  unfold val_main_v47
  generalize val_main_v46 (F := Ideal) x0 x2 x3 x4 x6 x7 = y
  have hR : S64x51x128.Reduces [2] S64x51 := by decide
  have e := Host.reduce_eq_fold_single (a := (2 : Fin S64x51x128.rank)) (u := S_) (FloatOps.maximumf (F := Ideal) (φ := .f32)) y
    (val_main_cst_6 (F := Ideal)) reducesTo_S64x51x128_S64x51_d2 hR h_S_ (ix2 b t)
  refine e.trans ?_
  have hl : ∀ s : Fin 128, hR.lift (ix2 b t) s = ix3 b t s := fun s => funext fun a => Fin.ext (by
    match a with
    | ⟨0, _⟩ => rfl
    | ⟨1, _⟩ => rfl
    | ⟨2, _⟩ => rfl)
  show Finset.fold max (Ideal.ofBits .f32 0xFF800000#32) (fun s : Fin 128 => y (hR.lift (ix2 b t) s)) Finset.univ = _
  rw [Spec.ofBits_neg_inf]
  simp only [hl]

/-- The row maximum. -/
theorem smax_eq (b : Fin 64) (t : Fin 51) :
    val_main_v49 (F := Ideal) x0 x2 x3 x4 x6 x7 (ix2 b t) = Spec.smax (embX x0 x3) (by1536x256 x4) (by1536 x6) (by1536 x7) (by64x128x512 x2) b t := by
  rw [val_main_v49_apply, val_main_v48_apply, val_main_cst_7_apply, v47_apply]
  simp only [scores_eq, Ideal.ofBits_def, Spec.ofBits_neg_inf]
  exact Spec.max_bot_fold Finset.univ (fun s => Spec.scores (embX x0 x3) (by1536x256 x4) (by1536 x6) (by1536 x7) (by64x128x512 x2) b t s)

/-- The shifted exponentials. -/
theorem sexp_eq (b : Fin 64) (t : Fin 51) (s : Fin 128) :
    val_main_v53 (F := Ideal) x0 x2 x3 x4 x6 x7 (ix3 b t s) = Spec.sexp (embX x0 x3) (by1536x256 x4) (by1536 x6) (by1536 x7) (by64x128x512 x2) b t s := by
  rw [val_main_v53_apply, val_main_v52_apply, val_main_v51_apply, val_main_v50_apply, scores_eq]
  have e : idx_main_v50 (idx_main_v51 (ix3 b t s)) = ix2 b t := funext fun a => Fin.ext (by
    match a with
    | ⟨0, _⟩ => rfl
    | ⟨1, _⟩ => rfl)
  rw [e, smax_eq]
  rfl

/-- The attention weights. -/
theorem attn_eq (b : Fin 64) (t : Fin 51) (s : Fin 128) :
    val_main_v57 (F := Ideal) x0 x2 x3 x4 x6 x7 (ix3 b t s) = Spec.attn (embX x0 x3) (by1536x256 x4) (by1536 x6) (by1536 x7) (by64x128x512 x2) b t s := by
  rw [val_main_v57_apply, val_main_v56_apply, val_main_v55_apply]
  have e : idx_main_v55 (idx_main_v56 (ix3 b t s)) = ix2 b t := funext fun a => Fin.ext (by
    match a with
    | ⟨0, _⟩ => rfl
    | ⟨1, _⟩ => rfl)
  rw [e, val_main_v54_apply, val_main_cst_8_apply]
  have ek : ∀ k : Fin 128, idx_main_v54 (ix2 b t) k = ix3 b t k := fun k => funext fun a => Fin.ext (by
    match a with
    | ⟨0, _⟩ => rfl
    | ⟨1, _⟩ => rfl
    | ⟨2, _⟩ => rfl)
  simp only [ek, sexp_eq, Ideal.ofBits_def, Ideal.ofBits_zero_f32, zero_add]
  rfl

/-- The context. -/
theorem ctx_eq (b : Fin 64) (t : Fin 51) (j : Fin 512) :
    val_main_v58 (F := Ideal) x0 x2 x3 x4 x6 x7 (ix3 b t j) = Spec.ctx (embX x0 x3) (by1536x256 x4) (by1536 x6) (by1536 x7) (by64x128x512 x2) b t j := by
  rw [val_main_v58_apply]
  have el : ∀ k : Fin 128, lidx_main_v58 (ix3 b t j) k = ix3 b t k := fun k => funext fun a => Fin.ext (by
    match a with
    | ⟨0, _⟩ => rfl
    | ⟨1, _⟩ => rfl
    | ⟨2, _⟩ => rfl)
  have er : ∀ k : Fin 128, ridx_main_v58 (ix3 b t j) k = ix3 b k j := fun k => funext fun a => Fin.ext (by
    match a with
    | ⟨0, _⟩ => rfl
    | ⟨1, _⟩ => rfl
    | ⟨2, _⟩ => rfl)
  simp only [el, er, attn_eq]
  rfl

end Cert.ReferenceIdeal.RefValue

end
-- ==== Proof.RefValue3.lean ====
/-
  The reference's output layers are the specification's. Read at an index: the pair (hidden state, context) is the
  concatenation along the last axis, so a column below 512 reads the hidden state and a column from 512 on reads the
  context 512 columns earlier; then `tanh` of the contraction with the output weights, the contraction with the class
  weights plus the class bias, and the log-softmax helper: the row maximum (the host's max-reduce over the 32000 classes
  from `-inf`, joined once more with `-inf`), the shifted scores, and the shifted score less the logarithm of the sum of
  the shifted exponentials over the row (the sum started from the zero word).
-/
import proofs.«150782_j29695403885316_1_alg».proof.Proof.RefValue2

noncomputable section

open scoped BigOperators

namespace Cert.ReferenceIdeal.RefValue

open Cert.ReferenceIdeal Cert.ReferenceIdeal.Gen Idealize.ShloMosaic Idealize.ShloMosaic.ValueIdx

variable (x0 : (⟨S64x51, .i32⟩ : BufTy).Contents (Elt Ideal)) (x3 : (⟨S32000x256, .f32⟩ : BufTy).Contents (Elt Ideal))
  (x2 : (⟨S64x128x512, .f32⟩ : BufTy).Contents (Elt Ideal))
  (x4 : (⟨S1536x256, .f32⟩ : BufTy).Contents (Elt Ideal)) (x6 x7 : (⟨S1536, .f32⟩ : BufTy).Contents (Elt Ideal))
  (x8 : (⟨S512x1024, .f32⟩ : BufTy).Contents (Elt Ideal)) (x9 : (⟨S32000x512, .f32⟩ : BufTy).Contents (Elt Ideal))
  (x10 : (⟨S32000, .f32⟩ : BufTy).Contents (Elt Ideal))

/-- The pair (hidden state, context) side by side. -/
theorem cat_eq (b : Fin 64) (t : Fin 51) (k : Fin 1024) :
    val_main_v59 (F := Ideal) x0 x2 x3 x4 x6 x7 (ix3 b t k) = Spec.cat (embX x0 x3) (by1536x256 x4) (by1536 x6) (by1536 x7) (by64x128x512 x2) b t k := by
  unfold val_main_v59
  by_cases hk : k.val < 512
  · refine (concatenate_pair_apply_left 2 _ _ concatenates_S64x51x512_S64x51x512_S64x51x1024_d2 (ix3 b t k) rfl
      (ix3 b t (⟨k.val, hk⟩ : Fin 512)) (fun a => by
        match a with
        | ⟨0, _⟩ => rfl
        | ⟨1, _⟩ => rfl
        | ⟨2, _⟩ => rfl)).trans ?_
    rw [h_eq]
    unfold Spec.cat
    rw [dif_pos hk]
  · have hk' : k.val - 512 < 512 := by have := k.isLt; omega
    refine (concatenate_pair_apply_right 2 _ _ concatenates_S64x51x512_S64x51x512_S64x51x1024_d2 (ix3 b t k) rfl rfl
      (ix3 b t (⟨k.val - 512, hk'⟩ : Fin 512)) (fun a ha => by
        match a with
        | ⟨0, _⟩ => rfl
        | ⟨1, _⟩ => rfl
        | ⟨2, _⟩ => exact absurd rfl ha) (by show k.val - 512 + 512 = k.val; omega)).trans ?_
    rw [ctx_eq]
    unfold Spec.cat
    rw [dif_neg hk]

/-- The attention output. -/
theorem o_eq (b : Fin 64) (t : Fin 51) (j : Fin 512) :
    val_main_v61 (F := Ideal) x0 x2 x3 x4 x6 x7 x8 (ix3 b t j) = Spec.o (embX x0 x3) (by1536x256 x4) (by1536 x6) (by1536 x7) (by64x128x512 x2) (by512x1024 x8) b t j := by
  rw [val_main_v61_apply, val_main_v60_apply]
  have el : ∀ k : Fin 1024, lidx_main_v60 (ix3 b t j) k = ix3 b t k := fun k => funext fun a => Fin.ext (by
    match a with
    | ⟨0, _⟩ => rfl
    | ⟨1, _⟩ => rfl
    | ⟨2, _⟩ => rfl)
  have er : ∀ k : Fin 1024, ridx_main_v60 (ix3 b t j) k = ix2 j k := fun k => funext fun a => Fin.ext (by
    match a with
    | ⟨0, _⟩ => rfl
    | ⟨1, _⟩ => rfl)
  simp only [el, er, cat_eq]
  rfl

/-- The class scores. -/
theorem logits_eq (b : Fin 64) (t : Fin 51) (v : Fin 32000) :
    val_main_v65 (F := Ideal) x0 x2 x3 x4 x6 x7 x8 x9 x10 (ix3 b t v) = Spec.logits (embX x0 x3) (by1536x256 x4) (by1536 x6) (by1536 x7) (by64x128x512 x2) (by512x1024 x8) (by32000x512 x9) (by32000 x10) b t v := by
  rw [val_main_v65_apply, val_main_v62_apply, val_main_v64_apply, val_main_v63_apply]
  have el : ∀ k : Fin 512, lidx_main_v62 (ix3 b t v) k = ix3 b t k := fun k => funext fun a => Fin.ext (by
    match a with
    | ⟨0, _⟩ => rfl
    | ⟨1, _⟩ => rfl
    | ⟨2, _⟩ => rfl)
  have er : ∀ k : Fin 512, ridx_main_v62 (ix3 b t v) k = ix2 v k := fun k => funext fun a => Fin.ext (by
    match a with
    | ⟨0, _⟩ => rfl
    | ⟨1, _⟩ => rfl)
  have eb : idx_main_v63 (idx_main_v64 (ix3 b t v)) = ix1 v := funext fun a => Fin.ext (by
    match a with
    | ⟨0, _⟩ => rfl)
  simp only [el, er, eb, o_eq]
  rfl

/-- The host's max-reduce over the classes, at a row: the fold of `max` from `⊥` over the row's class scores. -/
theorem call0_v0_apply (b : Fin 64) (t : Fin 51) :
    val_main_call0_v0 (F := Ideal) x0 x2 x3 x4 x6 x7 x8 x9 x10 (ix2 b t)
      = (Finset.univ : Finset (Fin 32000)).fold max ⊥ (fun v => val_main_v65 (F := Ideal) x0 x2 x3 x4 x6 x7 x8 x9 x10 (ix3 b t v)) := by
  unfold val_main_call0_v0
  generalize val_main_v65 (F := Ideal) x0 x2 x3 x4 x6 x7 x8 x9 x10 = y
  have hR : S64x51x32000.Reduces [2] S64x51 := by decide
  have e := Host.reduce_eq_fold_single (a := (2 : Fin S64x51x32000.rank)) (u := S_) (FloatOps.maximumf (F := Ideal) (φ := .f32)) y
    (val_main_call0_cst (F := Ideal)) reducesTo_S64x51x32000_S64x51_d2 hR h_S_ (ix2 b t)
  refine e.trans ?_
  have hl : ∀ v : Fin 32000, hR.lift (ix2 b t) v = ix3 b t v := fun v => funext fun a => Fin.ext (by
    match a with
    | ⟨0, _⟩ => rfl
    | ⟨1, _⟩ => rfl
    | ⟨2, _⟩ => rfl)
  show Finset.fold max (Ideal.ofBits .f32 0xFF800000#32) (fun v : Fin 32000 => y (hR.lift (ix2 b t) v)) Finset.univ = _
  rw [Spec.ofBits_neg_inf]
  simp only [hl]

/-- The row maximum of the class scores. -/
theorem lmax_eq (b : Fin 64) (t : Fin 51) :
    val_main_call0_v2 (F := Ideal) x0 x2 x3 x4 x6 x7 x8 x9 x10 (ix2 b t) = Spec.lmax (embX x0 x3) (by1536x256 x4) (by1536 x6) (by1536 x7) (by64x128x512 x2) (by512x1024 x8) (by32000x512 x9) (by32000 x10) b t := by
  rw [val_main_call0_v2_apply, val_main_call0_v1_apply, val_main_call0_cst_0_apply, call0_v0_apply]
  simp only [logits_eq, Ideal.ofBits_def, Spec.ofBits_neg_inf]
  exact Spec.max_bot_fold Finset.univ (fun v => Spec.logits (embX x0 x3) (by1536x256 x4) (by1536 x6) (by1536 x7) (by64x128x512 x2) (by512x1024 x8) (by32000x512 x9) (by32000 x10) b t v)

/-- The shifted class scores. -/
theorem shifted_eq (b : Fin 64) (t : Fin 51) (v : Fin 32000) :
    val_main_call0_v5 (F := Ideal) x0 x2 x3 x4 x6 x7 x8 x9 x10 (ix3 b t v) = Spec.shifted (embX x0 x3) (by1536x256 x4) (by1536 x6) (by1536 x7) (by64x128x512 x2) (by512x1024 x8) (by32000x512 x9) (by32000 x10) b t v := by
  rw [val_main_call0_v5_apply, val_main_call0_v4_apply, val_main_call0_v3_apply, logits_eq]
  have e : idx_main_call0_v3 (idx_main_call0_v4 (ix3 b t v)) = ix2 b t := funext fun a => Fin.ext (by
    match a with
    | ⟨0, _⟩ => rfl
    | ⟨1, _⟩ => rfl)
  rw [e, lmax_eq]
  rfl

/-- The first result at an index: the logarithm of the softmax. -/
theorem out_apply (b : Fin 64) (t : Fin 51) (v : Fin 32000) :
    val_main_v66 (F := Ideal) x0 x2 x3 x4 x6 x7 x8 x9 x10 (ix3 b t v) = Spec.out (embX x0 x3) (by1536x256 x4) (by1536 x6) (by1536 x7) (by64x128x512 x2) (by512x1024 x8) (by32000x512 x9) (by32000 x10) b t v := by
  rw [val_main_v66_apply, val_main_call0_v10_apply, val_main_call0_v9_apply, val_main_call0_v8_apply, shifted_eq]
  have e : idx_main_call0_v8 (idx_main_call0_v10 (ix3 b t v)) = ix2 b t := funext fun a => Fin.ext (by
    match a with
    | ⟨0, _⟩ => rfl
    | ⟨1, _⟩ => rfl)
  rw [e, val_main_call0_v7_apply, val_main_call0_cst_1_apply]
  have ek : ∀ k : Fin 32000, idx_main_call0_v7 (ix2 b t) k = ix3 b t k := fun k => funext fun a => Fin.ext (by
    match a with
    | ⟨0, _⟩ => rfl
    | ⟨1, _⟩ => rfl
    | ⟨2, _⟩ => rfl)
  simp only [ek, val_main_call0_v6_apply, shifted_eq, Ideal.ofBits_def, Ideal.ofBits_zero_f32, zero_add,
    Ideal.hostUnary_exp_def, Ideal.hostUnary_log_def, Ideal.subf_def]
  unfold Spec.out
  rfl

/-- The first result, as an array. -/
theorem v66_eq :
    val_main_v66 (F := Ideal) x0 x2 x3 x4 x6 x7 x8 x9 x10
      = fun i => Spec.out (embX x0 x3) (by1536x256 x4) (by1536 x6) (by1536 x7) (by64x128x512 x2) (by512x1024 x8) (by32000x512 x9) (by32000 x10) (i 0) (i 1) (i 2) := by
  funext i
  obtain ⟨b, t, v, rfl⟩ : ∃ (b : Fin 64) (t : Fin 51) (v : Fin 32000), i = ix3 b t v := ⟨i 0, i 1, i 2, eq_ix3 i⟩
  exact out_apply x0 x3 x2 x4 x6 x7 x8 x9 x10 b t v

end Cert.ReferenceIdeal.RefValue

end
-- ==== Proof.lean ====
/-
  A decoder step — a GRU cell from the zero state, attention over the encoder positions, a tanh layer, a projection
  onto 32000 classes and the logarithm of the softmax — computed by three pipelined kernels (the decode kernel per batch
  row; a kernel that streams the 25 class tiles of each block of rows keeping a running maximum and a rescaled running
  sum, whose last tile stores maximum + log sum; a kernel that subtracts that from each class score) against the
  plain array program. Over the extended reals the two agree: every stage is the same function of the inputs, and
  the streamed log-sum-exp is the direct one because the class scores are real (tanh is real everywhere and the
  projection's weights and biases are finite), so that rescaling a sum of exponentials is exact.
  Each program's frame: it runs through its segments and no segment writes an argument array.
-/
import proofs.«150782_j29695403885316_1_alg».proof.Defs
import proofs.«150782_j29695403885316_1_alg».proof.Proof.Gen.Kernel
import proofs.«150782_j29695403885316_1_alg».proof.Proof.Gen.KernelIdeal
import proofs.«150782_j29695403885316_1_alg».proof.Proof.Gen.ReferenceIdeal
import proofs.«150782_j29695403885316_1_alg».proof.Proof.Gen.Pre_finite_inputs
import proofs.«150782_j29695403885316_1_alg».proof.Proof.KRun
import proofs.«150782_j29695403885316_1_alg».proof.Proof.KIFinal
import proofs.«150782_j29695403885316_1_alg».proof.Proof.RefRunB
import proofs.«150782_j29695403885316_1_alg».proof.Proof.RefValue3
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched. -/
theorem frame_k : @Cert.frame_Kernel Cert.Kernel.Gen.facts Cert.Pre_finite_inputs.Gen.facts :=
  fun m ρ _ => Cert.Kernel.Hand.frame (F := Bits) m ρ

/-- So does its idealization. -/
theorem frame_ki : @Cert.frame_KernelIdeal Cert.KernelIdeal.Gen.facts Cert.Pre_finite_inputs.Gen.facts :=
  fun m ρ _ => Cert.KernelIdeal.Hand.frame (F := Ideal) m ρ

/-- And the plain array program: its run with the two results dropped. -/
theorem frame_ri : @Cert.frame_ReferenceIdeal Cert.ReferenceIdeal.Gen.facts Cert.Pre_finite_inputs.Gen.facts :=
  fun m ρ _ => (θ_run (Cert.ReferenceIdeal.defs (F := Ideal)) _ _).mono (fun _ h c => (h c).2.2)
    (Cert.ReferenceIdeal.RefValue.ref_run (F := Ideal) m ρ)

/-- The plain array program's first result at arguments that agree with the kernel's is the kernel's first result:
    both are the specification's log-softmax of the class scores, over the same table look-up. -/
theorem out_agree (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hpre : @Cert.Pre_KernelIdeal Cert.Pre_finite_inputs.Gen.facts m) :
    Cert.ReferenceIdeal.RefValue.val_main_v66 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
      = Cert.KernelIdeal.Hand.W6 (F := Ideal) m ρ c Cert.KernelIdeal.main_v22 := by
  rw [Cert.ReferenceIdeal.RefValue.v66_eq]
  refine Eq.trans ?_ (Cert.KernelIdeal.Hand.kernel_out (hP := Cert.Pre_finite_inputs.Gen.facts) m ρ c hpre).symm
  rw [Cert.KernelIdeal.Hand.aX_eq m ρ c]
  rfl

/-- The same for the hidden state handed on. -/
theorem hidden_agree (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.ReferenceIdeal.RefValue.val_main_v69 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
      = Cert.KernelIdeal.Hand.W6 (F := Ideal) m ρ c Cert.KernelIdeal.main_v15 := by
  rw [Cert.ReferenceIdeal.RefValue.v69_eq]
  refine Eq.trans ?_ (Cert.KernelIdeal.Hand.kernel_hidden m ρ c).symm
  rw [Cert.KernelIdeal.Hand.aX_eq m ρ c]
  rfl

/-- Both idealized programs run, from memories agreeing on the arguments, to equal results. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Hand.W6 (F := Ideal) m ρ c Cert.KernelIdeal.main_v22,
    fun c => Cert.KernelIdeal.Hand.W6 (F := Ideal) m ρ c Cert.KernelIdeal.main_v15, ?_, ?_⟩
  · exact (θ_run (Cert.KernelIdeal.defs (F := Ideal)) _ _).mono (fun r h c =>
      ⟨h c _ (Cert.KernelIdeal.Hand.mem_uc Cert.KernelIdeal.main_v22 (by decide)),
        h c _ (Cert.KernelIdeal.Hand.mem_uc Cert.KernelIdeal.main_v15 (by decide)),
        (h c _ (Cert.KernelIdeal.Hand.mem_uc Cert.KernelIdeal.main_arg0 (by decide))).trans (Cert.KernelIdeal.Hand.W6_main_arg0 (F := Ideal) m ρ c),
        (h c _ (Cert.KernelIdeal.Hand.mem_uc Cert.KernelIdeal.main_arg1 (by decide))).trans (Cert.KernelIdeal.Hand.W6_main_arg1 (F := Ideal) m ρ c),
        (h c _ (Cert.KernelIdeal.Hand.mem_uc Cert.KernelIdeal.main_arg2 (by decide))).trans (Cert.KernelIdeal.Hand.W6_main_arg2 (F := Ideal) m ρ c),
        (h c _ (Cert.KernelIdeal.Hand.mem_uc Cert.KernelIdeal.main_arg3 (by decide))).trans (Cert.KernelIdeal.Hand.W6_main_arg3 (F := Ideal) m ρ c),
        (h c _ (Cert.KernelIdeal.Hand.mem_uc Cert.KernelIdeal.main_arg4 (by decide))).trans (Cert.KernelIdeal.Hand.W6_main_arg4 (F := Ideal) m ρ c),
        (h c _ (Cert.KernelIdeal.Hand.mem_uc Cert.KernelIdeal.main_arg5 (by decide))).trans (Cert.KernelIdeal.Hand.W6_main_arg5 (F := Ideal) m ρ c),
        (h c _ (Cert.KernelIdeal.Hand.mem_uc Cert.KernelIdeal.main_arg6 (by decide))).trans (Cert.KernelIdeal.Hand.W6_main_arg6 (F := Ideal) m ρ c),
        (h c _ (Cert.KernelIdeal.Hand.mem_uc Cert.KernelIdeal.main_arg7 (by decide))).trans (Cert.KernelIdeal.Hand.W6_main_arg7 (F := Ideal) m ρ c),
        (h c _ (Cert.KernelIdeal.Hand.mem_uc Cert.KernelIdeal.main_arg8 (by decide))).trans (Cert.KernelIdeal.Hand.W6_main_arg8 (F := Ideal) m ρ c),
        (h c _ (Cert.KernelIdeal.Hand.mem_uc Cert.KernelIdeal.main_arg9 (by decide))).trans (Cert.KernelIdeal.Hand.W6_main_arg9 (F := Ideal) m ρ c),
        (h c _ (Cert.KernelIdeal.Hand.mem_uc Cert.KernelIdeal.main_arg10 (by decide))).trans (Cert.KernelIdeal.Hand.W6_main_arg10 (F := Ideal) m ρ c)⟩)
      (Cert.KernelIdeal.Hand.run_all (F := Ideal) m ρ)
  · refine (θ_run (Cert.ReferenceIdeal.defs (F := Ideal)) _ _).mono (fun r h c => ⟨(h c).1.trans ?_, (h c).2.1.trans ?_, (h c).2.2⟩)
      (Cert.ReferenceIdeal.RefValue.ref_run (F := Ideal) m' ρ')
    · obtain ⟨h0, h1, h2, h3, h4, h5, h6, h7, h8, h9, h10⟩ := hagree c
      unfold Cert.ReferenceIdeal.RefValue.refOut
      rw [h0, h2, h3, h4, h6, h7, h8, h9, h10]
      exact out_agree m ρ c hpre
    · obtain ⟨h0, h1, h2, h3, h4, h5, h6, h7, h8, h9, h10⟩ := hagree c
      unfold Cert.ReferenceIdeal.RefValue.refHidden
      rw [h0, h3, h4, h6, h7]
      exact hidden_agree m ρ c

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
